-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x40 .f32) (main_arg8 : FVec F S40 .f32) (main_arg9 : FVec F S128 .f32) (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x40 .f32) (main_arg8 : FVec F S40 .f32) (main_arg9 : FVec F S128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩
abbrev S4000 : Shape := ⟨1, ![4000]⟩

abbrev nBuf : Space → Nat
  | .hbm => 124
  | .vmem => 62
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S1x128, .f32⟩
  | .hbm, ⟨41, _⟩ => ⟨S100000x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S1x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S100000x1, .f32⟩
  | .hbm, ⟨106, _⟩ => ⟨S100000x40, .f32⟩
  | .hbm, ⟨107, _⟩ => ⟨S100000x40, .f32⟩
  | .hbm, ⟨108, _⟩ => ⟨S_, .i32⟩
  | .hbm, ⟨109, _⟩ => ⟨S1600000, .i32⟩
  | .hbm, ⟨110, _⟩ => ⟨S1600000, .i1⟩
  | .hbm, ⟨111, _⟩ => ⟨S_, .i32⟩
  | .hbm, ⟨112, _⟩ => ⟨S1600000, .i32⟩
  | .hbm, ⟨113, _⟩ => ⟨S1600000, .i32⟩
  | .hbm, ⟨114, _⟩ => ⟨S1600000, .i32⟩
  | .hbm, ⟨115, _⟩ => ⟨S1600000x1, .i32⟩
  | .hbm, ⟨116, _⟩ => ⟨S1600000x40, .f32⟩
  | .hbm, ⟨117, _⟩ => ⟨S_, .f32⟩
  | .hbm, ⟨118, _⟩ => ⟨S100000x40, .f32⟩
  | .hbm, ⟨119, _⟩ => ⟨S1600000x1, .i32⟩
  | .hbm, ⟨120, _⟩ => ⟨S100000x40, .f32⟩
  | .hbm, ⟨121, _⟩ => ⟨S100000x1, .f32⟩
  | .hbm, ⟨122, _⟩ => ⟨S1x40, .f32⟩
  | .hbm, ⟨123, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S4000x1, .f32⟩
  | .local _ .vmem, ⟨26, _⟩ => ⟨S4000x1, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x1, .f32⟩
  | .local _ .vmem, ⟨36, _⟩ => ⟨S4000x1, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x40, .f32⟩
  | .local _ .vmem, ⟨47, _⟩ => ⟨S4000x1, .f32⟩
  | .local _ .vmem, ⟨48, _⟩ => ⟨S4000x1, .f32⟩
  | .local _ .vmem, ⟨49, _⟩ => ⟨S4000x40, .f32⟩
  | .local _ .vmem, ⟨50, _⟩ => ⟨S4000x40, .f32⟩
  | .local _ .vmem, ⟨51, _⟩ => ⟨S4000x40, .f32⟩
  | .local _ .vmem, ⟨52, _⟩ => ⟨S4000x40, .f32⟩
  | .local _ .vmem, ⟨53, _⟩ => ⟨S4000x40, .f32⟩
  | .local _ .vmem, ⟨54, _⟩ => ⟨S4000x40, .f32⟩
  | .local _ .vmem, ⟨55, _⟩ => ⟨S4000x40, .f32⟩
  | .local _ .vmem, ⟨56, _⟩ => ⟨S4000x40, .f32⟩
  | .local _ .vmem, ⟨57, _⟩ => ⟨S4000x1, .f32⟩
  | .local _ .vmem, ⟨58, _⟩ => ⟨S4000x1, .f32⟩
  | .local _ .vmem, ⟨59, _⟩ => ⟨S1x40, .f32⟩
  | .local _ .vmem, ⟨60, _⟩ => ⟨S4000x40, .f32⟩
  | .local _ .vmem, ⟨61, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40_0 : Ref sig .tc := ⟨.hbm, 65, rfl⟩
abbrev main_v40_1 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_cst_15 : Ref sig .tc := ⟨.hbm, 94, rfl⟩
abbrev main_v62 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72_0 : Ref sig .tc := ⟨.hbm, 106, rfl⟩
abbrev main_v72_1 : Ref sig .tc := ⟨.hbm, 107, rfl⟩
abbrev main_c_17 : Ref sig .tc := ⟨.hbm, 108, rfl⟩
abbrev main_v73 : Ref sig .tc := ⟨.hbm, 109, rfl⟩
abbrev main_v74 : Ref sig .tc := ⟨.hbm, 110, rfl⟩
abbrev main_c_18 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_19 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc4_stg7_0 : Ref sig .tc := ⟨.vmem, 49, rfl⟩
abbrev cc4_stg7_1 : Ref sig .tc := ⟨.vmem, 50, rfl⟩
abbrev cc4_stg8_0 : Ref sig .tc := ⟨.vmem, 51, rfl⟩
abbrev cc4_stg8_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg4_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc2_sem8_0 : DmaSem sig := 29
abbrev cc2_sem8_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc4_sem7_0 : DmaSem sig := 49
abbrev cc4_sem7_1 : DmaSem sig := 50
abbrev cc4_sem8_0 : DmaSem sig := 51
abbrev cc4_sem8_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem4_0 : DmaSem sig := 60
abbrev cc5_sem4_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S4000x40 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S4000x40 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x40 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x40 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x40 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  broadcasts_S4000x1_S4000x40 : S4000x1.Broadcasts S4000x40
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S100000x1.size a
  hwx2_6 : ∀ i : grid2.Coords, EltTy.bits .f32 = 32 ∨ (Rect.block (s := S100000x1) S4000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .f32 = 32 ∨ (Rect.block (s := S100000x128) S4000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S100000x128.size a
  hwx2_8 : ∀ i : grid2.Coords, EltTy.bits .f32 = 32 ∨ (Rect.block (s := S100000x128) S4000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x40.size a ≤ S128x40.size a
  hwx4_5 : ∀ i : grid4.Coords, EltTy.bits .f32 = 32 ∨ (Rect.block (s := S128x40) S128x40.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x1.size a ≤ S100000x1.size a
  hwx4_6 : ∀ i : grid4.Coords, EltTy.bits .f32 = 32 ∨ (Rect.block (s := S100000x1) S4000x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x40.size a ≤ S100000x40.size a
  hwx4_7 : ∀ i : grid4.Coords, EltTy.bits .f32 = 32 ∨ (Rect.block (s := S100000x40) S4000x40.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S4000x40.size a ≤ S100000x40.size a
  hwx4_8 : ∀ i : grid4.Coords, EltTy.bits .f32 = 32 ∨ (Rect.block (s := S100000x40) S4000x40.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x40.size a ≤ S100000x40.size a
  hwx5_0 : ∀ i : grid5.Coords, EltTy.bits .f32 = 32 ∨ (Rect.block (s := S100000x40) S4000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x40.size a ≤ S100000x40.size a
  hwx5_1 : ∀ i : grid5.Coords, EltTy.bits .f32 = 32 ∨ (Rect.block (s := S100000x40) S4000x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x40.size a ≤ S1x40.size a
  hwx5_3 : ∀ i : grid5.Coords, EltTy.bits .f32 = 32 ∨ (Rect.block (s := S1x40) S1x40.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x40.size a ≤ S100000x40.size a
  hwx5_4 : ∀ i : grid5.Coords, EltTy.bits .f32 = 32 ∨ (Rect.block (s := S100000x40) S4000x40.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S4000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v40_0) S4000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v40_1) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v40_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v53) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg7) S128x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S4000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v72_0) S4000x40.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v72_1) S4000x40.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v72_0) S4000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S4000x40.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v83) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x40.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S4000x40.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 196
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S128, .f32⟩
  | 10 => ⟨S128, .f32⟩
  | 11 => ⟨S128, .f32⟩
  | 12 => ⟨S128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S100000, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S100000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S128, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S1600000x1, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000x1, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x40, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x40, .f32⟩
  | 39 => ⟨S1600000x1, .f32⟩
  | 40 => ⟨S1600000x40, .f32⟩
  | 41 => ⟨S1600000x40, .f32⟩
  | 42 => ⟨S_, .f32⟩
  | 43 => ⟨S100000x40, .f32⟩
  | 44 => ⟨S1600000x1, .i32⟩
  | 45 => ⟨S100000x40, .f32⟩
  | 46 => ⟨S100000x1, .f32⟩
  | 47 => ⟨S100000x40, .f32⟩
  | 48 => ⟨S100000x40, .f32⟩
  | 49 => ⟨S100000x40, .f32⟩
  | 50 => ⟨S1x40, .f32⟩
  | 51 => ⟨S100000x40, .f32⟩
  | 52 => ⟨S100000x40, .f32⟩
  | 53 => ⟨S_, .f32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x40, .f32⟩
  | 60 => ⟨S100000x40, .f32⟩
  | 61 => ⟨S100000x40, .f32⟩
  | 62 => ⟨S_, .f32⟩
  | 63 => ⟨S100000, .f32⟩
  | 64 => ⟨S100000x1, .f32⟩
  | 65 => ⟨S100000x1, .f32⟩
  | 66 => ⟨S100000x40, .f32⟩
  | 67 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call0_cst : Ref sig .tc := ⟨.hbm, 97, rfl⟩
abbrev main_call0_v0 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_16 : Ref sig .tc := ⟨.hbm, 124, rfl⟩
abbrev main_v91 : Ref sig .tc := ⟨.hbm, 125, rfl⟩
abbrev main_cst_17 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_cst_19 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_20 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_call1_cst : Ref sig .tc := ⟨.hbm, 154, rfl⟩
abbrev main_call1_v0 : Ref sig .tc := ⟨.hbm, 155, rfl⟩
abbrev main_v116 : Ref sig .tc := ⟨.hbm, 156, rfl⟩
abbrev main_v117 : Ref sig .tc := ⟨.hbm, 157, rfl⟩
abbrev main_c_21 : Ref sig .tc := ⟨.hbm, 158, rfl⟩
abbrev main_v118 : Ref sig .tc := ⟨.hbm, 159, rfl⟩
abbrev main_v119 : Ref sig .tc := ⟨.hbm, 160, rfl⟩
abbrev main_c_22 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_23 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_call2_cst : Ref sig .tc := ⟨.hbm, 181, rfl⟩
abbrev main_call2_v0 : Ref sig .tc := ⟨.hbm, 182, rfl⟩
abbrev main_call2_cst_0 : Ref sig .tc := ⟨.hbm, 183, rfl⟩
abbrev main_call2_v1 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_call2_v5 : Ref sig .tc := ⟨.hbm, 188, rfl⟩
abbrev main_call2_v6 : Ref sig .tc := ⟨.hbm, 189, rfl⟩
abbrev main_call2_cst_1 : Ref sig .tc := ⟨.hbm, 190, rfl⟩
abbrev main_call2_v7 : Ref sig .tc := ⟨.hbm, 191, rfl⟩
abbrev main_call2_v8 : Ref sig .tc := ⟨.hbm, 192, rfl⟩
abbrev main_call2_v9 : Ref sig .tc := ⟨.hbm, 193, rfl⟩
abbrev main_call2_v10 : Ref sig .tc := ⟨.hbm, 194, rfl⟩
abbrev main_v138 : Ref sig .tc := ⟨.hbm, 195, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KRun.lean ====
import proofs.«139699_j335007449371_2_alg».proof.Proof.Gen.KernelIdeal.Frame

/-!
  The kernel program's run, with its result named.

  @main is six kernel regions among stretches of host operations. Every weakly fair execution terminates without a
  fault, and in the final memory the result buffer holds what the fold through @main leaves there: the contents after
  the last region, itself a function of the contents at that region's entry, and so on back to the launch memory.
  The argument arrays end as launched.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and every argument array as launched. -/
theorem run : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v85 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KRun

end
-- ==== Proof.GcnSpec.lean ====
import Idealize.ShloMosaic.PureOps.Ideal
import Idealize.ShloMosaic.Lib.ValueIdx

/-!
  A three-layer graph convolution network, as one function of its arguments on the extended reals.

  Nodes `r : Fin NN`, directed edges `e : Fin NE` from `src e` to `dst e`. With `deg r = 1 + #{e | dst e = r}` and
  `dis r = deg r ^ (-1/2)`, one convolution of node features `h` is
    `out r = Σ_{e : dst e = r} h (src e) · dis (src e) · dis (dst e) + h r · dis r ² + b`.
  Two spellings of the edge sum are stated: the factor `dis (dst e)` inside the sum (`convIn`), or, since every edge of
  the sum has `dst e = r`, taken out of it as `dis r` (`convOut`). They agree because `dis r` is a nonnegative real
  number, and multiplying by such a number distributes over any sum of extended reals.
  Between convolutions: a feature-wise normalisation by the mean and (biased) variance over all nodes, an affine map,
  and a rectifier; after the last one a row-wise log-softmax.
-/

open scoped BigOperators
open Idealize.ShloMosaic

noncomputable section

namespace Gcn

abbrev NN : Nat := 100000
abbrev NE : Nat := 1600000

/-- The float constants of both programs, as their f32 words read at the ideal instance. -/
abbrev zero : EReal := Ideal.ofBits .f32 0x00000000#32
abbrev one : EReal := Ideal.ofBits .f32 0x3F800000#32
abbrev nnodes : EReal := Ideal.ofBits .f32 0x47C35000#32
abbrev eps : EReal := Ideal.ofBits .f32 0x3727C5AC#32
abbrev ninf : EReal := Ideal.ofBits .f32 0xFF800000#32

/-- A row number read off an index word: signed, clamped into `[0, NN - 1]`. -/
def rowOf (v : BitVec 32) : Fin NN := ⟨min v.toInt.toNat (NN - 1), (Nat.min_le_right _ _).trans_lt (by norm_num [NN])⟩

/-- A negative index word counts from the end (the i32 operations both programs spell before a row gather). -/
def wrapIdx (v : BitVec 32) : BitVec 32 := Scalar.select (IntOp.cmpi .slt v 0#32) (IntOp.addi v 100000#32) v

/-- The edges whose destination word, read signed, is the node `r`. -/
def lands (dst : Fin NE → BitVec 32) (r : Fin NN) : Finset (Fin NE) :=
  Finset.univ.filter fun e => (dst e).toInt = (r.val : Int)

/-- `deg r ^ (-1/2)`, the degree counting a self loop. -/
def dis (dst : Fin NE → BitVec 32) (r : Fin NN) : EReal :=
  Ideal.rsqrt (one + (zero + ∑ _e ∈ lands dst r, one))

/-- A matrix product, row `r`, column `c`. -/
def mm {K J : Nat} (a : Fin NN → Fin K → EReal) (w : Fin K → Fin J → EReal) (r : Fin NN) (c : Fin J) : EReal :=
  ∑ k, a r k * w k c

/-- One convolution, the destination's factor inside the edge sum. -/
def convIn {J : Nat} (d : Fin NN → EReal) (srow drow : Fin NE → Fin NN) (S : Fin NN → Finset (Fin NE))
    (h : Fin NN → Fin J → EReal) (b : Fin J → EReal) (r : Fin NN) (c : Fin J) : EReal :=
  ((zero + ∑ e ∈ S r, h (srow e) c * (d (srow e) * d (drow e))) + h r c * (d r * d r)) + b c

/-- One convolution, the destination's factor taken out of the edge sum. -/
def convOut {J : Nat} (d : Fin NN → EReal) (srow : Fin NE → Fin NN) (S : Fin NN → Finset (Fin NE))
    (h : Fin NN → Fin J → EReal) (b : Fin J → EReal) (r : Fin NN) (c : Fin J) : EReal :=
  ((zero + ∑ e ∈ S r, h (srow e) c * d (srow e)) * d r + h r c * (d r * d r)) + b c

/-- Feature `k`'s mean over the nodes. -/
def mean {K : Nat} (p : Fin NN → Fin K → EReal) (k : Fin K) : EReal :=
  Ideal.div (zero + ∑ r, p r k) nnodes

/-- Feature `k`'s biased variance over the nodes. -/
def var {K : Nat} (p : Fin NN → Fin K → EReal) (k : Fin K) : EReal :=
  Ideal.div (zero + ∑ r, (p r k - mean p k) * (p r k - mean p k)) nnodes

/-- Normalise, scale, shift, rectify. -/
def act {K : Nat} (p : Fin NN → Fin K → EReal) (g be : Fin K → EReal) (r : Fin NN) (k : Fin K) : EReal :=
  max ((((p r k - mean p k) * Ideal.rsqrt (var p k + eps)) * g k) + be k) zero

/-- A row's maximum, folded from `-∞`. -/
def rowMax {J : Nat} (p : Fin NN → Fin J → EReal) (r : Fin NN) : EReal :=
  (Finset.univ : Finset (Fin J)).fold max ninf (fun c' => p r c')

/-- The row-wise log-softmax. -/
def lsm {J : Nat} (p : Fin NN → Fin J → EReal) (r : Fin NN) (c : Fin J) : EReal :=
  (p r c - rowMax p r) - Ideal.log (zero + ∑ c', Ideal.exp (p r c' - rowMax p r))

/-- The network, every convolution with the destination's factor inside the edge sum. -/
def netIn (d : Fin NN → EReal) (srow drow : Fin NE → Fin NN) (S : Fin NN → Finset (Fin NE))
    (x : Fin NN → Fin 128 → EReal) (W0 : Fin 128 → Fin 128 → EReal) (b0 : Fin 128 → EReal)
    (W1 : Fin 128 → Fin 128 → EReal) (b1 : Fin 128 → EReal) (W2 : Fin 128 → Fin 40 → EReal) (b2 : Fin 40 → EReal)
    (g0 be0 g1 be1 : Fin 128 → EReal) : Fin NN → Fin 40 → EReal :=
  lsm (convIn d srow drow S (mm (act (convIn d srow drow S (mm (act (convIn d srow drow S (mm x W0) b0) g0 be0) W1) b1) g1 be1) W2) b2)

/-- The network, every convolution with the destination's factor taken out of the edge sum. -/
def netOut (d : Fin NN → EReal) (srow : Fin NE → Fin NN) (S : Fin NN → Finset (Fin NE))
    (x : Fin NN → Fin 128 → EReal) (W0 : Fin 128 → Fin 128 → EReal) (b0 : Fin 128 → EReal)
    (W1 : Fin 128 → Fin 128 → EReal) (b1 : Fin 128 → EReal) (W2 : Fin 128 → Fin 40 → EReal) (b2 : Fin 40 → EReal)
    (g0 be0 g1 be1 : Fin 128 → EReal) : Fin NN → Fin 40 → EReal :=
  lsm (convOut d srow S (mm (act (convOut d srow S (mm (act (convOut d srow S (mm x W0) b0) g0 be0) W1) b1) g1 be1) W2) b2)

end Gcn

end
-- ==== Proof.KTerms.lean ====
import proofs.«139699_j335007449371_2_alg».proof.Proof.Gen.KernelIdeal.Frame
import proofs.«139699_j335007449371_2_alg».proof.Proof.GcnSpec

/-!
  The host stretches of the kernel program as named terms.

  Between its kernel regions the program computes, on the host: the inverse square roots of the node degrees; before each
  combination the aggregate `agg r = Σ_{e : dst e = r} hs (src e)` — a row gather of the scaled features at the (wrapped)
  source words, then an accumulating row scatter at the destination words into zeros — and the column and row layouts of
  the degree factors and the bias. Each is named here as the composed host term, so that the contents of a buffer
  after a stretch can be stated and then read at an index.
-/

noncomputable section

namespace Cert.KernelIdeal.KTerms

open Cert.KernelIdeal Cert.KernelIdeal.Gen Idealize.ShloMosaic Idealize.ShloMosaic.TcCoe

/-- Float and index arrays of a literal shape at the ideal instance. -/
abbrev FA (S : Shape) := (⟨S, .f32⟩ : BufTy).Contents (Elt Ideal)
abbrev IA (S : Shape) := (⟨S, .i32⟩ : BufTy).Contents (Elt Ideal)

/-- The inverse square roots of the degrees: one plus the count of edges landing at each node, then `x ↦ x^(-1/2)`. -/
def disTerm (dst : IA S1600000) : FA S100000 :=
  Host.rsqrt (F := Ideal) (φ := .f32) (addf (F := Ideal) (φ := .f32) (broadcastInDim S100000 ![] bcast_S_S100000 (constant (F := Ideal) S_ .f32 0x3F800000#32))
    (Host.scatterAdd (F := Ideal) (φ := .f32) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32))))

/-- The index words with a negative word counted from the end. -/
def wrapVec (a : IA S1600000) : IA S1600000 :=
  select (cmpi .slt a (broadcastInDim S1600000 ![] bcast_S_S1600000 (constantI S_ 32 0#32)))
    (addi a (broadcastInDim S1600000 ![] bcast_S_S1600000 (constantI S_ 32 100000#32))) a

/-- The aggregate of 128 features: gather the rows at the wrapped source words, scatter-add them at the destination words. -/
def aggTerm128 (hs : FA S100000x128) (src dst : IA S1600000) : FA S100000x128 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 hs
      (broadcastInDim S1600000x1 ![0] bcast_S1600000_S1600000x1_0 (wrapVec src)))

/-- The aggregate of 40 features. -/
def aggTerm40 (hs : FA S100000x40) (src dst : IA S1600000) : FA S100000x40 :=
  Host.scatterAdd (F := Ideal) (φ := .f32) scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (Host.gather gather_S100000x40_S1600000x1_S1600000x40_1_0_n_n_0_1_140 hs
      (broadcastInDim S1600000x1 ![0] bcast_S1600000_S1600000x1_0 (wrapVec src)))

/-- A node vector laid out as a column. -/
def colTerm (x : FA S100000) : FA S100000x1 := shapeCast S100000x1 x shapeCasts_S100000_S100000x1

/-- A feature vector laid out as a row. -/
def rowTerm128 (v : FA S128) : FA S1x128 := shapeCast S1x128 v shapeCasts_S128_S1x128
def rowTerm40 (v : FA S40) : FA S1x40 := shapeCast S1x40 v shapeCasts_S40_S1x40

end Cert.KernelIdeal.KTerms

end
-- ==== Proof.KHostA.lean ====
import proofs.«139699_j335007449371_2_alg».proof.Proof.KTerms
import Idealize.ShloMosaic.Lib.StableHlo.Run

/-!
  What the host stretches before the combination regions leave in the buffers the next region reads, from ANY
  contents `V` at the stretch's start: the degree factors and their column layout, the aggregates, the bias rows.
-/

set_option maxRecDepth 16384

noncomputable section

namespace Cert.KernelIdeal.KHostA

open Cert.KernelIdeal Cert.KernelIdeal.Gen Cert.KernelIdeal.KTerms Idealize.ShloMosaic Idealize.ShloMosaic.TcCoe Idealize.ShloMosaic.StableHlo

variable (V : Valuation τ sig (Elt Ideal))

set_option maxHeartbeats 2000000 in
theorem h0_v6 : StableHlo.after hostOps0 V (Proc.devRef .tc main_v6) = disTerm (V (Proc.devRef .tc main_arg2)) := by
  after_results
  rfl

set_option maxHeartbeats 2000000 in
theorem h0_v7 : StableHlo.after hostOps0 V (Proc.devRef .tc main_v7) = colTerm (disTerm (V (Proc.devRef .tc main_arg2))) := by
  after_results
  rfl

set_option maxHeartbeats 2000000 in
theorem h1_v18 : StableHlo.after hostOps1 V (Proc.devRef .tc main_v18)
    = aggTerm128 (V (Proc.devRef .tc main_v8_1)) (V (Proc.devRef .tc main_arg1)) (V (Proc.devRef .tc main_arg2)) := by
  after_results
  rfl

set_option maxHeartbeats 2000000 in
theorem h1_v19 : StableHlo.after hostOps1 V (Proc.devRef .tc main_v19) = colTerm (V (Proc.devRef .tc main_v6)) := by
  after_results
  rfl

set_option maxHeartbeats 2000000 in
theorem h1_v20 : StableHlo.after hostOps1 V (Proc.devRef .tc main_v20) = rowTerm128 (V (Proc.devRef .tc main_arg4)) := by
  after_results
  rfl

set_option maxHeartbeats 2000000 in
theorem h3_v50 : StableHlo.after hostOps3 V (Proc.devRef .tc main_v50)
    = aggTerm128 (V (Proc.devRef .tc main_v40_1)) (V (Proc.devRef .tc main_arg1)) (V (Proc.devRef .tc main_arg2)) := by
  after_results
  rfl

set_option maxHeartbeats 2000000 in
theorem h3_v51 : StableHlo.after hostOps3 V (Proc.devRef .tc main_v51) = colTerm (V (Proc.devRef .tc main_v6)) := by
  after_results
  rfl

set_option maxHeartbeats 2000000 in
theorem h3_v52 : StableHlo.after hostOps3 V (Proc.devRef .tc main_v52) = rowTerm128 (V (Proc.devRef .tc main_arg6)) := by
  after_results
  rfl

set_option maxHeartbeats 2000000 in
theorem h5_v82 : StableHlo.after hostOps5 V (Proc.devRef .tc main_v82)
    = aggTerm40 (V (Proc.devRef .tc main_v72_1)) (V (Proc.devRef .tc main_arg1)) (V (Proc.devRef .tc main_arg2)) := by
  after_results
  rfl

set_option maxHeartbeats 2000000 in
theorem h5_v83 : StableHlo.after hostOps5 V (Proc.devRef .tc main_v83) = colTerm (V (Proc.devRef .tc main_v6)) := by
  after_results
  rfl

set_option maxHeartbeats 2000000 in
theorem h5_v84 : StableHlo.after hostOps5 V (Proc.devRef .tc main_v84) = rowTerm40 (V (Proc.devRef .tc main_arg8)) := by
  after_results
  rfl

end Cert.KernelIdeal.KHostA

end
-- ==== Proof.LibGatherRows.lean ====
import Idealize.ShloMosaic.Lib.ValueIdx

/-!
  A ROW GATHER READ AT AN INDEX.

  A gather whose start indices are one column of row numbers — operand `[N, J]`, start indices `[E, 1]`, result
  `[E, J]`, result row `e` a copy of operand row `idx e` — is, at result index `(e, c)`, the operand at
  `(r, c)` where `r` is the row number `idx (e, 0)` read SIGNED and CLAMPED into `[0, N - 1]`: a negative row
  number reads row `0`, one that is `N` or more reads row `N - 1`. The same for a rank-1 operand `[N]` with
  result `[E]`: result entry `e` is the operand at the clamped `idx (e, 0)`.

  Every lemma takes an arbitrary dimension record `d` of the right shapes together with the equations that say
  its lists are those of a row gather; for a record given by literal lists each equation is `rfl`.
-/

open Idealize.ShloMosaic Idealize.ShloMosaic.ValueIdx

namespace GatherRows

/-! ## Rank 2: operand `[N, J]`, start indices `[E, 1]`, result `[E, J]` -/

section Rank2

variable {α : Type} {N J E w : Nat} (d : GatherDims ⟨2, ![N, J]⟩ ⟨2, ![E, 1]⟩ ⟨2, ![E, J]⟩)

/-- Result index `(e, c)` reads its row number at `(e, 0)` of the start indices. -/
theorem siIdx2 (hod : d.offsetDims = [1]) (hsm : d.startIndexMap = [0]) (hiv : d.indexVectorDim = 1)
    (e : Fin E) (c : Fin J) (k : Fin d.startIndexMap.length) :
    d.siIdx (ix2 e c) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- On the row axis the slice of result index `(e, c)` starts at its row number, read signed and clamped into
    `[0, N - 1]`. -/
theorem start2_row (hod : d.offsetDims = [1]) (hsm : d.startIndexMap = [0]) (hiv : d.indexVectorDim = 1)
    (hss : d.sliceSizes = ![1, J]) (idx : IVec ⟨2, ![E, 1]⟩ w) (e : Fin E) (c : Fin J) :
    d.start (ix2 e c) idx 0 = min (idx (ix2 e 0)).toInt.toNat (N - 1) := by
  have hm : (0 : Fin 2) ∈ d.startIndexMap := by
    rw [hsm]; show (0 : Fin 2) ∈ ([0] : List (Fin 2)); decide
  unfold GatherDims.start
  rw [dif_pos hm, siIdx2 d hod hsm hiv, hss]
  rfl

/-- On the column axis the slice starts at `0`. -/
theorem start2_col (hsm : d.startIndexMap = [0]) (idx : IVec ⟨2, ![E, 1]⟩ w) (j : (⟨2, ![E, J]⟩ : Shape).Idx) :
    d.start j idx 1 = 0 := by
  have hm : ¬ (1 : Fin 2) ∈ d.startIndexMap := by
    rw [hsm]; show ¬ (1 : Fin 2) ∈ ([0] : List (Fin 2)); decide
  unfold GatherDims.start
  rw [dif_neg hm]

/-- The offset coordinate on the column axis is the result's column. -/
theorem offCoord2_col (hod : d.offsetDims = [1]) (hcd : d.collapsedSliceDims = [0])
    (hob : d.operandBatchingDims = []) (e : Fin E) (c : Fin J) :
    d.offCoord (ix2 e c) 1 = c.val := by
  obtain ⟨od, cd, ob, sb, sm, iv, ss, wf⟩ := d
  subst hod hcd hob
  rfl

/-- THE ROW GATHER AT AN INDEX, rank 2: the operand at `(r, c)`, `r` the row number `idx (e, 0)` read signed
    and clamped into `[0, N - 1]`. -/
theorem gather_rows2 (hN : 0 < N) (hod : d.offsetDims = [1]) (hcd : d.collapsedSliceDims = [0])
    (hob : d.operandBatchingDims = []) (hsm : d.startIndexMap = [0]) (hiv : d.indexVectorDim = 1)
    (hss : d.sliceSizes = ![1, J])
    (x : (⟨2, ![N, J]⟩ : Shape).Idx → α) (idx : IVec ⟨2, ![E, 1]⟩ w) (e : Fin E) (c : Fin J) :
    Host.gather d x idx (ix2 e c)
      = x (ix2 ⟨min (idx (ix2 e 0)).toInt.toNat (N - 1), by omega⟩ c) := by
  have hnb : ∀ a : Fin 2, a ∉ d.operandBatchingDims := by
    intro a; rw [hob]; exact List.not_mem_nil
  unfold Host.gather
  congr 1
  funext a
  refine Fin.ext ?_
  match a with
  | ⟨0, _⟩ =>
    show d.start (ix2 e c) idx 0 + d.batchCoord (ix2 e c) 0 + d.offCoord (ix2 e c) 0 = _
    rw [d.batchCoord_eq_zero _ _ (hnb 0),
      d.offCoord_eq_zero _ _ (fun h => ((d.mem_sKept _).mp h).1 (by rw [hcd]; exact List.mem_singleton.mpr rfl)),
      start2_row d hod hsm hiv hss]
    rfl
  | ⟨1, _⟩ =>
    show d.start (ix2 e c) idx 1 + d.batchCoord (ix2 e c) 1 + d.offCoord (ix2 e c) 1 = c.val
    rw [d.batchCoord_eq_zero _ _ (hnb 1), start2_col d hsm, offCoord2_col d hod hcd hob]
    omega

end Rank2

/-! ## Rank 1: operand `[N]`, start indices `[E, 1]`, result `[E]` -/

section Rank1

variable {α : Type} {N E w : Nat} (d : GatherDims ⟨1, ![N]⟩ ⟨2, ![E, 1]⟩ ⟨1, ![E]⟩)

/-- Result index `e` reads its row number at `(e, 0)` of the start indices. -/
theorem siIdx1 (hod : d.offsetDims = []) (hsm : d.startIndexMap = [0]) (hiv : d.indexVectorDim = 1)
    (e : Fin E) (k : Fin d.startIndexMap.length) :
    d.siIdx (ix1 e) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- The slice of result index `e` starts at its row number, read signed and clamped into `[0, N - 1]`. -/
theorem start1 (hod : d.offsetDims = []) (hsm : d.startIndexMap = [0]) (hiv : d.indexVectorDim = 1)
    (hss : d.sliceSizes = ![1]) (idx : IVec ⟨2, ![E, 1]⟩ w) (e : Fin E) :
    d.start (ix1 e) idx 0 = min (idx (ix2 e 0)).toInt.toNat (N - 1) := by
  have hm : (0 : Fin 1) ∈ d.startIndexMap := by
    rw [hsm]; show (0 : Fin 1) ∈ ([0] : List (Fin 1)); decide
  unfold GatherDims.start
  rw [dif_pos hm, siIdx1 d hod hsm hiv, hss]
  rfl

/-- THE ROW GATHER AT AN INDEX, rank 1: the operand at the row number `idx (e, 0)` read signed and clamped into
    `[0, N - 1]`. -/
theorem gather_rows1 (hN : 0 < N) (hod : d.offsetDims = []) (hcd : d.collapsedSliceDims = [0])
    (hob : d.operandBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [d.batchCoord_eq_zero _ _ (by rw [hob]; exact List.not_mem_nil),
    d.offCoord_eq_zero _ _ (fun h => ((d.mem_sKept _).mp h).1 (by rw [hcd]; exact List.mem_singleton.mpr rfl)),
    start1 d hod hsm hiv hss]
  rfl

end Rank1

end GatherRows
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.LibScatter1.lean ====
import Idealize.ShloMosaic.Lib.ValueIdx

/-!
  A SCATTER ONTO A VECTOR READ AT AN INDEX.

  An accumulating scatter whose scatter indices are one column of entry numbers — operand `[N]`, updates `[E]`,
  indices `[E, 1]`, update `e` added onto operand entry `idx e` (a segment sum) — is, at the ideal values and at
  operand index `n`, the operand there plus the sum of `u e` over the updates `e` whose entry number is `n`.
  The entry number is read SIGNED and is not clamped: an update whose entry number lies outside `[0, N)` lands
  nowhere and is dropped.

  Every lemma takes an arbitrary dimension record `d` of the right shapes together with the four equations that
  say its lists are those of such a scatter; for a record given by literal lists each equation is `rfl`.
-/

open scoped BigOperators
open Idealize.ShloMosaic Idealize.ShloMosaic.ValueIdx

namespace Scatter1

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Operand `[N]`, updates `[E]`, indices `[E, 1]` -/

variable {N E w : Nat} (d : ScatterDims ⟨1, ![N]⟩ ⟨2, ![E, 1]⟩ ⟨1, ![E]⟩)

/-- Update `e` reads its entry number at `(e, 0)` of the scatter indices. -/
theorem siIdx1 (huw : d.updateWindowDims = []) (hsd : d.scatterDimsToOperandDims = [0]) (hiv : d.indexVectorDim = 1)
    (e : Fin E) (c : Fin d.scatterDimsToOperandDims.length) :
    d.siIdx (ix1 e) c = ix2 e 0 := by
  obtain ⟨uw, iw, sd, iv, wf⟩ := d
  subst huw hsd hiv
  funext b
  match b with
  | ⟨0, _⟩ => rfl
  | ⟨1, _⟩ => exact Fin.ext (by have := c.isLt; simp at this; simpa [ScatterDims.siIdx] using this)

/-- The window of update `e` starts at its entry number, read signed. -/
theorem start1 (huw : d.updateWindowDims = []) (hsd : d.scatterDimsToOperandDims = [0]) (hiv : d.indexVectorDim = 1)
    (idx : IVec ⟨2, ![E, 1]⟩ w) (e : Fin E) :
    d.start (ix1 e) idx 0 = (idx (ix2 e 0)).toInt := by
  have hm : (0 : Fin 1) ∈ d.scatterDimsToOperandDims := by
    rw [hsd]; show (0 : Fin 1) ∈ ([0] : List (Fin 1)); decide
  unfold ScatterDims.start
  rw [dif_pos hm, siIdx1 d huw hsd hiv]

/-- The one operand axis is inserted: the window coordinate there is `0`. -/
theorem window1 (hiw : d.insertedWindowDims = [0]) (j : (⟨1, ![E]⟩ : Shape).Idx) :
    d.window j 0 = 0 := by
  have hm : ¬ (0 : Fin 1) ∈ d.sKept := by
    show ¬ (0 : Fin 1) ∈ Shape.kept _ d.insertedWindowDims
    rw [hiw]
    show ¬ (0 : Fin 1) ∈ (List.finRange 1).filter (fun a => a ∉ ([0] : List (Fin 1)))
    decide
  unfold ScatterDims.window
  rw [dif_neg hm]

/-- Update `e` lands at operand index `n` exactly when its entry number is `n`. -/
theorem resultIdx1 (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  have s0 := start1 d huw hsd hiv idx e
  have w0 := window1 d hiw (ix1 e)
  unfold ScatterDims.resultIdx?
  split
  · rename_i h
    constructor
    · intro he
      have hfun := Option.some.inj he
      have h0 : (d.start (ix1 e) idx 0 + d.window (ix1 e) 0).toNat = n.val :=
        congrArg Fin.val (congrFun hfun 0)
      have hh := (h 0).1
      rw [s0, w0] at h0 hh
      omega
    · intro hn
      congr 1
      funext a
      match a with
      | ⟨0, _⟩ =>
        exact Fin.ext (by
          show (d.start (ix1 e) idx 0 + d.window (ix1 e) 0).toNat = n.val
          rw [s0, w0]; omega)
  · rename_i h
    constructor
    · intro he; exact absurd he (by simp)
    · intro hn
      exfalso; apply h
      intro a
      match a with
      | ⟨0, _⟩ =>
        show 0 ≤ d.start (ix1 e) idx 0 + d.window (ix1 e) 0
          ∧ d.start (ix1 e) idx 0 + d.window (ix1 e) 0 < (N : Int)
        rw [s0, w0]; have := n.isLt; omega

/-- THE SCATTER ONTO A VECTOR AT AN INDEX: the operand at `n` plus the sum of `u e` over the updates `e` whose
    entry number, read signed, is `n`. -/
theorem hostScatterAdd_rows1 (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (u : (⟨1, ![E]⟩ : Shape).Idx → EReal) (n : Fin N) :
    Ideal.hostScatterAdd d x idx u (ix1 n)
      = x (ix1 n) + ∑ e ∈ Finset.univ.filter (fun e : Fin E => (idx (ix2 e 0)).toInt = (n.val : Int)), u (ix1 e) := by
  unfold Ideal.hostScatterAdd
  congr 1
  rw [Finset.sum_filter, Finset.sum_filter, sum_idx1]
  refine Finset.sum_congr rfl fun e _ => ?_
  simp only [resultIdx1 d huw hiw hsd hiv idx e]

end Scatter1
-- ==== Proof.KHostOps.lean ====
import proofs.«139699_j335007449371_2_alg».proof.KernelIdeal
import proofs.«139699_j335007449371_2_alg».proof.Proof.GcnSpec
import proofs.«139699_j335007449371_2_alg».proof.Proof.LibGatherRows
import proofs.«139699_j335007449371_2_alg».proof.Proof.LibScatterRows
import proofs.«139699_j335007449371_2_alg».proof.Proof.LibScatter1
import Idealize.ShloMosaic.Lib.IdealHost
import Idealize.ShloMosaic.Lib.Pipeline.Value

/-!
  The array operations between the six kernel calls, each read at an index at the ideal values.

  Four kinds. A sum over the node axis of a `[N, J]` array from an initial value: at feature `k` the initial value
  plus the sum of column `k`. A vector laid out as a one-row matrix and that row copied down all the rows: at
  `(r, k)` the vector at `k`. A vector laid out as a one-column matrix: at `(e, 0)` the vector at `e`. A scalar
  constant copied to every index of an array: the constant's word (an integer) or what the word reads as (a float).
  Each is stated first for arbitrary extents and then at the extents of this program.

  Then the stages built from them. The index wrap: an index word, plus `100000` when it is negative. A row gather at
  the wrapped source words: row `e` of the result is the row of the operand numbered by edge `e`'s word, read signed
  and clamped. A row scatter onto zeros at the destination words: at node `n` the sum over the edges that land on `n`.
  The degree stage: one plus the number of edges landing on a node, to the power `-1/2`. The statistics over the
  nodes: a feature's mean, and the reciprocal square root of its (biased) variance plus a small constant.
-/

open scoped BigOperators

namespace Cert.KernelIdeal.KHostOps

open Cert.KernelIdeal Idealize.ShloMosaic Idealize.ShloMosaic.ValueIdx

/-! ## Arbitrary extents -/

section General

variable {α : Type}

/-- A sum over the FIRST axis of a `[N, J]` array: at `k`, the initial value's element plus the sum of column `k`. -/
theorem hostReduceAdd_axis0_apply {N J : Nat} {φ : FTy} {u : Shape} (x : FVec Ideal ⟨2, ![N, J]⟩ φ)
    (init : u.Idx → Ideal φ) (h' : (⟨2, ![N, J]⟩ : Shape).ReducesTo [0] (⟨1, ![J]⟩ : Shape)) (hu : 0 < u.numel)
    (k : Fin J) :
    Host.reduceAdd x init h' hu (ix1 k) = init (Shape.Idx.first hu) + ∑ r : Fin N, x (ix2 r k) := by
  have h : (⟨2, ![N, J]⟩ : Shape).Reduces [0] (⟨1, ![J]⟩ : Shape) := ⟨h'.1, Nat.one_pos, h'.2⟩
  rw [hostReduceAdd_apply, Ideal.hostReduceAdd_single h' h]
  refine congrArg (_ + ·) (Finset.sum_congr rfl fun r _ => ?_)
  exact congrArg x (funext fun a => Fin.ext (by match a with | ⟨0, _⟩ => rfl | ⟨1, _⟩ => rfl))

/-- A vector `[b]` laid out as the one-row matrix `[1, b]` reads, at `(u, j)`, the vector at `j`. -/
theorem broadcastInDim_vec_row_apply {b : Nat}
    (h : (⟨1, ![b]⟩ : Shape).BroadcastsInDim ⟨2, ![1, b]⟩ (![1] : Fin 1 → Fin 2))
    (v : (⟨1, ![b]⟩ : Shape).Idx → α) (u : Fin 1) (j : Fin b) :
    broadcastInDim ⟨2, ![1, b]⟩ (![1] : Fin 1 → Fin 2) h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A one-row matrix `[1, b]` copied down `a` rows reads, at `(i, j)`, the row at `j`. -/
theorem broadcastInDim_row_apply {a b : Nat}
    (h : (⟨2, ![1, b]⟩ : Shape).BroadcastsInDim ⟨2, ![a, b]⟩ (![0, 1] : Fin 2 → Fin 2))
    (v : (⟨2, ![1, b]⟩ : Shape).Idx → α) (i : Fin a) (j : Fin b) :
    broadcastInDim ⟨2, ![a, b]⟩ (![0, 1] : Fin 2 → Fin 2) h v (ix2 i j) = v (ix2 (0 : Fin 1) j) := by
  refine broadcastInDim_apply _ h v (ix2 i j) (ix2 (0 : Fin 1) j) fun ax => ?_
  match ax with
  | ⟨0, _⟩ => rfl
  | ⟨1, _⟩ =>
    show j.val = if b = 1 then 0 else j.val
    split
    · have := j.isLt; omega
    · rfl

/-- A vector `[a]` laid out as the one-column matrix `[a, 1]` reads, at `(i, u)`, the vector at `i`. -/
theorem broadcastInDim_vec_col_apply {a : Nat}
    (h : (⟨1, ![a]⟩ : Shape).BroadcastsInDim ⟨2, ![a, 1]⟩ (![0] : Fin 1 → Fin 2))
    (v : (⟨1, ![a]⟩ : Shape).Idx → α) (i : Fin a) (u : Fin 1) :
    broadcastInDim ⟨2, ![a, 1]⟩ (![0] : Fin 1 → Fin 2) h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A float constant copied to every index of an array reads, everywhere, what its word reads as. -/
theorem broadcastInDim_constant_apply {T : Shape} {φ : FTy}
    (h : (⟨0, ![]⟩ : Shape).BroadcastsInDim T (![] : Fin 0 → Fin T.rank)) (b : BitVec φ.bits) (j : T.Idx) :
    broadcastInDim T (![] : Fin 0 → Fin T.rank) h (constant (F := Ideal) ⟨0, ![]⟩ φ b) j = Ideal.ofBits φ b := rfl

/-- An integer constant copied to every index of an array reads, everywhere, its word. -/
theorem broadcastInDim_constantI_apply {T : Shape} {w : Nat}
    (h : (⟨0, ![]⟩ : Shape).BroadcastsInDim T (![] : Fin 0 → Fin T.rank)) (b : BitVec w) (j : T.Idx) :
    broadcastInDim T (![] : Fin 0 → Fin T.rank) h (constantI ⟨0, ![]⟩ w b) j = b := rfl

end General

/-! ## The extents of this program -/

section Literal

variable [Facts₀]
open Facts₀

/-- The sum over the nodes of a `[100000, 128]` array from the constant zero: at feature `k`, zero plus the sum of
    column `k`. -/
theorem reduceAdd_nodes_apply (x : (⟨S100000x128, .f32⟩ : BufTy).Contents (Elt Ideal)) (k : Fin 128) :
    Host.reduceAdd x (constant (F := Ideal) S_ .f32 0x00000000#32) reducesTo_S100000x128_S128_d0 h_S_ (ix1 k)
      = Gcn.zero + ∑ r : Fin 100000, x (ix2 r k) :=
  hostReduceAdd_axis0_apply x _ reducesTo_S100000x128_S128_d0 h_S_ k

/-- A feature vector laid out as one row and copied down the node rows: at `(r, k)` the vector at `k`. -/
theorem bcast_feature_apply (v : (⟨S128, .f32⟩ : BufTy).Contents (Elt Ideal)) (r : Fin 100000) (k : Fin 128) :
    broadcastInDim S100000x128 ![0, 1] bcast_S1x128_S100000x128_0_1
        (broadcastInDim S1x128 ![1] bcast_S128_S1x128_1 v) (ix2 r k) = v (ix1 k) := by
  rw [broadcastInDim_row_apply, broadcastInDim_vec_row_apply]

/-- An edge vector of index words laid out as one column: at `(e, u)` the vector at `e`. -/
theorem bcast_edge_col_apply (v : (⟨S1600000, .i32⟩ : BufTy).Contents (Elt Ideal)) (e : Fin 1600000) (u : Fin 1) :
    broadcastInDim S1600000x1 ![0] bcast_S1600000_S1600000x1_0 v (ix2 e u) = v (ix1 e) :=
  broadcastInDim_vec_col_apply _ v e u

/-- A float constant copied over the features: everywhere what its word reads as. -/
theorem bcast_const_S128_apply (b : BitVec 32) (j : S128.Idx) :
    broadcastInDim S128 ![] bcast_S_S128 (constant (F := Ideal) S_ .f32 b) j = Ideal.ofBits .f32 b := rfl

/-- A float constant copied over the `[100000, 128]` array: everywhere what its word reads as. -/
theorem bcast_const_S100000x128_apply (b : BitVec 32) (j : S100000x128.Idx) :
    broadcastInDim S100000x128 ![] bcast_S_S100000x128 (constant (F := Ideal) S_ .f32 b) j = Ideal.ofBits .f32 b := rfl

/-- A float constant copied over the `[100000, 40]` array: everywhere what its word reads as. -/
theorem bcast_const_S100000x40_apply (b : BitVec 32) (j : S100000x40.Idx) :
    broadcastInDim S100000x40 ![] bcast_S_S100000x40 (constant (F := Ideal) S_ .f32 b) j = Ideal.ofBits .f32 b := rfl

/-- A float constant copied over the nodes: everywhere what its word reads as. -/
theorem bcast_const_S100000_apply (b : BitVec 32) (j : S100000.Idx) :
    broadcastInDim S100000 ![] bcast_S_S100000 (constant (F := Ideal) S_ .f32 b) j = Ideal.ofBits .f32 b := rfl

/-- An integer constant copied over the edges: everywhere its word. -/
theorem bcast_constI_S1600000_apply (b : BitVec 32) (j : S1600000.Idx) :
    broadcastInDim S1600000 ![] bcast_S_S1600000 (constantI S_ 32 b) j = b := rfl

/-! ### The index wrap, the row gathers, the row scatters -/

/-- The index wrap at an edge: the word, plus `100000` when it is negative. -/
theorem wrap_apply (a : (⟨S1600000, .i32⟩ : BufTy).Contents (Elt Ideal)) (j : S1600000.Idx) :
    select (cmpi .slt a (broadcastInDim S1600000 ![] bcast_S_S1600000 (constantI S_ 32 0#32)))
        (addi a (broadcastInDim S1600000 ![] bcast_S_S1600000 (constantI S_ 32 100000#32))) a j
      = Gcn.wrapIdx (a j) := rfl

/-- The 128-wide row gather at the column of index words `v`: row `e` is the operand's row numbered by `v e`. -/
theorem gather128_apply (x : (⟨S100000x128, .f32⟩ : BufTy).Contents (Elt Ideal))
    (v : (⟨S1600000, .i32⟩ : BufTy).Contents (Elt Ideal)) (e : Fin 1600000) (c : Fin 128) :
    Host.gather gather_S100000x128_S1600000x1_S1600000x128_1_0_n_n_0_1_1128 x
        (broadcastInDim S1600000x1 ![0] bcast_S1600000_S1600000x1_0 v) (ix2 e c)
      = x (ix2 (Gcn.rowOf (v (ix1 e))) c) := by
  refine (GatherRows.gather_rows2 _ (by norm_num) rfl rfl rfl rfl rfl rfl x _ e c).trans ?_
  refine congrArg x (congrArg (fun r => ix2 r c) (Fin.ext ?_))
  show min ((broadcastInDim S1600000x1 ![0] bcast_S1600000_S1600000x1_0 v) (ix2 e 0)).toInt.toNat (100000 - 1)
    = min (v (ix1 e)).toInt.toNat (Gcn.NN - 1)
  rw [bcast_edge_col_apply]

/-- The 40-wide row gather likewise. -/
theorem gather40_apply (x : (⟨S100000x40, .f32⟩ : BufTy).Contents (Elt Ideal))
    (v : (⟨S1600000, .i32⟩ : BufTy).Contents (Elt Ideal)) (e : Fin 1600000) (c : Fin 40) :
    Host.gather gather_S100000x40_S1600000x1_S1600000x40_1_0_n_n_0_1_140 x
        (broadcastInDim S1600000x1 ![0] bcast_S1600000_S1600000x1_0 v) (ix2 e c)
      = x (ix2 (Gcn.rowOf (v (ix1 e))) c) := by
  refine (GatherRows.gather_rows2 _ (by norm_num) rfl rfl rfl rfl rfl rfl x _ e c).trans ?_
  refine congrArg x (congrArg (fun r => ix2 r c) (Fin.ext ?_))
  show min ((broadcastInDim S1600000x1 ![0] bcast_S1600000_S1600000x1_0 v) (ix2 e 0)).toInt.toNat (100000 - 1)
    = min (v (ix1 e)).toInt.toNat (Gcn.NN - 1)
  rw [bcast_edge_col_apply]

/-- The edges landing on node `n`, spelled with the column of destination words. -/
theorem lands_eq (dst : (⟨S1600000, .i32⟩ : BufTy).Contents (Elt Ideal)) (n : Fin 100000) :
    (Finset.univ.filter fun e : Fin 1600000 =>
        ((broadcastInDim S1600000x1 ![0] bcast_S1600000_S1600000x1_0 dst) (ix2 e 0)).toInt = (n.val : Int))
      = Gcn.lands (fun e => dst (ix1 e)) n := by
  unfold Gcn.lands
  refine Finset.filter_congr fun e _ => ?_
  rw [bcast_edge_col_apply]

/-- At the ideal values the row scatter is the sum form of the scatter. -/
theorem hostScatterAdd_eq {s si su : Shape} {w : Nat} (d : ScatterDims s si su) (x : FVec Ideal s .f32)
    (idx : IVec si w) (u : FVec Ideal su .f32) :
    Host.scatterAdd (F := Ideal) (φ := .f32) d x idx u = Ideal.hostScatterAdd d x idx u := rfl

/-- The 128-wide row scatter at `(n, f)`, any operand and any column of index words. -/
theorem scatter128_rows (x : (⟨S100000x128, .f32⟩ : BufTy).Contents (Elt Ideal))
    (idx : (⟨S1600000x1, .i32⟩ : BufTy).Contents (Elt Ideal))
    (u : (⟨S1600000x128, .f32⟩ : BufTy).Contents (Elt Ideal)) (n : Fin 100000) (f : Fin 128) :
    Ideal.hostScatterAdd scatter_S100000x128_S1600000x1_S1600000x128_1_0_0_1 x idx u (ix2 n f)
      = x (ix2 n f) + ∑ e ∈ Finset.univ.filter (fun e : Fin 1600000 => (idx (ix2 e 0)).toInt = (n.val : Int)), u (ix2 e f) :=
  ScatterRows.hostScatterAdd_rows2 scatter_S100000x128_S1600000x1_S1600000x128_1_0_0_1 rfl rfl rfl rfl x idx u n f

/-- The 40-wide row scatter at `(n, f)`, any operand and any column of index words. -/
theorem scatter40_rows (x : (⟨S100000x40, .f32⟩ : BufTy).Contents (Elt Ideal))
    (idx : (⟨S1600000x1, .i32⟩ : BufTy).Contents (Elt Ideal))
    (u : (⟨S1600000x40, .f32⟩ : BufTy).Contents (Elt Ideal)) (n : Fin 100000) (f : Fin 40) :
    Ideal.hostScatterAdd scatter_S100000x40_S1600000x1_S1600000x40_1_0_0_1 x idx u (ix2 n f)
      = x (ix2 n f) + ∑ e ∈ Finset.univ.filter (fun e : Fin 1600000 => (idx (ix2 e 0)).toInt = (n.val : Int)), u (ix2 e f) :=
  ScatterRows.hostScatterAdd_rows2 scatter_S100000x40_S1600000x1_S1600000x40_1_0_0_1 rfl rfl rfl rfl x idx u n f

/-- The 128-wide row scatter onto zeros at the destination words: at `(n, f)` zero plus the sum of `u (e, f)` over
    the edges `e` landing on `n`. -/
theorem scatter128_apply (dst : (⟨S1600000, .i32⟩ : BufTy).Contents (Elt Ideal))
    (u : (⟨S1600000x128, .f32⟩ : BufTy).Contents (Elt Ideal)) (n : Fin 100000) (f : Fin 128) :
    Host.scatterAdd (F := Ideal) (φ := .f32) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst) u (ix2 n f)
      = Gcn.zero + ∑ e ∈ Gcn.lands (fun e => dst (ix1 e)) n, u (ix2 e f) := by
  rw [hostScatterAdd_eq, scatter128_rows, lands_eq, bcast_const_S100000x128_apply]

/-- The 40-wide row scatter likewise. -/
theorem scatter40_apply (dst : (⟨S1600000, .i32⟩ : BufTy).Contents (Elt Ideal))
    (u : (⟨S1600000x40, .f32⟩ : BufTy).Contents (Elt Ideal)) (n : Fin 100000) (f : Fin 40) :
    Host.scatterAdd (F := Ideal) (φ := .f32) scatter_S100000x40_S1600000x1_S1600000x40_1_0_0_1
        (broadcastInDim S100000x40 ![] bcast_S_S100000x40 (constant (F := Ideal) S_ .f32 0x00000000#32))
        (broadcastInDim S1600000x1 ![0] bcast_S1600000_S1600000x1_0 dst) u (ix2 n f)
      = Gcn.zero + ∑ e ∈ Gcn.lands (fun e => dst (ix1 e)) n, u (ix2 e f) := by
  rw [hostScatterAdd_eq, scatter40_rows, lands_eq, bcast_const_S100000x40_apply]

end Literal

end Cert.KernelIdeal.KHostOps
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KHostStats.lean ====
import proofs.«139699_j335007449371_2_alg».proof.Proof.KHostOps
import proofs.«139699_j335007449371_2_alg».proof.Proof.LibLayout
import Idealize.ShloMosaic.Lib.ValueLayout

/-!
  The stages between the kernel calls that are not plain data movement, each as one named term and read at an
  index at the ideal values.

  The degree stage: a scatter of ones onto zeros at the destination words counts, at node `r`, the edges landing on
  `r`; one is added and the reciprocal square root taken, so the stage at `r` is `(1 + #{e | dst e = r}) ^ (-1/2)`.
  The statistics over the nodes of a `[100000, 128]` array `p`: feature `k`'s mean is the sum of column `k` from zero
  divided by the node count; the array is centred by the mean laid out as a row and copied down the node rows; the
  reciprocal deviation is the reciprocal square root of the mean of the squared centred column plus a small constant,
  that is of the (biased) variance plus that constant.
  Last, the reshapes of a vector into a column and into a row: the same elements in row-major order.
-/

open scoped BigOperators

namespace Cert.KernelIdeal.KHostStats

open Cert.KernelIdeal Cert.KernelIdeal.KHostOps Idealize.ShloMosaic Idealize.ShloMosaic.ValueIdx

section Literal

variable [Facts₀]
open Facts₀

/-! ### The degree stage -/

/-- The scatter onto a vector at `n`, any operand and any column of index words. -/
theorem scatter1_rows (x : (⟨S100000, .f32⟩ : BufTy).Contents (Elt Ideal))
    (idx : (⟨S1600000x1, .i32⟩ : BufTy).Contents (Elt Ideal))
    (u : (⟨S1600000, .f32⟩ : BufTy).Contents (Elt Ideal)) (n : Fin 100000) :
    Ideal.hostScatterAdd scatter_S100000_S1600000x1_S1600000_n_0_0_1 x idx u (ix1 n)
      = x (ix1 n) + ∑ e ∈ Finset.univ.filter (fun e : Fin 1600000 => (idx (ix2 e 0)).toInt = (n.val : Int)), u (ix1 e) :=
  Scatter1.hostScatterAdd_rows1 scatter_S100000_S1600000x1_S1600000_n_0_0_1 rfl rfl rfl rfl x idx u n

/-- A float constant copied over the edges: everywhere what its word reads as. -/
theorem bcast_const_S1600000_apply (b : BitVec 32) (j : S1600000.Idx) :
    broadcastInDim S1600000 ![] bcast_S_S1600000 (constant (F := Ideal) S_ .f32 b) j = Ideal.ofBits .f32 b := rfl

/-- The degree stage as one term: the reciprocal square root of one plus the scatter of ones onto zeros at the
    destination words. -/
noncomputable def disTerm (dst : (⟨S1600000, .i32⟩ : BufTy).Contents (Elt Ideal)) :
    (⟨S100000, .f32⟩ : BufTy).Contents (Elt Ideal) :=
  Host.rsqrt (F := Ideal) (φ := .f32)
    (addf (F := Ideal) (φ := .f32)
      (broadcastInDim S100000 ![] bcast_S_S100000 (constant (F := Ideal) S_ .f32 0x3F800000#32))
      (Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32))))

theorem disTerm_def (dst : (⟨S1600000, .i32⟩ : BufTy).Contents (Elt Ideal)) :
    disTerm dst = Host.rsqrt (F := Ideal) (φ := .f32)
      (addf (F := Ideal) (φ := .f32)
        (broadcastInDim S100000 ![] bcast_S_S100000 (constant (F := Ideal) S_ .f32 0x3F800000#32))
        (Host.scatterAdd (F := Ideal) (φ := .f32) scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))) := rfl

/-- The reciprocal square root at an index. -/
theorem hostRsqrt_apply {s : Shape} (x : FVec Ideal s .f32) (i : s.Idx) :
    Host.rsqrt (F := Ideal) (φ := .f32) x i = Ideal.rsqrt (x i) := rfl

/-- The degree stage at node `r`: `(1 + #{e | dst e = r}) ^ (-1/2)`. -/
theorem disTerm_apply (dst : (⟨S1600000, .i32⟩ : BufTy).Contents (Elt Ideal)) (r : Fin 100000) :
    disTerm dst (ix1 r) = Gcn.dis (fun e => dst (ix1 e)) r := by
  rw [disTerm_def, hostRsqrt_apply, addf_apply, hostScatterAdd_eq, scatter1_rows, lands_eq,
    bcast_const_S100000_apply, bcast_const_S100000_apply]
  unfold Gcn.dis
  refine congrArg Ideal.rsqrt (congrArg (_ + ·) (congrArg (_ + ·) (Finset.sum_congr rfl fun e _ => ?_)))
  exact bcast_const_S1600000_apply _ _

/-! ### The statistics over the nodes -/

/-- A feature's mean over the nodes as one term: the sum over the nodes from zero, divided by the node count. -/
noncomputable def meanTerm (p : (⟨S100000x128, .f32⟩ : BufTy).Contents (Elt Ideal)) : (⟨S128, .f32⟩ : BufTy).Contents (Elt Ideal) :=
  Host.divf (F := Ideal) (φ := .f32)
    (Host.reduceAdd (F := Ideal) (φ := .f32) p (constant (F := Ideal) S_ .f32 0x00000000#32) reducesTo_S100000x128_S128_d0 h_S_)
    (broadcastInDim S128 ![] bcast_S_S128 (constant (F := Ideal) S_ .f32 0x47C35000#32))

theorem meanTerm_def (p : (⟨S100000x128, .f32⟩ : BufTy).Contents (Elt Ideal)) :
    meanTerm p = Host.divf (F := Ideal) (φ := .f32)
      (Host.reduceAdd (F := Ideal) (φ := .f32) p (constant (F := Ideal) S_ .f32 0x00000000#32) reducesTo_S100000x128_S128_d0 h_S_)
      (broadcastInDim S128 ![] bcast_S_S128 (constant (F := Ideal) S_ .f32 0x47C35000#32)) := rfl

/-- The mean term at feature `k`. -/
theorem meanTerm_apply (p : (⟨S100000x128, .f32⟩ : BufTy).Contents (Elt Ideal)) (k : Fin 128) :
    meanTerm p (ix1 k) = Gcn.mean (fun r k => p (ix2 r k)) k := by
  show Ideal.div (Host.reduceAdd (F := Ideal) (φ := .f32) p (constant (F := Ideal) S_ .f32 0x00000000#32)
    reducesTo_S100000x128_S128_d0 h_S_ (ix1 k)) (Ideal.ofBits .f32 0x47C35000#32) = _
  rw [reduceAdd_nodes_apply]
  rfl

/-- The array minus its features' means, the mean laid out as a row and copied down the node rows. -/
noncomputable def centeredTerm (p : (⟨S100000x128, .f32⟩ : BufTy).Contents (Elt Ideal)) :
    (⟨S100000x128, .f32⟩ : BufTy).Contents (Elt Ideal) :=
  subf (F := Ideal) (φ := .f32) p
    (broadcastInDim S100000x128 ![0, 1] bcast_S1x128_S100000x128_0_1
      (broadcastInDim S1x128 ![1] bcast_S128_S1x128_1 (meanTerm p)))

theorem centeredTerm_def (p : (⟨S100000x128, .f32⟩ : BufTy).Contents (Elt Ideal)) :
    centeredTerm p = subf (F := Ideal) (φ := .f32) p
      (broadcastInDim S100000x128 ![0, 1] bcast_S1x128_S100000x128_0_1
        (broadcastInDim S1x128 ![1] bcast_S128_S1x128_1 (meanTerm p))) := rfl

/-- The centred array at `(r, k)`. -/
theorem centeredTerm_apply (p : (⟨S100000x128, .f32⟩ : BufTy).Contents (Elt Ideal)) (r : Fin 100000) (k : Fin 128) :
    centeredTerm p (ix2 r k) = p (ix2 r k) - Gcn.mean (fun r k => p (ix2 r k)) k := by
  show p (ix2 r k) - (broadcastInDim S100000x128 ![0, 1] bcast_S1x128_S100000x128_0_1
      (broadcastInDim S1x128 ![1] bcast_S128_S1x128_1 (meanTerm p))) (ix2 r k) = _
  rw [bcast_feature_apply, meanTerm_apply]

/-- The reciprocal deviation as one term: the reciprocal square root of the mean of the squared centred array over
    the nodes, plus the small constant. -/
noncomputable def istdTerm (p : (⟨S100000x128, .f32⟩ : BufTy).Contents (Elt Ideal)) : (⟨S128, .f32⟩ : BufTy).Contents (Elt Ideal) :=
  Host.rsqrt (F := Ideal) (φ := .f32)
    (addf (F := Ideal) (φ := .f32)
      (Host.divf (F := Ideal) (φ := .f32)
        (Host.reduceAdd (F := Ideal) (φ := .f32) (mulf (F := Ideal) (φ := .f32) (centeredTerm p) (centeredTerm p))
          (constant (F := Ideal) S_ .f32 0x00000000#32) reducesTo_S100000x128_S128_d0 h_S_)
        (broadcastInDim S128 ![] bcast_S_S128 (constant (F := Ideal) S_ .f32 0x47C35000#32)))
      (broadcastInDim S128 ![] bcast_S_S128 (constant (F := Ideal) S_ .f32 0x3727C5AC#32)))

theorem istdTerm_def (p : (⟨S100000x128, .f32⟩ : BufTy).Contents (Elt Ideal)) :
    istdTerm p = Host.rsqrt (F := Ideal) (φ := .f32)
      (addf (F := Ideal) (φ := .f32)
        (Host.divf (F := Ideal) (φ := .f32)
          (Host.reduceAdd (F := Ideal) (φ := .f32) (mulf (F := Ideal) (φ := .f32) (centeredTerm p) (centeredTerm p))
            (constant (F := Ideal) S_ .f32 0x00000000#32) reducesTo_S100000x128_S128_d0 h_S_)
          (broadcastInDim S128 ![] bcast_S_S128 (constant (F := Ideal) S_ .f32 0x47C35000#32)))
        (broadcastInDim S128 ![] bcast_S_S128 (constant (F := Ideal) S_ .f32 0x3727C5AC#32))) := rfl

/-- The reciprocal deviation at feature `k`. -/
theorem istdTerm_apply (p : (⟨S100000x128, .f32⟩ : BufTy).Contents (Elt Ideal)) (k : Fin 128) :
    istdTerm p (ix1 k) = Ideal.rsqrt (Gcn.var (fun r k => p (ix2 r k)) k + Gcn.eps) := by
  show Ideal.rsqrt (Ideal.div (Host.reduceAdd (F := Ideal) (φ := .f32) (mulf (F := Ideal) (φ := .f32) (centeredTerm p) (centeredTerm p))
    (constant (F := Ideal) S_ .f32 0x00000000#32) reducesTo_S100000x128_S128_d0 h_S_ (ix1 k))
    (Ideal.ofBits .f32 0x47C35000#32) + Ideal.ofBits .f32 0x3727C5AC#32) = _
  rw [reduceAdd_nodes_apply]
  have hs : ∑ r : Fin 100000, (mulf (F := Ideal) (φ := .f32) (centeredTerm p) (centeredTerm p)) (ix2 r k)
      = ∑ r : Fin 100000, (p (ix2 r k) - Gcn.mean (fun r k => p (ix2 r k)) k)
          * (p (ix2 r k) - Gcn.mean (fun r k => p (ix2 r k)) k) :=
    Finset.sum_congr rfl fun r _ => by
      show centeredTerm p (ix2 r k) * centeredTerm p (ix2 r k) = _
      rw [centeredTerm_apply]
  rw [hs]
  rfl

/-! ### The reshapes of a vector into a column and into a row -/

/-- The node vector reshaped into a column: at `(r, u)` the vector at `r`. -/
theorem col_apply (x : (⟨S100000, .f32⟩ : BufTy).Contents (Elt Ideal)) (r : Fin 100000) (u : Fin 1) :
    shapeCast S100000x1 x shapeCasts_S100000_S100000x1 (ix2 r u) = x (ix1 r) :=
  shapeCast_a_a1_apply x _ r u

/-- A 128-feature vector reshaped into a row: at `(u, k)` the vector at `k`. -/
theorem row128_apply (v : (⟨S128, .f32⟩ : BufTy).Contents (Elt Ideal)) (u : Fin 1) (k : Fin 128) :
    shapeCast S1x128 v shapeCasts_S128_S1x128 (ix2 u k) = v (ix1 k) :=
  shapeCast_a_1a_apply v _ u k

/-- A 40-feature vector reshaped into a row: at `(u, k)` the vector at `k`. -/
theorem row40_apply (v : (⟨S40, .f32⟩ : BufTy).Contents (Elt Ideal)) (u : Fin 1) (k : Fin 40) :
    shapeCast S1x40 v shapeCasts_S40_S1x40 (ix2 u k) = v (ix1 k) :=
  shapeCast_a_1a_apply v _ u k

end Literal

end Cert.KernelIdeal.KHostStats
-- ==== Proof.KHostB.lean ====
import proofs.«139699_j335007449371_2_alg».proof.Proof.KTerms
import proofs.«139699_j335007449371_2_alg».proof.Proof.KHostStats
import Idealize.ShloMosaic.Lib.StableHlo.Run

/-!
  What the two statistics stretches leave in the buffers the next product region reads, from ANY contents `V` at the
  stretch's start: the feature means and reciprocal deviations of the incoming combination, laid out as rows, the scale and
  shift rows, and the degree factors' column.
-/

set_option maxRecDepth 16384

noncomputable section

namespace Cert.KernelIdeal.KHostB

open Cert.KernelIdeal Cert.KernelIdeal.Gen Cert.KernelIdeal.KTerms Cert.KernelIdeal.KHostStats
open Idealize.ShloMosaic Idealize.ShloMosaic.TcCoe Idealize.ShloMosaic.StableHlo

variable (V : Valuation τ sig (Elt Ideal))

set_option maxHeartbeats 2000000 in
theorem h2_v35 : StableHlo.after hostOps2 V (Proc.devRef .tc main_v35) = rowTerm128 (meanTerm (V (Proc.devRef .tc main_v21))) := by
  after_results
  rfl
set_option maxHeartbeats 2000000 in
theorem h2_v36 : StableHlo.after hostOps2 V (Proc.devRef .tc main_v36) = rowTerm128 (istdTerm (V (Proc.devRef .tc main_v21))) := by
  after_results
  rfl
set_option maxHeartbeats 2000000 in
theorem h2_v37 : StableHlo.after hostOps2 V (Proc.devRef .tc main_v37) = rowTerm128 (V (Proc.devRef .tc main_arg9)) := by
  after_results
  rfl
set_option maxHeartbeats 2000000 in
theorem h2_v38 : StableHlo.after hostOps2 V (Proc.devRef .tc main_v38) = rowTerm128 (V (Proc.devRef .tc main_arg10)) := by
  after_results
  rfl
set_option maxHeartbeats 2000000 in
theorem h2_v39 : StableHlo.after hostOps2 V (Proc.devRef .tc main_v39) = colTerm (V (Proc.devRef .tc main_v6)) := by
  after_results
  rfl

set_option maxHeartbeats 2000000 in
theorem h4_v67 : StableHlo.after hostOps4 V (Proc.devRef .tc main_v67) = rowTerm128 (meanTerm (V (Proc.devRef .tc main_v53))) := by
  after_results
  rfl
set_option maxHeartbeats 2000000 in
theorem h4_v68 : StableHlo.after hostOps4 V (Proc.devRef .tc main_v68) = rowTerm128 (istdTerm (V (Proc.devRef .tc main_v53))) := by
  after_results
  rfl
set_option maxHeartbeats 2000000 in
theorem h4_v69 : StableHlo.after hostOps4 V (Proc.devRef .tc main_v69) = rowTerm128 (V (Proc.devRef .tc main_arg11)) := by
  after_results
  rfl
set_option maxHeartbeats 2000000 in
theorem h4_v70 : StableHlo.after hostOps4 V (Proc.devRef .tc main_v70) = rowTerm128 (V (Proc.devRef .tc main_arg12)) := by
  after_results
  rfl
set_option maxHeartbeats 2000000 in
theorem h4_v71 : StableHlo.after hostOps4 V (Proc.devRef .tc main_v71) = colTerm (V (Proc.devRef .tc main_v6)) := by
  after_results
  rfl

end Cert.KernelIdeal.KHostB

end
-- ==== Proof.KCarry.lean ====
import proofs.«139699_j335007449371_2_alg».proof.Proof.Gen.KernelIdeal.Frame
import Idealize.ShloMosaic.PureOps.Ideal

/-!
  Buffers that ride unchanged through stretches of the kernel program.

  @main's buffer contents are a fold through six kernel regions and the host stretches between them. A buffer that a
  stretch of host operations does not write, and that a region does not have among its arrays, holds after it what it
  held before. The lemmas here carry the inverse-square-root degrees, the arguments and each region's results from the
  boundary where they are made to the boundary where they are next read.
-/

set_option maxRecDepth 16384

noncomputable section

namespace Cert.KernelIdeal.KCarry

open Cert.KernelIdeal Cert.KernelIdeal.Gen Idealize.ShloMosaic Idealize.ShloMosaic.TcCoe Idealize.SL.Sem

/-- A stretch of host operations leaves a buffer none of them writes. -/
macro "skip_host " ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes, StableHlo.quaternary_writes,
     StableHlo.reshape_writes, StableHlo.binaryIndexed_writes, Finset.mem_singleton]
   repeat' apply And.intro
   all_goals exact StableHlo.devRef_ne_of_ne (by decide)))

variable (m : (ℓ : Loc nD τ sig) → Buf (Elt Ideal) ℓ) (ρ : Dev nD → PrngReg) (c : Dev nD)

/-- At the launch a buffer holds the launch memory. -/
theorem W0_eq (x : Ref sig .tc) : W0 m ρ c (Proc.devRef .tc x) = m ((c : Thread nD τ).loc x) := rfl

theorem v6_2_1 : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem v6_4_1 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by skip_host hostOps1
    _ = W1 m ρ c (Proc.devRef .tc main_v6) := W2_of_ne m ρ c main_v6 (by decide)

theorem v6_6_1 : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by skip_host hostOps2
    _ = W3 m ρ c (Proc.devRef .tc main_v6) := W4_of_ne m ρ c main_v6 (by decide)
    _ = W2 m ρ c (Proc.devRef .tc main_v6) := by skip_host hostOps1
    _ = W1 m ρ c (Proc.devRef .tc main_v6) := W2_of_ne m ρ c main_v6 (by decide)

theorem v6_8_1 : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by skip_host hostOps3
    _ = W5 m ρ c (Proc.devRef .tc main_v6) := W6_of_ne m ρ c main_v6 (by decide)
    _ = W4 m ρ c (Proc.devRef .tc main_v6) := by skip_host hostOps2
    _ = W3 m ρ c (Proc.devRef .tc main_v6) := W4_of_ne m ρ c main_v6 (by decide)
    _ = W2 m ρ c (Proc.devRef .tc main_v6) := by skip_host hostOps1
    _ = W1 m ρ c (Proc.devRef .tc main_v6) := W2_of_ne m ρ c main_v6 (by decide)

theorem v6_10_1 : W10 m ρ c (Proc.devRef .tc main_v6) = W1 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by skip_host hostOps4
    _ = W7 m ρ c (Proc.devRef .tc main_v6) := W8_of_ne m ρ c main_v6 (by decide)
    _ = W6 m ρ c (Proc.devRef .tc main_v6) := by skip_host hostOps3
    _ = W5 m ρ c (Proc.devRef .tc main_v6) := W6_of_ne m ρ c main_v6 (by decide)
    _ = W4 m ρ c (Proc.devRef .tc main_v6) := by skip_host hostOps2
    _ = W3 m ρ c (Proc.devRef .tc main_v6) := W4_of_ne m ρ c main_v6 (by decide)
    _ = W2 m ρ c (Proc.devRef .tc main_v6) := by skip_host hostOps1
    _ = W1 m ρ c (Proc.devRef .tc main_v6) := W2_of_ne m ρ c main_v6 (by decide)

theorem arg0_1_0 : W1 m ρ c (Proc.devRef .tc main_arg0) = W0 m ρ c (Proc.devRef .tc main_arg0) :=
  calc W1 m ρ c (Proc.devRef .tc main_arg0)
    _ = W0 m ρ c (Proc.devRef .tc main_arg0) := by skip_host hostOps0

theorem arg3_1_0 : W1 m ρ c (Proc.devRef .tc main_arg3) = W0 m ρ c (Proc.devRef .tc main_arg3) :=
  calc W1 m ρ c (Proc.devRef .tc main_arg3)
    _ = W0 m ρ c (Proc.devRef .tc main_arg3) := by skip_host hostOps0

theorem arg1_2_0 : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := by skip_host hostOps0

theorem arg1_6_0 : W6 m ρ c (Proc.devRef .tc main_arg1) = W0 m ρ c (Proc.devRef .tc main_arg1) :=
  calc W6 m ρ c (Proc.devRef .tc main_arg1)
    _ = W5 m ρ c (Proc.devRef .tc main_arg1) := W6_of_ne m ρ c main_arg1 (by decide)
    _ = W4 m ρ c (Proc.devRef .tc main_arg1) := by skip_host hostOps2
    _ = W3 m ρ c (Proc.devRef .tc main_arg1) := W4_of_ne m ρ c main_arg1 (by decide)
    _ = W2 m ρ c (Proc.devRef .tc main_arg1) := by skip_host hostOps1
    _ = W1 m ρ c (Proc.devRef .tc main_arg1) := W2_of_ne m ρ c main_arg1 (by decide)
    _ = W0 m ρ c (Proc.devRef .tc main_arg1) := by skip_host hostOps0

theorem arg1_10_0 : W10 m ρ c (Proc.devRef .tc main_arg1) = W0 m ρ c (Proc.devRef .tc main_arg1) :=
  calc W10 m ρ c (Proc.devRef .tc main_arg1)
    _ = W9 m ρ c (Proc.devRef .tc main_arg1) := W10_of_ne m ρ c main_arg1 (by decide)
    _ = W8 m ρ c (Proc.devRef .tc main_arg1) := by skip_host hostOps4
    _ = W7 m ρ c (Proc.devRef .tc main_arg1) := W8_of_ne m ρ c main_arg1 (by decide)
    _ = W6 m ρ c (Proc.devRef .tc main_arg1) := by skip_host hostOps3
    _ = W5 m ρ c (Proc.devRef .tc main_arg1) := W6_of_ne m ρ c main_arg1 (by decide)
    _ = W4 m ρ c (Proc.devRef .tc main_arg1) := by skip_host hostOps2
    _ = W3 m ρ c (Proc.devRef .tc main_arg1) := W4_of_ne m ρ c main_arg1 (by decide)
    _ = W2 m ρ c (Proc.devRef .tc main_arg1) := by skip_host hostOps1
    _ = W1 m ρ c (Proc.devRef .tc main_arg1) := W2_of_ne m ρ c main_arg1 (by decide)
    _ = W0 m ρ c (Proc.devRef .tc main_arg1) := by skip_host hostOps0

theorem arg2_2_0 : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := by skip_host hostOps0

theorem arg2_6_0 : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := by skip_host hostOps2
    _ = W3 m ρ c (Proc.devRef .tc main_arg2) := W4_of_ne m ρ c main_arg2 (by decide)
    _ = W2 m ρ c (Proc.devRef .tc main_arg2) := by skip_host hostOps1
    _ = W1 m ρ c (Proc.devRef .tc main_arg2) := W2_of_ne m ρ c main_arg2 (by decide)
    _ = W0 m ρ c (Proc.devRef .tc main_arg2) := by skip_host hostOps0

theorem arg2_10_0 : W10 m ρ c (Proc.devRef .tc main_arg2) = W0 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := by skip_host hostOps4
    _ = W7 m ρ c (Proc.devRef .tc main_arg2) := W8_of_ne m ρ c main_arg2 (by decide)
    _ = W6 m ρ c (Proc.devRef .tc main_arg2) := by skip_host hostOps3
    _ = W5 m ρ c (Proc.devRef .tc main_arg2) := W6_of_ne m ρ c main_arg2 (by decide)
    _ = W4 m ρ c (Proc.devRef .tc main_arg2) := by skip_host hostOps2
    _ = W3 m ρ c (Proc.devRef .tc main_arg2) := W4_of_ne m ρ c main_arg2 (by decide)
    _ = W2 m ρ c (Proc.devRef .tc main_arg2) := by skip_host hostOps1
    _ = W1 m ρ c (Proc.devRef .tc main_arg2) := W2_of_ne m ρ c main_arg2 (by decide)
    _ = W0 m ρ c (Proc.devRef .tc main_arg2) := by skip_host hostOps0

theorem arg4_2_0 : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := by skip_host hostOps0

theorem arg6_6_0 : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by skip_host hostOps2
    _ = W3 m ρ c (Proc.devRef .tc main_arg6) := W4_of_ne m ρ c main_arg6 (by decide)
    _ = W2 m ρ c (Proc.devRef .tc main_arg6) := by skip_host hostOps1
    _ = W1 m ρ c (Proc.devRef .tc main_arg6) := W2_of_ne m ρ c main_arg6 (by decide)
    _ = W0 m ρ c (Proc.devRef .tc main_arg6) := by skip_host hostOps0

theorem arg8_10_0 : W10 m ρ c (Proc.devRef .tc main_arg8) = W0 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := by skip_host hostOps4
    _ = W7 m ρ c (Proc.devRef .tc main_arg8) := W8_of_ne m ρ c main_arg8 (by decide)
    _ = W6 m ρ c (Proc.devRef .tc main_arg8) := by skip_host hostOps3
    _ = W5 m ρ c (Proc.devRef .tc main_arg8) := W6_of_ne m ρ c main_arg8 (by decide)
    _ = W4 m ρ c (Proc.devRef .tc main_arg8) := by skip_host hostOps2
    _ = W3 m ρ c (Proc.devRef .tc main_arg8) := W4_of_ne m ρ c main_arg8 (by decide)
    _ = W2 m ρ c (Proc.devRef .tc main_arg8) := by skip_host hostOps1
    _ = W1 m ρ c (Proc.devRef .tc main_arg8) := W2_of_ne m ρ c main_arg8 (by decide)
    _ = W0 m ρ c (Proc.devRef .tc main_arg8) := by skip_host hostOps0

theorem arg9_4_0 : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := by skip_host hostOps1
    _ = W1 m ρ c (Proc.devRef .tc main_arg9) := W2_of_ne m ρ c main_arg9 (by decide)
    _ = W0 m ρ c (Proc.devRef .tc main_arg9) := by skip_host hostOps0

theorem arg10_4_0 : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := by skip_host hostOps1
    _ = W1 m ρ c (Proc.devRef .tc main_arg10) := W2_of_ne m ρ c main_arg10 (by decide)
    _ = W0 m ρ c (Proc.devRef .tc main_arg10) := by skip_host hostOps0

theorem arg11_8_0 : W8 m ρ c (Proc.devRef .tc main_arg11) = W0 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := by skip_host hostOps3
    _ = W5 m ρ c (Proc.devRef .tc main_arg11) := W6_of_ne m ρ c main_arg11 (by decide)
    _ = W4 m ρ c (Proc.devRef .tc main_arg11) := by skip_host hostOps2
    _ = W3 m ρ c (Proc.devRef .tc main_arg11) := W4_of_ne m ρ c main_arg11 (by decide)
    _ = W2 m ρ c (Proc.devRef .tc main_arg11) := by skip_host hostOps1
    _ = W1 m ρ c (Proc.devRef .tc main_arg11) := W2_of_ne m ρ c main_arg11 (by decide)
    _ = W0 m ρ c (Proc.devRef .tc main_arg11) := by skip_host hostOps0

theorem arg12_8_0 : W8 m ρ c (Proc.devRef .tc main_arg12) = W0 m ρ c (Proc.devRef .tc main_arg12) :=
  calc W8 m ρ c (Proc.devRef .tc main_arg12)
    _ = W7 m ρ c (Proc.devRef .tc main_arg12) := W8_of_ne m ρ c main_arg12 (by decide)
    _ = W6 m ρ c (Proc.devRef .tc main_arg12) := by skip_host hostOps3
    _ = W5 m ρ c (Proc.devRef .tc main_arg12) := W6_of_ne m ρ c main_arg12 (by decide)
    _ = W4 m ρ c (Proc.devRef .tc main_arg12) := by skip_host hostOps2
    _ = W3 m ρ c (Proc.devRef .tc main_arg12) := W4_of_ne m ρ c main_arg12 (by decide)
    _ = W2 m ρ c (Proc.devRef .tc main_arg12) := by skip_host hostOps1
    _ = W1 m ρ c (Proc.devRef .tc main_arg12) := W2_of_ne m ρ c main_arg12 (by decide)
    _ = W0 m ρ c (Proc.devRef .tc main_arg12) := by skip_host hostOps0

theorem arg5_5_0 : W5 m ρ c (Proc.devRef .tc main_arg5) = W0 m ρ c (Proc.devRef .tc main_arg5) :=
  calc W5 m ρ c (Proc.devRef .tc main_arg5)
    _ = W4 m ρ c (Proc.devRef .tc main_arg5) := by skip_host hostOps2
    _ = W3 m ρ c (Proc.devRef .tc main_arg5) := W4_of_ne m ρ c main_arg5 (by decide)
    _ = W2 m ρ c (Proc.devRef .tc main_arg5) := by skip_host hostOps1
    _ = W1 m ρ c (Proc.devRef .tc main_arg5) := W2_of_ne m ρ c main_arg5 (by decide)
    _ = W0 m ρ c (Proc.devRef .tc main_arg5) := by skip_host hostOps0

theorem arg7_9_0 : W9 m ρ c (Proc.devRef .tc main_arg7) = W0 m ρ c (Proc.devRef .tc main_arg7) :=
  calc W9 m ρ c (Proc.devRef .tc main_arg7)
    _ = W8 m ρ c (Proc.devRef .tc main_arg7) := by skip_host hostOps4
    _ = W7 m ρ c (Proc.devRef .tc main_arg7) := W8_of_ne m ρ c main_arg7 (by decide)
    _ = W6 m ρ c (Proc.devRef .tc main_arg7) := by skip_host hostOps3
    _ = W5 m ρ c (Proc.devRef .tc main_arg7) := W6_of_ne m ρ c main_arg7 (by decide)
    _ = W4 m ρ c (Proc.devRef .tc main_arg7) := by skip_host hostOps2
    _ = W3 m ρ c (Proc.devRef .tc main_arg7) := W4_of_ne m ρ c main_arg7 (by decide)
    _ = W2 m ρ c (Proc.devRef .tc main_arg7) := by skip_host hostOps1
    _ = W1 m ρ c (Proc.devRef .tc main_arg7) := W2_of_ne m ρ c main_arg7 (by decide)
    _ = W0 m ρ c (Proc.devRef .tc main_arg7) := by skip_host hostOps0

theorem v8_0_3_2 : W3 m ρ c (Proc.devRef .tc main_v8_0) = W2 m ρ c (Proc.devRef .tc main_v8_0) :=
  calc W3 m ρ c (Proc.devRef .tc main_v8_0)
    _ = W2 m ρ c (Proc.devRef .tc main_v8_0) := by skip_host hostOps1

theorem v21_5_4 : W5 m ρ c (Proc.devRef .tc main_v21) = W4 m ρ c (Proc.devRef .tc main_v21) :=
  calc W5 m ρ c (Proc.devRef .tc main_v21)
    _ = W4 m ρ c (Proc.devRef .tc main_v21) := by skip_host hostOps2

theorem v40_0_7_6 : W7 m ρ c (Proc.devRef .tc main_v40_0) = W6 m ρ c (Proc.devRef .tc main_v40_0) :=
  calc W7 m ρ c (Proc.devRef .tc main_v40_0)
    _ = W6 m ρ c (Proc.devRef .tc main_v40_0) := by skip_host hostOps3

theorem v53_9_8 : W9 m ρ c (Proc.devRef .tc main_v53) = W8 m ρ c (Proc.devRef .tc main_v53) :=
  calc W9 m ρ c (Proc.devRef .tc main_v53)
    _ = W8 m ρ c (Proc.devRef .tc main_v53) := by skip_host hostOps4

theorem v72_0_11_10 : W11 m ρ c (Proc.devRef .tc main_v72_0) = W10 m ρ c (Proc.devRef .tc main_v72_0) :=
  calc W11 m ρ c (Proc.devRef .tc main_v72_0)
    _ = W10 m ρ c (Proc.devRef .tc main_v72_0) := by skip_host hostOps5

end Cert.KernelIdeal.KCarry

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.KPay.lean ====
import proofs.«139699_j335007449371_2_alg».proof.Proof.Gen.KernelIdeal.Skeleton
import proofs.«139699_j335007449371_2_alg».proof.Proof.LibDotRows
import proofs.«139699_j335007449371_2_alg».proof.Proof.LibLayout
import proofs.«139699_j335007449371_2_alg».proof.Proof.GcnSpec
import Idealize.ShloMosaic.PureOps.Ideal.Laws

/-!
  What each kernel body stores, element by element, at the ideal instance.

  Every body works on a block of 4000 node rows. The four kinds:
  a matrix product of the block with a weight matrix, and that product scaled row by row;
  the combination `agg · d + h · d² + b` of an aggregated block, a feature block, a column of row factors and a bias row;
  a normalise–scale–shift–rectify of the block followed by the matrix product;
  the combination followed by a row-wise log-softmax.
  A change of float format is the identity here, a product into a zero accumulator is the plain sum over the
  contracted index, a row maximum is the fold of `max` from `-∞` and a row sum the plain sum.
-/

set_option maxRecDepth 16384

open scoped BigOperators

noncomputable section

namespace Cert.KernelIdeal.KPay

open Cert.KernelIdeal Cert.KernelIdeal.Gen Idealize.ShloMosaic Idealize.ShloMosaic.ValueIdx

/-- A row `[1, b]` broadcast to `[a, b]` reads, at `(i, j)`, the row at column `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[a]` vector cast to a column `[a, 1]` reads, at `(i, 0)`, the vector at `i` (restated with the unit coordinate explicit). -/
theorem col_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) := shapeCast_a_a1_apply x h i 0

/-! ## Region 0: the product and its row scaling -/

theorem pay0_1 (v0 : FVec Ideal S4000x128 .f32) (v2 : FVec Ideal S128x128 .f32) (p : Fin 4000) (q : Fin 128) :
    k0_pay1 (F := Ideal) v0 v2 (ix2 p q) = ∑ k : Fin 128, v0 (ix2 p k) * v2 (ix2 k q) := by
  unfold k0_pay1
  exact matmul_zero_rows dot_S4000x128_S128x128_S4000x128_1_0_0_1_n_n none rfl rfl (fun _ _ => rfl) (fun _ _ => rfl)
    (fun _ _ => rfl) (fun _ _ => rfl) (truncf .bf16 v0 bitsLt_bf16_f32) (truncf .bf16 v2 bitsLt_bf16_f32) p q

theorem pay0_2 (v0 : FVec Ideal S4000x128 .f32) (v2 : FVec Ideal S128x128 .f32) (v6 : FVec Ideal S4000x1 .f32)
    (p : Fin 4000) (q : Fin 128) :
    k0_pay2 (F := Ideal) v0 v2 v6 (ix2 p q) = (∑ k : Fin 128, v0 (ix2 p k) * v2 (ix2 k q)) * v6 (ix2 p 0) := by
  unfold k0_pay2
  show k0_pay1 (F := Ideal) v0 v2 (ix2 p q)
      * broadcastTo S4000x128 (shapeCast S4000x1 v6 shapeCasts_S4000x1_S4000x1) broadcasts_S4000x1_S4000x128 (ix2 p q) = _
  rw [pay0_1, broadcastTo_a1_ab_apply, shapeCast_self]

/-! ## Regions 1 and 3: the combination -/

theorem pay1_1 (v0 : FVec Ideal S4000x1 .f32) (v2 v6 : FVec Ideal S4000x128 .f32) (v12 : FVec Ideal S1x128 .f32)
    (p : Fin 4000) (q : Fin 128) :
    k1_pay1 (F := Ideal) v0 v2 v6 v12 (ix2 p q)
      = (v2 (ix2 p q) * v0 (ix2 p 0) + v6 (ix2 p q) * (v0 (ix2 p 0) * v0 (ix2 p 0))) + v12 (ix2 0 q) := by
  unfold k1_pay1
  simp only [shapeCast_self]
  show (v2 (ix2 p q) * broadcastTo S4000x128 v0 broadcasts_S4000x1_S4000x128 (ix2 p q)
      + v6 (ix2 p q) * broadcastTo S4000x128 (mulf v0 v0) broadcasts_S4000x1_S4000x128 (ix2 p q))
      + broadcastTo S4000x128 v12 broadcasts_S1x128_S4000x128 (ix2 p q) = _
  rw [broadcastTo_a1_ab_apply, broadcastTo_a1_ab_apply, broadcastTo_1b_ab_apply]
  rfl

theorem pay3_1 (v0 : FVec Ideal S4000x1 .f32) (v2 v6 : FVec Ideal S4000x128 .f32) (v12 : FVec Ideal S1x128 .f32)
    (p : Fin 4000) (q : Fin 128) :
    k3_pay1 (F := Ideal) v0 v2 v6 v12 (ix2 p q)
      = (v2 (ix2 p q) * v0 (ix2 p 0) + v6 (ix2 p q) * (v0 (ix2 p 0) * v0 (ix2 p 0))) + v12 (ix2 0 q) := by
  unfold k3_pay1
  simp only [shapeCast_self]
  show (v2 (ix2 p q) * broadcastTo S4000x128 v0 broadcasts_S4000x1_S4000x128 (ix2 p q)
      + v6 (ix2 p q) * broadcastTo S4000x128 (mulf v0 v0) broadcasts_S4000x1_S4000x128 (ix2 p q))
      + broadcastTo S4000x128 v12 broadcasts_S1x128_S4000x128 (ix2 p q) = _
  rw [broadcastTo_a1_ab_apply, broadcastTo_a1_ab_apply, broadcastTo_1b_ab_apply]
  rfl

/-! ## Region 2: normalise, scale, shift, rectify, then the product and its row scaling -/

/-- The rectified, normalised block at `(p, k)`. -/
def actBlk2 (v0 : FVec Ideal S4000x128 .f32) (v2 v6 v10 v14 : FVec Ideal S1x128 .f32) (p : Fin 4000) (k : Fin 128) : EReal :=
  max ((((v0 (ix2 p k) - v2 (ix2 0 k)) * v6 (ix2 0 k)) * v10 (ix2 0 k)) + v14 (ix2 0 k)) Gcn.zero

theorem pay2_1 (v0 : FVec Ideal S4000x128 .f32) (v2 v6 v10 v14 : FVec Ideal S1x128 .f32) (v21 : FVec Ideal S128x128 .f32)
    (p : Fin 4000) (q : Fin 128) :
    k2_pay1 (F := Ideal) v0 v2 v6 v10 v14 v21 (ix2 p q) = ∑ k : Fin 128, actBlk2 v0 v2 v6 v10 v14 p k * v21 (ix2 k q) := by
  unfold k2_pay1
  simp only [shapeCast_self]
  refine (matmul_zero_rows dot_S4000x128_S128x128_S4000x128_1_0_0_1_n_n none rfl rfl (fun _ _ => rfl) (fun _ _ => rfl)
    (fun _ _ => rfl) (fun _ _ => rfl) _ (truncf .bf16 v21 bitsLt_bf16_f32) p q).trans ?_
  refine Finset.sum_congr rfl fun k _ => ?_
  congr 1
  show max ((((v0 (ix2 p k) - broadcastTo S4000x128 v2 broadcasts_S1x128_S4000x128 (ix2 p k))
      * broadcastTo S4000x128 v6 broadcasts_S1x128_S4000x128 (ix2 p k))
      * broadcastTo S4000x128 v10 broadcasts_S1x128_S4000x128 (ix2 p k))
      + broadcastTo S4000x128 v14 broadcasts_S1x128_S4000x128 (ix2 p k)) _ = _
  rw [broadcastTo_1b_ab_apply, broadcastTo_1b_ab_apply, broadcastTo_1b_ab_apply, broadcastTo_1b_ab_apply]
  rfl

theorem pay2_2 (v0 : FVec Ideal S4000x128 .f32) (v2 v6 v10 v14 : FVec Ideal S1x128 .f32) (v21 : FVec Ideal S128x128 .f32)
    (v25 : FVec Ideal S4000x1 .f32) (p : Fin 4000) (q : Fin 128) :
    k2_pay2 (F := Ideal) v0 v2 v6 v10 v14 v21 v25 (ix2 p q)
      = (∑ k : Fin 128, actBlk2 v0 v2 v6 v10 v14 p k * v21 (ix2 k q)) * v25 (ix2 p 0) := by
  unfold k2_pay2
  show k2_pay1 (F := Ideal) v0 v2 v6 v10 v14 v21 (ix2 p q)
      * broadcastTo S4000x128 (shapeCast S4000x1 v25 shapeCasts_S4000x1_S4000x1) broadcasts_S4000x1_S4000x128 (ix2 p q) = _
  rw [pay2_1, broadcastTo_a1_ab_apply, shapeCast_self]

/-! ## Region 4: normalise, scale, shift, rectify, then the product and its row scaling -/

/-- The rectified, normalised block at `(p, k)`. -/
def actBlk4 (v0 : FVec Ideal S4000x128 .f32) (v2 v6 v10 v14 : FVec Ideal S1x128 .f32) (p : Fin 4000) (k : Fin 128) : EReal :=
  max ((((v0 (ix2 p k) - v2 (ix2 0 k)) * v6 (ix2 0 k)) * v10 (ix2 0 k)) + v14 (ix2 0 k)) Gcn.zero

theorem pay4_1 (v0 : FVec Ideal S4000x128 .f32) (v2 v6 v10 v14 : FVec Ideal S1x128 .f32) (v21 : FVec Ideal S128x40 .f32)
    (p : Fin 4000) (q : Fin 40) :
    k4_pay1 (F := Ideal) v0 v2 v6 v10 v14 v21 (ix2 p q) = ∑ k : Fin 128, actBlk4 v0 v2 v6 v10 v14 p k * v21 (ix2 k q) := by
  unfold k4_pay1
  simp only [shapeCast_self]
  refine (matmul_zero_rows dot_S4000x128_S128x40_S4000x40_1_0_0_1_n_n none rfl rfl (fun _ _ => rfl) (fun _ _ => rfl)
    (fun _ _ => rfl) (fun _ _ => rfl) _ (truncf .bf16 v21 bitsLt_bf16_f32) p q).trans ?_
  refine Finset.sum_congr rfl fun k _ => ?_
  congr 1
  show max ((((v0 (ix2 p k) - broadcastTo S4000x128 v2 broadcasts_S1x128_S4000x128 (ix2 p k))
      * broadcastTo S4000x128 v6 broadcasts_S1x128_S4000x128 (ix2 p k))
      * broadcastTo S4000x128 v10 broadcasts_S1x128_S4000x128 (ix2 p k))
      + broadcastTo S4000x128 v14 broadcasts_S1x128_S4000x128 (ix2 p k)) _ = _
  rw [broadcastTo_1b_ab_apply, broadcastTo_1b_ab_apply, broadcastTo_1b_ab_apply, broadcastTo_1b_ab_apply]
  rfl

theorem pay4_2 (v0 : FVec Ideal S4000x128 .f32) (v2 v6 v10 v14 : FVec Ideal S1x128 .f32) (v21 : FVec Ideal S128x40 .f32)
    (v25 : FVec Ideal S4000x1 .f32) (p : Fin 4000) (q : Fin 40) :
    k4_pay2 (F := Ideal) v0 v2 v6 v10 v14 v21 v25 (ix2 p q)
      = (∑ k : Fin 128, actBlk4 v0 v2 v6 v10 v14 p k * v21 (ix2 k q)) * v25 (ix2 p 0) := by
  unfold k4_pay2
  show k4_pay1 (F := Ideal) v0 v2 v6 v10 v14 v21 (ix2 p q)
      * broadcastTo S4000x40 (shapeCast S4000x1 v25 shapeCasts_S4000x1_S4000x1) broadcasts_S4000x1_S4000x40 (ix2 p q) = _
  rw [pay4_1, broadcastTo_a1_ab_apply, shapeCast_self]

/-! ## Region 5: the combination, then the row-wise log-softmax -/

/-- The combined block at `(p, q)`. -/
def combBlk5 (v0 : FVec Ideal S4000x1 .f32) (v2 v6 : FVec Ideal S4000x40 .f32) (v12 : FVec Ideal S1x40 .f32)
    (p : Fin 4000) (q : Fin 40) : EReal :=
  (v2 (ix2 p q) * v0 (ix2 p 0) + v6 (ix2 p q) * (v0 (ix2 p 0) * v0 (ix2 p 0))) + v12 (ix2 0 q)

/-- The combined block as a vector. -/
def combVec5 (v0 : FVec Ideal S4000x1 .f32) (v2 v6 : FVec Ideal S4000x40 .f32) (v12 : FVec Ideal S1x40 .f32) :
    FVec Ideal S4000x40 .f32 :=
  addf (addf (mulf v2 (broadcastTo S4000x40 v0 broadcasts_S4000x1_S4000x40))
    (mulf v6 (broadcastTo S4000x40 (mulf v0 v0) broadcasts_S4000x1_S4000x40)))
    (broadcastTo S4000x40 v12 broadcasts_S1x40_S4000x40)

theorem combVec5_apply (v0 : FVec Ideal S4000x1 .f32) (v2 v6 : FVec Ideal S4000x40 .f32) (v12 : FVec Ideal S1x40 .f32)
    (p : Fin 4000) (q : Fin 40) : combVec5 v0 v2 v6 v12 (ix2 p q) = combBlk5 v0 v2 v6 v12 p q := by
  unfold combVec5 combBlk5
  show (v2 (ix2 p q) * broadcastTo S4000x40 v0 broadcasts_S4000x1_S4000x40 (ix2 p q)
      + v6 (ix2 p q) * broadcastTo S4000x40 (mulf v0 v0) broadcasts_S4000x1_S4000x40 (ix2 p q))
      + broadcastTo S4000x40 v12 broadcasts_S1x40_S4000x40 (ix2 p q) = _
  rw [broadcastTo_a1_ab_apply, broadcastTo_a1_ab_apply, broadcastTo_1b_ab_apply]
  rfl

/-- A row's coordinate under the lane reduction is the row with the lane. -/
theorem lift5 (p : Fin 4000) (k : Fin (S4000x40.size 1)) :
    reduces_S4000x40_S4000.lift (ix1 p) k = ix2 p (⟨k.val, k.isLt⟩ : Fin 40) := by
  funext a
  match a with
  | ⟨0, _⟩ => rfl
  | ⟨1, _⟩ => rfl

/-- The row maximum of the combined block, folded from `-∞`. -/
def rowMax5 (v0 : FVec Ideal S4000x1 .f32) (v2 v6 : FVec Ideal S4000x40 .f32) (v12 : FVec Ideal S1x40 .f32) (p : Fin 4000) : EReal :=
  (Finset.univ : Finset (Fin 40)).fold max Gcn.ninf (fun c' => combBlk5 v0 v2 v6 v12 p c')

/-- The lane maximum of a block, as a vector over the rows. -/
def maxVec5 (w : FVec Ideal S4000x40 .f32) : FVec Ideal S4000 .f32 :=
  multiReduction (F := Ideal) .maximumf [1] S4000 w 0xFF800000#32 reduces_S4000x40_S4000 (.inl rfl) rfl

/-- The block minus its row maxima. -/
def shiftVec5 (w : FVec Ideal S4000x40 .f32) : FVec Ideal S4000x40 .f32 :=
  subf w (broadcastTo S4000x40 (shapeCast S4000x1 (maxVec5 w) shapeCasts_S4000_S4000x1) broadcasts_S4000x1_S4000x40)

/-- The lane sum of the exponentials, as a vector over the rows. -/
def sumVec5 (s : FVec Ideal S4000x40 .f32) : FVec Ideal S4000 .f32 :=
  multiReduction (F := Ideal) .add [1] S4000 (exp s) 0x00000000#32 reduces_S4000x40_S4000 (.inl rfl) rfl

theorem maxVec5_apply (w : FVec Ideal S4000x40 .f32) (p : Fin 4000) :
    maxVec5 w (ix1 p) = (Finset.univ : Finset (Fin 40)).fold max Gcn.ninf (fun c' => w (ix2 p c')) := by
  unfold maxVec5
  refine (Ideal.multiReduction_maximumf_single w 0xFF800000#32 reduces_S4000x40_S4000 (.inl rfl) rfl (ix1 p)).trans ?_
  congr 1
  funext k
  show w (reduces_S4000x40_S4000.lift (ix1 p) k) = _
  rw [lift5]
  rfl

theorem shiftVec5_apply (w : FVec Ideal S4000x40 .f32) (p : Fin 4000) (q : Fin 40) :
    shiftVec5 w (ix2 p q) = w (ix2 p q) - (Finset.univ : Finset (Fin 40)).fold max Gcn.ninf (fun c' => w (ix2 p c')) := by
  unfold shiftVec5
  show w (ix2 p q) - broadcastTo S4000x40 (shapeCast S4000x1 (maxVec5 w) shapeCasts_S4000_S4000x1) broadcasts_S4000x1_S4000x40 (ix2 p q) = _
  rw [broadcastTo_a1_ab_apply, col_apply, maxVec5_apply]

theorem sumVec5_apply (s : FVec Ideal S4000x40 .f32) (p : Fin 4000) :
    sumVec5 s (ix1 p) = ∑ c' : Fin 40, Ideal.exp (s (ix2 p c')) := by
  unfold sumVec5
  refine (Ideal.multiReduction_add_single (exp s) 0x00000000#32 reduces_S4000x40_S4000 (.inl rfl) rfl (ix1 p)).trans ?_
  refine Fintype.sum_congr _ _ fun k => ?_
  rw [lift5]
  rfl

theorem pay5_1 (v0 : FVec Ideal S4000x1 .f32) (v2 v6 : FVec Ideal S4000x40 .f32) (v12 : FVec Ideal S1x40 .f32)
    (p : Fin 4000) (q : Fin 40) :
    k5_pay1 (F := Ideal) v0 v2 v6 v12 (ix2 p q)
      = (combBlk5 v0 v2 v6 v12 p q - rowMax5 v0 v2 v6 v12 p)
        - Ideal.log (∑ c' : Fin 40, Ideal.exp (combBlk5 v0 v2 v6 v12 p c' - rowMax5 v0 v2 v6 v12 p)) := by
  have hk : k5_pay1 (F := Ideal) v0 v2 v6 v12
      = subf (shiftVec5 (combVec5 v0 v2 v6 v12))
          (broadcastTo S4000x40 (log (shapeCast S4000x1 (sumVec5 (shiftVec5 (combVec5 v0 v2 v6 v12))) shapeCasts_S4000_S4000x1))
            broadcasts_S4000x1_S4000x40) := by
    unfold k5_pay1 shiftVec5 sumVec5 maxVec5 combVec5
    simp only [shapeCast_self]
  rw [hk]
  show shiftVec5 (combVec5 v0 v2 v6 v12) (ix2 p q)
      - broadcastTo S4000x40 (log (shapeCast S4000x1 (sumVec5 (shiftVec5 (combVec5 v0 v2 v6 v12))) shapeCasts_S4000_S4000x1))
          broadcasts_S4000x1_S4000x40 (ix2 p q) = _
  rw [broadcastTo_a1_ab_apply, shiftVec5_apply]
  show _ - Ideal.log (shapeCast S4000x1 (sumVec5 (shiftVec5 (combVec5 v0 v2 v6 v12))) shapeCasts_S4000_S4000x1 (ix2 p 0)) = _
  rw [col_apply, sumVec5_apply]
  simp only [shiftVec5_apply, combVec5_apply]
  rfl

end Cert.KernelIdeal.KPay

end
-- ==== Proof.KReg0.lean ====
import proofs.«139699_j335007449371_2_alg».proof.Proof.Gen.KernelIdeal.Frame
import proofs.«139699_j335007449371_2_alg».proof.Proof.KPay
import Idealize.ShloMosaic.Lib.Pipeline.Value

/-!
  The first product region: `h = x · W` and `h` scaled row by row by the column of row factors.

  The region walks 25 blocks of 4000 node rows; at block `t` it reads rows `4000 t … 4000 t + 3999` of the row-blocked
  arrays and the whole of the small ones, and writes the same rows of its two results. Each point writes the block of ONE
  whole-array function, and the 25 blocks tile the array, so each result array ends holding that function.
-/

set_option maxRecDepth 16384

open scoped BigOperators

noncomputable section

namespace Cert.KernelIdeal.KReg0

open Cert.KernelIdeal Cert.KernelIdeal.Gen Cert.KernelIdeal.KPay Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is `(t, 0)`, a whole-array window's `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The matrix product as one function of whole arrays. -/
def prod (X : S100000x128.Idx → EReal) (W : S128x128.Idx → EReal) : S100000x128.Idx → EReal :=
  fun i => ∑ k : Fin 128, X (ix2 (i 0) k) * W (ix2 k (i 1))

/-- The product scaled row by row. -/
def prodScaled (X : S100000x128.Idx → EReal) (W : S128x128.Idx → EReal) (D : S100000x1.Idx → EReal) : S100000x128.Idx → EReal :=
  fun i => prod X W i * D (ix2 (i 0) 0)

set_option maxHeartbeats 1000000 in
/-- Window 0's block at point `t`, read where output window 3's element `(p, q)` needs it, is the array there. -/
theorem rd3_0 (c : Dev nD) (t : Fin cfg0.N) (p : Fin 4000) (q : Fin 128) (k : Fin 128) :
    iblk0 V c 0 t (ix2 p k) = (V c main_arg0 : S100000x128.Idx → EReal) (ix2 (((cfg0.win 3).blk t).view.emb (ix2 p q : S4000x128.Idx) 0) k) := by
  obtain ⟨e00, e01, e10, e11, e20, e21, e30, e31, e40, e41⟩ := idx_facts t
  have hp := p.isLt
  have hq := q.isLt
  refine congrArg (V c main_arg0 : S100000x128.Idx → EReal) ?_
  show ((cfg0.win 0).blk t).view.emb (ix2 p k : S4000x128.Idx) = (ix2 (((cfg0.win 3).blk t).view.emb (ix2 p q : S4000x128.Idx) 0) k : S100000x128.Idx)
  funext a; apply Fin.ext
  match a with
  | ⟨0, _⟩ => show win0_0.index t (0 : Fin 2) * 4000 + 1 * p.val = win0_3.index t (0 : Fin 2) * 4000 + 1 * p.val; have := k.isLt; omega
  | ⟨1, _⟩ => show win0_0.index t (1 : Fin 2) * 128 + 1 * k.val = k.val; have := k.isLt; omega

set_option maxHeartbeats 1000000 in
/-- Window 1's block at point `t`, read where output window 3's element `(p, q)` needs it, is the array there. -/
theorem rd3_1 (c : Dev nD) (t : Fin cfg0.N) (p : Fin 4000) (q : Fin 128) (k : Fin 128) :
    iblk0 V c 1 t (ix2 k q) = (V c main_arg3 : S128x128.Idx → EReal) (ix2 k (((cfg0.win 3).blk t).view.emb (ix2 p q : S4000x128.Idx) 1)) := by
  obtain ⟨e00, e01, e10, e11, e20, e21, e30, e31, e40, e41⟩ := idx_facts t
  have hp := p.isLt
  have hq := q.isLt
  refine congrArg (V c main_arg3 : S128x128.Idx → EReal) ?_
  show ((cfg0.win 1).blk t).view.emb (ix2 k q : S128x128.Idx) = (ix2 k (((cfg0.win 3).blk t).view.emb (ix2 p q : S4000x128.Idx) 1) : S128x128.Idx)
  funext a; apply Fin.ext
  match a with
  | ⟨0, _⟩ => show win0_1.index t (0 : Fin 2) * 128 + 1 * k.val = k.val; have := k.isLt; omega
  | ⟨1, _⟩ => show win0_1.index t (1 : Fin 2) * 128 + 1 * q.val = win0_3.index t (1 : Fin 2) * 128 + 1 * q.val; have := k.isLt; omega

set_option maxHeartbeats 1000000 in
/-- What point `t` writes back into output window 3 is block `t` of the product of the arrays as the region finds them. -/
theorem flushed3 (c : Dev nD) (t : Fin cfg0.N) :
    (dat0 V c).flushed 3 t = ((cfg0.win 3).blk t).view.read (Elt Ideal)
      (prod (V c main_arg0) (V c main_arg3)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  refine funext fun (j : S4000x128.Idx) => ?_
  obtain ⟨p, q, rfl⟩ : ∃ (p : Fin 4000) (q : Fin 128), j = ix2 p q := ⟨j 0, j 1, eq_ix2 j⟩
  refine (pay0_1 (iblk0 V c 0 t) (iblk0 V c 1 t) p q).trans ?_
  simp only [rd3_0 V c t p q, rd3_1 V c t p q]
  rfl

/-- An index of the array is in point `t`'s block iff each coordinate is in the block's range on its axis. -/
theorem mem_blk3 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v8_0).slice (win0_3.rect t)).set ↔ _
  rw [View.set_slice_whole, Rect.mem_set_unit]
  exact Iff.rfl

/-- Every index of the array lies in the block of the point that holds its row: point `row / 4000`. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_3 _, ?_⟩
  rw [mem_blk3]
  obtain ⟨e00, e01, e10, e11, e20, e21, e30, e31, e40, e41⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e30]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e31]; omega

/-- The array of output window 3 after the region. -/
theorem final3 (c : Dev nD) :
    (dat0 V c).arrAt 3 cfg0.N = prod (V c main_arg0) (V c main_arg3) :=
  (dat0 V c).arrAt_eq_of_cover 3 _ (fun t _ => flushed3 V c t) cover3

set_option maxHeartbeats 1000000 in
/-- Window 0's block at point `t`, read where output window 4's element `(p, q)` needs it, is the array there. -/
theorem rd4_0 (c : Dev nD) (t : Fin cfg0.N) (p : Fin 4000) (q : Fin 128) (k : Fin 128) :
    iblk0 V c 0 t (ix2 p k) = (V c main_arg0 : S100000x128.Idx → EReal) (ix2 (((cfg0.win 4).blk t).view.emb (ix2 p q : S4000x128.Idx) 0) k) := by
  obtain ⟨e00, e01, e10, e11, e20, e21, e30, e31, e40, e41⟩ := idx_facts t
  have hp := p.isLt
  have hq := q.isLt
  refine congrArg (V c main_arg0 : S100000x128.Idx → EReal) ?_
  show ((cfg0.win 0).blk t).view.emb (ix2 p k : S4000x128.Idx) = (ix2 (((cfg0.win 4).blk t).view.emb (ix2 p q : S4000x128.Idx) 0) k : S100000x128.Idx)
  funext a; apply Fin.ext
  match a with
  | ⟨0, _⟩ => show win0_0.index t (0 : Fin 2) * 4000 + 1 * p.val = win0_4.index t (0 : Fin 2) * 4000 + 1 * p.val; have := k.isLt; omega
  | ⟨1, _⟩ => show win0_0.index t (1 : Fin 2) * 128 + 1 * k.val = k.val; have := k.isLt; omega

set_option maxHeartbeats 1000000 in
/-- Window 1's block at point `t`, read where output window 4's element `(p, q)` needs it, is the array there. -/
theorem rd4_1 (c : Dev nD) (t : Fin cfg0.N) (p : Fin 4000) (q : Fin 128) (k : Fin 128) :
    iblk0 V c 1 t (ix2 k q) = (V c main_arg3 : S128x128.Idx → EReal) (ix2 k (((cfg0.win 4).blk t).view.emb (ix2 p q : S4000x128.Idx) 1)) := by
  obtain ⟨e00, e01, e10, e11, e20, e21, e30, e31, e40, e41⟩ := idx_facts t
  have hp := p.isLt
  have hq := q.isLt
  refine congrArg (V c main_arg3 : S128x128.Idx → EReal) ?_
  show ((cfg0.win 1).blk t).view.emb (ix2 k q : S128x128.Idx) = (ix2 k (((cfg0.win 4).blk t).view.emb (ix2 p q : S4000x128.Idx) 1) : S128x128.Idx)
  funext a; apply Fin.ext
  match a with
  | ⟨0, _⟩ => show win0_1.index t (0 : Fin 2) * 128 + 1 * k.val = k.val; have := k.isLt; omega
  | ⟨1, _⟩ => show win0_1.index t (1 : Fin 2) * 128 + 1 * q.val = win0_4.index t (1 : Fin 2) * 128 + 1 * q.val; have := k.isLt; omega

set_option maxHeartbeats 1000000 in
/-- Window 2's block at point `t`, read where output window 4's element `(p, q)` needs it, is the array there. -/
theorem rd4_2 (c : Dev nD) (t : Fin cfg0.N) (p : Fin 4000) (q : Fin 128) :
    iblk0 V c 2 t (ix2 p (0 : Fin 1)) = (V c main_v7 : S100000x1.Idx → EReal) (ix2 (((cfg0.win 4).blk t).view.emb (ix2 p q : S4000x128.Idx) 0) (0 : Fin 1)) := by
  obtain ⟨e00, e01, e10, e11, e20, e21, e30, e31, e40, e41⟩ := idx_facts t
  have hp := p.isLt
  have hq := q.isLt
  refine congrArg (V c main_v7 : S100000x1.Idx → EReal) ?_
  show ((cfg0.win 2).blk t).view.emb (ix2 p (0 : Fin 1) : S4000x1.Idx) = (ix2 (((cfg0.win 4).blk t).view.emb (ix2 p q : S4000x128.Idx) 0) (0 : Fin 1) : S100000x1.Idx)
  funext a; apply Fin.ext
  match a with
  | ⟨0, _⟩ => show win0_2.index t (0 : Fin 2) * 4000 + 1 * p.val = win0_4.index t (0 : Fin 2) * 4000 + 1 * p.val; omega
  | ⟨1, _⟩ => show win0_2.index t (1 : Fin 2) * 1 + 1 * 0 = 0; omega

set_option maxHeartbeats 1000000 in
/-- What point `t` writes back into output window 4 is block `t` of the scaled product of the arrays as the region finds them. -/
theorem flushed4 (c : Dev nD) (t : Fin cfg0.N) :
    (dat0 V c).flushed 4 t = ((cfg0.win 4).blk t).view.read (Elt Ideal)
      (prodScaled (V c main_arg0) (V c main_arg3) (V c main_v7)) := by
  show (cfg0.win 4).cut (grid0.coords t) ((dat0 V c).after 4 t) = _
  rw [after0_4]
  unfold out0_4
  rw [View.canon_unit_zero hz]
  simp only [View.ld_unit_zero (S := S4000x128) hz, View.ld_unit_zero (S := S128x128) hz, View.ld_unit_zero (S := S4000x1) hz]
  refine funext fun (j : S4000x128.Idx) => ?_
  obtain ⟨p, q, rfl⟩ : ∃ (p : Fin 4000) (q : Fin 128), j = ix2 p q := ⟨j 0, j 1, eq_ix2 j⟩
  refine (pay0_2 (iblk0 V c 0 t) (iblk0 V c 1 t) (iblk0 V c 2 t) p q).trans ?_
  simp only [rd4_0 V c t p q, rd4_1 V c t p q, rd4_2 V c t p q]
  rfl

/-- An index of the array is in point `t`'s block iff each coordinate is in the block's range on its axis. -/
theorem mem_blk4 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v8_1).slice (win0_4.rect t)).set ↔ _
  rw [View.set_slice_whole, Rect.mem_set_unit]
  exact Iff.rfl

/-- Every index of the array lies in the block of the point that holds its row: point `row / 4000`. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_4 _, ?_⟩
  rw [mem_blk4]
  obtain ⟨e00, e01, e10, e11, e20, e21, e30, e31, e40, e41⟩ := idx_facts ⟨(i 0).val / 4000, by rw [hN]; omega⟩
  intro a
  match a with
  | ⟨0, _⟩ =>
    show win0_4.index _ (0 : Fin 2) * 4000 ≤ (i 0).val ∧ (i 0).val < win0_4.index _ (0 : Fin 2) * 4000 + 4000
    rw [e40]; show (i 0).val / 4000 * 4000 ≤ (i 0).val ∧ (i 0).val < (i 0).val / 4000 * 4000 + 4000; omega
  | ⟨1, _⟩ =>
    show win0_4.index _ (1 : Fin 2) * 128 ≤ (i 1).val ∧ (i 1).val < win0_4.index _ (1 : Fin 2) * 128 + 128
    rw [e41]; omega

/-- The array of output window 4 after the region. -/
theorem final4 (c : Dev nD) :
    (dat0 V c).arrAt 4 cfg0.N = prodScaled (V c main_arg0) (V c main_arg3) (V c main_v7) :=
  (dat0 V c).arrAt_eq_of_cover 4 _ (fun t _ => flushed4 V c t) cover4

end Cert.KernelIdeal.KReg0

end
-- ==== Proof.KReg1.lean ====
import proofs.«139699_j335007449371_2_alg».proof.Proof.Gen.KernelIdeal.Frame
import proofs.«139699_j335007449371_2_alg».proof.Proof.KPay
import Idealize.ShloMosaic.Lib.Pipeline.Value

/-!
  The combination region: with `d` the column of row factors, the array it leaves is, at node row `r` and feature `c`,
  `agg (r, c) · d r + h (r, c) · d r ² + b c`.

  The region walks 25 blocks of 4000 rows; at block `t` it reads rows `4000 t … 4000 t + 3999` of the feature, aggregate
  and factor arrays and the whole bias row, and writes the same rows of the result. Each point writes the block of ONE
  whole-array function, and the 25 blocks tile the array, so the array ends holding that function.
-/

set_option maxRecDepth 16384

open scoped BigOperators

noncomputable section

namespace Cert.KernelIdeal.KReg1

open Cert.KernelIdeal Cert.KernelIdeal.Gen Cert.KernelIdeal.KPay Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is `(t, 0)`, a whole-array window's `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The combination as one function of whole arrays. -/
def comb (H AGG : S100000x128.Idx → EReal) (D : S100000x1.Idx → EReal) (B : S1x128.Idx → EReal) : S100000x128.Idx → EReal :=
  fun i => (AGG i * D (ix2 (i 0) 0) + H i * (D (ix2 (i 0) 0) * D (ix2 (i 0) 0))) + B (ix2 0 (i 1))

set_option maxHeartbeats 1000000 in
/-- Window 1's block at point `t`, read where output window 4's element `(p, q)` needs it, is the array there. -/
theorem rd4_0 (c : Dev nD) (t : Fin cfg1.N) (p : Fin 4000) (q : Fin 128) :
    iblk1 V c 1 t (ix2 p q) = (V c main_v18 : S100000x128.Idx → EReal) (((cfg1.win 4).blk t).view.emb (ix2 p q : S4000x128.Idx)) := by
  obtain ⟨e00, e01, e10, e11, e20, e21, e30, e31, e40, e41⟩ := idx_facts t
  have hp := p.isLt
  have hq := q.isLt
  refine congrArg (V c main_v18 : S100000x128.Idx → EReal) ?_
  show ((cfg1.win 1).blk t).view.emb (ix2 p q : S4000x128.Idx) = (((cfg1.win 4).blk t).view.emb (ix2 p q : S4000x128.Idx) : S100000x128.Idx)
  funext a; apply Fin.ext
  match a with
  | ⟨0, _⟩ => show win1_1.index t (0 : Fin 2) * 4000 + 1 * p.val = win1_4.index t (0 : Fin 2) * 4000 + 1 * p.val; omega
  | ⟨1, _⟩ => show win1_1.index t (1 : Fin 2) * 128 + 1 * q.val = win1_4.index t (1 : Fin 2) * 128 + 1 * q.val; omega

set_option maxHeartbeats 1000000 in
/-- Window 2's block at point `t`, read where output window 4's element `(p, q)` needs it, is the array there. -/
theorem rd4_1 (c : Dev nD) (t : Fin cfg1.N) (p : Fin 4000) (q : Fin 128) :
    iblk1 V c 2 t (ix2 p (0 : Fin 1)) = (V c main_v19 : S100000x1.Idx → EReal) (ix2 (((cfg1.win 4).blk t).view.emb (ix2 p q : S4000x128.Idx) 0) (0 : Fin 1)) := by
  obtain ⟨e00, e01, e10, e11, e20, e21, e30, e31, e40, e41⟩ := idx_facts t
  have hp := p.isLt
  have hq := q.isLt
  refine congrArg (V c main_v19 : S100000x1.Idx → EReal) ?_
  show ((cfg1.win 2).blk t).view.emb (ix2 p (0 : Fin 1) : S4000x1.Idx) = (ix2 (((cfg1.win 4).blk t).view.emb (ix2 p q : S4000x128.Idx) 0) (0 : Fin 1) : S100000x1.Idx)
  funext a; apply Fin.ext
  match a with
  | ⟨0, _⟩ => show win1_2.index t (0 : Fin 2) * 4000 + 1 * p.val = win1_4.index t (0 : Fin 2) * 4000 + 1 * p.val; omega
  | ⟨1, _⟩ => show win1_2.index t (1 : Fin 2) * 1 + 1 * 0 = 0; omega

set_option maxHeartbeats 1000000 in
/-- Window 0's block at point `t`, read where output window 4's element `(p, q)` needs it, is the array there. -/
theorem rd4_2 (c : Dev nD) (t : Fin cfg1.N) (p : Fin 4000) (q : Fin 128) :
    iblk1 V c 0 t (ix2 p q) = (V c main_v8_0 : S100000x128.Idx → EReal) (((cfg1.win 4).blk t).view.emb (ix2 p q : S4000x128.Idx)) := by
  obtain ⟨e00, e01, e10, e11, e20, e21, e30, e31, e40, e41⟩ := idx_facts t
  have hp := p.isLt
  have hq := q.isLt
  refine congrArg (V c main_v8_0 : S100000x128.Idx → EReal) ?_
  show ((cfg1.win 0).blk t).view.emb (ix2 p q : S4000x128.Idx) = (((cfg1.win 4).blk t).view.emb (ix2 p q : S4000x128.Idx) : S100000x128.Idx)
  funext a; apply Fin.ext
  match a with
  | ⟨0, _⟩ => show win1_0.index t (0 : Fin 2) * 4000 + 1 * p.val = win1_4.index t (0 : Fin 2) * 4000 + 1 * p.val; omega
  | ⟨1, _⟩ => show win1_0.index t (1 : Fin 2) * 128 + 1 * q.val = win1_4.index t (1 : Fin 2) * 128 + 1 * q.val; omega

set_option maxHeartbeats 1000000 in
/-- Window 3's block at point `t`, read where output window 4's element `(p, q)` needs it, is the array there. -/
theorem rd4_3 (c : Dev nD) (t : Fin cfg1.N) (p : Fin 4000) (q : Fin 128) :
    iblk1 V c 3 t (ix2 (0 : Fin 1) q) = (V c main_v20 : S1x128.Idx → EReal) (ix2 (0 : Fin 1) (((cfg1.win 4).blk t).view.emb (ix2 p q : S4000x128.Idx) 1)) := by
  obtain ⟨e00, e01, e10, e11, e20, e21, e30, e31, e40, e41⟩ := idx_facts t
  have hp := p.isLt
  have hq := q.isLt
  refine congrArg (V c main_v20 : S1x128.Idx → EReal) ?_
  show ((cfg1.win 3).blk t).view.emb (ix2 (0 : Fin 1) q : S1x128.Idx) = (ix2 (0 : Fin 1) (((cfg1.win 4).blk t).view.emb (ix2 p q : S4000x128.Idx) 1) : S1x128.Idx)
  funext a; apply Fin.ext
  match a with
  | ⟨0, _⟩ => show win1_3.index t (0 : Fin 2) * 1 + 1 * 0 = 0; omega
  | ⟨1, _⟩ => show win1_3.index t (1 : Fin 2) * 128 + 1 * q.val = win1_4.index t (1 : Fin 2) * 128 + 1 * q.val; omega

set_option maxHeartbeats 1000000 in
/-- What point `t` writes back into output window 4 is block `t` of the combination of the arrays as the region finds them. -/
theorem flushed4 (c : Dev nD) (t : Fin cfg1.N) :
    (dat1 V c).flushed 4 t = ((cfg1.win 4).blk t).view.read (Elt Ideal)
      (comb (V c main_v8_0) (V c main_v18) (V c main_v19) (V c main_v20)) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  refine (pay1_1 (iblk1 V c 2 t) (iblk1 V c 1 t) (iblk1 V c 0 t) (iblk1 V c 3 t) p q).trans ?_
  rw [rd4_0 V c t p q, rd4_1 V c t p q, rd4_2 V c t p q, rd4_3 V c t p q]
  rfl

/-- An index of the array is in point `t`'s block iff each coordinate is in the block's range on its axis. -/
theorem mem_blk4 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v21).slice (win1_4.rect t)).set ↔ _
  rw [View.set_slice_whole, Rect.mem_set_unit]
  exact Iff.rfl

/-- Every index of the array lies in the block of the point that holds its row: point `row / 4000`. -/
theorem cover4 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_4 _, ?_⟩
  rw [mem_blk4]
  obtain ⟨e00, e01, e10, e11, e20, e21, e30, e31, e40, e41⟩ := idx_facts ⟨(i 0).val / 4000, by rw [hN]; omega⟩
  intro a
  match a with
  | ⟨0, _⟩ =>
    show win1_4.index _ (0 : Fin 2) * 4000 ≤ (i 0).val ∧ (i 0).val < win1_4.index _ (0 : Fin 2) * 4000 + 4000
    rw [e40]; show (i 0).val / 4000 * 4000 ≤ (i 0).val ∧ (i 0).val < (i 0).val / 4000 * 4000 + 4000; omega
  | ⟨1, _⟩ =>
    show win1_4.index _ (1 : Fin 2) * 128 ≤ (i 1).val ∧ (i 1).val < win1_4.index _ (1 : Fin 2) * 128 + 128
    rw [e41]; omega

/-- The array of output window 4 after the region. -/
theorem final4 (c : Dev nD) :
    (dat1 V c).arrAt 4 cfg1.N = comb (V c main_v8_0) (V c main_v18) (V c main_v19) (V c main_v20) :=
  (dat1 V c).arrAt_eq_of_cover 4 _ (fun t _ => flushed4 V c t) cover4

end Cert.KernelIdeal.KReg1

end
-- ==== Proof.KReg2.lean ====
import proofs.«139699_j335007449371_2_alg».proof.Proof.Gen.KernelIdeal.Frame
import proofs.«139699_j335007449371_2_alg».proof.Proof.KPay
import Idealize.ShloMosaic.Lib.Pipeline.Value

/-!
  A normalise–scale–shift–rectify of the incoming features, then their product with a weight matrix, and that product scaled row by row.

  The region walks 25 blocks of 4000 node rows; at block `t` it reads rows `4000 t … 4000 t + 3999` of the row-blocked
  arrays and the whole of the small ones, and writes the same rows of its two results. Each point writes the block of ONE
  whole-array function, and the 25 blocks tile the array, so each result array ends holding that function.
-/

set_option maxRecDepth 16384

open scoped BigOperators

noncomputable section

namespace Cert.KernelIdeal.KReg2

open Cert.KernelIdeal Cert.KernelIdeal.Gen Cert.KernelIdeal.KPay Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is `(t, 0)`, a whole-array window's `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The rectified, normalised features at node `r`, feature `k`. -/
def actArr (PA : S100000x128.Idx → EReal) (MU IS G BE : S1x128.Idx → EReal) (r : Fin 100000) (k : Fin 128) : EReal :=
  max ((((PA (ix2 r k) - MU (ix2 0 k)) * IS (ix2 0 k)) * G (ix2 0 k)) + BE (ix2 0 k)) Gcn.zero

/-- Their product with the weight matrix, as one function of whole arrays. -/
def prodAct (PA : S100000x128.Idx → EReal) (MU IS G BE : S1x128.Idx → EReal) (W : S128x128.Idx → EReal) : S100000x128.Idx → EReal :=
  fun i => ∑ k : Fin 128, actArr PA MU IS G BE (i 0) k * W (ix2 k (i 1))

/-- The product scaled row by row. -/
def prodActScaled (PA : S100000x128.Idx → EReal) (MU IS G BE : S1x128.Idx → EReal) (W : S128x128.Idx → EReal) (D : S100000x1.Idx → EReal) :
    S100000x128.Idx → EReal :=
  fun i => prodAct PA MU IS G BE W i * D (ix2 (i 0) 0)

set_option maxHeartbeats 1000000 in
/-- Window 0's block at point `t`, read where output window 7's element `(p, q)` needs it, is the array there. -/
theorem rd7_0 (c : Dev nD) (t : Fin cfg2.N) (p : Fin 4000) (q : Fin 128) (k : Fin 128) :
    iblk2 V c 0 t (ix2 p k) = (V c main_v21 : S100000x128.Idx → EReal) (ix2 (((cfg2.win 7).blk t).view.emb (ix2 p q : S4000x128.Idx) 0) k) := by
  obtain ⟨e00, e01, e10, e11, e20, e21, e30, e31, e40, e41, e50, e51, e60, e61, e70, e71, e80, e81⟩ := idx_facts t
  have hp := p.isLt
  have hq := q.isLt
  refine congrArg (V c main_v21 : S100000x128.Idx → EReal) ?_
  show ((cfg2.win 0).blk t).view.emb (ix2 p k : S4000x128.Idx) = (ix2 (((cfg2.win 7).blk t).view.emb (ix2 p q : S4000x128.Idx) 0) k : S100000x128.Idx)
  funext a; apply Fin.ext
  match a with
  | ⟨0, _⟩ => show win2_0.index t (0 : Fin 2) * 4000 + 1 * p.val = win2_7.index t (0 : Fin 2) * 4000 + 1 * p.val; have := k.isLt; omega
  | ⟨1, _⟩ => show win2_0.index t (1 : Fin 2) * 128 + 1 * k.val = k.val; have := k.isLt; omega

set_option maxHeartbeats 1000000 in
/-- Window 1's block at point `t`, read where output window 7's element `(p, q)` needs it, is the array there. -/
theorem rd7_1 (c : Dev nD) (t : Fin cfg2.N) (p : Fin 4000) (q : Fin 128) (k : Fin 128) :
    iblk2 V c 1 t (ix2 (0 : Fin 1) k) = (V c main_v35 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v35 : S1x128.Idx → EReal) ?_
  show ((cfg2.win 1).blk t).view.emb (ix2 (0 : Fin 1) k : S1x128.Idx) = (ix2 (0 : Fin 1) k : S1x128.Idx)
  funext a; apply Fin.ext
  match a with
  | ⟨0, _⟩ => show win2_1.index t (0 : Fin 2) * 1 + 1 * 0 = 0; have := k.isLt; omega
  | ⟨1, _⟩ => show win2_1.index t (1 : Fin 2) * 128 + 1 * k.val = k.val; have := k.isLt; omega

set_option maxHeartbeats 1000000 in
/-- Window 2's block at point `t`, read where output window 7's element `(p, q)` needs it, is the array there. -/
theorem rd7_2 (c : Dev nD) (t : Fin cfg2.N) (p : Fin 4000) (q : Fin 128) (k : Fin 128) :
    iblk2 V c 2 t (ix2 (0 : Fin 1) k) = (V c main_v36 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v36 : S1x128.Idx → EReal) ?_
  show ((cfg2.win 2).blk t).view.emb (ix2 (0 : Fin 1) k : S1x128.Idx) = (ix2 (0 : Fin 1) k : S1x128.Idx)
  funext a; apply Fin.ext
  match a with
  | ⟨0, _⟩ => show win2_2.index t (0 : Fin 2) * 1 + 1 * 0 = 0; have := k.isLt; omega
  | ⟨1, _⟩ => show win2_2.index t (1 : Fin 2) * 128 + 1 * k.val = k.val; have := k.isLt; omega

set_option maxHeartbeats 1000000 in
/-- Window 3's block at point `t`, read where output window 7's element `(p, q)` needs it, is the array there. -/
theorem rd7_3 (c : Dev nD) (t : Fin cfg2.N) (p : Fin 4000) (q : Fin 128) (k : Fin 128) :
    iblk2 V c 3 t (ix2 (0 : Fin 1) k) = (V c main_v37 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v37 : S1x128.Idx → EReal) ?_
  show ((cfg2.win 3).blk t).view.emb (ix2 (0 : Fin 1) k : S1x128.Idx) = (ix2 (0 : Fin 1) k : S1x128.Idx)
  funext a; apply Fin.ext
  match a with
  | ⟨0, _⟩ => show win2_3.index t (0 : Fin 2) * 1 + 1 * 0 = 0; have := k.isLt; omega
  | ⟨1, _⟩ => show win2_3.index t (1 : Fin 2) * 128 + 1 * k.val = k.val; have := k.isLt; omega

set_option maxHeartbeats 1000000 in
/-- Window 4's block at point `t`, read where output window 7's element `(p, q)` needs it, is the array there. -/
theorem rd7_4 (c : Dev nD) (t : Fin cfg2.N) (p : Fin 4000) (q : Fin 128) (k : Fin 128) :
    iblk2 V c 4 t (ix2 (0 : Fin 1) k) = (V c main_v38 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v38 : S1x128.Idx → EReal) ?_
  show ((cfg2.win 4).blk t).view.emb (ix2 (0 : Fin 1) k : S1x128.Idx) = (ix2 (0 : Fin 1) k : S1x128.Idx)
  funext a; apply Fin.ext
  match a with
  | ⟨0, _⟩ => show win2_4.index t (0 : Fin 2) * 1 + 1 * 0 = 0; have := k.isLt; omega
  | ⟨1, _⟩ => show win2_4.index t (1 : Fin 2) * 128 + 1 * k.val = k.val; have := k.isLt; omega

set_option maxHeartbeats 1000000 in
/-- Window 5's block at point `t`, read where output window 7's element `(p, q)` needs it, is the array there. -/
theorem rd7_5 (c : Dev nD) (t : Fin cfg2.N) (p : Fin 4000) (q : Fin 128) (k : Fin 128) :
    iblk2 V c 5 t (ix2 k q) = (V c main_arg5 : S128x128.Idx → EReal) (ix2 k (((cfg2.win 7).blk t).view.emb (ix2 p q : S4000x128.Idx) 1)) := by
  obtain ⟨e00, e01, e10, e11, e20, e21, e30, e31, e40, e41, e50, e51, e60, e61, e70, e71, e80, e81⟩ := idx_facts t
  have hp := p.isLt
  have hq := q.isLt
  refine congrArg (V c main_arg5 : S128x128.Idx → EReal) ?_
  show ((cfg2.win 5).blk t).view.emb (ix2 k q : S128x128.Idx) = (ix2 k (((cfg2.win 7).blk t).view.emb (ix2 p q : S4000x128.Idx) 1) : S128x128.Idx)
  funext a; apply Fin.ext
  match a with
  | ⟨0, _⟩ => show win2_5.index t (0 : Fin 2) * 128 + 1 * k.val = k.val; have := k.isLt; omega
  | ⟨1, _⟩ => show win2_5.index t (1 : Fin 2) * 128 + 1 * q.val = win2_7.index t (1 : Fin 2) * 128 + 1 * q.val; have := k.isLt; omega

set_option maxHeartbeats 1000000 in
/-- What point `t` writes back into output window 7 is block `t` of the product of the rectified features of the arrays as the region finds them. -/
theorem flushed7 (c : Dev nD) (t : Fin cfg2.N) :
    (dat2 V c).flushed 7 t = ((cfg2.win 7).blk t).view.read (Elt Ideal)
      (prodAct (V c main_v21) (V c main_v35) (V c main_v36) (V c main_v37) (V c main_v38) (V c main_arg5)) := by
  show (cfg2.win 7).cut (grid2.coords t) ((dat2 V c).after 7 t) = _
  rw [after2_7]
  unfold out2_7
  rw [View.canon_unit_zero hz]
  simp only [View.ld_unit_zero (S := S4000x128) hz, View.ld_unit_zero (S := S1x128) hz, View.ld_unit_zero (S := S128x128) hz, View.ld_unit_zero (S := S4000x1) hz]
  refine funext fun (j : S4000x128.Idx) => ?_
  obtain ⟨p, q, rfl⟩ : ∃ (p : Fin 4000) (q : Fin 128), j = ix2 p q := ⟨j 0, j 1, eq_ix2 j⟩
  refine (pay2_1 (iblk2 V c 0 t) (iblk2 V c 1 t) (iblk2 V c 2 t) (iblk2 V c 3 t) (iblk2 V c 4 t) (iblk2 V c 5 t) p q).trans ?_
  simp only [actBlk2, rd7_0 V c t p q, rd7_1 V c t p q, rd7_2 V c t p q, rd7_3 V c t p q, rd7_4 V c t p q, rd7_5 V c t p q]
  rfl

/-- An index of the array is in point `t`'s block iff each coordinate is in the block's range on its axis. -/
theorem mem_blk7 (t : Fin cfg2.N) (i : S100000x128.Idx) :
    i ∈ ((cfg2.win 7).blk t).view.set ↔ ∀ a : Fin 2, win2_7.index t a * S4000x128.size a ≤ (i a).val
      ∧ (i a).val < win2_7.index t a * S4000x128.size a + S4000x128.size a := by
  show i ∈ ((View.whole main_v40_0).slice (win2_7.rect t)).set ↔ _
  rw [View.set_slice_whole, Rect.mem_set_unit]
  exact Iff.rfl

/-- Every index of the array lies in the block of the point that holds its row: point `row / 4000`. -/
theorem cover7 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 25 := N_2
  refine ⟨⟨(i 0).val / 4000, by rw [hN]; omega⟩, flush2_7 _, ?_⟩
  rw [mem_blk7]
  obtain ⟨e00, e01, e10, e11, e20, e21, e30, e31, e40, e41, e50, e51, e60, e61, e70, e71, e80, e81⟩ := idx_facts ⟨(i 0).val / 4000, by rw [hN]; omega⟩
  intro a
  match a with
  | ⟨0, _⟩ =>
    show win2_7.index _ (0 : Fin 2) * 4000 ≤ (i 0).val ∧ (i 0).val < win2_7.index _ (0 : Fin 2) * 4000 + 4000
    rw [e70]; show (i 0).val / 4000 * 4000 ≤ (i 0).val ∧ (i 0).val < (i 0).val / 4000 * 4000 + 4000; omega
  | ⟨1, _⟩ =>
    show win2_7.index _ (1 : Fin 2) * 128 ≤ (i 1).val ∧ (i 1).val < win2_7.index _ (1 : Fin 2) * 128 + 128
    rw [e71]; omega

/-- The array of output window 7 after the region. -/
theorem final7 (c : Dev nD) :
    (dat2 V c).arrAt 7 cfg2.N = prodAct (V c main_v21) (V c main_v35) (V c main_v36) (V c main_v37) (V c main_v38) (V c main_arg5) :=
  (dat2 V c).arrAt_eq_of_cover 7 _ (fun t _ => flushed7 V c t) cover7

set_option maxHeartbeats 1000000 in
/-- Window 0's block at point `t`, read where output window 8's element `(p, q)` needs it, is the array there. -/
theorem rd8_0 (c : Dev nD) (t : Fin cfg2.N) (p : Fin 4000) (q : Fin 128) (k : Fin 128) :
    iblk2 V c 0 t (ix2 p k) = (V c main_v21 : S100000x128.Idx → EReal) (ix2 (((cfg2.win 8).blk t).view.emb (ix2 p q : S4000x128.Idx) 0) k) := by
  obtain ⟨e00, e01, e10, e11, e20, e21, e30, e31, e40, e41, e50, e51, e60, e61, e70, e71, e80, e81⟩ := idx_facts t
  have hp := p.isLt
  have hq := q.isLt
  refine congrArg (V c main_v21 : S100000x128.Idx → EReal) ?_
  show ((cfg2.win 0).blk t).view.emb (ix2 p k : S4000x128.Idx) = (ix2 (((cfg2.win 8).blk t).view.emb (ix2 p q : S4000x128.Idx) 0) k : S100000x128.Idx)
  funext a; apply Fin.ext
  match a with
  | ⟨0, _⟩ => show win2_0.index t (0 : Fin 2) * 4000 + 1 * p.val = win2_8.index t (0 : Fin 2) * 4000 + 1 * p.val; have := k.isLt; omega
  | ⟨1, _⟩ => show win2_0.index t (1 : Fin 2) * 128 + 1 * k.val = k.val; have := k.isLt; omega

set_option maxHeartbeats 1000000 in
/-- Window 1's block at point `t`, read where output window 8's element `(p, q)` needs it, is the array there. -/
theorem rd8_1 (c : Dev nD) (t : Fin cfg2.N) (p : Fin 4000) (q : Fin 128) (k : Fin 128) :
    iblk2 V c 1 t (ix2 (0 : Fin 1) k) = (V c main_v35 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v35 : S1x128.Idx → EReal) ?_
  show ((cfg2.win 1).blk t).view.emb (ix2 (0 : Fin 1) k : S1x128.Idx) = (ix2 (0 : Fin 1) k : S1x128.Idx)
  funext a; apply Fin.ext
  match a with
  | ⟨0, _⟩ => show win2_1.index t (0 : Fin 2) * 1 + 1 * 0 = 0; have := k.isLt; omega
  | ⟨1, _⟩ => show win2_1.index t (1 : Fin 2) * 128 + 1 * k.val = k.val; have := k.isLt; omega

set_option maxHeartbeats 1000000 in
/-- Window 2's block at point `t`, read where output window 8's element `(p, q)` needs it, is the array there. -/
theorem rd8_2 (c : Dev nD) (t : Fin cfg2.N) (p : Fin 4000) (q : Fin 128) (k : Fin 128) :
    iblk2 V c 2 t (ix2 (0 : Fin 1) k) = (V c main_v36 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v36 : S1x128.Idx → EReal) ?_
  show ((cfg2.win 2).blk t).view.emb (ix2 (0 : Fin 1) k : S1x128.Idx) = (ix2 (0 : Fin 1) k : S1x128.Idx)
  funext a; apply Fin.ext
  match a with
  | ⟨0, _⟩ => show win2_2.index t (0 : Fin 2) * 1 + 1 * 0 = 0; have := k.isLt; omega
  | ⟨1, _⟩ => show win2_2.index t (1 : Fin 2) * 128 + 1 * k.val = k.val; have := k.isLt; omega

set_option maxHeartbeats 1000000 in
/-- Window 3's block at point `t`, read where output window 8's element `(p, q)` needs it, is the array there. -/
theorem rd8_3 (c : Dev nD) (t : Fin cfg2.N) (p : Fin 4000) (q : Fin 128) (k : Fin 128) :
    iblk2 V c 3 t (ix2 (0 : Fin 1) k) = (V c main_v37 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v37 : S1x128.Idx → EReal) ?_
  show ((cfg2.win 3).blk t).view.emb (ix2 (0 : Fin 1) k : S1x128.Idx) = (ix2 (0 : Fin 1) k : S1x128.Idx)
  funext a; apply Fin.ext
  match a with
  | ⟨0, _⟩ => show win2_3.index t (0 : Fin 2) * 1 + 1 * 0 = 0; have := k.isLt; omega
  | ⟨1, _⟩ => show win2_3.index t (1 : Fin 2) * 128 + 1 * k.val = k.val; have := k.isLt; omega

set_option maxHeartbeats 1000000 in
/-- Window 4's block at point `t`, read where output window 8's element `(p, q)` needs it, is the array there. -/
theorem rd8_4 (c : Dev nD) (t : Fin cfg2.N) (p : Fin 4000) (q : Fin 128) (k : Fin 128) :
    iblk2 V c 4 t (ix2 (0 : Fin 1) k) = (V c main_v38 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v38 : S1x128.Idx → EReal) ?_
  show ((cfg2.win 4).blk t).view.emb (ix2 (0 : Fin 1) k : S1x128.Idx) = (ix2 (0 : Fin 1) k : S1x128.Idx)
  funext a; apply Fin.ext
  match a with
  | ⟨0, _⟩ => show win2_4.index t (0 : Fin 2) * 1 + 1 * 0 = 0; have := k.isLt; omega
  | ⟨1, _⟩ => show win2_4.index t (1 : Fin 2) * 128 + 1 * k.val = k.val; have := k.isLt; omega

set_option maxHeartbeats 1000000 in
/-- Window 5's block at point `t`, read where output window 8's element `(p, q)` needs it, is the array there. -/
theorem rd8_5 (c : Dev nD) (t : Fin cfg2.N) (p : Fin 4000) (q : Fin 128) (k : Fin 128) :
    iblk2 V c 5 t (ix2 k q) = (V c main_arg5 : S128x128.Idx → EReal) (ix2 k (((cfg2.win 8).blk t).view.emb (ix2 p q : S4000x128.Idx) 1)) := by
  obtain ⟨e00, e01, e10, e11, e20, e21, e30, e31, e40, e41, e50, e51, e60, e61, e70, e71, e80, e81⟩ := idx_facts t
  have hp := p.isLt
  have hq := q.isLt
  refine congrArg (V c main_arg5 : S128x128.Idx → EReal) ?_
  show ((cfg2.win 5).blk t).view.emb (ix2 k q : S128x128.Idx) = (ix2 k (((cfg2.win 8).blk t).view.emb (ix2 p q : S4000x128.Idx) 1) : S128x128.Idx)
  funext a; apply Fin.ext
  match a with
  | ⟨0, _⟩ => show win2_5.index t (0 : Fin 2) * 128 + 1 * k.val = k.val; have := k.isLt; omega
  | ⟨1, _⟩ => show win2_5.index t (1 : Fin 2) * 128 + 1 * q.val = win2_8.index t (1 : Fin 2) * 128 + 1 * q.val; have := k.isLt; omega

set_option maxHeartbeats 1000000 in
/-- Window 6's block at point `t`, read where output window 8's element `(p, q)` needs it, is the array there. -/
theorem rd8_6 (c : Dev nD) (t : Fin cfg2.N) (p : Fin 4000) (q : Fin 128) :
    iblk2 V c 6 t (ix2 p (0 : Fin 1)) = (V c main_v39 : S100000x1.Idx → EReal) (ix2 (((cfg2.win 8).blk t).view.emb (ix2 p q : S4000x128.Idx) 0) (0 : Fin 1)) := by
  obtain ⟨e00, e01, e10, e11, e20, e21, e30, e31, e40, e41, e50, e51, e60, e61, e70, e71, e80, e81⟩ := idx_facts t
  have hp := p.isLt
  have hq := q.isLt
  refine congrArg (V c main_v39 : S100000x1.Idx → EReal) ?_
  show ((cfg2.win 6).blk t).view.emb (ix2 p (0 : Fin 1) : S4000x1.Idx) = (ix2 (((cfg2.win 8).blk t).view.emb (ix2 p q : S4000x128.Idx) 0) (0 : Fin 1) : S100000x1.Idx)
  funext a; apply Fin.ext
  match a with
  | ⟨0, _⟩ => show win2_6.index t (0 : Fin 2) * 4000 + 1 * p.val = win2_8.index t (0 : Fin 2) * 4000 + 1 * p.val; omega
  | ⟨1, _⟩ => show win2_6.index t (1 : Fin 2) * 1 + 1 * 0 = 0; omega

set_option maxHeartbeats 1000000 in
/-- What point `t` writes back into output window 8 is block `t` of the scaled product of the rectified features of the arrays as the region finds them. -/
theorem flushed8 (c : Dev nD) (t : Fin cfg2.N) :
    (dat2 V c).flushed 8 t = ((cfg2.win 8).blk t).view.read (Elt Ideal)
      (prodActScaled (V c main_v21) (V c main_v35) (V c main_v36) (V c main_v37) (V c main_v38) (V c main_arg5) (V c main_v39)) := by
  show (cfg2.win 8).cut (grid2.coords t) ((dat2 V c).after 8 t) = _
  rw [after2_8]
  unfold out2_8
  rw [View.canon_unit_zero hz]
  simp only [View.ld_unit_zero (S := S4000x128) hz, View.ld_unit_zero (S := S1x128) hz, View.ld_unit_zero (S := S128x128) hz, View.ld_unit_zero (S := S4000x1) hz]
  refine funext fun (j : S4000x128.Idx) => ?_
  obtain ⟨p, q, rfl⟩ : ∃ (p : Fin 4000) (q : Fin 128), j = ix2 p q := ⟨j 0, j 1, eq_ix2 j⟩
  refine (pay2_2 (iblk2 V c 0 t) (iblk2 V c 1 t) (iblk2 V c 2 t) (iblk2 V c 3 t) (iblk2 V c 4 t) (iblk2 V c 5 t) (iblk2 V c 6 t) p q).trans ?_
  simp only [actBlk2, rd8_0 V c t p q, rd8_1 V c t p q, rd8_2 V c t p q, rd8_3 V c t p q, rd8_4 V c t p q, rd8_5 V c t p q, rd8_6 V c t p q]
  rfl

/-- An index of the array is in point `t`'s block iff each coordinate is in the block's range on its axis. -/
theorem mem_blk8 (t : Fin cfg2.N) (i : S100000x128.Idx) :
    i ∈ ((cfg2.win 8).blk t).view.set ↔ ∀ a : Fin 2, win2_8.index t a * S4000x128.size a ≤ (i a).val
      ∧ (i a).val < win2_8.index t a * S4000x128.size a + S4000x128.size a := by
  show i ∈ ((View.whole main_v40_1).slice (win2_8.rect t)).set ↔ _
  rw [View.set_slice_whole, Rect.mem_set_unit]
  exact Iff.rfl

/-- Every index of the array lies in the block of the point that holds its row: point `row / 4000`. -/
theorem cover8 (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 25 := N_2
  refine ⟨⟨(i 0).val / 4000, by rw [hN]; omega⟩, flush2_8 _, ?_⟩
  rw [mem_blk8]
  obtain ⟨e00, e01, e10, e11, e20, e21, e30, e31, e40, e41, e50, e51, e60, e61, e70, e71, e80, e81⟩ := idx_facts ⟨(i 0).val / 4000, by rw [hN]; omega⟩
  intro a
  match a with
  | ⟨0, _⟩ =>
    show win2_8.index _ (0 : Fin 2) * 4000 ≤ (i 0).val ∧ (i 0).val < win2_8.index _ (0 : Fin 2) * 4000 + 4000
    rw [e80]; show (i 0).val / 4000 * 4000 ≤ (i 0).val ∧ (i 0).val < (i 0).val / 4000 * 4000 + 4000; omega
  | ⟨1, _⟩ =>
    show win2_8.index _ (1 : Fin 2) * 128 ≤ (i 1).val ∧ (i 1).val < win2_8.index _ (1 : Fin 2) * 128 + 128
    rw [e81]; omega

/-- The array of output window 8 after the region. -/
theorem final8 (c : Dev nD) :
    (dat2 V c).arrAt 8 cfg2.N = prodActScaled (V c main_v21) (V c main_v35) (V c main_v36) (V c main_v37) (V c main_v38) (V c main_arg5) (V c main_v39) :=
  (dat2 V c).arrAt_eq_of_cover 8 _ (fun t _ => flushed8 V c t) cover8

end Cert.KernelIdeal.KReg2

end
-- ==== Proof.KReg3.lean ====
import proofs.«139699_j335007449371_2_alg».proof.Proof.Gen.KernelIdeal.Frame
import proofs.«139699_j335007449371_2_alg».proof.Proof.KPay
import Idealize.ShloMosaic.Lib.Pipeline.Value

/-!
  The combination region: with `d` the column of row factors, the array it leaves is, at node row `r` and feature `c`,
  `agg (r, c) · d r + h (r, c) · d r ² + b c`.

  The region walks 25 blocks of 4000 rows; at block `t` it reads rows `4000 t … 4000 t + 3999` of the feature, aggregate
  and factor arrays and the whole bias row, and writes the same rows of the result. Each point writes the block of ONE
  whole-array function, and the 25 blocks tile the array, so the array ends holding that function.
-/

set_option maxRecDepth 16384

open scoped BigOperators

noncomputable section

namespace Cert.KernelIdeal.KReg3

open Cert.KernelIdeal Cert.KernelIdeal.Gen Cert.KernelIdeal.KPay Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is `(t, 0)`, a whole-array window's `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The combination as one function of whole arrays. -/
def comb (H AGG : S100000x128.Idx → EReal) (D : S100000x1.Idx → EReal) (B : S1x128.Idx → EReal) : S100000x128.Idx → EReal :=
  fun i => (AGG i * D (ix2 (i 0) 0) + H i * (D (ix2 (i 0) 0) * D (ix2 (i 0) 0))) + B (ix2 0 (i 1))

set_option maxHeartbeats 1000000 in
/-- Window 1's block at point `t`, read where output window 4's element `(p, q)` needs it, is the array there. -/
theorem rd4_0 (c : Dev nD) (t : Fin cfg3.N) (p : Fin 4000) (q : Fin 128) :
    iblk3 V c 1 t (ix2 p q) = (V c main_v50 : S100000x128.Idx → EReal) (((cfg3.win 4).blk t).view.emb (ix2 p q : S4000x128.Idx)) := by
  obtain ⟨e00, e01, e10, e11, e20, e21, e30, e31, e40, e41⟩ := idx_facts t
  have hp := p.isLt
  have hq := q.isLt
  refine congrArg (V c main_v50 : S100000x128.Idx → EReal) ?_
  show ((cfg3.win 1).blk t).view.emb (ix2 p q : S4000x128.Idx) = (((cfg3.win 4).blk t).view.emb (ix2 p q : S4000x128.Idx) : S100000x128.Idx)
  funext a; apply Fin.ext
  match a with
  | ⟨0, _⟩ => show win3_1.index t (0 : Fin 2) * 4000 + 1 * p.val = win3_4.index t (0 : Fin 2) * 4000 + 1 * p.val; omega
  | ⟨1, _⟩ => show win3_1.index t (1 : Fin 2) * 128 + 1 * q.val = win3_4.index t (1 : Fin 2) * 128 + 1 * q.val; omega

set_option maxHeartbeats 1000000 in
/-- Window 2's block at point `t`, read where output window 4's element `(p, q)` needs it, is the array there. -/
theorem rd4_1 (c : Dev nD) (t : Fin cfg3.N) (p : Fin 4000) (q : Fin 128) :
    iblk3 V c 2 t (ix2 p (0 : Fin 1)) = (V c main_v51 : S100000x1.Idx → EReal) (ix2 (((cfg3.win 4).blk t).view.emb (ix2 p q : S4000x128.Idx) 0) (0 : Fin 1)) := by
  obtain ⟨e00, e01, e10, e11, e20, e21, e30, e31, e40, e41⟩ := idx_facts t
  have hp := p.isLt
  have hq := q.isLt
  refine congrArg (V c main_v51 : S100000x1.Idx → EReal) ?_
  show ((cfg3.win 2).blk t).view.emb (ix2 p (0 : Fin 1) : S4000x1.Idx) = (ix2 (((cfg3.win 4).blk t).view.emb (ix2 p q : S4000x128.Idx) 0) (0 : Fin 1) : S100000x1.Idx)
  funext a; apply Fin.ext
  match a with
  | ⟨0, _⟩ => show win3_2.index t (0 : Fin 2) * 4000 + 1 * p.val = win3_4.index t (0 : Fin 2) * 4000 + 1 * p.val; omega
  | ⟨1, _⟩ => show win3_2.index t (1 : Fin 2) * 1 + 1 * 0 = 0; omega

set_option maxHeartbeats 1000000 in
/-- Window 0's block at point `t`, read where output window 4's element `(p, q)` needs it, is the array there. -/
theorem rd4_2 (c : Dev nD) (t : Fin cfg3.N) (p : Fin 4000) (q : Fin 128) :
    iblk3 V c 0 t (ix2 p q) = (V c main_v40_0 : S100000x128.Idx → EReal) (((cfg3.win 4).blk t).view.emb (ix2 p q : S4000x128.Idx)) := by
  obtain ⟨e00, e01, e10, e11, e20, e21, e30, e31, e40, e41⟩ := idx_facts t
  have hp := p.isLt
  have hq := q.isLt
  refine congrArg (V c main_v40_0 : S100000x128.Idx → EReal) ?_
  show ((cfg3.win 0).blk t).view.emb (ix2 p q : S4000x128.Idx) = (((cfg3.win 4).blk t).view.emb (ix2 p q : S4000x128.Idx) : S100000x128.Idx)
  funext a; apply Fin.ext
  match a with
  | ⟨0, _⟩ => show win3_0.index t (0 : Fin 2) * 4000 + 1 * p.val = win3_4.index t (0 : Fin 2) * 4000 + 1 * p.val; omega
  | ⟨1, _⟩ => show win3_0.index t (1 : Fin 2) * 128 + 1 * q.val = win3_4.index t (1 : Fin 2) * 128 + 1 * q.val; omega

set_option maxHeartbeats 1000000 in
/-- Window 3's block at point `t`, read where output window 4's element `(p, q)` needs it, is the array there. -/
theorem rd4_3 (c : Dev nD) (t : Fin cfg3.N) (p : Fin 4000) (q : Fin 128) :
    iblk3 V c 3 t (ix2 (0 : Fin 1) q) = (V c main_v52 : S1x128.Idx → EReal) (ix2 (0 : Fin 1) (((cfg3.win 4).blk t).view.emb (ix2 p q : S4000x128.Idx) 1)) := by
  obtain ⟨e00, e01, e10, e11, e20, e21, e30, e31, e40, e41⟩ := idx_facts t
  have hp := p.isLt
  have hq := q.isLt
  refine congrArg (V c main_v52 : S1x128.Idx → EReal) ?_
  show ((cfg3.win 3).blk t).view.emb (ix2 (0 : Fin 1) q : S1x128.Idx) = (ix2 (0 : Fin 1) (((cfg3.win 4).blk t).view.emb (ix2 p q : S4000x128.Idx) 1) : S1x128.Idx)
  funext a; apply Fin.ext
  match a with
  | ⟨0, _⟩ => show win3_3.index t (0 : Fin 2) * 1 + 1 * 0 = 0; omega
  | ⟨1, _⟩ => show win3_3.index t (1 : Fin 2) * 128 + 1 * q.val = win3_4.index t (1 : Fin 2) * 128 + 1 * q.val; omega

set_option maxHeartbeats 1000000 in
/-- What point `t` writes back into output window 4 is block `t` of the combination of the arrays as the region finds them. -/
theorem flushed4 (c : Dev nD) (t : Fin cfg3.N) :
    (dat3 V c).flushed 4 t = ((cfg3.win 4).blk t).view.read (Elt Ideal)
      (comb (V c main_v40_0) (V c main_v50) (V c main_v51) (V c main_v52)) := by
  show (cfg3.win 4).cut (grid3.coords t) ((dat3 V c).after 4 t) = _
  rw [after3_4]
  unfold out3_4
  rw [View.canon_unit_zero hz]
  simp only [View.ld_unit_zero (S := S4000x128) hz, View.ld_unit_zero (S := S4000x1) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  refine (pay3_1 (iblk3 V c 2 t) (iblk3 V c 1 t) (iblk3 V c 0 t) (iblk3 V c 3 t) p q).trans ?_
  rw [rd4_0 V c t p q, rd4_1 V c t p q, rd4_2 V c t p q, rd4_3 V c t p q]
  rfl

/-- An index of the array is in point `t`'s block iff each coordinate is in the block's range on its axis. -/
theorem mem_blk4 (t : Fin cfg3.N) (i : S100000x128.Idx) :
    i ∈ ((cfg3.win 4).blk t).view.set ↔ ∀ a : Fin 2, win3_4.index t a * S4000x128.size a ≤ (i a).val
      ∧ (i a).val < win3_4.index t a * S4000x128.size a + S4000x128.size a := by
  show i ∈ ((View.whole main_v53).slice (win3_4.rect t)).set ↔ _
  rw [View.set_slice_whole, Rect.mem_set_unit]
  exact Iff.rfl

/-- Every index of the array lies in the block of the point that holds its row: point `row / 4000`. -/
theorem cover4 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 25 := N_3
  refine ⟨⟨(i 0).val / 4000, by rw [hN]; omega⟩, flush3_4 _, ?_⟩
  rw [mem_blk4]
  obtain ⟨e00, e01, e10, e11, e20, e21, e30, e31, e40, e41⟩ := idx_facts ⟨(i 0).val / 4000, by rw [hN]; omega⟩
  intro a
  match a with
  | ⟨0, _⟩ =>
    show win3_4.index _ (0 : Fin 2) * 4000 ≤ (i 0).val ∧ (i 0).val < win3_4.index _ (0 : Fin 2) * 4000 + 4000
    rw [e40]; show (i 0).val / 4000 * 4000 ≤ (i 0).val ∧ (i 0).val < (i 0).val / 4000 * 4000 + 4000; omega
  | ⟨1, _⟩ =>
    show win3_4.index _ (1 : Fin 2) * 128 ≤ (i 1).val ∧ (i 1).val < win3_4.index _ (1 : Fin 2) * 128 + 128
    rw [e41]; omega

/-- The array of output window 4 after the region. -/
theorem final4 (c : Dev nD) :
    (dat3 V c).arrAt 4 cfg3.N = comb (V c main_v40_0) (V c main_v50) (V c main_v51) (V c main_v52) :=
  (dat3 V c).arrAt_eq_of_cover 4 _ (fun t _ => flushed4 V c t) cover4

end Cert.KernelIdeal.KReg3

end
-- ==== Proof.KReg4.lean ====
import proofs.«139699_j335007449371_2_alg».proof.Proof.Gen.KernelIdeal.Frame
import proofs.«139699_j335007449371_2_alg».proof.Proof.KPay
import Idealize.ShloMosaic.Lib.Pipeline.Value

/-!
  A normalise–scale–shift–rectify of the incoming features, then their product with a weight matrix, and that product scaled row by row.

  The region walks 25 blocks of 4000 node rows; at block `t` it reads rows `4000 t … 4000 t + 3999` of the row-blocked
  arrays and the whole of the small ones, and writes the same rows of its two results. Each point writes the block of ONE
  whole-array function, and the 25 blocks tile the array, so each result array ends holding that function.
-/

set_option maxRecDepth 16384

open scoped BigOperators

noncomputable section

namespace Cert.KernelIdeal.KReg4

open Cert.KernelIdeal Cert.KernelIdeal.Gen Cert.KernelIdeal.KPay Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is `(t, 0)`, a whole-array window's `(0, 0)`. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- The rectified, normalised features at node `r`, feature `k`. -/
def actArr (PA : S100000x128.Idx → EReal) (MU IS G BE : S1x128.Idx → EReal) (r : Fin 100000) (k : Fin 128) : EReal :=
  max ((((PA (ix2 r k) - MU (ix2 0 k)) * IS (ix2 0 k)) * G (ix2 0 k)) + BE (ix2 0 k)) Gcn.zero

/-- Their product with the weight matrix, as one function of whole arrays. -/
def prodAct (PA : S100000x128.Idx → EReal) (MU IS G BE : S1x128.Idx → EReal) (W : S128x40.Idx → EReal) : S100000x40.Idx → EReal :=
  fun i => ∑ k : Fin 128, actArr PA MU IS G BE (i 0) k * W (ix2 k (i 1))

/-- The product scaled row by row. -/
def prodActScaled (PA : S100000x128.Idx → EReal) (MU IS G BE : S1x128.Idx → EReal) (W : S128x40.Idx → EReal) (D : S100000x1.Idx → EReal) :
    S100000x40.Idx → EReal :=
  fun i => prodAct PA MU IS G BE W i * D (ix2 (i 0) 0)

set_option maxHeartbeats 1000000 in
/-- Window 0's block at point `t`, read where output window 7's element `(p, q)` needs it, is the array there. -/
theorem rd7_0 (c : Dev nD) (t : Fin cfg4.N) (p : Fin 4000) (q : Fin 40) (k : Fin 128) :
    iblk4 V c 0 t (ix2 p k) = (V c main_v53 : S100000x128.Idx → EReal) (ix2 (((cfg4.win 7).blk t).view.emb (ix2 p q : S4000x40.Idx) 0) k) := by
  obtain ⟨e00, e01, e10, e11, e20, e21, e30, e31, e40, e41, e50, e51, e60, e61, e70, e71, e80, e81⟩ := idx_facts t
  have hp := p.isLt
  have hq := q.isLt
  refine congrArg (V c main_v53 : S100000x128.Idx → EReal) ?_
  show ((cfg4.win 0).blk t).view.emb (ix2 p k : S4000x128.Idx) = (ix2 (((cfg4.win 7).blk t).view.emb (ix2 p q : S4000x40.Idx) 0) k : S100000x128.Idx)
  funext a; apply Fin.ext
  match a with
  | ⟨0, _⟩ => show win4_0.index t (0 : Fin 2) * 4000 + 1 * p.val = win4_7.index t (0 : Fin 2) * 4000 + 1 * p.val; have := k.isLt; omega
  | ⟨1, _⟩ => show win4_0.index t (1 : Fin 2) * 128 + 1 * k.val = k.val; have := k.isLt; omega

set_option maxHeartbeats 1000000 in
/-- Window 1's block at point `t`, read where output window 7's element `(p, q)` needs it, is the array there. -/
theorem rd7_1 (c : Dev nD) (t : Fin cfg4.N) (p : Fin 4000) (q : Fin 40) (k : Fin 128) :
    iblk4 V c 1 t (ix2 (0 : Fin 1) k) = (V c main_v67 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v67 : S1x128.Idx → EReal) ?_
  show ((cfg4.win 1).blk t).view.emb (ix2 (0 : Fin 1) k : S1x128.Idx) = (ix2 (0 : Fin 1) k : S1x128.Idx)
  funext a; apply Fin.ext
  match a with
  | ⟨0, _⟩ => show win4_1.index t (0 : Fin 2) * 1 + 1 * 0 = 0; have := k.isLt; omega
  | ⟨1, _⟩ => show win4_1.index t (1 : Fin 2) * 128 + 1 * k.val = k.val; have := k.isLt; omega

set_option maxHeartbeats 1000000 in
/-- Window 2's block at point `t`, read where output window 7's element `(p, q)` needs it, is the array there. -/
theorem rd7_2 (c : Dev nD) (t : Fin cfg4.N) (p : Fin 4000) (q : Fin 40) (k : Fin 128) :
    iblk4 V c 2 t (ix2 (0 : Fin 1) k) = (V c main_v68 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v68 : S1x128.Idx → EReal) ?_
  show ((cfg4.win 2).blk t).view.emb (ix2 (0 : Fin 1) k : S1x128.Idx) = (ix2 (0 : Fin 1) k : S1x128.Idx)
  funext a; apply Fin.ext
  match a with
  | ⟨0, _⟩ => show win4_2.index t (0 : Fin 2) * 1 + 1 * 0 = 0; have := k.isLt; omega
  | ⟨1, _⟩ => show win4_2.index t (1 : Fin 2) * 128 + 1 * k.val = k.val; have := k.isLt; omega

set_option maxHeartbeats 1000000 in
/-- Window 3's block at point `t`, read where output window 7's element `(p, q)` needs it, is the array there. -/
theorem rd7_3 (c : Dev nD) (t : Fin cfg4.N) (p : Fin 4000) (q : Fin 40) (k : Fin 128) :
    iblk4 V c 3 t (ix2 (0 : Fin 1) k) = (V c main_v69 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v69 : S1x128.Idx → EReal) ?_
  show ((cfg4.win 3).blk t).view.emb (ix2 (0 : Fin 1) k : S1x128.Idx) = (ix2 (0 : Fin 1) k : S1x128.Idx)
  funext a; apply Fin.ext
  match a with
  | ⟨0, _⟩ => show win4_3.index t (0 : Fin 2) * 1 + 1 * 0 = 0; have := k.isLt; omega
  | ⟨1, _⟩ => show win4_3.index t (1 : Fin 2) * 128 + 1 * k.val = k.val; have := k.isLt; omega

set_option maxHeartbeats 1000000 in
/-- Window 4's block at point `t`, read where output window 7's element `(p, q)` needs it, is the array there. -/
theorem rd7_4 (c : Dev nD) (t : Fin cfg4.N) (p : Fin 4000) (q : Fin 40) (k : Fin 128) :
    iblk4 V c 4 t (ix2 (0 : Fin 1) k) = (V c main_v70 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v70 : S1x128.Idx → EReal) ?_
  show ((cfg4.win 4).blk t).view.emb (ix2 (0 : Fin 1) k : S1x128.Idx) = (ix2 (0 : Fin 1) k : S1x128.Idx)
  funext a; apply Fin.ext
  match a with
  | ⟨0, _⟩ => show win4_4.index t (0 : Fin 2) * 1 + 1 * 0 = 0; have := k.isLt; omega
  | ⟨1, _⟩ => show win4_4.index t (1 : Fin 2) * 128 + 1 * k.val = k.val; have := k.isLt; omega

set_option maxHeartbeats 1000000 in
/-- Window 5's block at point `t`, read where output window 7's element `(p, q)` needs it, is the array there. -/
theorem rd7_5 (c : Dev nD) (t : Fin cfg4.N) (p : Fin 4000) (q : Fin 40) (k : Fin 128) :
    iblk4 V c 5 t (ix2 k q) = (V c main_arg7 : S128x40.Idx → EReal) (ix2 k (((cfg4.win 7).blk t).view.emb (ix2 p q : S4000x40.Idx) 1)) := by
  obtain ⟨e00, e01, e10, e11, e20, e21, e30, e31, e40, e41, e50, e51, e60, e61, e70, e71, e80, e81⟩ := idx_facts t
  have hp := p.isLt
  have hq := q.isLt
  refine congrArg (V c main_arg7 : S128x40.Idx → EReal) ?_
  show ((cfg4.win 5).blk t).view.emb (ix2 k q : S128x40.Idx) = (ix2 k (((cfg4.win 7).blk t).view.emb (ix2 p q : S4000x40.Idx) 1) : S128x40.Idx)
  funext a; apply Fin.ext
  match a with
  | ⟨0, _⟩ => show win4_5.index t (0 : Fin 2) * 128 + 1 * k.val = k.val; have := k.isLt; omega
  | ⟨1, _⟩ => show win4_5.index t (1 : Fin 2) * 40 + 1 * q.val = win4_7.index t (1 : Fin 2) * 40 + 1 * q.val; have := k.isLt; omega

set_option maxHeartbeats 1000000 in
/-- What point `t` writes back into output window 7 is block `t` of the product of the rectified features of the arrays as the region finds them. -/
theorem flushed7 (c : Dev nD) (t : Fin cfg4.N) :
    (dat4 V c).flushed 7 t = ((cfg4.win 7).blk t).view.read (Elt Ideal)
      (prodAct (V c main_v53) (V c main_v67) (V c main_v68) (V c main_v69) (V c main_v70) (V c main_arg7)) := by
  show (cfg4.win 7).cut (grid4.coords t) ((dat4 V c).after 7 t) = _
  rw [after4_7]
  unfold out4_7
  rw [View.canon_unit_zero hz]
  simp only [View.ld_unit_zero (S := S4000x128) hz, View.ld_unit_zero (S := S1x128) hz, View.ld_unit_zero (S := S128x40) hz, View.ld_unit_zero (S := S4000x1) hz, View.ld_unit_zero (S := S4000x40) hz]
  refine funext fun (j : S4000x40.Idx) => ?_
  obtain ⟨p, q, rfl⟩ : ∃ (p : Fin 4000) (q : Fin 40), j = ix2 p q := ⟨j 0, j 1, eq_ix2 j⟩
  refine (pay4_1 (iblk4 V c 0 t) (iblk4 V c 1 t) (iblk4 V c 2 t) (iblk4 V c 3 t) (iblk4 V c 4 t) (iblk4 V c 5 t) p q).trans ?_
  simp only [actBlk4, rd7_0 V c t p q, rd7_1 V c t p q, rd7_2 V c t p q, rd7_3 V c t p q, rd7_4 V c t p q, rd7_5 V c t p q]
  rfl

/-- An index of the array is in point `t`'s block iff each coordinate is in the block's range on its axis. -/
theorem mem_blk7 (t : Fin cfg4.N) (i : S100000x40.Idx) :
    i ∈ ((cfg4.win 7).blk t).view.set ↔ ∀ a : Fin 2, win4_7.index t a * S4000x40.size a ≤ (i a).val
      ∧ (i a).val < win4_7.index t a * S4000x40.size a + S4000x40.size a := by
  show i ∈ ((View.whole main_v72_0).slice (win4_7.rect t)).set ↔ _
  rw [View.set_slice_whole, Rect.mem_set_unit]
  exact Iff.rfl

/-- Every index of the array lies in the block of the point that holds its row: point `row / 4000`. -/
theorem cover7 (i : S100000x40.Idx) : ∃ t : Fin cfg4.N, (cfg4.win 7).flush t = true ∧ i ∈ ((cfg4.win 7).blk t).view.set := by
  have hi0 : (i 0).val < 100000 := (i 0).isLt
  have hi1 : (i 1).val < 40 := (i 1).isLt
  have hN : cfg4.N = 25 := N_4
  refine ⟨⟨(i 0).val / 4000, by rw [hN]; omega⟩, flush4_7 _, ?_⟩
  rw [mem_blk7]
  obtain ⟨e00, e01, e10, e11, e20, e21, e30, e31, e40, e41, e50, e51, e60, e61, e70, e71, e80, e81⟩ := idx_facts ⟨(i 0).val / 4000, by rw [hN]; omega⟩
  intro a
  match a with
  | ⟨0, _⟩ =>
    show win4_7.index _ (0 : Fin 2) * 4000 ≤ (i 0).val ∧ (i 0).val < win4_7.index _ (0 : Fin 2) * 4000 + 4000
    rw [e70]; show (i 0).val / 4000 * 4000 ≤ (i 0).val ∧ (i 0).val < (i 0).val / 4000 * 4000 + 4000; omega
  | ⟨1, _⟩ =>
    show win4_7.index _ (1 : Fin 2) * 40 ≤ (i 1).val ∧ (i 1).val < win4_7.index _ (1 : Fin 2) * 40 + 40
    rw [e71]; omega

/-- The array of output window 7 after the region. -/
theorem final7 (c : Dev nD) :
    (dat4 V c).arrAt 7 cfg4.N = prodAct (V c main_v53) (V c main_v67) (V c main_v68) (V c main_v69) (V c main_v70) (V c main_arg7) :=
  (dat4 V c).arrAt_eq_of_cover 7 _ (fun t _ => flushed7 V c t) cover7

set_option maxHeartbeats 1000000 in
/-- Window 0's block at point `t`, read where output window 8's element `(p, q)` needs it, is the array there. -/
theorem rd8_0 (c : Dev nD) (t : Fin cfg4.N) (p : Fin 4000) (q : Fin 40) (k : Fin 128) :
    iblk4 V c 0 t (ix2 p k) = (V c main_v53 : S100000x128.Idx → EReal) (ix2 (((cfg4.win 8).blk t).view.emb (ix2 p q : S4000x40.Idx) 0) k) := by
  obtain ⟨e00, e01, e10, e11, e20, e21, e30, e31, e40, e41, e50, e51, e60, e61, e70, e71, e80, e81⟩ := idx_facts t
  have hp := p.isLt
  have hq := q.isLt
  refine congrArg (V c main_v53 : S100000x128.Idx → EReal) ?_
  show ((cfg4.win 0).blk t).view.emb (ix2 p k : S4000x128.Idx) = (ix2 (((cfg4.win 8).blk t).view.emb (ix2 p q : S4000x40.Idx) 0) k : S100000x128.Idx)
  funext a; apply Fin.ext
  match a with
  | ⟨0, _⟩ => show win4_0.index t (0 : Fin 2) * 4000 + 1 * p.val = win4_8.index t (0 : Fin 2) * 4000 + 1 * p.val; have := k.isLt; omega
  | ⟨1, _⟩ => show win4_0.index t (1 : Fin 2) * 128 + 1 * k.val = k.val; have := k.isLt; omega

set_option maxHeartbeats 1000000 in
/-- Window 1's block at point `t`, read where output window 8's element `(p, q)` needs it, is the array there. -/
theorem rd8_1 (c : Dev nD) (t : Fin cfg4.N) (p : Fin 4000) (q : Fin 40) (k : Fin 128) :
    iblk4 V c 1 t (ix2 (0 : Fin 1) k) = (V c main_v67 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v67 : S1x128.Idx → EReal) ?_
  show ((cfg4.win 1).blk t).view.emb (ix2 (0 : Fin 1) k : S1x128.Idx) = (ix2 (0 : Fin 1) k : S1x128.Idx)
  funext a; apply Fin.ext
  match a with
  | ⟨0, _⟩ => show win4_1.index t (0 : Fin 2) * 1 + 1 * 0 = 0; have := k.isLt; omega
  | ⟨1, _⟩ => show win4_1.index t (1 : Fin 2) * 128 + 1 * k.val = k.val; have := k.isLt; omega

set_option maxHeartbeats 1000000 in
/-- Window 2's block at point `t`, read where output window 8's element `(p, q)` needs it, is the array there. -/
theorem rd8_2 (c : Dev nD) (t : Fin cfg4.N) (p : Fin 4000) (q : Fin 40) (k : Fin 128) :
    iblk4 V c 2 t (ix2 (0 : Fin 1) k) = (V c main_v68 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v68 : S1x128.Idx → EReal) ?_
  show ((cfg4.win 2).blk t).view.emb (ix2 (0 : Fin 1) k : S1x128.Idx) = (ix2 (0 : Fin 1) k : S1x128.Idx)
  funext a; apply Fin.ext
  match a with
  | ⟨0, _⟩ => show win4_2.index t (0 : Fin 2) * 1 + 1 * 0 = 0; have := k.isLt; omega
  | ⟨1, _⟩ => show win4_2.index t (1 : Fin 2) * 128 + 1 * k.val = k.val; have := k.isLt; omega

set_option maxHeartbeats 1000000 in
/-- Window 3's block at point `t`, read where output window 8's element `(p, q)` needs it, is the array there. -/
theorem rd8_3 (c : Dev nD) (t : Fin cfg4.N) (p : Fin 4000) (q : Fin 40) (k : Fin 128) :
    iblk4 V c 3 t (ix2 (0 : Fin 1) k) = (V c main_v69 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v69 : S1x128.Idx → EReal) ?_
  show ((cfg4.win 3).blk t).view.emb (ix2 (0 : Fin 1) k : S1x128.Idx) = (ix2 (0 : Fin 1) k : S1x128.Idx)
  funext a; apply Fin.ext
  match a with
  | ⟨0, _⟩ => show win4_3.index t (0 : Fin 2) * 1 + 1 * 0 = 0; have := k.isLt; omega
  | ⟨1, _⟩ => show win4_3.index t (1 : Fin 2) * 128 + 1 * k.val = k.val; have := k.isLt; omega

set_option maxHeartbeats 1000000 in
/-- Window 4's block at point `t`, read where output window 8's element `(p, q)` needs it, is the array there. -/
theorem rd8_4 (c : Dev nD) (t : Fin cfg4.N) (p : Fin 4000) (q : Fin 40) (k : Fin 128) :
    iblk4 V c 4 t (ix2 (0 : Fin 1) k) = (V c main_v70 : S1x128.Idx → EReal) (ix2 (0 : Fin 1) k) := by
  obtain ⟨e00, e01, e10, e11, e20, e21, e30, e31, e40, e41, e50, e51, e60, e61, e70, e71, e80, e81⟩ := idx_facts t
  have hp := p.isLt
  have hq := q.isLt
  refine congrArg (V c main_v70 : S1x128.Idx → EReal) ?_
  show ((cfg4.win 4).blk t).view.emb (ix2 (0 : Fin 1) k : S1x128.Idx) = (ix2 (0 : Fin 1) k : S1x128.Idx)
  funext a; apply Fin.ext
  match a with
  | ⟨0, _⟩ => show win4_4.index t (0 : Fin 2) * 1 + 1 * 0 = 0; have := k.isLt; omega
  | ⟨1, _⟩ => show win4_4.index t (1 : Fin 2) * 128 + 1 * k.val = k.val; have := k.isLt; omega

set_option maxHeartbeats 1000000 in
/-- Window 5's block at point `t`, read where output window 8's element `(p, q)` needs it, is the array there. -/
theorem rd8_5 (c : Dev nD) (t : Fin cfg4.N) (p : Fin 4000) (q : Fin 40) (k : Fin 128) :
    iblk4 V c 5 t (ix2 k q) = (V c main_arg7 : S128x40.Idx → EReal) (ix2 k (((cfg4.win 8).blk t).view.emb (ix2 p q : S4000x40.Idx) 1)) := by
  obtain ⟨e00, e01, e10, e11, e20, e21, e30, e31, e40, e41, e50, e51, e60, e61, e70, e71, e80, e81⟩ := idx_facts t
  have hp := p.isLt
  have hq := q.isLt
  refine congrArg (V c main_arg7 : S128x40.Idx → EReal) ?_
  show ((cfg4.win 5).blk t).view.emb (ix2 k q : S128x40.Idx) = (ix2 k (((cfg4.win 8).blk t).view.emb (ix2 p q : S4000x40.Idx) 1) : S128x40.Idx)
  funext a; apply Fin.ext
  match a with
  | ⟨0, _⟩ => show win4_5.index t (0 : Fin 2) * 128 + 1 * k.val = k.val; have := k.isLt; omega
  | ⟨1, _⟩ => show win4_5.index t (1 : Fin 2) * 40 + 1 * q.val = win4_8.index t (1 : Fin 2) * 40 + 1 * q.val; have := k.isLt; omega

set_option maxHeartbeats 1000000 in
/-- Window 6's block at point `t`, read where output window 8's element `(p, q)` needs it, is the array there. -/
theorem rd8_6 (c : Dev nD) (t : Fin cfg4.N) (p : Fin 4000) (q : Fin 40) :
    iblk4 V c 6 t (ix2 p (0 : Fin 1)) = (V c main_v71 : S100000x1.Idx → EReal) (ix2 (((cfg4.win 8).blk t).view.emb (ix2 p q : S4000x40.Idx) 0) (0 : Fin 1)) := by
  obtain ⟨e00, e01, e10, e11, e20, e21, e30, e31, e40, e41, e50, e51, e60, e61, e70, e71, e80, e81⟩ := idx_facts t
  have hp := p.isLt
  have hq := q.isLt
  refine congrArg (V c main_v71 : S100000x1.Idx → EReal) ?_
  show ((cfg4.win 6).blk t).view.emb (ix2 p (0 : Fin 1) : S4000x1.Idx) = (ix2 (((cfg4.win 8).blk t).view.emb (ix2 p q : S4000x40.Idx) 0) (0 : Fin 1) : S100000x1.Idx)
  funext a; apply Fin.ext
  match a with
  | ⟨0, _⟩ => show win4_6.index t (0 : Fin 2) * 4000 + 1 * p.val = win4_8.index t (0 : Fin 2) * 4000 + 1 * p.val; omega
  | ⟨1, _⟩ => show win4_6.index t (1 : Fin 2) * 1 + 1 * 0 = 0; omega

set_option maxHeartbeats 1000000 in
/-- What point `t` writes back into output window 8 is block `t` of the scaled product of the rectified features of the arrays as the region finds them. -/
theorem flushed8 (c : Dev nD) (t : Fin cfg4.N) :
    (dat4 V c).flushed 8 t = ((cfg4.win 8).blk t).view.read (Elt Ideal)
      (prodActScaled (V c main_v53) (V c main_v67) (V c main_v68) (V c main_v69) (V c main_v70) (V c main_arg7) (V c main_v71)) := by
  show (cfg4.win 8).cut (grid4.coords t) ((dat4 V c).after 8 t) = _
  rw [after4_8]
  unfold out4_8
  rw [View.canon_unit_zero hz]
  simp only [View.ld_unit_zero (S := S4000x128) hz, View.ld_unit_zero (S := S1x128) hz, View.ld_unit_zero (S := S128x40) hz, View.ld_unit_zero (S := S4000x1) hz, View.ld_unit_zero (S := S4000x40) hz]
  refine funext fun (j : S4000x40.Idx) => ?_
  obtain ⟨p, q, rfl⟩ : ∃ (p : Fin 4000) (q : Fin 40), j = ix2 p q := ⟨j 0, j 1, eq_ix2 j⟩
  refine (pay4_2 (iblk4 V c 0 t) (iblk4 V c 1 t) (iblk4 V c 2 t) (iblk4 V c 3 t) (iblk4 V c 4 t) (iblk4 V c 5 t) (iblk4 V c 6 t) p q).trans ?_
  simp only [actBlk4, rd8_0 V c t p q, rd8_1 V c t p q, rd8_2 V c t p q, rd8_3 V c t p q, rd8_4 V c t p q, rd8_5 V c t p q, rd8_6 V c t p q]
  rfl

/-- An index of the array is in point `t`'s block iff each coordinate is in the block's range on its axis. -/
theorem mem_blk8 (t : Fin cfg4.N) (i : S100000x40.Idx) :
    i ∈ ((cfg4.win 8).blk t).view.set ↔ ∀ a : Fin 2, win4_8.index t a * S4000x40.size a ≤ (i a).val
      ∧ (i a).val < win4_8.index t a * S4000x40.size a + S4000x40.size a := by
  show i ∈ ((View.whole main_v72_1).slice (win4_8.rect t)).set ↔ _
  rw [View.set_slice_whole, Rect.mem_set_unit]
  exact Iff.rfl

/-- Every index of the array lies in the block of the point that holds its row: point `row / 4000`. -/
theorem cover8 (i : S100000x40.Idx) : ∃ t : Fin cfg4.N, (cfg4.win 8).flush t = true ∧ i ∈ ((cfg4.win 8).blk t).view.set := by
  have hi0 : (i 0).val < 100000 := (i 0).isLt
  have hi1 : (i 1).val < 40 := (i 1).isLt
  have hN : cfg4.N = 25 := N_4
  refine ⟨⟨(i 0).val / 4000, by rw [hN]; omega⟩, flush4_8 _, ?_⟩
  rw [mem_blk8]
  obtain ⟨e00, e01, e10, e11, e20, e21, e30, e31, e40, e41, e50, e51, e60, e61, e70, e71, e80, e81⟩ := idx_facts ⟨(i 0).val / 4000, by rw [hN]; omega⟩
  intro a
  match a with
  | ⟨0, _⟩ =>
    show win4_8.index _ (0 : Fin 2) * 4000 ≤ (i 0).val ∧ (i 0).val < win4_8.index _ (0 : Fin 2) * 4000 + 4000
    rw [e80]; show (i 0).val / 4000 * 4000 ≤ (i 0).val ∧ (i 0).val < (i 0).val / 4000 * 4000 + 4000; omega
  | ⟨1, _⟩ =>
    show win4_8.index _ (1 : Fin 2) * 40 ≤ (i 1).val ∧ (i 1).val < win4_8.index _ (1 : Fin 2) * 40 + 40
    rw [e81]; omega

/-- The array of output window 8 after the region. -/
theorem final8 (c : Dev nD) :
    (dat4 V c).arrAt 8 cfg4.N = prodActScaled (V c main_v53) (V c main_v67) (V c main_v68) (V c main_v69) (V c main_v70) (V c main_arg7) (V c main_v71) :=
  (dat4 V c).arrAt_eq_of_cover 8 _ (fun t _ => flushed8 V c t) cover8

end Cert.KernelIdeal.KReg4

end
-- ==== Proof.KReg5.lean ====
import proofs.«139699_j335007449371_2_alg».proof.Proof.Gen.KernelIdeal.Frame
import proofs.«139699_j335007449371_2_alg».proof.Proof.KPay
import Idealize.ShloMosaic.Lib.Pipeline.Value

/-!
  The last region: the combination `agg (r, c) · d r + h (r, c) · d r ² + b c` of 40 output features, followed by the row-wise
  log-softmax `x − max x − log Σ exp (x − max x)` over those 40 features.

  The region walks 25 blocks of 4000 node rows, each row complete in its block (the block spans all 40 features), so the
  row maximum and the row sum a point takes are those of the whole array's row. Each point writes the block of ONE
  whole-array function, and the 25 blocks tile the array, so the result array ends holding that function.
-/

set_option maxRecDepth 16384

open scoped BigOperators

noncomputable section

namespace Cert.KernelIdeal.KReg5

open Cert.KernelIdeal Cert.KernelIdeal.Gen Cert.KernelIdeal.KPay Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is `(t, 0)`, a whole-array window's `(0, 0)`. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The combination at node `r`, feature `c'`. -/
def combRow (H AGG : S100000x40.Idx → EReal) (D : S100000x1.Idx → EReal) (B : S1x40.Idx → EReal) (r : Fin 100000) (c' : Fin 40) : EReal :=
  (AGG (ix2 r c') * D (ix2 r 0) + H (ix2 r c') * (D (ix2 r 0) * D (ix2 r 0))) + B (ix2 0 c')

/-- The log-softmax of the combined row `r` at feature `c`. -/
def combLsmRC (H AGG : S100000x40.Idx → EReal) (D : S100000x1.Idx → EReal) (B : S1x40.Idx → EReal) (r : Fin 100000) (c : Fin 40) : EReal :=
  (combRow H AGG D B r c - (Finset.univ : Finset (Fin 40)).fold max Gcn.ninf (fun c' => combRow H AGG D B r c'))
    - Ideal.log (∑ c' : Fin 40, Ideal.exp (combRow H AGG D B r c'
        - (Finset.univ : Finset (Fin 40)).fold max Gcn.ninf (fun c' => combRow H AGG D B r c')))

/-- The same as one function of whole arrays. -/
def combLsm (H AGG : S100000x40.Idx → EReal) (D : S100000x1.Idx → EReal) (B : S1x40.Idx → EReal) : S100000x40.Idx → EReal :=
  fun i => combLsmRC H AGG D B (i 0) (i 1)

set_option maxHeartbeats 1000000 in
/-- Window 1's block at point `t`, read where output window 4's element `(p, q)` needs it, is the array there. -/
theorem rd4_0 (c : Dev nD) (t : Fin cfg5.N) (p : Fin 4000) (q : Fin 40) (k : Fin 40) :
    iblk5 V c 1 t (ix2 p k) = (V c main_v82 : S100000x40.Idx → EReal) (ix2 (((cfg5.win 4).blk t).view.emb (ix2 p q : S4000x40.Idx) 0) k) := by
  obtain ⟨e00, e01, e10, e11, e20, e21, e30, e31, e40, e41⟩ := idx_facts t
  have hp := p.isLt
  have hq := q.isLt
  refine congrArg (V c main_v82 : S100000x40.Idx → EReal) ?_
  show ((cfg5.win 1).blk t).view.emb (ix2 p k : S4000x40.Idx) = (ix2 (((cfg5.win 4).blk t).view.emb (ix2 p q : S4000x40.Idx) 0) k : S100000x40.Idx)
  funext a; apply Fin.ext
  match a with
  | ⟨0, _⟩ => show win5_1.index t (0 : Fin 2) * 4000 + 1 * p.val = win5_4.index t (0 : Fin 2) * 4000 + 1 * p.val; have := k.isLt; omega
  | ⟨1, _⟩ => show win5_1.index t (1 : Fin 2) * 40 + 1 * k.val = k.val; have := k.isLt; omega

set_option maxHeartbeats 1000000 in
/-- Window 2's block at point `t`, read where output window 4's element `(p, q)` needs it, is the array there. -/
theorem rd4_1 (c : Dev nD) (t : Fin cfg5.N) (p : Fin 4000) (q : Fin 40) :
    iblk5 V c 2 t (ix2 p (0 : Fin 1)) = (V c main_v83 : S100000x1.Idx → EReal) (ix2 (((cfg5.win 4).blk t).view.emb (ix2 p q : S4000x40.Idx) 0) (0 : Fin 1)) := by
  obtain ⟨e00, e01, e10, e11, e20, e21, e30, e31, e40, e41⟩ := idx_facts t
  have hp := p.isLt
  have hq := q.isLt
  refine congrArg (V c main_v83 : S100000x1.Idx → EReal) ?_
  show ((cfg5.win 2).blk t).view.emb (ix2 p (0 : Fin 1) : S4000x1.Idx) = (ix2 (((cfg5.win 4).blk t).view.emb (ix2 p q : S4000x40.Idx) 0) (0 : Fin 1) : S100000x1.Idx)
  funext a; apply Fin.ext
  match a with
  | ⟨0, _⟩ => show win5_2.index t (0 : Fin 2) * 4000 + 1 * p.val = win5_4.index t (0 : Fin 2) * 4000 + 1 * p.val; omega
  | ⟨1, _⟩ => show win5_2.index t (1 : Fin 2) * 1 + 1 * 0 = 0; omega

set_option maxHeartbeats 1000000 in
/-- Window 0's block at point `t`, read where output window 4's element `(p, q)` needs it, is the array there. -/
theorem rd4_2 (c : Dev nD) (t : Fin cfg5.N) (p : Fin 4000) (q : Fin 40) (k : Fin 40) :
    iblk5 V c 0 t (ix2 p k) = (V c main_v72_0 : S100000x40.Idx → EReal) (ix2 (((cfg5.win 4).blk t).view.emb (ix2 p q : S4000x40.Idx) 0) k) := by
  obtain ⟨e00, e01, e10, e11, e20, e21, e30, e31, e40, e41⟩ := idx_facts t
  have hp := p.isLt
  have hq := q.isLt
  refine congrArg (V c main_v72_0 : S100000x40.Idx → EReal) ?_
  show ((cfg5.win 0).blk t).view.emb (ix2 p k : S4000x40.Idx) = (ix2 (((cfg5.win 4).blk t).view.emb (ix2 p q : S4000x40.Idx) 0) k : S100000x40.Idx)
  funext a; apply Fin.ext
  match a with
  | ⟨0, _⟩ => show win5_0.index t (0 : Fin 2) * 4000 + 1 * p.val = win5_4.index t (0 : Fin 2) * 4000 + 1 * p.val; have := k.isLt; omega
  | ⟨1, _⟩ => show win5_0.index t (1 : Fin 2) * 40 + 1 * k.val = k.val; have := k.isLt; omega

set_option maxHeartbeats 1000000 in
/-- Window 3's block at point `t`, read where output window 4's element `(p, q)` needs it, is the array there. -/
theorem rd4_3 (c : Dev nD) (t : Fin cfg5.N) (p : Fin 4000) (q : Fin 40) (k : Fin 40) :
    iblk5 V c 3 t (ix2 (0 : Fin 1) k) = (V c main_v84 : S1x40.Idx → EReal) (ix2 (0 : Fin 1) k) := by
  obtain ⟨e00, e01, e10, e11, e20, e21, e30, e31, e40, e41⟩ := idx_facts t
  have hp := p.isLt
  have hq := q.isLt
  refine congrArg (V c main_v84 : S1x40.Idx → EReal) ?_
  show ((cfg5.win 3).blk t).view.emb (ix2 (0 : Fin 1) k : S1x40.Idx) = (ix2 (0 : Fin 1) k : S1x40.Idx)
  funext a; apply Fin.ext
  match a with
  | ⟨0, _⟩ => show win5_3.index t (0 : Fin 2) * 1 + 1 * 0 = 0; have := k.isLt; omega
  | ⟨1, _⟩ => show win5_3.index t (1 : Fin 2) * 40 + 1 * k.val = k.val; have := k.isLt; omega

set_option maxHeartbeats 1000000 in
/-- What point `t` writes back into output window 4 is block `t` of the log-softmax of the combination of the arrays as the region finds them. -/
theorem flushed4 (c : Dev nD) (t : Fin cfg5.N) :
    (dat5 V c).flushed 4 t = ((cfg5.win 4).blk t).view.read (Elt Ideal)
      (combLsm (V c main_v72_0) (V c main_v82) (V c main_v83) (V c main_v84)) := by
  show (cfg5.win 4).cut (grid5.coords t) ((dat5 V c).after 4 t) = _
  rw [after5_4]
  unfold out5_4
  rw [View.canon_unit_zero hz]
  simp only [View.ld_unit_zero (S := S4000x40) hz, View.ld_unit_zero (S := S4000x1) hz, View.ld_unit_zero (S := S1x40) hz]
  refine funext fun (j : S4000x40.Idx) => ?_
  obtain ⟨p, q, rfl⟩ : ∃ (p : Fin 4000) (q : Fin 40), j = ix2 p q := ⟨j 0, j 1, eq_ix2 j⟩
  refine (pay5_1 (iblk5 V c 2 t) (iblk5 V c 1 t) (iblk5 V c 0 t) (iblk5 V c 3 t) p q).trans ?_
  simp only [rowMax5, combBlk5, rd4_0 V c t p q, rd4_1 V c t p q, rd4_2 V c t p q, rd4_3 V c t p q]
  have hE1 : (((cfg5.win 4).blk t).view.emb (ix2 p q : S4000x40.Idx)) 1 = q := Fin.ext (by
    obtain ⟨e00, e01, e10, e11, e20, e21, e30, e31, e40, e41⟩ := idx_facts t
    have hq := q.isLt
    show win5_4.index t (1 : Fin 2) * 40 + 1 * q.val = q.val
    omega)
  show _ = combLsmRC _ _ _ _ ((((cfg5.win 4).blk t).view.emb (ix2 p q : S4000x40.Idx)) 0) ((((cfg5.win 4).blk t).view.emb (ix2 p q : S4000x40.Idx)) 1)
  rw [hE1]
  rfl

/-- An index of the array is in point `t`'s block iff each coordinate is in the block's range on its axis. -/
theorem mem_blk4 (t : Fin cfg5.N) (i : S100000x40.Idx) :
    i ∈ ((cfg5.win 4).blk t).view.set ↔ ∀ a : Fin 2, win5_4.index t a * S4000x40.size a ≤ (i a).val
      ∧ (i a).val < win5_4.index t a * S4000x40.size a + S4000x40.size a := by
  show i ∈ ((View.whole main_v85).slice (win5_4.rect t)).set ↔ _
  rw [View.set_slice_whole, Rect.mem_set_unit]
  exact Iff.rfl

/-- Every index of the array lies in the block of the point that holds its row: point `row / 4000`. -/
theorem cover4 (i : S100000x40.Idx) : ∃ t : Fin cfg5.N, (cfg5.win 4).flush t = true ∧ i ∈ ((cfg5.win 4).blk t).view.set := by
  have hi0 : (i 0).val < 100000 := (i 0).isLt
  have hi1 : (i 1).val < 40 := (i 1).isLt
  have hN : cfg5.N = 25 := N_5
  refine ⟨⟨(i 0).val / 4000, by rw [hN]; omega⟩, flush5_4 _, ?_⟩
  rw [mem_blk4]
  obtain ⟨e00, e01, e10, e11, e20, e21, e30, e31, e40, e41⟩ := idx_facts ⟨(i 0).val / 4000, by rw [hN]; omega⟩
  intro a
  match a with
  | ⟨0, _⟩ =>
    show win5_4.index _ (0 : Fin 2) * 4000 ≤ (i 0).val ∧ (i 0).val < win5_4.index _ (0 : Fin 2) * 4000 + 4000
    rw [e40]; show (i 0).val / 4000 * 4000 ≤ (i 0).val ∧ (i 0).val < (i 0).val / 4000 * 4000 + 4000; omega
  | ⟨1, _⟩ =>
    show win5_4.index _ (1 : Fin 2) * 40 ≤ (i 1).val ∧ (i 1).val < win5_4.index _ (1 : Fin 2) * 40 + 40
    rw [e41]; omega

/-- The array of output window 4 after the region. -/
theorem final4 (c : Dev nD) :
    (dat5 V c).arrAt 4 cfg5.N = combLsm (V c main_v72_0) (V c main_v82) (V c main_v83) (V c main_v84) :=
  (dat5 V c).arrAt_eq_of_cover 4 _ (fun t _ => flushed4 V c t) cover4

end Cert.KernelIdeal.KReg5

end
-- ==== Proof.KStage.lean ====
import proofs.«139699_j335007449371_2_alg».proof.Proof.KHostA
import proofs.«139699_j335007449371_2_alg».proof.Proof.KHostB
import proofs.«139699_j335007449371_2_alg».proof.Proof.KCarry
import proofs.«139699_j335007449371_2_alg».proof.Proof.KReg0
import proofs.«139699_j335007449371_2_alg».proof.Proof.KReg1
import proofs.«139699_j335007449371_2_alg».proof.Proof.KReg2
import proofs.«139699_j335007449371_2_alg».proof.Proof.KReg3
import proofs.«139699_j335007449371_2_alg».proof.Proof.KReg4
import proofs.«139699_j335007449371_2_alg».proof.Proof.KReg5

/-!
  The kernel program's buffers at each boundary, as terms of the arguments.

  Walking @main from the launch: the degree factors; the first product and its scaled copy; the aggregate and the first
  combination; its statistics; the second product (of the rectified, normalised features); and so on through the third
  convolution and the log-softmax. At each boundary the buffers the next segment reads hold named terms of the
  argument arrays alone; the last names the result.
-/

set_option maxRecDepth 16384

noncomputable section

namespace Cert.KernelIdeal.KStage

open Cert.KernelIdeal Cert.KernelIdeal.Gen Cert.KernelIdeal.KTerms Cert.KernelIdeal.KCarry Cert.KernelIdeal.KHostA Cert.KernelIdeal.KHostB
open Cert.KernelIdeal.KHostStats
open Idealize.ShloMosaic Idealize.ShloMosaic.TcCoe Idealize.SL.Sem

variable (m : (ℓ : Loc nD τ sig) → Buf (Elt Ideal) ℓ) (ρ : Dev nD → PrngReg) (c : Dev nD)

/-! ## The arguments -/
abbrev aX : FA S100000x128 := m ((c : Thread nD τ).loc main_arg0)
abbrev aSRC : IA S1600000 := m ((c : Thread nD τ).loc main_arg1)
abbrev aDST : IA S1600000 := m ((c : Thread nD τ).loc main_arg2)
abbrev aW0 : FA S128x128 := m ((c : Thread nD τ).loc main_arg3)
abbrev aB0 : FA S128 := m ((c : Thread nD τ).loc main_arg4)
abbrev aW1 : FA S128x128 := m ((c : Thread nD τ).loc main_arg5)
abbrev aB1 : FA S128 := m ((c : Thread nD τ).loc main_arg6)
abbrev aW2 : FA S128x40 := m ((c : Thread nD τ).loc main_arg7)
abbrev aB2 : FA S40 := m ((c : Thread nD τ).loc main_arg8)
abbrev aG0 : FA S128 := m ((c : Thread nD τ).loc main_arg9)
abbrev aBE0 : FA S128 := m ((c : Thread nD τ).loc main_arg10)
abbrev aG1 : FA S128 := m ((c : Thread nD τ).loc main_arg11)
abbrev aBE1 : FA S128 := m ((c : Thread nD τ).loc main_arg12)

/-! ## The stages -/
def dis : FA S100000 := KTerms.disTerm (aDST m c)
def dcol : FA S100000x1 := colTerm (dis m c)
def h0 : FA S100000x128 := KReg0.prod (aX m c) (aW0 m c)
def hs0 : FA S100000x128 := KReg0.prodScaled (aX m c) (aW0 m c) (dcol m c)
def agg0 : FA S100000x128 := aggTerm128 (hs0 m c) (aSRC m c) (aDST m c)
def pre0 : FA S100000x128 := KReg1.comb (h0 m c) (agg0 m c) (dcol m c) (rowTerm128 (aB0 m c))
def h1 : FA S100000x128 := KReg2.prodAct (pre0 m c) (rowTerm128 (meanTerm (pre0 m c))) (rowTerm128 (istdTerm (pre0 m c)))
  (rowTerm128 (aG0 m c)) (rowTerm128 (aBE0 m c)) (aW1 m c)
def hs1 : FA S100000x128 := KReg2.prodActScaled (pre0 m c) (rowTerm128 (meanTerm (pre0 m c))) (rowTerm128 (istdTerm (pre0 m c)))
  (rowTerm128 (aG0 m c)) (rowTerm128 (aBE0 m c)) (aW1 m c) (dcol m c)
def agg1 : FA S100000x128 := aggTerm128 (hs1 m c) (aSRC m c) (aDST m c)
def pre1 : FA S100000x128 := KReg3.comb (h1 m c) (agg1 m c) (dcol m c) (rowTerm128 (aB1 m c))
def h2 : FA S100000x40 := KReg4.prodAct (pre1 m c) (rowTerm128 (meanTerm (pre1 m c))) (rowTerm128 (istdTerm (pre1 m c)))
  (rowTerm128 (aG1 m c)) (rowTerm128 (aBE1 m c)) (aW2 m c)
def hs2 : FA S100000x40 := KReg4.prodActScaled (pre1 m c) (rowTerm128 (meanTerm (pre1 m c))) (rowTerm128 (istdTerm (pre1 m c)))
  (rowTerm128 (aG1 m c)) (rowTerm128 (aBE1 m c)) (aW2 m c) (dcol m c)
def agg2 : FA S100000x40 := aggTerm40 (hs2 m c) (aSRC m c) (aDST m c)
def out : FA S100000x40 := KReg5.combLsm (h2 m c) (agg2 m c) (dcol m c) (rowTerm40 (aB2 m c))

/-! ## Boundary 1: after the first host stretch -/
theorem T1_v6 : W1 m ρ c (Proc.devRef .tc main_v6) = dis m c := h0_v6 (W0 m ρ c)
theorem T1_v7 : W1 m ρ c (Proc.devRef .tc main_v7) = dcol m c := h0_v7 (W0 m ρ c)

/-! ## Boundary 2: after the first product region -/
theorem T2_v8_0 : W2 m ρ c (Proc.devRef .tc main_v8_0) = h0 m c :=
  (W2_arr m ρ c 3).trans ((KReg0.final3 (V1 m ρ) c).trans (by
    show KReg0.prod (W1 m ρ c (Proc.devRef .tc main_arg0)) (W1 m ρ c (Proc.devRef .tc main_arg3)) = _
    rw [arg0_1_0, arg3_1_0]; rfl))
theorem T2_v8_1 : W2 m ρ c (Proc.devRef .tc main_v8_1) = hs0 m c :=
  (W2_arr m ρ c 4).trans ((KReg0.final4 (V1 m ρ) c).trans (by
    show KReg0.prodScaled (W1 m ρ c (Proc.devRef .tc main_arg0)) (W1 m ρ c (Proc.devRef .tc main_arg3)) (W1 m ρ c (Proc.devRef .tc main_v7)) = _
    rw [arg0_1_0, arg3_1_0, T1_v7]; rfl))

/-! ## Boundary 3: after the second host stretch -/
theorem T3_v18 : W3 m ρ c (Proc.devRef .tc main_v18) = agg0 m c :=
  (h1_v18 (W2 m ρ c)).trans (by rw [T2_v8_1, arg1_2_0, arg2_2_0]; rfl)
theorem T3_v19 : W3 m ρ c (Proc.devRef .tc main_v19) = dcol m c :=
  (h1_v19 (W2 m ρ c)).trans (by rw [v6_2_1, T1_v6]; rfl)
theorem T3_v20 : W3 m ρ c (Proc.devRef .tc main_v20) = rowTerm128 (aB0 m c) :=
  (h1_v20 (W2 m ρ c)).trans (by rw [arg4_2_0])
theorem T3_v8_0 : W3 m ρ c (Proc.devRef .tc main_v8_0) = h0 m c := (v8_0_3_2 m ρ c).trans (T2_v8_0 m ρ c)

/-! ## Boundary 4: after the first combination region -/
theorem T4_v21 : W4 m ρ c (Proc.devRef .tc main_v21) = pre0 m c :=
  (W4_arr m ρ c 4).trans ((KReg1.final4 (V3 m ρ) c).trans (by
    show KReg1.comb (W3 m ρ c (Proc.devRef .tc main_v8_0)) (W3 m ρ c (Proc.devRef .tc main_v18)) (W3 m ρ c (Proc.devRef .tc main_v19)) (W3 m ρ c (Proc.devRef .tc main_v20)) = _
    rw [T3_v8_0, T3_v18, T3_v19, T3_v20]; rfl))

/-! ## Boundary 5: after the third host stretch (the first statistics) -/
theorem T5_v35 : W5 m ρ c (Proc.devRef .tc main_v35) = rowTerm128 (meanTerm (pre0 m c)) := (h2_v35 (W4 m ρ c)).trans (by rw [T4_v21])
theorem T5_v36 : W5 m ρ c (Proc.devRef .tc main_v36) = rowTerm128 (istdTerm (pre0 m c)) := (h2_v36 (W4 m ρ c)).trans (by rw [T4_v21])
theorem T5_v37 : W5 m ρ c (Proc.devRef .tc main_v37) = rowTerm128 (aG0 m c) := (h2_v37 (W4 m ρ c)).trans (by rw [arg9_4_0])
theorem T5_v38 : W5 m ρ c (Proc.devRef .tc main_v38) = rowTerm128 (aBE0 m c) := (h2_v38 (W4 m ρ c)).trans (by rw [arg10_4_0])
theorem T5_v39 : W5 m ρ c (Proc.devRef .tc main_v39) = dcol m c := (h2_v39 (W4 m ρ c)).trans (by rw [v6_4_1, T1_v6]; rfl)
theorem T5_v21 : W5 m ρ c (Proc.devRef .tc main_v21) = pre0 m c := (v21_5_4 m ρ c).trans (T4_v21 m ρ c)

/-! ## Boundary 6: after the second product region -/
theorem T6_v40_0 : W6 m ρ c (Proc.devRef .tc main_v40_0) = h1 m c :=
  (W6_arr m ρ c 7).trans ((KReg2.final7 (V5 m ρ) c).trans (by
    show KReg2.prodAct (W5 m ρ c (Proc.devRef .tc main_v21)) (W5 m ρ c (Proc.devRef .tc main_v35)) (W5 m ρ c (Proc.devRef .tc main_v36)) (W5 m ρ c (Proc.devRef .tc main_v37)) (W5 m ρ c (Proc.devRef .tc main_v38)) (W5 m ρ c (Proc.devRef .tc main_arg5)) = _
    rw [T5_v21, T5_v35, T5_v36, T5_v37, T5_v38, arg5_5_0]; rfl))
theorem T6_v40_1 : W6 m ρ c (Proc.devRef .tc main_v40_1) = hs1 m c :=
  (W6_arr m ρ c 8).trans ((KReg2.final8 (V5 m ρ) c).trans (by
    show KReg2.prodActScaled (W5 m ρ c (Proc.devRef .tc main_v21)) (W5 m ρ c (Proc.devRef .tc main_v35)) (W5 m ρ c (Proc.devRef .tc main_v36)) (W5 m ρ c (Proc.devRef .tc main_v37)) (W5 m ρ c (Proc.devRef .tc main_v38)) (W5 m ρ c (Proc.devRef .tc main_arg5)) (W5 m ρ c (Proc.devRef .tc main_v39)) = _
    rw [T5_v21, T5_v35, T5_v36, T5_v37, T5_v38, arg5_5_0, T5_v39]; rfl))

/-! ## Boundary 7 -/
theorem T7_v50 : W7 m ρ c (Proc.devRef .tc main_v50) = agg1 m c :=
  (h3_v50 (W6 m ρ c)).trans (by rw [T6_v40_1, arg1_6_0, arg2_6_0]; rfl)
theorem T7_v51 : W7 m ρ c (Proc.devRef .tc main_v51) = dcol m c := (h3_v51 (W6 m ρ c)).trans (by rw [v6_6_1, T1_v6]; rfl)
theorem T7_v52 : W7 m ρ c (Proc.devRef .tc main_v52) = rowTerm128 (aB1 m c) := (h3_v52 (W6 m ρ c)).trans (by rw [arg6_6_0])
theorem T7_v40_0 : W7 m ρ c (Proc.devRef .tc main_v40_0) = h1 m c := (v40_0_7_6 m ρ c).trans (T6_v40_0 m ρ c)

/-! ## Boundary 8 -/
theorem T8_v53 : W8 m ρ c (Proc.devRef .tc main_v53) = pre1 m c :=
  (W8_arr m ρ c 4).trans ((KReg3.final4 (V7 m ρ) c).trans (by
    show KReg3.comb (W7 m ρ c (Proc.devRef .tc main_v40_0)) (W7 m ρ c (Proc.devRef .tc main_v50)) (W7 m ρ c (Proc.devRef .tc main_v51)) (W7 m ρ c (Proc.devRef .tc main_v52)) = _
    rw [T7_v40_0, T7_v50, T7_v51, T7_v52]; rfl))

/-! ## Boundary 9 (the second statistics) -/
theorem T9_v67 : W9 m ρ c (Proc.devRef .tc main_v67) = rowTerm128 (meanTerm (pre1 m c)) := (h4_v67 (W8 m ρ c)).trans (by rw [T8_v53])
theorem T9_v68 : W9 m ρ c (Proc.devRef .tc main_v68) = rowTerm128 (istdTerm (pre1 m c)) := (h4_v68 (W8 m ρ c)).trans (by rw [T8_v53])
theorem T9_v69 : W9 m ρ c (Proc.devRef .tc main_v69) = rowTerm128 (aG1 m c) := (h4_v69 (W8 m ρ c)).trans (by rw [arg11_8_0])
theorem T9_v70 : W9 m ρ c (Proc.devRef .tc main_v70) = rowTerm128 (aBE1 m c) := (h4_v70 (W8 m ρ c)).trans (by rw [arg12_8_0])
theorem T9_v71 : W9 m ρ c (Proc.devRef .tc main_v71) = dcol m c := (h4_v71 (W8 m ρ c)).trans (by rw [v6_8_1, T1_v6]; rfl)
theorem T9_v53 : W9 m ρ c (Proc.devRef .tc main_v53) = pre1 m c := (v53_9_8 m ρ c).trans (T8_v53 m ρ c)

/-! ## Boundary 10 -/
theorem T10_v72_0 : W10 m ρ c (Proc.devRef .tc main_v72_0) = h2 m c :=
  (W10_arr m ρ c 7).trans ((KReg4.final7 (V9 m ρ) c).trans (by
    show KReg4.prodAct (W9 m ρ c (Proc.devRef .tc main_v53)) (W9 m ρ c (Proc.devRef .tc main_v67)) (W9 m ρ c (Proc.devRef .tc main_v68)) (W9 m ρ c (Proc.devRef .tc main_v69)) (W9 m ρ c (Proc.devRef .tc main_v70)) (W9 m ρ c (Proc.devRef .tc main_arg7)) = _
    rw [T9_v53, T9_v67, T9_v68, T9_v69, T9_v70, arg7_9_0]; rfl))
theorem T10_v72_1 : W10 m ρ c (Proc.devRef .tc main_v72_1) = hs2 m c :=
  (W10_arr m ρ c 8).trans ((KReg4.final8 (V9 m ρ) c).trans (by
    show KReg4.prodActScaled (W9 m ρ c (Proc.devRef .tc main_v53)) (W9 m ρ c (Proc.devRef .tc main_v67)) (W9 m ρ c (Proc.devRef .tc main_v68)) (W9 m ρ c (Proc.devRef .tc main_v69)) (W9 m ρ c (Proc.devRef .tc main_v70)) (W9 m ρ c (Proc.devRef .tc main_arg7)) (W9 m ρ c (Proc.devRef .tc main_v71)) = _
    rw [T9_v53, T9_v67, T9_v68, T9_v69, T9_v70, arg7_9_0, T9_v71]; rfl))

/-! ## Boundary 11 -/
theorem T11_v82 : W11 m ρ c (Proc.devRef .tc main_v82) = agg2 m c :=
  (h5_v82 (W10 m ρ c)).trans (by rw [T10_v72_1, arg1_10_0, arg2_10_0]; rfl)
theorem T11_v83 : W11 m ρ c (Proc.devRef .tc main_v83) = dcol m c := (h5_v83 (W10 m ρ c)).trans (by rw [v6_10_1, T1_v6]; rfl)
theorem T11_v84 : W11 m ρ c (Proc.devRef .tc main_v84) = rowTerm40 (aB2 m c) := (h5_v84 (W10 m ρ c)).trans (by rw [arg8_10_0])
theorem T11_v72_0 : W11 m ρ c (Proc.devRef .tc main_v72_0) = h2 m c := (v72_0_11_10 m ρ c).trans (T10_v72_0 m ρ c)

/-! ## Boundary 12: the result -/
theorem T12_v85 : W12 m ρ c (Proc.devRef .tc main_v85) = out m c :=
  (W12_arr m ρ c 4).trans ((KReg5.final4 (V11 m ρ) c).trans (by
    show KReg5.combLsm (W11 m ρ c (Proc.devRef .tc main_v72_0)) (W11 m ρ c (Proc.devRef .tc main_v82)) (W11 m ρ c (Proc.devRef .tc main_v83)) (W11 m ρ c (Proc.devRef .tc main_v84)) = _
    rw [T11_v72_0, T11_v82, T11_v83, T11_v84]; rfl))

end Cert.KernelIdeal.KStage

end
-- ==== Proof.RefOps.lean ====
/-
  The reference's @main as a list of its 183 host operations, in order (a called function's operations stand in
  its call's place, over typed references), with the facts the run of a straight line asks for: @main is the
  sequence of these operations, the signature scopes no reference and no semaphore on the TensorCore, and every
  operation touches TensorCore references only. The same list cut into twelve consecutive windows.
-/
import proofs.«139699_j335007449371_2_alg».proof.Proof.Gen.ReferenceIdeal
import Idealize.ShloMosaic.Lib.StableHlo.Run

noncomputable section

namespace Ref

open Cert.ReferenceIdeal Cert.ReferenceIdeal.Gen Idealize.ShloMosaic Idealize.ShloMosaic.TcCoe Idealize.SL.Sem Idealize.ShloMosaic.StableHlo

variable {F : FTy → Type} [FloatOps F]

/-- @main's 183 operations, in order (a called function's operations stand in its call's place, spelt `TRef.…`). -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v4 main_v3 main_v5 (addf : (⟨S100000, .f32⟩ : BufTy).Contents (Elt F) → (⟨S100000, .f32⟩ : BufTy).Contents (Elt F) → (⟨S100000, .f32⟩ : BufTy).Contents (Elt F)),
    unary main_v5 main_v6 (Host.rsqrt : (⟨S100000, .f32⟩ : BufTy).Contents (Elt F) → (⟨S100000, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_arg1 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v9 (broadcastInDim S1600000 ![] bcast_S_S1600000 : (⟨S_, .i32⟩ : BufTy).Contents (Elt F) → (⟨S1600000, .i32⟩ : BufTy).Contents (Elt F)),
    binary main_arg1 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_arg1 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_v6 main_v12 main_v13 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v14 (broadcastInDim S1600000 ![] bcast_S_S1600000 : (⟨S_, .i32⟩ : BufTy).Contents (Elt F) → (⟨S1600000, .i32⟩ : BufTy).Contents (Elt F)),
    binary main_arg2 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_arg2 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_arg2 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v6 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v13 main_v20 main_v21 (mulf : (⟨S1600000, .f32⟩ : BufTy).Contents (Elt F) → (⟨S1600000, .f32⟩ : BufTy).Contents (Elt F) → (⟨S1600000, .f32⟩ : BufTy).Contents (Elt F)),
    binary main_v6 main_v6 main_v22 (mulf : (⟨S100000, .f32⟩ : BufTy).Contents (Elt F) → (⟨S100000, .f32⟩ : BufTy).Contents (Elt F) → (⟨S100000, .f32⟩ : BufTy).Contents (Elt F)),
    binary main_arg0 main_arg3 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_5 (constantI S_ 32 0#32),
    unary main_c_5 main_v24 (broadcastInDim S1600000 ![] bcast_S_S1600000 : (⟨S_, .i32⟩ : BufTy).Contents (Elt F) → (⟨S1600000, .i32⟩ : BufTy).Contents (Elt F)),
    binary main_arg1 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v26 (broadcastInDim S1600000 ![] bcast_S_S1600000 : (⟨S_, .i32⟩ : BufTy).Contents (Elt F) → (⟨S1600000, .i32⟩ : BufTy).Contents (Elt F)),
    binary main_arg1 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v23 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v21 main_v31 (broadcastInDim S1600000x1 ![0] bcast_S1600000_S1600000x1_0 : (⟨S1600000, .f32⟩ : BufTy).Contents (Elt F) → (⟨S1600000x1, .f32⟩ : BufTy).Contents (Elt F)),
    unary main_v31 main_v32 (broadcastInDim S1600000x128 ![0, 1] bcast_S1600000x1_S1600000x128_0_1 : (⟨S1600000x1, .f32⟩ : BufTy).Contents (Elt F) → (⟨S1600000x128, .f32⟩ : BufTy).Contents (Elt F)),
    binary main_v30 main_v32 main_v33 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v34 (broadcastInDim S100000x128 ![] bcast_S_S100000x128 : (⟨S_, .f32⟩ : BufTy).Contents (Elt F) → (⟨S100000x128, .f32⟩ : BufTy).Contents (Elt F)),
    unary main_arg2 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v22 main_v37 (broadcastInDim S100000x1 ![0] bcast_S100000_S100000x1_0 : (⟨S100000, .f32⟩ : BufTy).Contents (Elt F) → (⟨S100000x1, .f32⟩ : BufTy).Contents (Elt F)),
    unary main_v37 main_v38 (broadcastInDim S100000x128 ![0, 1] bcast_S100000x1_S100000x128_0_1 : (⟨S100000x1, .f32⟩ : BufTy).Contents (Elt F) → (⟨S100000x128, .f32⟩ : BufTy).Contents (Elt F)),
    binary main_v23 main_v38 main_v39 (mulf : (⟨S100000x128, .f32⟩ : BufTy).Contents (Elt F) → (⟨S100000x128, .f32⟩ : BufTy).Contents (Elt F) → (⟨S100000x128, .f32⟩ : BufTy).Contents (Elt F)),
    binary main_v36 main_v39 main_v40 (addf : (⟨S100000x128, .f32⟩ : BufTy).Contents (Elt F) → (⟨S100000x128, .f32⟩ : BufTy).Contents (Elt F) → (⟨S100000x128, .f32⟩ : BufTy).Contents (Elt F)),
    unary main_arg4 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v43 main_cst_8 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    unary main_v46 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v43 main_v48 main_v49 (subf : (⟨S100000x128, .f32⟩ : BufTy).Contents (Elt F) → (⟨S100000x128, .f32⟩ : BufTy).Contents (Elt F) → (⟨S100000x128, .f32⟩ : BufTy).Contents (Elt F)),
    binary main_v49 main_v49 main_v50 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v50 main_cst_10 main_v51 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v52 (broadcastInDim S128 ![] bcast_S_S128 : (⟨S_, .f32⟩ : BufTy).Contents (Elt F) → (⟨S128, .f32⟩ : BufTy).Contents (Elt F)),
    binary main_v51 main_v52 main_v53 (Host.divf : (⟨S128, .f32⟩ : BufTy).Contents (Elt F) → (⟨S128, .f32⟩ : BufTy).Contents (Elt F) → (⟨S128, .f32⟩ : BufTy).Contents (Elt F)),
    unary main_v46 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v43 main_v55 main_v56 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v57 (broadcastInDim S128 ![] bcast_S_S128 : (⟨S_, .f32⟩ : BufTy).Contents (Elt F) → (⟨S128, .f32⟩ : BufTy).Contents (Elt F)),
    binary main_v53 main_v57 main_v58 (addf : (⟨S128, .f32⟩ : BufTy).Contents (Elt F) → (⟨S128, .f32⟩ : BufTy).Contents (Elt F) → (⟨S128, .f32⟩ : BufTy).Contents (Elt F)),
    unary main_v58 main_v59 (Host.rsqrt : (⟨S128, .f32⟩ : BufTy).Contents (Elt F) → (⟨S128, .f32⟩ : BufTy).Contents (Elt F)),
    unary main_v59 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v56 main_v61 main_v62 (mulf : (⟨S100000x128, .f32⟩ : BufTy).Contents (Elt F) → (⟨S100000x128, .f32⟩ : BufTy).Contents (Elt F) → (⟨S100000x128, .f32⟩ : BufTy).Contents (Elt F)),
    unary main_arg9 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (mulf : (⟨S100000x128, .f32⟩ : BufTy).Contents (Elt F) → (⟨S100000x128, .f32⟩ : BufTy).Contents (Elt F) → (⟨S100000x128, .f32⟩ : BufTy).Contents (Elt F)),
    unary main_arg10 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v68) (TRef.of (T := ⟨S100000x128, .f32⟩) main_call0_v0) (TRef.of (T := ⟨S100000x128, .f32⟩) main_v69) maximumf,
    binary main_v69 main_arg5 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_13 (constantI S_ 32 0#32),
    unary main_c_13 main_v71 (broadcastInDim S1600000 ![] bcast_S_S1600000 : (⟨S_, .i32⟩ : BufTy).Contents (Elt F) → (⟨S1600000, .i32⟩ : BufTy).Contents (Elt F)),
    binary main_arg1 main_v71 main_v72 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v73 (broadcastInDim S1600000 ![] bcast_S_S1600000 : (⟨S_, .i32⟩ : BufTy).Contents (Elt F) → (⟨S1600000, .i32⟩ : BufTy).Contents (Elt F)),
    binary main_arg1 main_v73 main_v74 (addi : (⟨S1600000, .i32⟩ : BufTy).Contents (Elt F) → (⟨S1600000, .i32⟩ : BufTy).Contents (Elt F) → (⟨S1600000, .i32⟩ : BufTy).Contents (Elt F)),
    ternary main_v72 main_v74 main_arg1 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v75 main_v76 (broadcastInDim S1600000x1 ![0] bcast_S1600000_S1600000x1_0 : (⟨S1600000, .i32⟩ : BufTy).Contents (Elt F) → (⟨S1600000x1, .i32⟩ : BufTy).Contents (Elt F)),
    binary main_v70 main_v76 main_v77 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v21 main_v78 (broadcastInDim S1600000x1 ![0] bcast_S1600000_S1600000x1_0 : (⟨S1600000, .f32⟩ : BufTy).Contents (Elt F) → (⟨S1600000x1, .f32⟩ : BufTy).Contents (Elt F)),
    unary main_v78 main_v79 (broadcastInDim S1600000x128 ![0, 1] bcast_S1600000x1_S1600000x128_0_1 : (⟨S1600000x1, .f32⟩ : BufTy).Contents (Elt F) → (⟨S1600000x128, .f32⟩ : BufTy).Contents (Elt F)),
    binary main_v77 main_v79 main_v80 (mulf : (⟨S1600000x128, .f32⟩ : BufTy).Contents (Elt F) → (⟨S1600000x128, .f32⟩ : BufTy).Contents (Elt F) → (⟨S1600000x128, .f32⟩ : BufTy).Contents (Elt F)),
    nullary main_cst_15 (constant S_ .f32 0x00000000#32),
    unary main_cst_15 main_v81 (broadcastInDim S100000x128 ![] bcast_S_S100000x128 : (⟨S_, .f32⟩ : BufTy).Contents (Elt F) → (⟨S100000x128, .f32⟩ : BufTy).Contents (Elt F)),
    unary main_arg2 main_v82 (broadcastInDim S1600000x1 ![0] bcast_S1600000_S1600000x1_0 : (⟨S1600000, .i32⟩ : BufTy).Contents (Elt F) → (⟨S1600000x1, .i32⟩ : BufTy).Contents (Elt F)),
    ternary main_v81 main_v82 main_v80 main_v83 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v22 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x128 ![0, 1] bcast_S100000x1_S100000x128_0_1 : (⟨S100000x1, .f32⟩ : BufTy).Contents (Elt F) → (⟨S100000x128, .f32⟩ : BufTy).Contents (Elt F)),
    binary main_v70 main_v85 main_v86 (mulf : (⟨S100000x128, .f32⟩ : BufTy).Contents (Elt F) → (⟨S100000x128, .f32⟩ : BufTy).Contents (Elt F) → (⟨S100000x128, .f32⟩ : BufTy).Contents (Elt F)),
    binary main_v83 main_v86 main_v87 (addf : (⟨S100000x128, .f32⟩ : BufTy).Contents (Elt F) → (⟨S100000x128, .f32⟩ : BufTy).Contents (Elt F) → (⟨S100000x128, .f32⟩ : BufTy).Contents (Elt F)),
    unary main_arg6 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    binary main_v90 main_cst_16 main_v91 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v92 (broadcastInDim S128 ![] bcast_S_S128 : (⟨S_, .f32⟩ : BufTy).Contents (Elt F) → (⟨S128, .f32⟩ : BufTy).Contents (Elt F)),
    binary main_v91 main_v92 main_v93 (Host.divf : (⟨S128, .f32⟩ : BufTy).Contents (Elt F) → (⟨S128, .f32⟩ : BufTy).Contents (Elt F) → (⟨S128, .f32⟩ : BufTy).Contents (Elt F)),
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v90 main_v95 main_v96 (subf : (⟨S100000x128, .f32⟩ : BufTy).Contents (Elt F) → (⟨S100000x128, .f32⟩ : BufTy).Contents (Elt F) → (⟨S100000x128, .f32⟩ : BufTy).Contents (Elt F)),
    binary main_v96 main_v96 main_v97 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v97 main_cst_18 main_v98 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_19 (constant S_ .f32 0x47C35000#32),
    unary main_cst_19 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)),
    unary main_v93 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)),
    binary main_v90 main_v102 main_v103 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v104 (broadcastInDim S128 ![] bcast_S_S128 : (⟨S_, .f32⟩ : BufTy).Contents (Elt F) → (⟨S128, .f32⟩ : BufTy).Contents (Elt F)),
    binary main_v100 main_v104 main_v105 (addf : (⟨S128, .f32⟩ : BufTy).Contents (Elt F) → (⟨S128, .f32⟩ : BufTy).Contents (Elt F) → (⟨S128, .f32⟩ : BufTy).Contents (Elt F)),
    unary main_v105 main_v106 (Host.rsqrt : (⟨S128, .f32⟩ : BufTy).Contents (Elt F) → (⟨S128, .f32⟩ : BufTy).Contents (Elt F)),
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v103 main_v108 main_v109 (mulf : (⟨S100000x128, .f32⟩ : BufTy).Contents (Elt F) → (⟨S100000x128, .f32⟩ : BufTy).Contents (Elt F) → (⟨S100000x128, .f32⟩ : BufTy).Contents (Elt F)),
    unary main_arg11 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v109 main_v111 main_v112 (mulf : (⟨S100000x128, .f32⟩ : BufTy).Contents (Elt F) → (⟨S100000x128, .f32⟩ : BufTy).Contents (Elt F) → (⟨S100000x128, .f32⟩ : BufTy).Contents (Elt F)),
    unary main_arg12 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v112 main_v114 main_v115 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v115) (TRef.of (T := ⟨S100000x128, .f32⟩) main_call1_v0) (TRef.of (T := ⟨S100000x128, .f32⟩) main_v116) maximumf,
    binary main_v116 main_arg7 main_v117 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_21 (constantI S_ 32 0#32),
    unary main_c_21 main_v118 (broadcastInDim S1600000 ![] bcast_S_S1600000 : (⟨S_, .i32⟩ : BufTy).Contents (Elt F) → (⟨S1600000, .i32⟩ : BufTy).Contents (Elt F)),
    binary main_arg1 main_v118 main_v119 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v120 (broadcastInDim S1600000 ![] bcast_S_S1600000 : (⟨S_, .i32⟩ : BufTy).Contents (Elt F) → (⟨S1600000, .i32⟩ : BufTy).Contents (Elt F)),
    binary main_arg1 main_v120 main_v121 (addi : (⟨S1600000, .i32⟩ : BufTy).Contents (Elt F) → (⟨S1600000, .i32⟩ : BufTy).Contents (Elt F) → (⟨S1600000, .i32⟩ : BufTy).Contents (Elt F)),
    ternary main_v119 main_v121 main_arg1 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v122 main_v123 (broadcastInDim S1600000x1 ![0] bcast_S1600000_S1600000x1_0 : (⟨S1600000, .i32⟩ : BufTy).Contents (Elt F) → (⟨S1600000x1, .i32⟩ : BufTy).Contents (Elt F)),
    binary main_v117 main_v123 main_v124 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v21 main_v125 (broadcastInDim S1600000x1 ![0] bcast_S1600000_S1600000x1_0 : (⟨S1600000, .f32⟩ : BufTy).Contents (Elt F) → (⟨S1600000x1, .f32⟩ : BufTy).Contents (Elt F)),
    unary main_v125 main_v126 (broadcastInDim S1600000x40 ![0, 1] bcast_S1600000x1_S1600000x40_0_1 : (⟨S1600000x1, .f32⟩ : BufTy).Contents (Elt F) → (⟨S1600000x40, .f32⟩ : BufTy).Contents (Elt F)),
    binary main_v124 main_v126 main_v127 (mulf : (⟨S1600000x40, .f32⟩ : BufTy).Contents (Elt F) → (⟨S1600000x40, .f32⟩ : BufTy).Contents (Elt F) → (⟨S1600000x40, .f32⟩ : BufTy).Contents (Elt F)),
    nullary main_cst_23 (constant S_ .f32 0x00000000#32),
    unary main_cst_23 main_v128 (broadcastInDim S100000x40 ![] bcast_S_S100000x40 : (⟨S_, .f32⟩ : BufTy).Contents (Elt F) → (⟨S100000x40, .f32⟩ : BufTy).Contents (Elt F)),
    unary main_arg2 main_v129 (broadcastInDim S1600000x1 ![0] bcast_S1600000_S1600000x1_0 : (⟨S1600000, .i32⟩ : BufTy).Contents (Elt F) → (⟨S1600000x1, .i32⟩ : BufTy).Contents (Elt F)),
    ternary main_v128 main_v129 main_v127 main_v130 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_v22 main_v131 (broadcastInDim S100000x1 ![0] bcast_S100000_S100000x1_0 : (⟨S100000, .f32⟩ : BufTy).Contents (Elt F) → (⟨S100000x1, .f32⟩ : BufTy).Contents (Elt F)),
    unary main_v131 main_v132 (broadcastInDim S100000x40 ![0, 1] bcast_S100000x1_S100000x40_0_1 : (⟨S100000x1, .f32⟩ : BufTy).Contents (Elt F) → (⟨S100000x40, .f32⟩ : BufTy).Contents (Elt F)),
    binary main_v117 main_v132 main_v133 (mulf : (⟨S100000x40, .f32⟩ : BufTy).Contents (Elt F) → (⟨S100000x40, .f32⟩ : BufTy).Contents (Elt F) → (⟨S100000x40, .f32⟩ : BufTy).Contents (Elt F)),
    binary main_v130 main_v133 main_v134 (addf : (⟨S100000x40, .f32⟩ : BufTy).Contents (Elt F) → (⟨S100000x40, .f32⟩ : BufTy).Contents (Elt F) → (⟨S100000x40, .f32⟩ : BufTy).Contents (Elt F)),
    unary main_arg8 main_v135 (broadcastInDim S1x40 ![1] bcast_S40_S1x40_1 : (⟨S40, .f32⟩ : BufTy).Contents (Elt F) → (⟨S1x40, .f32⟩ : BufTy).Contents (Elt F)),
    unary main_v135 main_v136 (broadcastInDim S100000x40 ![0, 1] bcast_S1x40_S100000x40_0_1 : (⟨S1x40, .f32⟩ : BufTy).Contents (Elt F) → (⟨S100000x40, .f32⟩ : BufTy).Contents (Elt F)),
    binary main_v134 main_v136 main_v137 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v137) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v137) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v138) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Operations 1 to 16 of @main. -/
abbrev w0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v4 main_v3 main_v5 (addf : (⟨S100000, .f32⟩ : BufTy).Contents (Elt F) → (⟨S100000, .f32⟩ : BufTy).Contents (Elt F) → (⟨S100000, .f32⟩ : BufTy).Contents (Elt F)),
    unary main_v5 main_v6 (Host.rsqrt : (⟨S100000, .f32⟩ : BufTy).Contents (Elt F) → (⟨S100000, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_arg1 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v9 (broadcastInDim S1600000 ![] bcast_S_S1600000 : (⟨S_, .i32⟩ : BufTy).Contents (Elt F) → (⟨S1600000, .i32⟩ : BufTy).Contents (Elt F)),
    binary main_arg1 main_v9 main_v10 (addi : (⟨S1600000, .i32⟩ : BufTy).Contents (Elt F) → (⟨S1600000, .i32⟩ : BufTy).Contents (Elt F) → (⟨S1600000, .i32⟩ : BufTy).Contents (Elt F)) ]

/-- Operations 17 to 32 of @main. -/
abbrev w1 : List (HloOp τ sig (Elt F)) :=
  [ ternary main_v8 main_v10 main_arg1 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_v6 main_v12 main_v13 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v14 (broadcastInDim S1600000 ![] bcast_S_S1600000 : (⟨S_, .i32⟩ : BufTy).Contents (Elt F) → (⟨S1600000, .i32⟩ : BufTy).Contents (Elt F)),
    binary main_arg2 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_arg2 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_arg2 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v6 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v13 main_v20 main_v21 (mulf : (⟨S1600000, .f32⟩ : BufTy).Contents (Elt F) → (⟨S1600000, .f32⟩ : BufTy).Contents (Elt F) → (⟨S1600000, .f32⟩ : BufTy).Contents (Elt F)),
    binary main_v6 main_v6 main_v22 (mulf : (⟨S100000, .f32⟩ : BufTy).Contents (Elt F) → (⟨S100000, .f32⟩ : BufTy).Contents (Elt F) → (⟨S100000, .f32⟩ : BufTy).Contents (Elt F)),
    binary main_arg0 main_arg3 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_5 (constantI S_ 32 0#32) ]

/-- Operations 33 to 48 of @main. -/
abbrev w2 : List (HloOp τ sig (Elt F)) :=
  [ unary main_c_5 main_v24 (broadcastInDim S1600000 ![] bcast_S_S1600000 : (⟨S_, .i32⟩ : BufTy).Contents (Elt F) → (⟨S1600000, .i32⟩ : BufTy).Contents (Elt F)),
    binary main_arg1 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v26 (broadcastInDim S1600000 ![] bcast_S_S1600000 : (⟨S_, .i32⟩ : BufTy).Contents (Elt F) → (⟨S1600000, .i32⟩ : BufTy).Contents (Elt F)),
    binary main_arg1 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v23 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v21 main_v31 (broadcastInDim S1600000x1 ![0] bcast_S1600000_S1600000x1_0 : (⟨S1600000, .f32⟩ : BufTy).Contents (Elt F) → (⟨S1600000x1, .f32⟩ : BufTy).Contents (Elt F)),
    unary main_v31 main_v32 (broadcastInDim S1600000x128 ![0, 1] bcast_S1600000x1_S1600000x128_0_1 : (⟨S1600000x1, .f32⟩ : BufTy).Contents (Elt F) → (⟨S1600000x128, .f32⟩ : BufTy).Contents (Elt F)),
    binary main_v30 main_v32 main_v33 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v34 (broadcastInDim S100000x128 ![] bcast_S_S100000x128 : (⟨S_, .f32⟩ : BufTy).Contents (Elt F) → (⟨S100000x128, .f32⟩ : BufTy).Contents (Elt F)),
    unary main_arg2 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v22 main_v37 (broadcastInDim S100000x1 ![0] bcast_S100000_S100000x1_0 : (⟨S100000, .f32⟩ : BufTy).Contents (Elt F) → (⟨S100000x1, .f32⟩ : BufTy).Contents (Elt F)) ]

/-- Operations 49 to 64 of @main. -/
abbrev w3 : List (HloOp τ sig (Elt F)) :=
  [ unary main_v37 main_v38 (broadcastInDim S100000x128 ![0, 1] bcast_S100000x1_S100000x128_0_1 : (⟨S100000x1, .f32⟩ : BufTy).Contents (Elt F) → (⟨S100000x128, .f32⟩ : BufTy).Contents (Elt F)),
    binary main_v23 main_v38 main_v39 (mulf : (⟨S100000x128, .f32⟩ : BufTy).Contents (Elt F) → (⟨S100000x128, .f32⟩ : BufTy).Contents (Elt F) → (⟨S100000x128, .f32⟩ : BufTy).Contents (Elt F)),
    binary main_v36 main_v39 main_v40 (addf : (⟨S100000x128, .f32⟩ : BufTy).Contents (Elt F) → (⟨S100000x128, .f32⟩ : BufTy).Contents (Elt F) → (⟨S100000x128, .f32⟩ : BufTy).Contents (Elt F)),
    unary main_arg4 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v43 main_cst_8 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    unary main_v46 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v43 main_v48 main_v49 (subf : (⟨S100000x128, .f32⟩ : BufTy).Contents (Elt F) → (⟨S100000x128, .f32⟩ : BufTy).Contents (Elt F) → (⟨S100000x128, .f32⟩ : BufTy).Contents (Elt F)),
    binary main_v49 main_v49 main_v50 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32) ]

/-- Operations 65 to 80 of @main. -/
abbrev w4 : List (HloOp τ sig (Elt F)) :=
  [ binary main_v50 main_cst_10 main_v51 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v52 (broadcastInDim S128 ![] bcast_S_S128 : (⟨S_, .f32⟩ : BufTy).Contents (Elt F) → (⟨S128, .f32⟩ : BufTy).Contents (Elt F)),
    binary main_v51 main_v52 main_v53 (Host.divf : (⟨S128, .f32⟩ : BufTy).Contents (Elt F) → (⟨S128, .f32⟩ : BufTy).Contents (Elt F) → (⟨S128, .f32⟩ : BufTy).Contents (Elt F)),
    unary main_v46 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v43 main_v55 main_v56 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v57 (broadcastInDim S128 ![] bcast_S_S128 : (⟨S_, .f32⟩ : BufTy).Contents (Elt F) → (⟨S128, .f32⟩ : BufTy).Contents (Elt F)),
    binary main_v53 main_v57 main_v58 (addf : (⟨S128, .f32⟩ : BufTy).Contents (Elt F) → (⟨S128, .f32⟩ : BufTy).Contents (Elt F) → (⟨S128, .f32⟩ : BufTy).Contents (Elt F)),
    unary main_v58 main_v59 (Host.rsqrt : (⟨S128, .f32⟩ : BufTy).Contents (Elt F) → (⟨S128, .f32⟩ : BufTy).Contents (Elt F)),
    unary main_v59 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v56 main_v61 main_v62 (mulf : (⟨S100000x128, .f32⟩ : BufTy).Contents (Elt F) → (⟨S100000x128, .f32⟩ : BufTy).Contents (Elt F) → (⟨S100000x128, .f32⟩ : BufTy).Contents (Elt F)),
    unary main_arg9 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)) ]

/-- Operations 81 to 96 of @main. -/
abbrev w5 : List (HloOp τ sig (Elt F)) :=
  [ binary main_v62 main_v64 main_v65 (mulf : (⟨S100000x128, .f32⟩ : BufTy).Contents (Elt F) → (⟨S100000x128, .f32⟩ : BufTy).Contents (Elt F) → (⟨S100000x128, .f32⟩ : BufTy).Contents (Elt F)),
    unary main_arg10 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v68) (TRef.of (T := ⟨S100000x128, .f32⟩) main_call0_v0) (TRef.of (T := ⟨S100000x128, .f32⟩) main_v69) maximumf,
    binary main_v69 main_arg5 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_13 (constantI S_ 32 0#32),
    unary main_c_13 main_v71 (broadcastInDim S1600000 ![] bcast_S_S1600000 : (⟨S_, .i32⟩ : BufTy).Contents (Elt F) → (⟨S1600000, .i32⟩ : BufTy).Contents (Elt F)),
    binary main_arg1 main_v71 main_v72 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v73 (broadcastInDim S1600000 ![] bcast_S_S1600000 : (⟨S_, .i32⟩ : BufTy).Contents (Elt F) → (⟨S1600000, .i32⟩ : BufTy).Contents (Elt F)),
    binary main_arg1 main_v73 main_v74 (addi : (⟨S1600000, .i32⟩ : BufTy).Contents (Elt F) → (⟨S1600000, .i32⟩ : BufTy).Contents (Elt F) → (⟨S1600000, .i32⟩ : BufTy).Contents (Elt F)),
    ternary main_v72 main_v74 main_arg1 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v75 main_v76 (broadcastInDim S1600000x1 ![0] bcast_S1600000_S1600000x1_0 : (⟨S1600000, .i32⟩ : BufTy).Contents (Elt F) → (⟨S1600000x1, .i32⟩ : BufTy).Contents (Elt F)) ]

/-- Operations 97 to 112 of @main. -/
abbrev w6 : List (HloOp τ sig (Elt F)) :=
  [ binary main_v70 main_v76 main_v77 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v21 main_v78 (broadcastInDim S1600000x1 ![0] bcast_S1600000_S1600000x1_0 : (⟨S1600000, .f32⟩ : BufTy).Contents (Elt F) → (⟨S1600000x1, .f32⟩ : BufTy).Contents (Elt F)),
    unary main_v78 main_v79 (broadcastInDim S1600000x128 ![0, 1] bcast_S1600000x1_S1600000x128_0_1 : (⟨S1600000x1, .f32⟩ : BufTy).Contents (Elt F) → (⟨S1600000x128, .f32⟩ : BufTy).Contents (Elt F)),
    binary main_v77 main_v79 main_v80 (mulf : (⟨S1600000x128, .f32⟩ : BufTy).Contents (Elt F) → (⟨S1600000x128, .f32⟩ : BufTy).Contents (Elt F) → (⟨S1600000x128, .f32⟩ : BufTy).Contents (Elt F)),
    nullary main_cst_15 (constant S_ .f32 0x00000000#32),
    unary main_cst_15 main_v81 (broadcastInDim S100000x128 ![] bcast_S_S100000x128 : (⟨S_, .f32⟩ : BufTy).Contents (Elt F) → (⟨S100000x128, .f32⟩ : BufTy).Contents (Elt F)),
    unary main_arg2 main_v82 (broadcastInDim S1600000x1 ![0] bcast_S1600000_S1600000x1_0 : (⟨S1600000, .i32⟩ : BufTy).Contents (Elt F) → (⟨S1600000x1, .i32⟩ : BufTy).Contents (Elt F)),
    ternary main_v81 main_v82 main_v80 main_v83 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v22 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x128 ![0, 1] bcast_S100000x1_S100000x128_0_1 : (⟨S100000x1, .f32⟩ : BufTy).Contents (Elt F) → (⟨S100000x128, .f32⟩ : BufTy).Contents (Elt F)),
    binary main_v70 main_v85 main_v86 (mulf : (⟨S100000x128, .f32⟩ : BufTy).Contents (Elt F) → (⟨S100000x128, .f32⟩ : BufTy).Contents (Elt F) → (⟨S100000x128, .f32⟩ : BufTy).Contents (Elt F)),
    binary main_v83 main_v86 main_v87 (addf : (⟨S100000x128, .f32⟩ : BufTy).Contents (Elt F) → (⟨S100000x128, .f32⟩ : BufTy).Contents (Elt F) → (⟨S100000x128, .f32⟩ : BufTy).Contents (Elt F)),
    unary main_arg6 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32) ]

/-- Operations 113 to 128 of @main. -/
abbrev w7 : List (HloOp τ sig (Elt F)) :=
  [ binary main_v90 main_cst_16 main_v91 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v92 (broadcastInDim S128 ![] bcast_S_S128 : (⟨S_, .f32⟩ : BufTy).Contents (Elt F) → (⟨S128, .f32⟩ : BufTy).Contents (Elt F)),
    binary main_v91 main_v92 main_v93 (Host.divf : (⟨S128, .f32⟩ : BufTy).Contents (Elt F) → (⟨S128, .f32⟩ : BufTy).Contents (Elt F) → (⟨S128, .f32⟩ : BufTy).Contents (Elt F)),
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v90 main_v95 main_v96 (subf : (⟨S100000x128, .f32⟩ : BufTy).Contents (Elt F) → (⟨S100000x128, .f32⟩ : BufTy).Contents (Elt F) → (⟨S100000x128, .f32⟩ : BufTy).Contents (Elt F)),
    binary main_v96 main_v96 main_v97 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v97 main_cst_18 main_v98 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_19 (constant S_ .f32 0x47C35000#32),
    unary main_cst_19 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)),
    unary main_v93 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)),
    binary main_v90 main_v102 main_v103 (subf : (⟨S100000x128, .f32⟩ : BufTy).Contents (Elt F) → (⟨S100000x128, .f32⟩ : BufTy).Contents (Elt F) → (⟨S100000x128, .f32⟩ : BufTy).Contents (Elt F)) ]

/-- Operations 129 to 144 of @main. -/
abbrev w8 : List (HloOp τ sig (Elt F)) :=
  [ nullary main_cst_20 (constant S_ .f32 0x3727C5AC#32),
    unary main_cst_20 main_v104 (broadcastInDim S128 ![] bcast_S_S128 : (⟨S_, .f32⟩ : BufTy).Contents (Elt F) → (⟨S128, .f32⟩ : BufTy).Contents (Elt F)),
    binary main_v100 main_v104 main_v105 (addf : (⟨S128, .f32⟩ : BufTy).Contents (Elt F) → (⟨S128, .f32⟩ : BufTy).Contents (Elt F) → (⟨S128, .f32⟩ : BufTy).Contents (Elt F)),
    unary main_v105 main_v106 (Host.rsqrt : (⟨S128, .f32⟩ : BufTy).Contents (Elt F) → (⟨S128, .f32⟩ : BufTy).Contents (Elt F)),
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v103 main_v108 main_v109 (mulf : (⟨S100000x128, .f32⟩ : BufTy).Contents (Elt F) → (⟨S100000x128, .f32⟩ : BufTy).Contents (Elt F) → (⟨S100000x128, .f32⟩ : BufTy).Contents (Elt F)),
    unary main_arg11 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v109 main_v111 main_v112 (mulf : (⟨S100000x128, .f32⟩ : BufTy).Contents (Elt F) → (⟨S100000x128, .f32⟩ : BufTy).Contents (Elt F) → (⟨S100000x128, .f32⟩ : BufTy).Contents (Elt F)),
    unary main_arg12 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v112 main_v114 main_v115 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v115) (TRef.of (T := ⟨S100000x128, .f32⟩) main_call1_v0) (TRef.of (T := ⟨S100000x128, .f32⟩) main_v116) maximumf ]

/-- Operations 145 to 160 of @main. -/
abbrev w9 : List (HloOp τ sig (Elt F)) :=
  [ binary main_v116 main_arg7 main_v117 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_21 (constantI S_ 32 0#32),
    unary main_c_21 main_v118 (broadcastInDim S1600000 ![] bcast_S_S1600000 : (⟨S_, .i32⟩ : BufTy).Contents (Elt F) → (⟨S1600000, .i32⟩ : BufTy).Contents (Elt F)),
    binary main_arg1 main_v118 main_v119 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v120 (broadcastInDim S1600000 ![] bcast_S_S1600000 : (⟨S_, .i32⟩ : BufTy).Contents (Elt F) → (⟨S1600000, .i32⟩ : BufTy).Contents (Elt F)),
    binary main_arg1 main_v120 main_v121 (addi : (⟨S1600000, .i32⟩ : BufTy).Contents (Elt F) → (⟨S1600000, .i32⟩ : BufTy).Contents (Elt F) → (⟨S1600000, .i32⟩ : BufTy).Contents (Elt F)),
    ternary main_v119 main_v121 main_arg1 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v122 main_v123 (broadcastInDim S1600000x1 ![0] bcast_S1600000_S1600000x1_0 : (⟨S1600000, .i32⟩ : BufTy).Contents (Elt F) → (⟨S1600000x1, .i32⟩ : BufTy).Contents (Elt F)),
    binary main_v117 main_v123 main_v124 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v21 main_v125 (broadcastInDim S1600000x1 ![0] bcast_S1600000_S1600000x1_0 : (⟨S1600000, .f32⟩ : BufTy).Contents (Elt F) → (⟨S1600000x1, .f32⟩ : BufTy).Contents (Elt F)),
    unary main_v125 main_v126 (broadcastInDim S1600000x40 ![0, 1] bcast_S1600000x1_S1600000x40_0_1 : (⟨S1600000x1, .f32⟩ : BufTy).Contents (Elt F) → (⟨S1600000x40, .f32⟩ : BufTy).Contents (Elt F)),
    binary main_v124 main_v126 main_v127 (mulf : (⟨S1600000x40, .f32⟩ : BufTy).Contents (Elt F) → (⟨S1600000x40, .f32⟩ : BufTy).Contents (Elt F) → (⟨S1600000x40, .f32⟩ : BufTy).Contents (Elt F)),
    nullary main_cst_23 (constant S_ .f32 0x00000000#32),
    unary main_cst_23 main_v128 (broadcastInDim S100000x40 ![] bcast_S_S100000x40 : (⟨S_, .f32⟩ : BufTy).Contents (Elt F) → (⟨S100000x40, .f32⟩ : BufTy).Contents (Elt F)),
    unary main_arg2 main_v129 (broadcastInDim S1600000x1 ![0] bcast_S1600000_S1600000x1_0 : (⟨S1600000, .i32⟩ : BufTy).Contents (Elt F) → (⟨S1600000x1, .i32⟩ : BufTy).Contents (Elt F)) ]

/-- Operations 161 to 167 of @main. -/
abbrev w10 : List (HloOp τ sig (Elt F)) :=
  [ ternary main_v128 main_v129 main_v127 main_v130 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_v22 main_v131 (broadcastInDim S100000x1 ![0] bcast_S100000_S100000x1_0 : (⟨S100000, .f32⟩ : BufTy).Contents (Elt F) → (⟨S100000x1, .f32⟩ : BufTy).Contents (Elt F)),
    unary main_v131 main_v132 (broadcastInDim S100000x40 ![0, 1] bcast_S100000x1_S100000x40_0_1 : (⟨S100000x1, .f32⟩ : BufTy).Contents (Elt F) → (⟨S100000x40, .f32⟩ : BufTy).Contents (Elt F)),
    binary main_v117 main_v132 main_v133 (mulf : (⟨S100000x40, .f32⟩ : BufTy).Contents (Elt F) → (⟨S100000x40, .f32⟩ : BufTy).Contents (Elt F) → (⟨S100000x40, .f32⟩ : BufTy).Contents (Elt F)),
    binary main_v130 main_v133 main_v134 (addf : (⟨S100000x40, .f32⟩ : BufTy).Contents (Elt F) → (⟨S100000x40, .f32⟩ : BufTy).Contents (Elt F) → (⟨S100000x40, .f32⟩ : BufTy).Contents (Elt F)),
    unary main_arg8 main_v135 (broadcastInDim S1x40 ![1] bcast_S40_S1x40_1 : (⟨S40, .f32⟩ : BufTy).Contents (Elt F) → (⟨S1x40, .f32⟩ : BufTy).Contents (Elt F)),
    unary main_v135 main_v136 (broadcastInDim S100000x40 ![0, 1] bcast_S1x40_S100000x40_0_1 : (⟨S1x40, .f32⟩ : BufTy).Contents (Elt F) → (⟨S100000x40, .f32⟩ : BufTy).Contents (Elt F)) ]

/-- Operations 168 to 183 of @main. -/
abbrev w11 : List (HloOp τ sig (Elt F)) :=
  [ binary main_v134 main_v136 main_v137 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v137) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v137) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v138) subf ]

set_option maxRecDepth 8192 in
/-- @main's operations are the twelve windows one after the other. -/
theorem ops_split : (ops : List (HloOp τ sig (Elt F))) = w0 ++ (w1 ++ (w2 ++ (w3 ++ (w4 ++ (w5 ++ (w6 ++ (w7 ++ (w8 ++ (w9 ++ (w10 ++ (w11))))))))))) := rfl

end Ref

end
-- ==== Proof.RefStages.lean ====
import proofs.«139699_j335007449371_2_alg».proof.Proof.Gen.ReferenceIdeal
import Idealize.ShloMosaic.Lib.Pipeline.Value
import Idealize.ShloMosaic.Lib.ValueIdx
import Idealize.ShloMosaic.PureOps.Ideal.Laws

/-!
  The reference program, one operation at a time. `val_<buffer>` (one per operation, in program order) is the value
  the operation writes, as a function of the arguments of @main it depends on; each definition applies the
  operation's own function to the values of its operands. The comment above a definition is the operation's line
  in the program.
-/

noncomputable section

namespace Ref

open Cert.ReferenceIdeal Cert.ReferenceIdeal.Gen Idealize.ShloMosaic Idealize.ShloMosaic.TcCoe Idealize.SL.Sem Idealize.ShloMosaic.StableHlo

variable {F : FTy → Type} [FloatOps F]

-- %cst = stablehlo.constant dense<1.000000e+00> : tensor<f32>
def val_main_cst : (⟨S_, .f32⟩ : BufTy).Contents (Elt F) :=
  constant S_ .f32 0x3F800000#32

-- %0 = stablehlo.broadcast_in_dim %cst, dims = [] : (tensor<f32>) -> tensor<1600000xf32>
def val_main_v0 : (⟨S1600000, .f32⟩ : BufTy).Contents (Elt F) :=
  broadcastInDim S1600000 ![] bcast_S_S1600000 (val_main_cst (F := F))

-- %cst_0 = stablehlo.constant dense<0.000000e+00> : tensor<f32>
def val_main_cst_0 : (⟨S_, .f32⟩ : BufTy).Contents (Elt F) :=
  constant S_ .f32 0x00000000#32

-- %1 = stablehlo.broadcast_in_dim %cst_0, dims = [] : (tensor<f32>) -> tensor<100000xf32>
def val_main_v1 : (⟨S100000, .f32⟩ : BufTy).Contents (Elt F) :=
  broadcastInDim S100000 ![] bcast_S_S100000 (val_main_cst_0 (F := F))

-- %2 = stablehlo.broadcast_in_dim %arg2, dims = [0] : (tensor<1600000xi32>) -> tensor<1600000x1xi32>
def val_main_v2 (x2 : (⟨S1600000, .i32⟩ : BufTy).Contents (Elt F)) : (⟨S1600000x1, .i32⟩ : BufTy).Contents (Elt F) :=
  broadcastInDim S1600000x1 ![0] bcast_S1600000_S1600000x1_0 (x2)

-- %3 = "stablehlo.scatter"(%1, %2, %0) <{indices_are_sorted = false, scatter_dimension_numbers = #stablehlo.scatter<inserted_window_dims = [0], scatter_dims_to_operand_dims = [0], index_vector_dim = 1>, unique_indices = false}> ( {
def val_main_v3 (x2 : (⟨S1600000, .i32⟩ : BufTy).Contents (Elt F)) : (⟨S100000, .f32⟩ : BufTy).Contents (Elt F) :=
  Host.scatterAdd scatter_S100000_S1600000x1_S1600000_n_0_0_1 (val_main_v1 (F := F)) (val_main_v2 (F := F) x2) (val_main_v0 (F := F))

-- %cst_1 = stablehlo.constant dense<1.000000e+00> : tensor<f32>
def val_main_cst_1 : (⟨S_, .f32⟩ : BufTy).Contents (Elt F) :=
  constant S_ .f32 0x3F800000#32

-- %4 = stablehlo.broadcast_in_dim %cst_1, dims = [] : (tensor<f32>) -> tensor<100000xf32>
def val_main_v4 : (⟨S100000, .f32⟩ : BufTy).Contents (Elt F) :=
  broadcastInDim S100000 ![] bcast_S_S100000 (val_main_cst_1 (F := F))

-- %5 = stablehlo.add %4, %3 : tensor<100000xf32>
def val_main_v5 (x2 : (⟨S1600000, .i32⟩ : BufTy).Contents (Elt F)) : (⟨S100000, .f32⟩ : BufTy).Contents (Elt F) :=
  addf (val_main_v4 (F := F)) (val_main_v3 (F := F) x2)

-- %6 = stablehlo.rsqrt %5 : tensor<100000xf32>
def val_main_v6 (x2 : (⟨S1600000, .i32⟩ : BufTy).Contents (Elt F)) : (⟨S100000, .f32⟩ : BufTy).Contents (Elt F) :=
  Host.rsqrt (val_main_v5 (F := F) x2)

-- %c = stablehlo.constant dense<0> : tensor<i32>
def val_main_c : (⟨S_, .i32⟩ : BufTy).Contents (Elt F) :=
  constantI S_ 32 0#32

-- %7 = stablehlo.broadcast_in_dim %c, dims = [] : (tensor<i32>) -> tensor<1600000xi32>
def val_main_v7 : (⟨S1600000, .i32⟩ : BufTy).Contents (Elt F) :=
  broadcastInDim S1600000 ![] bcast_S_S1600000 (val_main_c (F := F))

-- %8 = stablehlo.compare LT, %arg1, %7, SIGNED : (tensor<1600000xi32>, tensor<1600000xi32>) -> tensor<1600000xi1>
def val_main_v8 (x1 : (⟨S1600000, .i32⟩ : BufTy).Contents (Elt F)) : (⟨S1600000, .i1⟩ : BufTy).Contents (Elt F) :=
  cmpi .slt (x1) (val_main_v7 (F := F))

-- %c_2 = stablehlo.constant dense<100000> : tensor<i32>
def val_main_c_2 : (⟨S_, .i32⟩ : BufTy).Contents (Elt F) :=
  constantI S_ 32 100000#32

-- %9 = stablehlo.broadcast_in_dim %c_2, dims = [] : (tensor<i32>) -> tensor<1600000xi32>
def val_main_v9 : (⟨S1600000, .i32⟩ : BufTy).Contents (Elt F) :=
  broadcastInDim S1600000 ![] bcast_S_S1600000 (val_main_c_2 (F := F))

-- %10 = stablehlo.add %arg1, %9 : tensor<1600000xi32>
def val_main_v10 (x1 : (⟨S1600000, .i32⟩ : BufTy).Contents (Elt F)) : (⟨S1600000, .i32⟩ : BufTy).Contents (Elt F) :=
  addi (x1) (val_main_v9 (F := F))

-- %11 = stablehlo.select %8, %10, %arg1 : tensor<1600000xi1>, tensor<1600000xi32>
def val_main_v11 (x1 : (⟨S1600000, .i32⟩ : BufTy).Contents (Elt F)) : (⟨S1600000, .i32⟩ : BufTy).Contents (Elt F) :=
  select (val_main_v8 (F := F) x1) (val_main_v10 (F := F) x1) (x1)

-- %12 = stablehlo.broadcast_in_dim %11, dims = [0] : (tensor<1600000xi32>) -> tensor<1600000x1xi32>
def val_main_v12 (x1 : (⟨S1600000, .i32⟩ : BufTy).Contents (Elt F)) : (⟨S1600000x1, .i32⟩ : BufTy).Contents (Elt F) :=
  broadcastInDim S1600000x1 ![0] bcast_S1600000_S1600000x1_0 (val_main_v11 (F := F) x1)

-- %13 = "stablehlo.gather"(%6, %12) <{dimension_numbers = #stablehlo.gather<collapsed_slice_dims = [0], start_index_map = [0], index_vector_dim = 1>, indices_are_sorted = false, slice_sizes = array<i64: 1>}> : (tensor<100000xf32>, tensor<1600000x1xi32>) -> tensor<1600000xf32>
def val_main_v13 (x1 x2 : (⟨S1600000, .i32⟩ : BufTy).Contents (Elt F)) : (⟨S1600000, .f32⟩ : BufTy).Contents (Elt F) :=
  Host.gather gather_S100000_S1600000x1_S1600000_n_0_n_n_0_1_1 (val_main_v6 (F := F) x2) (val_main_v12 (F := F) x1)

-- %c_3 = stablehlo.constant dense<0> : tensor<i32>
def val_main_c_3 : (⟨S_, .i32⟩ : BufTy).Contents (Elt F) :=
  constantI S_ 32 0#32

-- %14 = stablehlo.broadcast_in_dim %c_3, dims = [] : (tensor<i32>) -> tensor<1600000xi32>
def val_main_v14 : (⟨S1600000, .i32⟩ : BufTy).Contents (Elt F) :=
  broadcastInDim S1600000 ![] bcast_S_S1600000 (val_main_c_3 (F := F))

-- %15 = stablehlo.compare LT, %arg2, %14, SIGNED : (tensor<1600000xi32>, tensor<1600000xi32>) -> tensor<1600000xi1>
def val_main_v15 (x2 : (⟨S1600000, .i32⟩ : BufTy).Contents (Elt F)) : (⟨S1600000, .i1⟩ : BufTy).Contents (Elt F) :=
  cmpi .slt (x2) (val_main_v14 (F := F))

-- %c_4 = stablehlo.constant dense<100000> : tensor<i32>
def val_main_c_4 : (⟨S_, .i32⟩ : BufTy).Contents (Elt F) :=
  constantI S_ 32 100000#32

-- %16 = stablehlo.broadcast_in_dim %c_4, dims = [] : (tensor<i32>) -> tensor<1600000xi32>
def val_main_v16 : (⟨S1600000, .i32⟩ : BufTy).Contents (Elt F) :=
  broadcastInDim S1600000 ![] bcast_S_S1600000 (val_main_c_4 (F := F))

-- %17 = stablehlo.add %arg2, %16 : tensor<1600000xi32>
def val_main_v17 (x2 : (⟨S1600000, .i32⟩ : BufTy).Contents (Elt F)) : (⟨S1600000, .i32⟩ : BufTy).Contents (Elt F) :=
  addi (x2) (val_main_v16 (F := F))

-- %18 = stablehlo.select %15, %17, %arg2 : tensor<1600000xi1>, tensor<1600000xi32>
def val_main_v18 (x2 : (⟨S1600000, .i32⟩ : BufTy).Contents (Elt F)) : (⟨S1600000, .i32⟩ : BufTy).Contents (Elt F) :=
  select (val_main_v15 (F := F) x2) (val_main_v17 (F := F) x2) (x2)

-- %19 = stablehlo.broadcast_in_dim %18, dims = [0] : (tensor<1600000xi32>) -> tensor<1600000x1xi32>
def val_main_v19 (x2 : (⟨S1600000, .i32⟩ : BufTy).Contents (Elt F)) : (⟨S1600000x1, .i32⟩ : BufTy).Contents (Elt F) :=
  broadcastInDim S1600000x1 ![0] bcast_S1600000_S1600000x1_0 (val_main_v18 (F := F) x2)

-- %20 = "stablehlo.gather"(%6, %19) <{dimension_numbers = #stablehlo.gather<collapsed_slice_dims = [0], start_index_map = [0], index_vector_dim = 1>, indices_are_sorted = false, slice_sizes = array<i64: 1>}> : (tensor<100000xf32>, tensor<1600000x1xi32>) -> tensor<1600000xf32>
def val_main_v20 (x2 : (⟨S1600000, .i32⟩ : BufTy).Contents (Elt F)) : (⟨S1600000, .f32⟩ : BufTy).Contents (Elt F) :=
  Host.gather gather_S100000_S1600000x1_S1600000_n_0_n_n_0_1_1 (val_main_v6 (F := F) x2) (val_main_v19 (F := F) x2)

-- %21 = stablehlo.multiply %13, %20 : tensor<1600000xf32>
def val_main_v21 (x1 x2 : (⟨S1600000, .i32⟩ : BufTy).Contents (Elt F)) : (⟨S1600000, .f32⟩ : BufTy).Contents (Elt F) :=
  mulf (val_main_v13 (F := F) x1 x2) (val_main_v20 (F := F) x2)

-- %22 = stablehlo.multiply %6, %6 : tensor<100000xf32>
def val_main_v22 (x2 : (⟨S1600000, .i32⟩ : BufTy).Contents (Elt F)) : (⟨S100000, .f32⟩ : BufTy).Contents (Elt F) :=
  mulf (val_main_v6 (F := F) x2) (val_main_v6 (F := F) x2)

-- %23 = stablehlo.dot_general %arg0, %arg3, contracting_dims = [1] x [0], precision = [DEFAULT, DEFAULT] : (tensor<100000x128xf32>, tensor<128x128xf32>) -> tensor<100000x128xf32>
def val_main_v23 (x0 : (⟨S100000x128, .f32⟩ : BufTy).Contents (Elt F)) (x3 : (⟨S128x128, .f32⟩ : BufTy).Contents (Elt F)) : (⟨S100000x128, .f32⟩ : BufTy).Contents (Elt F) :=
  Host.dotGeneral dot_S100000x128_S128x128_S100000x128_1_0_0_1_n_n none (x0) (x3)

-- %c_5 = stablehlo.constant dense<0> : tensor<i32>
def val_main_c_5 : (⟨S_, .i32⟩ : BufTy).Contents (Elt F) :=
  constantI S_ 32 0#32

-- %24 = stablehlo.broadcast_in_dim %c_5, dims = [] : (tensor<i32>) -> tensor<1600000xi32>
def val_main_v24 : (⟨S1600000, .i32⟩ : BufTy).Contents (Elt F) :=
  broadcastInDim S1600000 ![] bcast_S_S1600000 (val_main_c_5 (F := F))

-- %25 = stablehlo.compare LT, %arg1, %24, SIGNED : (tensor<1600000xi32>, tensor<1600000xi32>) -> tensor<1600000xi1>
def val_main_v25 (x1 : (⟨S1600000, .i32⟩ : BufTy).Contents (Elt F)) : (⟨S1600000, .i1⟩ : BufTy).Contents (Elt F) :=
  cmpi .slt (x1) (val_main_v24 (F := F))

-- %c_6 = stablehlo.constant dense<100000> : tensor<i32>
def val_main_c_6 : (⟨S_, .i32⟩ : BufTy).Contents (Elt F) :=
  constantI S_ 32 100000#32

-- %26 = stablehlo.broadcast_in_dim %c_6, dims = [] : (tensor<i32>) -> tensor<1600000xi32>
def val_main_v26 : (⟨S1600000, .i32⟩ : BufTy).Contents (Elt F) :=
  broadcastInDim S1600000 ![] bcast_S_S1600000 (val_main_c_6 (F := F))

-- %27 = stablehlo.add %arg1, %26 : tensor<1600000xi32>
def val_main_v27 (x1 : (⟨S1600000, .i32⟩ : BufTy).Contents (Elt F)) : (⟨S1600000, .i32⟩ : BufTy).Contents (Elt F) :=
  addi (x1) (val_main_v26 (F := F))

-- %28 = stablehlo.select %25, %27, %arg1 : tensor<1600000xi1>, tensor<1600000xi32>
def val_main_v28 (x1 : (⟨S1600000, .i32⟩ : BufTy).Contents (Elt F)) : (⟨S1600000, .i32⟩ : BufTy).Contents (Elt F) :=
  select (val_main_v25 (F := F) x1) (val_main_v27 (F := F) x1) (x1)

-- %29 = stablehlo.broadcast_in_dim %28, dims = [0] : (tensor<1600000xi32>) -> tensor<1600000x1xi32>
def val_main_v29 (x1 : (⟨S1600000, .i32⟩ : BufTy).Contents (Elt F)) : (⟨S1600000x1, .i32⟩ : BufTy).Contents (Elt F) :=
  broadcastInDim S1600000x1 ![0] bcast_S1600000_S1600000x1_0 (val_main_v28 (F := F) x1)

-- %30 = "stablehlo.gather"(%23, %29) <{dimension_numbers = #stablehlo.gather<offset_dims = [1], collapsed_slice_dims = [0], start_index_map = [0], index_vector_dim = 1>, indices_are_sorted = false, slice_sizes = array<i64: 1, 128>}> : (tensor<100000x128xf32>, tensor<1600000x1xi32>) -> tensor<1600000x128xf32>
def val_main_v30 (x0 : (⟨S100000x128, .f32⟩ : BufTy).Contents (Elt F)) (x1 : (⟨S1600000, .i32⟩ : BufTy).Contents (Elt F)) (x3 : (⟨S128x128, .f32⟩ : BufTy).Contents (Elt F)) : (⟨S1600000x128, .f32⟩ : BufTy).Contents (Elt F) :=
  Host.gather gather_S100000x128_S1600000x1_S1600000x128_1_0_n_n_0_1_1128 (val_main_v23 (F := F) x0 x3) (val_main_v29 (F := F) x1)

-- %31 = stablehlo.broadcast_in_dim %21, dims = [0] : (tensor<1600000xf32>) -> tensor<1600000x1xf32>
def val_main_v31 (x1 x2 : (⟨S1600000, .i32⟩ : BufTy).Contents (Elt F)) : (⟨S1600000x1, .f32⟩ : BufTy).Contents (Elt F) :=
  broadcastInDim S1600000x1 ![0] bcast_S1600000_S1600000x1_0 (val_main_v21 (F := F) x1 x2)

-- %32 = stablehlo.broadcast_in_dim %31, dims = [0, 1] : (tensor<1600000x1xf32>) -> tensor<1600000x128xf32>
def val_main_v32 (x1 x2 : (⟨S1600000, .i32⟩ : BufTy).Contents (Elt F)) : (⟨S1600000x128, .f32⟩ : BufTy).Contents (Elt F) :=
  broadcastInDim S1600000x128 ![0, 1] bcast_S1600000x1_S1600000x128_0_1 (val_main_v31 (F := F) x1 x2)

-- %33 = stablehlo.multiply %30, %32 : tensor<1600000x128xf32>
def val_main_v33 (x0 : (⟨S100000x128, .f32⟩ : BufTy).Contents (Elt F)) (x1 x2 : (⟨S1600000, .i32⟩ : BufTy).Contents (Elt F)) (x3 : (⟨S128x128, .f32⟩ : BufTy).Contents (Elt F)) : (⟨S1600000x128, .f32⟩ : BufTy).Contents (Elt F) :=
  mulf (val_main_v30 (F := F) x0 x1 x3) (val_main_v32 (F := F) x1 x2)

-- %cst_7 = stablehlo.constant dense<0.000000e+00> : tensor<f32>
def val_main_cst_7 : (⟨S_, .f32⟩ : BufTy).Contents (Elt F) :=
  constant S_ .f32 0x00000000#32

-- %34 = stablehlo.broadcast_in_dim %cst_7, dims = [] : (tensor<f32>) -> tensor<100000x128xf32>
def val_main_v34 : (⟨S100000x128, .f32⟩ : BufTy).Contents (Elt F) :=
  broadcastInDim S100000x128 ![] bcast_S_S100000x128 (val_main_cst_7 (F := F))

-- %35 = stablehlo.broadcast_in_dim %arg2, dims = [0] : (tensor<1600000xi32>) -> tensor<1600000x1xi32>
def val_main_v35 (x2 : (⟨S1600000, .i32⟩ : BufTy).Contents (Elt F)) : (⟨S1600000x1, .i32⟩ : BufTy).Contents (Elt F) :=
  broadcastInDim S1600000x1 ![0] bcast_S1600000_S1600000x1_0 (x2)

-- %36 = "stablehlo.scatter"(%34, %35, %33) <{indices_are_sorted = false, scatter_dimension_numbers = #stablehlo.scatter<update_window_dims = [1], inserted_window_dims = [0], scatter_dims_to_operand_dims = [0], index_vector_dim = 1>, unique_indices = false}> ( {
def val_main_v36 (x0 : (⟨S100000x128, .f32⟩ : BufTy).Contents (Elt F)) (x1 x2 : (⟨S1600000, .i32⟩ : BufTy).Contents (Elt F)) (x3 : (⟨S128x128, .f32⟩ : BufTy).Contents (Elt F)) : (⟨S100000x128, .f32⟩ : BufTy).Contents (Elt F) :=
  Host.scatterAdd scatter_S100000x128_S1600000x1_S1600000x128_1_0_0_1 (val_main_v34 (F := F)) (val_main_v35 (F := F) x2) (val_main_v33 (F := F) x0 x1 x2 x3)

-- %37 = stablehlo.broadcast_in_dim %22, dims = [0] : (tensor<100000xf32>) -> tensor<100000x1xf32>
def val_main_v37 (x2 : (⟨S1600000, .i32⟩ : BufTy).Contents (Elt F)) : (⟨S100000x1, .f32⟩ : BufTy).Contents (Elt F) :=
  broadcastInDim S100000x1 ![0] bcast_S100000_S100000x1_0 (val_main_v22 (F := F) x2)

-- %38 = stablehlo.broadcast_in_dim %37, dims = [0, 1] : (tensor<100000x1xf32>) -> tensor<100000x128xf32>
def val_main_v38 (x2 : (⟨S1600000, .i32⟩ : BufTy).Contents (Elt F)) : (⟨S100000x128, .f32⟩ : BufTy).Contents (Elt F) :=
  broadcastInDim S100000x128 ![0, 1] bcast_S100000x1_S100000x128_0_1 (val_main_v37 (F := F) x2)

-- %39 = stablehlo.multiply %23, %38 : tensor<100000x128xf32>
def val_main_v39 (x0 : (⟨S100000x128, .f32⟩ : BufTy).Contents (Elt F)) (x2 : (⟨S1600000, .i32⟩ : BufTy).Contents (Elt F)) (x3 : (⟨S128x128, .f32⟩ : BufTy).Contents (Elt F)) : (⟨S100000x128, .f32⟩ : BufTy).Contents (Elt F) :=
  mulf (val_main_v23 (F := F) x0 x3) (val_main_v38 (F := F) x2)

-- %40 = stablehlo.add %36, %39 : tensor<100000x128xf32>
def val_main_v40 (x0 : (⟨S100000x128, .f32⟩ : BufTy).Contents (Elt F)) (x1 x2 : (⟨S1600000, .i32⟩ : BufTy).Contents (Elt F)) (x3 : (⟨S128x128, .f32⟩ : BufTy).Contents (Elt F)) : (⟨S100000x128, .f32⟩ : BufTy).Contents (Elt F) :=
  addf (val_main_v36 (F := F) x0 x1 x2 x3) (val_main_v39 (F := F) x0 x2 x3)

-- %41 = stablehlo.broadcast_in_dim %arg4, dims = [1] : (tensor<128xf32>) -> tensor<1x128xf32>
def val_main_v41 (x4 : (⟨S128, .f32⟩ : BufTy).Contents (Elt F)) : (⟨S1x128, .f32⟩ : BufTy).Contents (Elt F) :=
  broadcastInDim S1x128 ![1] bcast_S128_S1x128_1 (x4)

-- %42 = stablehlo.broadcast_in_dim %41, dims = [0, 1] : (tensor<1x128xf32>) -> tensor<100000x128xf32>
def val_main_v42 (x4 : (⟨S128, .f32⟩ : BufTy).Contents (Elt F)) : (⟨S100000x128, .f32⟩ : BufTy).Contents (Elt F) :=
  broadcastInDim S100000x128 ![0, 1] bcast_S1x128_S100000x128_0_1 (val_main_v41 (F := F) x4)

-- %43 = stablehlo.add %40, %42 : tensor<100000x128xf32>
def val_main_v43 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  addf (val_main_v40 (F := F) x0 x1 x2 x3) (val_main_v42 (F := F) x4)

-- %cst_8 = stablehlo.constant dense<0.000000e+00> : tensor<f32>
def val_main_cst_8 : (⟨S_, .f32⟩ : BufTy).Contents (Elt F) :=
  constant S_ .f32 0x00000000#32

-- %44 = stablehlo.reduce(%43 init: %cst_8) applies stablehlo.add across dimensions = [0] : (tensor<100000x128xf32>, tensor<f32>) -> tensor<128xf32> {
def val_main_v44 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S128, .f32⟩ : BufTy).Contents (Elt F) :=
  Host.reduceAdd (val_main_v43 (F := F) x0 x1 x2 x3 x4) (val_main_cst_8 (F := F)) reducesTo_S100000x128_S128_d0 h_S_

-- %cst_9 = stablehlo.constant dense<1.000000e+05> : tensor<f32>
def val_main_cst_9 : (⟨S_, .f32⟩ : BufTy).Contents (Elt F) :=
  constant S_ .f32 0x47C35000#32

-- %45 = stablehlo.broadcast_in_dim %cst_9, dims = [] : (tensor<f32>) -> tensor<128xf32>
def val_main_v45 : (⟨S128, .f32⟩ : BufTy).Contents (Elt F) :=
  broadcastInDim S128 ![] bcast_S_S128 (val_main_cst_9 (F := F))

-- %46 = stablehlo.divide %44, %45 : tensor<128xf32>
def val_main_v46 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S128, .f32⟩ : BufTy).Contents (Elt F) :=
  Host.divf (val_main_v44 (F := F) x0 x1 x2 x3 x4) (val_main_v45 (F := F))

-- %47 = stablehlo.broadcast_in_dim %46, dims = [1] : (tensor<128xf32>) -> tensor<1x128xf32>
def val_main_v47 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S1x128, .f32⟩ : BufTy).Contents (Elt F) :=
  broadcastInDim S1x128 ![1] bcast_S128_S1x128_1 (val_main_v46 (F := F) x0 x1 x2 x3 x4)

-- %48 = stablehlo.broadcast_in_dim %47, dims = [0, 1] : (tensor<1x128xf32>) -> tensor<100000x128xf32>
def val_main_v48 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  broadcastInDim S100000x128 ![0, 1] bcast_S1x128_S100000x128_0_1 (val_main_v47 (F := F) x0 x1 x2 x3 x4)

-- %49 = stablehlo.subtract %43, %48 : tensor<100000x128xf32>
def val_main_v49 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  subf (val_main_v43 (F := F) x0 x1 x2 x3 x4) (val_main_v48 (F := F) x0 x1 x2 x3 x4)

-- %50 = chlo.square %49 : tensor<100000x128xf32> -> tensor<100000x128xf32>
def val_main_v50 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  mulf (val_main_v49 (F := F) x0 x1 x2 x3 x4) (val_main_v49 (F := F) x0 x1 x2 x3 x4)

-- %cst_10 = stablehlo.constant dense<0.000000e+00> : tensor<f32>
def val_main_cst_10 : (⟨S_, .f32⟩ : BufTy).Contents (Elt F) :=
  constant S_ .f32 0x00000000#32

-- %51 = stablehlo.reduce(%50 init: %cst_10) applies stablehlo.add across dimensions = [0] : (tensor<100000x128xf32>, tensor<f32>) -> tensor<128xf32> {
def val_main_v51 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S128, .f32⟩ : BufTy).Contents (Elt F) :=
  Host.reduceAdd (val_main_v50 (F := F) x0 x1 x2 x3 x4) (val_main_cst_10 (F := F)) reducesTo_S100000x128_S128_d0 h_S_

-- %cst_11 = stablehlo.constant dense<1.000000e+05> : tensor<f32>
def val_main_cst_11 : (⟨S_, .f32⟩ : BufTy).Contents (Elt F) :=
  constant S_ .f32 0x47C35000#32

-- %52 = stablehlo.broadcast_in_dim %cst_11, dims = [] : (tensor<f32>) -> tensor<128xf32>
def val_main_v52 : (⟨S128, .f32⟩ : BufTy).Contents (Elt F) :=
  broadcastInDim S128 ![] bcast_S_S128 (val_main_cst_11 (F := F))

-- %53 = stablehlo.divide %51, %52 : tensor<128xf32>
def val_main_v53 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S128, .f32⟩ : BufTy).Contents (Elt F) :=
  Host.divf (val_main_v51 (F := F) x0 x1 x2 x3 x4) (val_main_v52 (F := F))

-- %54 = stablehlo.broadcast_in_dim %46, dims = [1] : (tensor<128xf32>) -> tensor<1x128xf32>
def val_main_v54 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S1x128, .f32⟩ : BufTy).Contents (Elt F) :=
  broadcastInDim S1x128 ![1] bcast_S128_S1x128_1 (val_main_v46 (F := F) x0 x1 x2 x3 x4)

-- %55 = stablehlo.broadcast_in_dim %54, dims = [0, 1] : (tensor<1x128xf32>) -> tensor<100000x128xf32>
def val_main_v55 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  broadcastInDim S100000x128 ![0, 1] bcast_S1x128_S100000x128_0_1 (val_main_v54 (F := F) x0 x1 x2 x3 x4)

-- %56 = stablehlo.subtract %43, %55 : tensor<100000x128xf32>
def val_main_v56 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  subf (val_main_v43 (F := F) x0 x1 x2 x3 x4) (val_main_v55 (F := F) x0 x1 x2 x3 x4)

-- %cst_12 = stablehlo.constant dense<9.99999974E-6> : tensor<f32>
def val_main_cst_12 : (⟨S_, .f32⟩ : BufTy).Contents (Elt F) :=
  constant S_ .f32 0x3727C5AC#32

-- %57 = stablehlo.broadcast_in_dim %cst_12, dims = [] : (tensor<f32>) -> tensor<128xf32>
def val_main_v57 : (⟨S128, .f32⟩ : BufTy).Contents (Elt F) :=
  broadcastInDim S128 ![] bcast_S_S128 (val_main_cst_12 (F := F))

-- %58 = stablehlo.add %53, %57 : tensor<128xf32>
def val_main_v58 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S128, .f32⟩ : BufTy).Contents (Elt F) :=
  addf (val_main_v53 (F := F) x0 x1 x2 x3 x4) (val_main_v57 (F := F))

-- %59 = stablehlo.rsqrt %58 : tensor<128xf32>
def val_main_v59 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S128, .f32⟩ : BufTy).Contents (Elt F) :=
  Host.rsqrt (val_main_v58 (F := F) x0 x1 x2 x3 x4)

-- %60 = stablehlo.broadcast_in_dim %59, dims = [1] : (tensor<128xf32>) -> tensor<1x128xf32>
def val_main_v60 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S1x128, .f32⟩ : BufTy).Contents (Elt F) :=
  broadcastInDim S1x128 ![1] bcast_S128_S1x128_1 (val_main_v59 (F := F) x0 x1 x2 x3 x4)

-- %61 = stablehlo.broadcast_in_dim %60, dims = [0, 1] : (tensor<1x128xf32>) -> tensor<100000x128xf32>
def val_main_v61 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  broadcastInDim S100000x128 ![0, 1] bcast_S1x128_S100000x128_0_1 (val_main_v60 (F := F) x0 x1 x2 x3 x4)

-- %62 = stablehlo.multiply %56, %61 : tensor<100000x128xf32>
def val_main_v62 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  mulf (val_main_v56 (F := F) x0 x1 x2 x3 x4) (val_main_v61 (F := F) x0 x1 x2 x3 x4)

-- %63 = stablehlo.broadcast_in_dim %arg9, dims = [1] : (tensor<128xf32>) -> tensor<1x128xf32>
def val_main_v63 (x9 : (⟨S128, .f32⟩ : BufTy).Contents (Elt F)) : (⟨S1x128, .f32⟩ : BufTy).Contents (Elt F) :=
  broadcastInDim S1x128 ![1] bcast_S128_S1x128_1 (x9)

-- %64 = stablehlo.broadcast_in_dim %63, dims = [0, 1] : (tensor<1x128xf32>) -> tensor<100000x128xf32>
def val_main_v64 (x9 : (⟨S128, .f32⟩ : BufTy).Contents (Elt F)) : (⟨S100000x128, .f32⟩ : BufTy).Contents (Elt F) :=
  broadcastInDim S100000x128 ![0, 1] bcast_S1x128_S100000x128_0_1 (val_main_v63 (F := F) x9)

-- %65 = stablehlo.multiply %62, %64 : tensor<100000x128xf32>
def val_main_v65 (x0 : (⟨S100000x128, .f32⟩ : BufTy).Contents (Elt F)) (x1 x2 : (⟨S1600000, .i32⟩ : BufTy).Contents (Elt F)) (x3 : (⟨S128x128, .f32⟩ : BufTy).Contents (Elt F)) (x4 x9 : (⟨S128, .f32⟩ : BufTy).Contents (Elt F)) : (⟨S100000x128, .f32⟩ : BufTy).Contents (Elt F) :=
  mulf (val_main_v62 (F := F) x0 x1 x2 x3 x4) (val_main_v64 (F := F) x9)

-- %66 = stablehlo.broadcast_in_dim %arg10, dims = [1] : (tensor<128xf32>) -> tensor<1x128xf32>
def val_main_v66 (x10 : (⟨S128, .f32⟩ : BufTy).Contents (Elt F)) : (⟨S1x128, .f32⟩ : BufTy).Contents (Elt F) :=
  broadcastInDim S1x128 ![1] bcast_S128_S1x128_1 (x10)

-- %67 = stablehlo.broadcast_in_dim %66, dims = [0, 1] : (tensor<1x128xf32>) -> tensor<100000x128xf32>
def val_main_v67 (x10 : (⟨S128, .f32⟩ : BufTy).Contents (Elt F)) : (⟨S100000x128, .f32⟩ : BufTy).Contents (Elt F) :=
  broadcastInDim S100000x128 ![0, 1] bcast_S1x128_S100000x128_0_1 (val_main_v66 (F := F) x10)

-- %68 = stablehlo.add %65, %67 : tensor<100000x128xf32>
def val_main_v68 (x0 : (⟨S100000x128, .f32⟩ : BufTy).Contents (Elt F)) (x1 x2 : (⟨S1600000, .i32⟩ : BufTy).Contents (Elt F)) (x3 : (⟨S128x128, .f32⟩ : BufTy).Contents (Elt F)) (x4 x9 x10 : (⟨S128, .f32⟩ : BufTy).Contents (Elt F)) : (⟨S100000x128, .f32⟩ : BufTy).Contents (Elt F) :=
  addf (val_main_v65 (F := F) x0 x1 x2 x3 x4 x9) (val_main_v67 (F := F) x10)

-- @relu's %cst = stablehlo.constant dense<0.000000e+00> : tensor<f32>, in %69 = func.call @relu(…) (record main_call0)
def val_main_call0_cst : (⟨S_, .f32⟩ : BufTy).Contents (Elt F) :=
  constant S_ .f32 0x00000000#32

-- @relu's %0 = stablehlo.broadcast_in_dim %cst, dims = [] : (tensor<f32>) -> tensor<100000x128xf32>, in %69 = func.call @relu(…) (record main_call0)
def val_main_call0_v0 : (⟨S100000x128, .f32⟩ : BufTy).Contents (Elt F) :=
  broadcastInDim S100000x128 ![] bcast_S_S100000x128 (val_main_call0_cst (F := F))

-- %69 = func.call @relu(…) (record main_call0) result 0: @relu's %1 = stablehlo.maximum %arg0, %0 : tensor<100000x128xf32>
def val_main_v69 (x0 : (⟨S100000x128, .f32⟩ : BufTy).Contents (Elt F)) (x1 x2 : (⟨S1600000, .i32⟩ : BufTy).Contents (Elt F)) (x3 : (⟨S128x128, .f32⟩ : BufTy).Contents (Elt F)) (x4 x9 x10 : (⟨S128, .f32⟩ : BufTy).Contents (Elt F)) : (⟨S100000x128, .f32⟩ : BufTy).Contents (Elt F) :=
  maximumf (val_main_v68 (F := F) x0 x1 x2 x3 x4 x9 x10) (val_main_call0_v0 (F := F))

-- %70 = stablehlo.dot_general %69, %arg5, contracting_dims = [1] x [0], precision = [DEFAULT, DEFAULT] : (tensor<100000x128xf32>, tensor<128x128xf32>) -> tensor<100000x128xf32>
def val_main_v70 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) : (⟨S100000x128, .f32⟩ : BufTy).Contents (Elt F) :=
  Host.dotGeneral dot_S100000x128_S128x128_S100000x128_1_0_0_1_n_n none (val_main_v69 (F := F) x0 x1 x2 x3 x4 x9 x10) (x5)

-- %c_13 = stablehlo.constant dense<0> : tensor<i32>
def val_main_c_13 : (⟨S_, .i32⟩ : BufTy).Contents (Elt F) :=
  constantI S_ 32 0#32

-- %71 = stablehlo.broadcast_in_dim %c_13, dims = [] : (tensor<i32>) -> tensor<1600000xi32>
def val_main_v71 : (⟨S1600000, .i32⟩ : BufTy).Contents (Elt F) :=
  broadcastInDim S1600000 ![] bcast_S_S1600000 (val_main_c_13 (F := F))

-- %72 = stablehlo.compare LT, %arg1, %71, SIGNED : (tensor<1600000xi32>, tensor<1600000xi32>) -> tensor<1600000xi1>
def val_main_v72 (x1 : (⟨S1600000, .i32⟩ : BufTy).Contents (Elt F)) : (⟨S1600000, .i1⟩ : BufTy).Contents (Elt F) :=
  cmpi .slt (x1) (val_main_v71 (F := F))

-- %c_14 = stablehlo.constant dense<100000> : tensor<i32>
def val_main_c_14 : (⟨S_, .i32⟩ : BufTy).Contents (Elt F) :=
  constantI S_ 32 100000#32

-- %73 = stablehlo.broadcast_in_dim %c_14, dims = [] : (tensor<i32>) -> tensor<1600000xi32>
def val_main_v73 : (⟨S1600000, .i32⟩ : BufTy).Contents (Elt F) :=
  broadcastInDim S1600000 ![] bcast_S_S1600000 (val_main_c_14 (F := F))

-- %74 = stablehlo.add %arg1, %73 : tensor<1600000xi32>
def val_main_v74 (x1 : (⟨S1600000, .i32⟩ : BufTy).Contents (Elt F)) : (⟨S1600000, .i32⟩ : BufTy).Contents (Elt F) :=
  addi (x1) (val_main_v73 (F := F))

-- %75 = stablehlo.select %72, %74, %arg1 : tensor<1600000xi1>, tensor<1600000xi32>
def val_main_v75 (x1 : (⟨S1600000, .i32⟩ : BufTy).Contents (Elt F)) : (⟨S1600000, .i32⟩ : BufTy).Contents (Elt F) :=
  select (val_main_v72 (F := F) x1) (val_main_v74 (F := F) x1) (x1)

-- %76 = stablehlo.broadcast_in_dim %75, dims = [0] : (tensor<1600000xi32>) -> tensor<1600000x1xi32>
def val_main_v76 (x1 : (⟨S1600000, .i32⟩ : BufTy).Contents (Elt F)) : (⟨S1600000x1, .i32⟩ : BufTy).Contents (Elt F) :=
  broadcastInDim S1600000x1 ![0] bcast_S1600000_S1600000x1_0 (val_main_v75 (F := F) x1)

-- %77 = "stablehlo.gather"(%70, %76) <{dimension_numbers = #stablehlo.gather<offset_dims = [1], collapsed_slice_dims = [0], start_index_map = [0], index_vector_dim = 1>, indices_are_sorted = false, slice_sizes = array<i64: 1, 128>}> : (tensor<100000x128xf32>, tensor<1600000x1xi32>) -> tensor<1600000x128xf32>
def val_main_v77 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) : (⟨S1600000x128, .f32⟩ : BufTy).Contents (Elt F) :=
  Host.gather gather_S100000x128_S1600000x1_S1600000x128_1_0_n_n_0_1_1128 (val_main_v70 (F := F) x0 x1 x2 x3 x4 x5 x9 x10) (val_main_v76 (F := F) x1)

-- %78 = stablehlo.broadcast_in_dim %21, dims = [0] : (tensor<1600000xf32>) -> tensor<1600000x1xf32>
def val_main_v78 (x1 x2 : (⟨S1600000, .i32⟩ : BufTy).Contents (Elt F)) : (⟨S1600000x1, .f32⟩ : BufTy).Contents (Elt F) :=
  broadcastInDim S1600000x1 ![0] bcast_S1600000_S1600000x1_0 (val_main_v21 (F := F) x1 x2)

-- %79 = stablehlo.broadcast_in_dim %78, dims = [0, 1] : (tensor<1600000x1xf32>) -> tensor<1600000x128xf32>
def val_main_v79 (x1 x2 : (⟨S1600000, .i32⟩ : BufTy).Contents (Elt F)) : (⟨S1600000x128, .f32⟩ : BufTy).Contents (Elt F) :=
  broadcastInDim S1600000x128 ![0, 1] bcast_S1600000x1_S1600000x128_0_1 (val_main_v78 (F := F) x1 x2)

-- %80 = stablehlo.multiply %77, %79 : tensor<1600000x128xf32>
def val_main_v80 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) : (⟨S1600000x128, .f32⟩ : BufTy).Contents (Elt F) :=
  mulf (val_main_v77 (F := F) x0 x1 x2 x3 x4 x5 x9 x10) (val_main_v79 (F := F) x1 x2)

-- %cst_15 = stablehlo.constant dense<0.000000e+00> : tensor<f32>
def val_main_cst_15 : (⟨S_, .f32⟩ : BufTy).Contents (Elt F) :=
  constant S_ .f32 0x00000000#32

-- %81 = stablehlo.broadcast_in_dim %cst_15, dims = [] : (tensor<f32>) -> tensor<100000x128xf32>
def val_main_v81 : (⟨S100000x128, .f32⟩ : BufTy).Contents (Elt F) :=
  broadcastInDim S100000x128 ![] bcast_S_S100000x128 (val_main_cst_15 (F := F))

-- %82 = stablehlo.broadcast_in_dim %arg2, dims = [0] : (tensor<1600000xi32>) -> tensor<1600000x1xi32>
def val_main_v82 (x2 : (⟨S1600000, .i32⟩ : BufTy).Contents (Elt F)) : (⟨S1600000x1, .i32⟩ : BufTy).Contents (Elt F) :=
  broadcastInDim S1600000x1 ![0] bcast_S1600000_S1600000x1_0 (x2)

-- %83 = "stablehlo.scatter"(%81, %82, %80) <{indices_are_sorted = false, scatter_dimension_numbers = #stablehlo.scatter<update_window_dims = [1], inserted_window_dims = [0], scatter_dims_to_operand_dims = [0], index_vector_dim = 1>, unique_indices = false}> ( {
def val_main_v83 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) : (⟨S100000x128, .f32⟩ : BufTy).Contents (Elt F) :=
  Host.scatterAdd scatter_S100000x128_S1600000x1_S1600000x128_1_0_0_1 (val_main_v81 (F := F)) (val_main_v82 (F := F) x2) (val_main_v80 (F := F) x0 x1 x2 x3 x4 x5 x9 x10)

-- %84 = stablehlo.broadcast_in_dim %22, dims = [0] : (tensor<100000xf32>) -> tensor<100000x1xf32>
def val_main_v84 (x2 : (⟨S1600000, .i32⟩ : BufTy).Contents (Elt F)) : (⟨S100000x1, .f32⟩ : BufTy).Contents (Elt F) :=
  broadcastInDim S100000x1 ![0] bcast_S100000_S100000x1_0 (val_main_v22 (F := F) x2)

-- %85 = stablehlo.broadcast_in_dim %84, dims = [0, 1] : (tensor<100000x1xf32>) -> tensor<100000x128xf32>
def val_main_v85 (x2 : (⟨S1600000, .i32⟩ : BufTy).Contents (Elt F)) : (⟨S100000x128, .f32⟩ : BufTy).Contents (Elt F) :=
  broadcastInDim S100000x128 ![0, 1] bcast_S100000x1_S100000x128_0_1 (val_main_v84 (F := F) x2)

-- %86 = stablehlo.multiply %70, %85 : tensor<100000x128xf32>
def val_main_v86 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) : (⟨S100000x128, .f32⟩ : BufTy).Contents (Elt F) :=
  mulf (val_main_v70 (F := F) x0 x1 x2 x3 x4 x5 x9 x10) (val_main_v85 (F := F) x2)

-- %87 = stablehlo.add %83, %86 : tensor<100000x128xf32>
def val_main_v87 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) : (⟨S100000x128, .f32⟩ : BufTy).Contents (Elt F) :=
  addf (val_main_v83 (F := F) x0 x1 x2 x3 x4 x5 x9 x10) (val_main_v86 (F := F) x0 x1 x2 x3 x4 x5 x9 x10)

-- %88 = stablehlo.broadcast_in_dim %arg6, dims = [1] : (tensor<128xf32>) -> tensor<1x128xf32>
def val_main_v88 (x6 : (⟨S128, .f32⟩ : BufTy).Contents (Elt F)) : (⟨S1x128, .f32⟩ : BufTy).Contents (Elt F) :=
  broadcastInDim S1x128 ![1] bcast_S128_S1x128_1 (x6)

-- %89 = stablehlo.broadcast_in_dim %88, dims = [0, 1] : (tensor<1x128xf32>) -> tensor<100000x128xf32>
def val_main_v89 (x6 : (⟨S128, .f32⟩ : BufTy).Contents (Elt F)) : (⟨S100000x128, .f32⟩ : BufTy).Contents (Elt F) :=
  broadcastInDim S100000x128 ![0, 1] bcast_S1x128_S100000x128_0_1 (val_main_v88 (F := F) x6)

-- %90 = stablehlo.add %87, %89 : tensor<100000x128xf32>
def val_main_v90 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S100000x128, .f32⟩ : BufTy).Contents (Elt F) :=
  addf (val_main_v87 (F := F) x0 x1 x2 x3 x4 x5 x9 x10) (val_main_v89 (F := F) x6)

-- %cst_16 = stablehlo.constant dense<0.000000e+00> : tensor<f32>
def val_main_cst_16 : (⟨S_, .f32⟩ : BufTy).Contents (Elt F) :=
  constant S_ .f32 0x00000000#32

-- %91 = stablehlo.reduce(%90 init: %cst_16) applies stablehlo.add across dimensions = [0] : (tensor<100000x128xf32>, tensor<f32>) -> tensor<128xf32> {
def val_main_v91 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S128, .f32⟩ : BufTy).Contents (Elt F) :=
  Host.reduceAdd (val_main_v90 (F := F) x0 x1 x2 x3 x4 x5 x6 x9 x10) (val_main_cst_16 (F := F)) reducesTo_S100000x128_S128_d0 h_S_

-- %cst_17 = stablehlo.constant dense<1.000000e+05> : tensor<f32>
def val_main_cst_17 : (⟨S_, .f32⟩ : BufTy).Contents (Elt F) :=
  constant S_ .f32 0x47C35000#32

-- %92 = stablehlo.broadcast_in_dim %cst_17, dims = [] : (tensor<f32>) -> tensor<128xf32>
def val_main_v92 : (⟨S128, .f32⟩ : BufTy).Contents (Elt F) :=
  broadcastInDim S128 ![] bcast_S_S128 (val_main_cst_17 (F := F))

-- %93 = stablehlo.divide %91, %92 : tensor<128xf32>
def val_main_v93 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S128, .f32⟩ : BufTy).Contents (Elt F) :=
  Host.divf (val_main_v91 (F := F) x0 x1 x2 x3 x4 x5 x6 x9 x10) (val_main_v92 (F := F))

-- %94 = stablehlo.broadcast_in_dim %93, dims = [1] : (tensor<128xf32>) -> tensor<1x128xf32>
def val_main_v94 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S1x128, .f32⟩ : BufTy).Contents (Elt F) :=
  broadcastInDim S1x128 ![1] bcast_S128_S1x128_1 (val_main_v93 (F := F) x0 x1 x2 x3 x4 x5 x6 x9 x10)

-- %95 = stablehlo.broadcast_in_dim %94, dims = [0, 1] : (tensor<1x128xf32>) -> tensor<100000x128xf32>
def val_main_v95 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S100000x128, .f32⟩ : BufTy).Contents (Elt F) :=
  broadcastInDim S100000x128 ![0, 1] bcast_S1x128_S100000x128_0_1 (val_main_v94 (F := F) x0 x1 x2 x3 x4 x5 x6 x9 x10)

-- %96 = stablehlo.subtract %90, %95 : tensor<100000x128xf32>
def val_main_v96 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S100000x128, .f32⟩ : BufTy).Contents (Elt F) :=
  subf (val_main_v90 (F := F) x0 x1 x2 x3 x4 x5 x6 x9 x10) (val_main_v95 (F := F) x0 x1 x2 x3 x4 x5 x6 x9 x10)

-- %97 = chlo.square %96 : tensor<100000x128xf32> -> tensor<100000x128xf32>
def val_main_v97 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S100000x128, .f32⟩ : BufTy).Contents (Elt F) :=
  mulf (val_main_v96 (F := F) x0 x1 x2 x3 x4 x5 x6 x9 x10) (val_main_v96 (F := F) x0 x1 x2 x3 x4 x5 x6 x9 x10)

-- %cst_18 = stablehlo.constant dense<0.000000e+00> : tensor<f32>
def val_main_cst_18 : (⟨S_, .f32⟩ : BufTy).Contents (Elt F) :=
  constant S_ .f32 0x00000000#32

-- %98 = stablehlo.reduce(%97 init: %cst_18) applies stablehlo.add across dimensions = [0] : (tensor<100000x128xf32>, tensor<f32>) -> tensor<128xf32> {
def val_main_v98 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S128, .f32⟩ : BufTy).Contents (Elt F) :=
  Host.reduceAdd (val_main_v97 (F := F) x0 x1 x2 x3 x4 x5 x6 x9 x10) (val_main_cst_18 (F := F)) reducesTo_S100000x128_S128_d0 h_S_

-- %cst_19 = stablehlo.constant dense<1.000000e+05> : tensor<f32>
def val_main_cst_19 : (⟨S_, .f32⟩ : BufTy).Contents (Elt F) :=
  constant S_ .f32 0x47C35000#32

-- %99 = stablehlo.broadcast_in_dim %cst_19, dims = [] : (tensor<f32>) -> tensor<128xf32>
def val_main_v99 : (⟨S128, .f32⟩ : BufTy).Contents (Elt F) :=
  broadcastInDim S128 ![] bcast_S_S128 (val_main_cst_19 (F := F))

-- %100 = stablehlo.divide %98, %99 : tensor<128xf32>
def val_main_v100 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S128, .f32⟩ : BufTy).Contents (Elt F) :=
  Host.divf (val_main_v98 (F := F) x0 x1 x2 x3 x4 x5 x6 x9 x10) (val_main_v99 (F := F))

-- %101 = stablehlo.broadcast_in_dim %93, dims = [1] : (tensor<128xf32>) -> tensor<1x128xf32>
def val_main_v101 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S1x128, .f32⟩ : BufTy).Contents (Elt F) :=
  broadcastInDim S1x128 ![1] bcast_S128_S1x128_1 (val_main_v93 (F := F) x0 x1 x2 x3 x4 x5 x6 x9 x10)

-- %102 = stablehlo.broadcast_in_dim %101, dims = [0, 1] : (tensor<1x128xf32>) -> tensor<100000x128xf32>
def val_main_v102 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S100000x128, .f32⟩ : BufTy).Contents (Elt F) :=
  broadcastInDim S100000x128 ![0, 1] bcast_S1x128_S100000x128_0_1 (val_main_v101 (F := F) x0 x1 x2 x3 x4 x5 x6 x9 x10)

-- %103 = stablehlo.subtract %90, %102 : tensor<100000x128xf32>
def val_main_v103 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S100000x128, .f32⟩ : BufTy).Contents (Elt F) :=
  subf (val_main_v90 (F := F) x0 x1 x2 x3 x4 x5 x6 x9 x10) (val_main_v102 (F := F) x0 x1 x2 x3 x4 x5 x6 x9 x10)

-- %cst_20 = stablehlo.constant dense<9.99999974E-6> : tensor<f32>
def val_main_cst_20 : (⟨S_, .f32⟩ : BufTy).Contents (Elt F) :=
  constant S_ .f32 0x3727C5AC#32

-- %104 = stablehlo.broadcast_in_dim %cst_20, dims = [] : (tensor<f32>) -> tensor<128xf32>
def val_main_v104 : (⟨S128, .f32⟩ : BufTy).Contents (Elt F) :=
  broadcastInDim S128 ![] bcast_S_S128 (val_main_cst_20 (F := F))

-- %105 = stablehlo.add %100, %104 : tensor<128xf32>
def val_main_v105 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S128, .f32⟩ : BufTy).Contents (Elt F) :=
  addf (val_main_v100 (F := F) x0 x1 x2 x3 x4 x5 x6 x9 x10) (val_main_v104 (F := F))

-- %106 = stablehlo.rsqrt %105 : tensor<128xf32>
def val_main_v106 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S128, .f32⟩ : BufTy).Contents (Elt F) :=
  Host.rsqrt (val_main_v105 (F := F) x0 x1 x2 x3 x4 x5 x6 x9 x10)

-- %107 = stablehlo.broadcast_in_dim %106, dims = [1] : (tensor<128xf32>) -> tensor<1x128xf32>
def val_main_v107 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S1x128, .f32⟩ : BufTy).Contents (Elt F) :=
  broadcastInDim S1x128 ![1] bcast_S128_S1x128_1 (val_main_v106 (F := F) x0 x1 x2 x3 x4 x5 x6 x9 x10)

-- %108 = stablehlo.broadcast_in_dim %107, dims = [0, 1] : (tensor<1x128xf32>) -> tensor<100000x128xf32>
def val_main_v108 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S100000x128, .f32⟩ : BufTy).Contents (Elt F) :=
  broadcastInDim S100000x128 ![0, 1] bcast_S1x128_S100000x128_0_1 (val_main_v107 (F := F) x0 x1 x2 x3 x4 x5 x6 x9 x10)

-- %109 = stablehlo.multiply %103, %108 : tensor<100000x128xf32>
def val_main_v109 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) : (⟨S100000x128, .f32⟩ : BufTy).Contents (Elt F) :=
  mulf (val_main_v103 (F := F) x0 x1 x2 x3 x4 x5 x6 x9 x10) (val_main_v108 (F := F) x0 x1 x2 x3 x4 x5 x6 x9 x10)

-- %110 = stablehlo.broadcast_in_dim %arg11, dims = [1] : (tensor<128xf32>) -> tensor<1x128xf32>
def val_main_v110 (x11 : (⟨S128, .f32⟩ : BufTy).Contents (Elt F)) : (⟨S1x128, .f32⟩ : BufTy).Contents (Elt F) :=
  broadcastInDim S1x128 ![1] bcast_S128_S1x128_1 (x11)

-- %111 = stablehlo.broadcast_in_dim %110, dims = [0, 1] : (tensor<1x128xf32>) -> tensor<100000x128xf32>
def val_main_v111 (x11 : (⟨S128, .f32⟩ : BufTy).Contents (Elt F)) : (⟨S100000x128, .f32⟩ : BufTy).Contents (Elt F) :=
  broadcastInDim S100000x128 ![0, 1] bcast_S1x128_S100000x128_0_1 (val_main_v110 (F := F) x11)

-- %112 = stablehlo.multiply %109, %111 : tensor<100000x128xf32>
def val_main_v112 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 x11 : (⟨S128, .f32⟩ : BufTy).Contents (Elt F)) : (⟨S100000x128, .f32⟩ : BufTy).Contents (Elt F) :=
  mulf (val_main_v109 (F := F) x0 x1 x2 x3 x4 x5 x6 x9 x10) (val_main_v111 (F := F) x11)

-- %113 = stablehlo.broadcast_in_dim %arg12, dims = [1] : (tensor<128xf32>) -> tensor<1x128xf32>
def val_main_v113 (x12 : (⟨S128, .f32⟩ : BufTy).Contents (Elt F)) : (⟨S1x128, .f32⟩ : BufTy).Contents (Elt F) :=
  broadcastInDim S1x128 ![1] bcast_S128_S1x128_1 (x12)

-- %114 = stablehlo.broadcast_in_dim %113, dims = [0, 1] : (tensor<1x128xf32>) -> tensor<100000x128xf32>
def val_main_v114 (x12 : (⟨S128, .f32⟩ : BufTy).Contents (Elt F)) : (⟨S100000x128, .f32⟩ : BufTy).Contents (Elt F) :=
  broadcastInDim S100000x128 ![0, 1] bcast_S1x128_S100000x128_0_1 (val_main_v113 (F := F) x12)

-- %115 = stablehlo.add %112, %114 : tensor<100000x128xf32>
def val_main_v115 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 x11 x12 : (⟨S128, .f32⟩ : BufTy).Contents (Elt F)) : (⟨S100000x128, .f32⟩ : BufTy).Contents (Elt F) :=
  addf (val_main_v112 (F := F) x0 x1 x2 x3 x4 x5 x6 x9 x10 x11) (val_main_v114 (F := F) x12)

-- @relu's %cst = stablehlo.constant dense<0.000000e+00> : tensor<f32>, in %116 = func.call @relu(…) (record main_call1)
def val_main_call1_cst : (⟨S_, .f32⟩ : BufTy).Contents (Elt F) :=
  constant S_ .f32 0x00000000#32

-- @relu's %0 = stablehlo.broadcast_in_dim %cst, dims = [] : (tensor<f32>) -> tensor<100000x128xf32>, in %116 = func.call @relu(…) (record main_call1)
def val_main_call1_v0 : (⟨S100000x128, .f32⟩ : BufTy).Contents (Elt F) :=
  broadcastInDim S100000x128 ![] bcast_S_S100000x128 (val_main_call1_cst (F := F))

-- %116 = func.call @relu(…) (record main_call1) result 0: @relu's %1 = stablehlo.maximum %arg0, %0 : tensor<100000x128xf32>
def val_main_v116 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 x11 x12 : (⟨S128, .f32⟩ : BufTy).Contents (Elt F)) : (⟨S100000x128, .f32⟩ : BufTy).Contents (Elt F) :=
  maximumf (val_main_v115 (F := F) x0 x1 x2 x3 x4 x5 x6 x9 x10 x11 x12) (val_main_call1_v0 (F := F))

-- %117 = stablehlo.dot_general %116, %arg7, contracting_dims = [1] x [0], precision = [DEFAULT, DEFAULT] : (tensor<100000x128xf32>, tensor<128x40xf32>) -> tensor<100000x40xf32>
def val_main_v117 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) : (⟨S100000x40, .f32⟩ : BufTy).Contents (Elt F) :=
  Host.dotGeneral dot_S100000x128_S128x40_S100000x40_1_0_0_1_n_n none (val_main_v116 (F := F) x0 x1 x2 x3 x4 x5 x6 x9 x10 x11 x12) (x7)

-- %c_21 = stablehlo.constant dense<0> : tensor<i32>
def val_main_c_21 : (⟨S_, .i32⟩ : BufTy).Contents (Elt F) :=
  constantI S_ 32 0#32

-- %118 = stablehlo.broadcast_in_dim %c_21, dims = [] : (tensor<i32>) -> tensor<1600000xi32>
def val_main_v118 : (⟨S1600000, .i32⟩ : BufTy).Contents (Elt F) :=
  broadcastInDim S1600000 ![] bcast_S_S1600000 (val_main_c_21 (F := F))

-- %119 = stablehlo.compare LT, %arg1, %118, SIGNED : (tensor<1600000xi32>, tensor<1600000xi32>) -> tensor<1600000xi1>
def val_main_v119 (x1 : (⟨S1600000, .i32⟩ : BufTy).Contents (Elt F)) : (⟨S1600000, .i1⟩ : BufTy).Contents (Elt F) :=
  cmpi .slt (x1) (val_main_v118 (F := F))

-- %c_22 = stablehlo.constant dense<100000> : tensor<i32>
def val_main_c_22 : (⟨S_, .i32⟩ : BufTy).Contents (Elt F) :=
  constantI S_ 32 100000#32

-- %120 = stablehlo.broadcast_in_dim %c_22, dims = [] : (tensor<i32>) -> tensor<1600000xi32>
def val_main_v120 : (⟨S1600000, .i32⟩ : BufTy).Contents (Elt F) :=
  broadcastInDim S1600000 ![] bcast_S_S1600000 (val_main_c_22 (F := F))

-- %121 = stablehlo.add %arg1, %120 : tensor<1600000xi32>
def val_main_v121 (x1 : (⟨S1600000, .i32⟩ : BufTy).Contents (Elt F)) : (⟨S1600000, .i32⟩ : BufTy).Contents (Elt F) :=
  addi (x1) (val_main_v120 (F := F))

-- %122 = stablehlo.select %119, %121, %arg1 : tensor<1600000xi1>, tensor<1600000xi32>
def val_main_v122 (x1 : (⟨S1600000, .i32⟩ : BufTy).Contents (Elt F)) : (⟨S1600000, .i32⟩ : BufTy).Contents (Elt F) :=
  select (val_main_v119 (F := F) x1) (val_main_v121 (F := F) x1) (x1)

-- %123 = stablehlo.broadcast_in_dim %122, dims = [0] : (tensor<1600000xi32>) -> tensor<1600000x1xi32>
def val_main_v123 (x1 : (⟨S1600000, .i32⟩ : BufTy).Contents (Elt F)) : (⟨S1600000x1, .i32⟩ : BufTy).Contents (Elt F) :=
  broadcastInDim S1600000x1 ![0] bcast_S1600000_S1600000x1_0 (val_main_v122 (F := F) x1)

-- %124 = "stablehlo.gather"(%117, %123) <{dimension_numbers = #stablehlo.gather<offset_dims = [1], collapsed_slice_dims = [0], start_index_map = [0], index_vector_dim = 1>, indices_are_sorted = false, slice_sizes = array<i64: 1, 40>}> : (tensor<100000x40xf32>, tensor<1600000x1xi32>) -> tensor<1600000x40xf32>
def val_main_v124 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) : (⟨S1600000x40, .f32⟩ : BufTy).Contents (Elt F) :=
  Host.gather gather_S100000x40_S1600000x1_S1600000x40_1_0_n_n_0_1_140 (val_main_v117 (F := F) x0 x1 x2 x3 x4 x5 x6 x7 x9 x10 x11 x12) (val_main_v123 (F := F) x1)

-- %125 = stablehlo.broadcast_in_dim %21, dims = [0] : (tensor<1600000xf32>) -> tensor<1600000x1xf32>
def val_main_v125 (x1 x2 : (⟨S1600000, .i32⟩ : BufTy).Contents (Elt F)) : (⟨S1600000x1, .f32⟩ : BufTy).Contents (Elt F) :=
  broadcastInDim S1600000x1 ![0] bcast_S1600000_S1600000x1_0 (val_main_v21 (F := F) x1 x2)

-- %126 = stablehlo.broadcast_in_dim %125, dims = [0, 1] : (tensor<1600000x1xf32>) -> tensor<1600000x40xf32>
def val_main_v126 (x1 x2 : (⟨S1600000, .i32⟩ : BufTy).Contents (Elt F)) : (⟨S1600000x40, .f32⟩ : BufTy).Contents (Elt F) :=
  broadcastInDim S1600000x40 ![0, 1] bcast_S1600000x1_S1600000x40_0_1 (val_main_v125 (F := F) x1 x2)

-- %127 = stablehlo.multiply %124, %126 : tensor<1600000x40xf32>
def val_main_v127 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) : (⟨S1600000x40, .f32⟩ : BufTy).Contents (Elt F) :=
  mulf (val_main_v124 (F := F) x0 x1 x2 x3 x4 x5 x6 x7 x9 x10 x11 x12) (val_main_v126 (F := F) x1 x2)

-- %cst_23 = stablehlo.constant dense<0.000000e+00> : tensor<f32>
def val_main_cst_23 : (⟨S_, .f32⟩ : BufTy).Contents (Elt F) :=
  constant S_ .f32 0x00000000#32

-- %128 = stablehlo.broadcast_in_dim %cst_23, dims = [] : (tensor<f32>) -> tensor<100000x40xf32>
def val_main_v128 : (⟨S100000x40, .f32⟩ : BufTy).Contents (Elt F) :=
  broadcastInDim S100000x40 ![] bcast_S_S100000x40 (val_main_cst_23 (F := F))

-- %129 = stablehlo.broadcast_in_dim %arg2, dims = [0] : (tensor<1600000xi32>) -> tensor<1600000x1xi32>
def val_main_v129 (x2 : (⟨S1600000, .i32⟩ : BufTy).Contents (Elt F)) : (⟨S1600000x1, .i32⟩ : BufTy).Contents (Elt F) :=
  broadcastInDim S1600000x1 ![0] bcast_S1600000_S1600000x1_0 (x2)

-- %130 = "stablehlo.scatter"(%128, %129, %127) <{indices_are_sorted = false, scatter_dimension_numbers = #stablehlo.scatter<update_window_dims = [1], inserted_window_dims = [0], scatter_dims_to_operand_dims = [0], index_vector_dim = 1>, unique_indices = false}> ( {
def val_main_v130 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) : (⟨S100000x40, .f32⟩ : BufTy).Contents (Elt F) :=
  Host.scatterAdd scatter_S100000x40_S1600000x1_S1600000x40_1_0_0_1 (val_main_v128 (F := F)) (val_main_v129 (F := F) x2) (val_main_v127 (F := F) x0 x1 x2 x3 x4 x5 x6 x7 x9 x10 x11 x12)

-- %131 = stablehlo.broadcast_in_dim %22, dims = [0] : (tensor<100000xf32>) -> tensor<100000x1xf32>
def val_main_v131 (x2 : (⟨S1600000, .i32⟩ : BufTy).Contents (Elt F)) : (⟨S100000x1, .f32⟩ : BufTy).Contents (Elt F) :=
  broadcastInDim S100000x1 ![0] bcast_S100000_S100000x1_0 (val_main_v22 (F := F) x2)

-- %132 = stablehlo.broadcast_in_dim %131, dims = [0, 1] : (tensor<100000x1xf32>) -> tensor<100000x40xf32>
def val_main_v132 (x2 : (⟨S1600000, .i32⟩ : BufTy).Contents (Elt F)) : (⟨S100000x40, .f32⟩ : BufTy).Contents (Elt F) :=
  broadcastInDim S100000x40 ![0, 1] bcast_S100000x1_S100000x40_0_1 (val_main_v131 (F := F) x2)

-- %133 = stablehlo.multiply %117, %132 : tensor<100000x40xf32>
def val_main_v133 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) : (⟨S100000x40, .f32⟩ : BufTy).Contents (Elt F) :=
  mulf (val_main_v117 (F := F) x0 x1 x2 x3 x4 x5 x6 x7 x9 x10 x11 x12) (val_main_v132 (F := F) x2)

-- %134 = stablehlo.add %130, %133 : tensor<100000x40xf32>
def val_main_v134 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) : (⟨S100000x40, .f32⟩ : BufTy).Contents (Elt F) :=
  addf (val_main_v130 (F := F) x0 x1 x2 x3 x4 x5 x6 x7 x9 x10 x11 x12) (val_main_v133 (F := F) x0 x1 x2 x3 x4 x5 x6 x7 x9 x10 x11 x12)

-- %135 = stablehlo.broadcast_in_dim %arg8, dims = [1] : (tensor<40xf32>) -> tensor<1x40xf32>
def val_main_v135 (x8 : (⟨S40, .f32⟩ : BufTy).Contents (Elt F)) : (⟨S1x40, .f32⟩ : BufTy).Contents (Elt F) :=
  broadcastInDim S1x40 ![1] bcast_S40_S1x40_1 (x8)

-- %136 = stablehlo.broadcast_in_dim %135, dims = [0, 1] : (tensor<1x40xf32>) -> tensor<100000x40xf32>
def val_main_v136 (x8 : (⟨S40, .f32⟩ : BufTy).Contents (Elt F)) : (⟨S100000x40, .f32⟩ : BufTy).Contents (Elt F) :=
  broadcastInDim S100000x40 ![0, 1] bcast_S1x40_S100000x40_0_1 (val_main_v135 (F := F) x8)

-- %137 = stablehlo.add %134, %136 : tensor<100000x40xf32>
def val_main_v137 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x40, .f32⟩ : BufTy).Contents (Elt F) :=
  addf (val_main_v134 (F := F) x0 x1 x2 x3 x4 x5 x6 x7 x9 x10 x11 x12) (val_main_v136 (F := F) x8)

-- @log_softmax's %cst = stablehlo.constant dense<0xFF800000> : tensor<f32>, in %138 = func.call @log_softmax(…) (record main_call2)
def val_main_call2_cst : (⟨S_, .f32⟩ : BufTy).Contents (Elt F) :=
  constant S_ .f32 0xFF800000#32

-- @log_softmax's %0 = stablehlo.reduce(%arg0 init: %cst) applies stablehlo.maximum across dimensions = [1] : (tensor<100000x40xf32>, tensor<f32>) -> tensor<100000xf32> {, in %138 = func.call @log_softmax(…) (record main_call2)
def val_main_call2_v0 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000, .f32⟩ : BufTy).Contents (Elt F) :=
  Host.reduce FloatOps.maximumf (val_main_v137 (F := F) x0 x1 x2 x3 x4 x5 x6 x7 x8 x9 x10 x11 x12) (val_main_call2_cst (F := F)) reducesTo_S100000x40_S100000_d1 h_S_

-- @log_softmax's %cst_0 = stablehlo.constant dense<0xFF800000> : tensor<f32>, in %138 = func.call @log_softmax(…) (record main_call2)
def val_main_call2_cst_0 : (⟨S_, .f32⟩ : BufTy).Contents (Elt F) :=
  constant S_ .f32 0xFF800000#32

-- @log_softmax's %1 = stablehlo.broadcast_in_dim %cst_0, dims = [] : (tensor<f32>) -> tensor<100000xf32>, in %138 = func.call @log_softmax(…) (record main_call2)
def val_main_call2_v1 : (⟨S100000, .f32⟩ : BufTy).Contents (Elt F) :=
  broadcastInDim S100000 ![] bcast_S_S100000 (val_main_call2_cst_0 (F := F))

-- @log_softmax's %2 = stablehlo.maximum %1, %0 : tensor<100000xf32>, in %138 = func.call @log_softmax(…) (record main_call2)
def val_main_call2_v2 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000, .f32⟩ : BufTy).Contents (Elt F) :=
  maximumf (val_main_call2_v1 (F := F)) (val_main_call2_v0 (F := F) x0 x1 x2 x3 x4 x5 x6 x7 x8 x9 x10 x11 x12)

-- @log_softmax's %3 = stablehlo.broadcast_in_dim %2, dims = [0] : (tensor<100000xf32>) -> tensor<100000x1xf32>, in %138 = func.call @log_softmax(…) (record main_call2)
def val_main_call2_v3 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x1, .f32⟩ : BufTy).Contents (Elt F) :=
  broadcastInDim S100000x1 ![0] bcast_S100000_S100000x1_0 (val_main_call2_v2 (F := F) x0 x1 x2 x3 x4 x5 x6 x7 x8 x9 x10 x11 x12)

-- @log_softmax's %4 = stablehlo.broadcast_in_dim %3, dims = [0, 1] : (tensor<100000x1xf32>) -> tensor<100000x40xf32>, in %138 = func.call @log_softmax(…) (record main_call2)
def val_main_call2_v4 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x40, .f32⟩ : BufTy).Contents (Elt F) :=
  broadcastInDim S100000x40 ![0, 1] bcast_S100000x1_S100000x40_0_1 (val_main_call2_v3 (F := F) x0 x1 x2 x3 x4 x5 x6 x7 x8 x9 x10 x11 x12)

-- @log_softmax's %5 = stablehlo.subtract %arg0, %4 : tensor<100000x40xf32>, in %138 = func.call @log_softmax(…) (record main_call2)
def val_main_call2_v5 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x40, .f32⟩ : BufTy).Contents (Elt F) :=
  subf (val_main_v137 (F := F) x0 x1 x2 x3 x4 x5 x6 x7 x8 x9 x10 x11 x12) (val_main_call2_v4 (F := F) x0 x1 x2 x3 x4 x5 x6 x7 x8 x9 x10 x11 x12)

-- @log_softmax's %6 = stablehlo.exponential %5 : tensor<100000x40xf32>, in %138 = func.call @log_softmax(…) (record main_call2)
def val_main_call2_v6 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x40, .f32⟩ : BufTy).Contents (Elt F) :=
  Host.exp (val_main_call2_v5 (F := F) x0 x1 x2 x3 x4 x5 x6 x7 x8 x9 x10 x11 x12)

-- @log_softmax's %cst_1 = stablehlo.constant dense<0.000000e+00> : tensor<f32>, in %138 = func.call @log_softmax(…) (record main_call2)
def val_main_call2_cst_1 : (⟨S_, .f32⟩ : BufTy).Contents (Elt F) :=
  constant S_ .f32 0x00000000#32

-- @log_softmax's %7 = stablehlo.reduce(%6 init: %cst_1) applies stablehlo.add across dimensions = [1] : (tensor<100000x40xf32>, tensor<f32>) -> tensor<100000xf32> {, in %138 = func.call @log_softmax(…) (record main_call2)
def val_main_call2_v7 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000, .f32⟩ : BufTy).Contents (Elt F) :=
  Host.reduceAdd (val_main_call2_v6 (F := F) x0 x1 x2 x3 x4 x5 x6 x7 x8 x9 x10 x11 x12) (val_main_call2_cst_1 (F := F)) reducesTo_S100000x40_S100000_d1 h_S_

-- @log_softmax's %8 = stablehlo.broadcast_in_dim %7, dims = [0] : (tensor<100000xf32>) -> tensor<100000x1xf32>, in %138 = func.call @log_softmax(…) (record main_call2)
def val_main_call2_v8 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x1, .f32⟩ : BufTy).Contents (Elt F) :=
  broadcastInDim S100000x1 ![0] bcast_S100000_S100000x1_0 (val_main_call2_v7 (F := F) x0 x1 x2 x3 x4 x5 x6 x7 x8 x9 x10 x11 x12)

-- @log_softmax's %9 = stablehlo.log %8 : tensor<100000x1xf32>, in %138 = func.call @log_softmax(…) (record main_call2)
def val_main_call2_v9 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x1, .f32⟩ : BufTy).Contents (Elt F) :=
  Host.log (val_main_call2_v8 (F := F) x0 x1 x2 x3 x4 x5 x6 x7 x8 x9 x10 x11 x12)

-- @log_softmax's %10 = stablehlo.broadcast_in_dim %9, dims = [0, 1] : (tensor<100000x1xf32>) -> tensor<100000x40xf32>, in %138 = func.call @log_softmax(…) (record main_call2)
def val_main_call2_v10 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x40, .f32⟩ : BufTy).Contents (Elt F) :=
  broadcastInDim S100000x40 ![0, 1] bcast_S100000x1_S100000x40_0_1 (val_main_call2_v9 (F := F) x0 x1 x2 x3 x4 x5 x6 x7 x8 x9 x10 x11 x12)

-- %138 = func.call @log_softmax(…) (record main_call2) result 0: @log_softmax's %11 = stablehlo.subtract %5, %10 : tensor<100000x40xf32>
def val_main_v138 (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) : (⟨S100000x40, .f32⟩ : BufTy).Contents (Elt F) :=
  subf (val_main_call2_v5 (F := F) x0 x1 x2 x3 x4 x5 x6 x7 x8 x9 x10 x11 x12) (val_main_call2_v10 (F := F) x0 x1 x2 x3 x4 x5 x6 x7 x8 x9 x10 x11 x12)

end Ref

end
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
/-
  The reference program's run, read back stage by stage. Every weakly fair execution of @main ends with each
  buffer at the fold of the operations' results over its launch contents; that fold is computed here window by
  window: after each window of operations, every buffer a later operation still reads holds the stage `val_<buffer>`
  of the arguments' launch contents, and the arguments are unchanged. The last window leaves the result buffer at
  `val_main_v138`.
-/
import proofs.«139699_j335007449371_2_alg».proof.Proof.RefOps
import proofs.«139699_j335007449371_2_alg».proof.Proof.RefStages
import proofs.«139699_j335007449371_2_alg».proof.Proof.LibAfter

noncomputable section

namespace Ref

open Cert.ReferenceIdeal Cert.ReferenceIdeal.Gen Idealize.ShloMosaic Idealize.ShloMosaic.TcCoe Idealize.SL.Sem Idealize.ShloMosaic.StableHlo

variable {F : FTy → Type} [FloatOps F]

/-- Operations 1 to 16: from contents that hold the earlier stages, the contents after them hold the stages they
    compute, and the arguments are kept. -/
theorem step_0 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12) :
    after (w0 (F := F)) W (Proc.devRef (τ := τ) .tc main_arg0) = x0
    ∧ after (w0 (F := F)) W (Proc.devRef (τ := τ) .tc main_arg1) = x1
    ∧ after (w0 (F := F)) W (Proc.devRef (τ := τ) .tc main_arg2) = x2
    ∧ after (w0 (F := F)) W (Proc.devRef (τ := τ) .tc main_arg3) = x3
    ∧ after (w0 (F := F)) W (Proc.devRef (τ := τ) .tc main_arg4) = x4
    ∧ after (w0 (F := F)) W (Proc.devRef (τ := τ) .tc main_arg5) = x5
    ∧ after (w0 (F := F)) W (Proc.devRef (τ := τ) .tc main_arg6) = x6
    ∧ after (w0 (F := F)) W (Proc.devRef (τ := τ) .tc main_arg7) = x7
    ∧ after (w0 (F := F)) W (Proc.devRef (τ := τ) .tc main_arg8) = x8
    ∧ after (w0 (F := F)) W (Proc.devRef (τ := τ) .tc main_arg9) = x9
    ∧ after (w0 (F := F)) W (Proc.devRef (τ := τ) .tc main_arg10) = x10
    ∧ after (w0 (F := F)) W (Proc.devRef (τ := τ) .tc main_arg11) = x11
    ∧ after (w0 (F := F)) W (Proc.devRef (τ := τ) .tc main_arg12) = x12
    ∧ after (w0 (F := F)) W (Proc.devRef (τ := τ) .tc main_v6) = val_main_v6 (F := F) x2
    ∧ after (w0 (F := F)) W (Proc.devRef (τ := τ) .tc main_v8) = val_main_v8 (F := F) x1
    ∧ after (w0 (F := F)) W (Proc.devRef (τ := τ) .tc main_v10) = val_main_v10 (F := F) x1 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; rw [a2]; rfl),
   (by after_results_simp; rw [a1]; rfl),
   (by after_results_simp; rw [a1]; rfl)⟩

/-- Operations 17 to 32: from contents that hold the earlier stages, the contents after them hold the stages they
    compute, and the arguments are kept. -/
theorem step_1 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v6 : W (Proc.devRef (τ := τ) .tc main_v6) = val_main_v6 (F := F) x2)
    (h_v8 : W (Proc.devRef (τ := τ) .tc main_v8) = val_main_v8 (F := F) x1)
    (h_v10 : W (Proc.devRef (τ := τ) .tc main_v10) = val_main_v10 (F := F) x1) :
    after (w1 (F := F)) W (Proc.devRef (τ := τ) .tc main_arg0) = x0
    ∧ after (w1 (F := F)) W (Proc.devRef (τ := τ) .tc main_arg1) = x1
    ∧ after (w1 (F := F)) W (Proc.devRef (τ := τ) .tc main_arg2) = x2
    ∧ after (w1 (F := F)) W (Proc.devRef (τ := τ) .tc main_arg3) = x3
    ∧ after (w1 (F := F)) W (Proc.devRef (τ := τ) .tc main_arg4) = x4
    ∧ after (w1 (F := F)) W (Proc.devRef (τ := τ) .tc main_arg5) = x5
    ∧ after (w1 (F := F)) W (Proc.devRef (τ := τ) .tc main_arg6) = x6
    ∧ after (w1 (F := F)) W (Proc.devRef (τ := τ) .tc main_arg7) = x7
    ∧ after (w1 (F := F)) W (Proc.devRef (τ := τ) .tc main_arg8) = x8
    ∧ after (w1 (F := F)) W (Proc.devRef (τ := τ) .tc main_arg9) = x9
    ∧ after (w1 (F := F)) W (Proc.devRef (τ := τ) .tc main_arg10) = x10
    ∧ after (w1 (F := F)) W (Proc.devRef (τ := τ) .tc main_arg11) = x11
    ∧ after (w1 (F := F)) W (Proc.devRef (τ := τ) .tc main_arg12) = x12
    ∧ after (w1 (F := F)) W (Proc.devRef (τ := τ) .tc main_v21) = val_main_v21 (F := F) x1 x2
    ∧ after (w1 (F := F)) W (Proc.devRef (τ := τ) .tc main_v22) = val_main_v22 (F := F) x2
    ∧ after (w1 (F := F)) W (Proc.devRef (τ := τ) .tc main_v23) = val_main_v23 (F := F) x0 x3
    ∧ after (w1 (F := F)) W (Proc.devRef (τ := τ) .tc main_c_5) = val_main_c_5 (F := F) :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; rw [h_v6, h_v8, h_v10, a1, a2]; rfl),
   (by after_results_simp; rw [h_v6]; rfl),
   (by after_results_simp; rw [a0, a3]; rfl),
   (by after_results_simp; rfl)⟩

/-- Operations 33 to 48: from contents that hold the earlier stages, the contents after them hold the stages they
    compute, and the arguments are kept. -/
theorem step_2 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v21 : W (Proc.devRef (τ := τ) .tc main_v21) = val_main_v21 (F := F) x1 x2)
    (h_v22 : W (Proc.devRef (τ := τ) .tc main_v22) = val_main_v22 (F := F) x2)
    (h_v23 : W (Proc.devRef (τ := τ) .tc main_v23) = val_main_v23 (F := F) x0 x3)
    (h_c_5 : W (Proc.devRef (τ := τ) .tc main_c_5) = val_main_c_5 (F := F)) :
    after (w2 (F := F)) W (Proc.devRef (τ := τ) .tc main_arg0) = x0
    ∧ after (w2 (F := F)) W (Proc.devRef (τ := τ) .tc main_arg1) = x1
    ∧ after (w2 (F := F)) W (Proc.devRef (τ := τ) .tc main_arg2) = x2
    ∧ after (w2 (F := F)) W (Proc.devRef (τ := τ) .tc main_arg3) = x3
    ∧ after (w2 (F := F)) W (Proc.devRef (τ := τ) .tc main_arg4) = x4
    ∧ after (w2 (F := F)) W (Proc.devRef (τ := τ) .tc main_arg5) = x5
    ∧ after (w2 (F := F)) W (Proc.devRef (τ := τ) .tc main_arg6) = x6
    ∧ after (w2 (F := F)) W (Proc.devRef (τ := τ) .tc main_arg7) = x7
    ∧ after (w2 (F := F)) W (Proc.devRef (τ := τ) .tc main_arg8) = x8
    ∧ after (w2 (F := F)) W (Proc.devRef (τ := τ) .tc main_arg9) = x9
    ∧ after (w2 (F := F)) W (Proc.devRef (τ := τ) .tc main_arg10) = x10
    ∧ after (w2 (F := F)) W (Proc.devRef (τ := τ) .tc main_arg11) = x11
    ∧ after (w2 (F := F)) W (Proc.devRef (τ := τ) .tc main_arg12) = x12
    ∧ after (w2 (F := F)) W (Proc.devRef (τ := τ) .tc main_v21) = val_main_v21 (F := F) x1 x2
    ∧ after (w2 (F := F)) W (Proc.devRef (τ := τ) .tc main_v22) = val_main_v22 (F := F) x2
    ∧ after (w2 (F := F)) W (Proc.devRef (τ := τ) .tc main_v23) = val_main_v23 (F := F) x0 x3
    ∧ after (w2 (F := F)) W (Proc.devRef (τ := τ) .tc main_v36) = val_main_v36 (F := F) x0 x1 x2 x3
    ∧ after (w2 (F := F)) W (Proc.devRef (τ := τ) .tc main_v37) = val_main_v37 (F := F) x2 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; exact h_v21),
   (by after_results_simp; exact h_v22),
   (by after_results_simp; exact h_v23),
   (by after_results_simp; rw [a2, h_v23, a1, h_c_5, h_v21]; rfl),
   (by after_results_simp; rw [h_v22]; rfl)⟩

/-- Operations 49 to 64: from contents that hold the earlier stages, the contents after them hold the stages they
    compute, and the arguments are kept. -/
theorem step_3 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v21 : W (Proc.devRef (τ := τ) .tc main_v21) = val_main_v21 (F := F) x1 x2)
    (h_v22 : W (Proc.devRef (τ := τ) .tc main_v22) = val_main_v22 (F := F) x2)
    (h_v23 : W (Proc.devRef (τ := τ) .tc main_v23) = val_main_v23 (F := F) x0 x3)
    (h_v36 : W (Proc.devRef (τ := τ) .tc main_v36) = val_main_v36 (F := F) x0 x1 x2 x3)
    (h_v37 : W (Proc.devRef (τ := τ) .tc main_v37) = val_main_v37 (F := F) x2) :
    after (w3 (F := F)) W (Proc.devRef (τ := τ) .tc main_arg0) = x0
    ∧ after (w3 (F := F)) W (Proc.devRef (τ := τ) .tc main_arg1) = x1
    ∧ after (w3 (F := F)) W (Proc.devRef (τ := τ) .tc main_arg2) = x2
    ∧ after (w3 (F := F)) W (Proc.devRef (τ := τ) .tc main_arg3) = x3
    ∧ after (w3 (F := F)) W (Proc.devRef (τ := τ) .tc main_arg4) = x4
    ∧ after (w3 (F := F)) W (Proc.devRef (τ := τ) .tc main_arg5) = x5
    ∧ after (w3 (F := F)) W (Proc.devRef (τ := τ) .tc main_arg6) = x6
    ∧ after (w3 (F := F)) W (Proc.devRef (τ := τ) .tc main_arg7) = x7
    ∧ after (w3 (F := F)) W (Proc.devRef (τ := τ) .tc main_arg8) = x8
    ∧ after (w3 (F := F)) W (Proc.devRef (τ := τ) .tc main_arg9) = x9
    ∧ after (w3 (F := F)) W (Proc.devRef (τ := τ) .tc main_arg10) = x10
    ∧ after (w3 (F := F)) W (Proc.devRef (τ := τ) .tc main_arg11) = x11
    ∧ after (w3 (F := F)) W (Proc.devRef (τ := τ) .tc main_arg12) = x12
    ∧ after (w3 (F := F)) W (Proc.devRef (τ := τ) .tc main_v21) = val_main_v21 (F := F) x1 x2
    ∧ after (w3 (F := F)) W (Proc.devRef (τ := τ) .tc main_v22) = val_main_v22 (F := F) x2
    ∧ after (w3 (F := F)) W (Proc.devRef (τ := τ) .tc main_v43) = val_main_v43 (F := F) x0 x1 x2 x3 x4
    ∧ after (w3 (F := F)) W (Proc.devRef (τ := τ) .tc main_v46) = val_main_v46 (F := F) x0 x1 x2 x3 x4
    ∧ after (w3 (F := F)) W (Proc.devRef (τ := τ) .tc main_v50) = val_main_v50 (F := F) x0 x1 x2 x3 x4
    ∧ after (w3 (F := F)) W (Proc.devRef (τ := τ) .tc main_cst_10) = val_main_cst_10 (F := F) :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; exact h_v21),
   (by after_results_simp; exact h_v22),
   (by after_results_simp; rw [h_v36, h_v23, h_v37, a4]; rfl),
   (by after_results_simp; rw [h_v36, h_v23, h_v37, a4]; rfl),
   (by after_results_simp; rw [h_v36, h_v23, h_v37, a4]; rfl),
   (by after_results_simp; rfl)⟩

/-- Operations 65 to 80: from contents that hold the earlier stages, the contents after them hold the stages they
    compute, and the arguments are kept. -/
theorem step_4 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v21 : W (Proc.devRef (τ := τ) .tc main_v21) = val_main_v21 (F := F) x1 x2)
    (h_v22 : W (Proc.devRef (τ := τ) .tc main_v22) = val_main_v22 (F := F) x2)
    (h_v43 : W (Proc.devRef (τ := τ) .tc main_v43) = val_main_v43 (F := F) x0 x1 x2 x3 x4)
    (h_v46 : W (Proc.devRef (τ := τ) .tc main_v46) = val_main_v46 (F := F) x0 x1 x2 x3 x4)
    (h_v50 : W (Proc.devRef (τ := τ) .tc main_v50) = val_main_v50 (F := F) x0 x1 x2 x3 x4)
    (h_cst_10 : W (Proc.devRef (τ := τ) .tc main_cst_10) = val_main_cst_10 (F := F)) :
    after (w4 (F := F)) W (Proc.devRef (τ := τ) .tc main_arg0) = x0
    ∧ after (w4 (F := F)) W (Proc.devRef (τ := τ) .tc main_arg1) = x1
    ∧ after (w4 (F := F)) W (Proc.devRef (τ := τ) .tc main_arg2) = x2
    ∧ after (w4 (F := F)) W (Proc.devRef (τ := τ) .tc main_arg3) = x3
    ∧ after (w4 (F := F)) W (Proc.devRef (τ := τ) .tc main_arg4) = x4
    ∧ after (w4 (F := F)) W (Proc.devRef (τ := τ) .tc main_arg5) = x5
    ∧ after (w4 (F := F)) W (Proc.devRef (τ := τ) .tc main_arg6) = x6
    ∧ after (w4 (F := F)) W (Proc.devRef (τ := τ) .tc main_arg7) = x7
    ∧ after (w4 (F := F)) W (Proc.devRef (τ := τ) .tc main_arg8) = x8
    ∧ after (w4 (F := F)) W (Proc.devRef (τ := τ) .tc main_arg9) = x9
    ∧ after (w4 (F := F)) W (Proc.devRef (τ := τ) .tc main_arg10) = x10
    ∧ after (w4 (F := F)) W (Proc.devRef (τ := τ) .tc main_arg11) = x11
    ∧ after (w4 (F := F)) W (Proc.devRef (τ := τ) .tc main_arg12) = x12
    ∧ after (w4 (F := F)) W (Proc.devRef (τ := τ) .tc main_v21) = val_main_v21 (F := F) x1 x2
    ∧ after (w4 (F := F)) W (Proc.devRef (τ := τ) .tc main_v22) = val_main_v22 (F := F) x2
    ∧ after (w4 (F := F)) W (Proc.devRef (τ := τ) .tc main_v62) = val_main_v62 (F := F) x0 x1 x2 x3 x4
    ∧ after (w4 (F := F)) W (Proc.devRef (τ := τ) .tc main_v64) = val_main_v64 (F := F) x9 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; exact h_v21),
   (by after_results_simp; exact h_v22),
   (by after_results_simp; rw [h_v43, h_v46, h_v50, h_cst_10]; rfl),
   (by after_results_simp; rw [a9]; rfl)⟩

/-- Operations 81 to 96: from contents that hold the earlier stages, the contents after them hold the stages they
    compute, and the arguments are kept. -/
theorem step_5 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v21 : W (Proc.devRef (τ := τ) .tc main_v21) = val_main_v21 (F := F) x1 x2)
    (h_v22 : W (Proc.devRef (τ := τ) .tc main_v22) = val_main_v22 (F := F) x2)
    (h_v62 : W (Proc.devRef (τ := τ) .tc main_v62) = val_main_v62 (F := F) x0 x1 x2 x3 x4)
    (h_v64 : W (Proc.devRef (τ := τ) .tc main_v64) = val_main_v64 (F := F) x9) :
    after (w5 (F := F)) W (Proc.devRef (τ := τ) .tc main_arg0) = x0
    ∧ after (w5 (F := F)) W (Proc.devRef (τ := τ) .tc main_arg1) = x1
    ∧ after (w5 (F := F)) W (Proc.devRef (τ := τ) .tc main_arg2) = x2
    ∧ after (w5 (F := F)) W (Proc.devRef (τ := τ) .tc main_arg3) = x3
    ∧ after (w5 (F := F)) W (Proc.devRef (τ := τ) .tc main_arg4) = x4
    ∧ after (w5 (F := F)) W (Proc.devRef (τ := τ) .tc main_arg5) = x5
    ∧ after (w5 (F := F)) W (Proc.devRef (τ := τ) .tc main_arg6) = x6
    ∧ after (w5 (F := F)) W (Proc.devRef (τ := τ) .tc main_arg7) = x7
    ∧ after (w5 (F := F)) W (Proc.devRef (τ := τ) .tc main_arg8) = x8
    ∧ after (w5 (F := F)) W (Proc.devRef (τ := τ) .tc main_arg9) = x9
    ∧ after (w5 (F := F)) W (Proc.devRef (τ := τ) .tc main_arg10) = x10
    ∧ after (w5 (F := F)) W (Proc.devRef (τ := τ) .tc main_arg11) = x11
    ∧ after (w5 (F := F)) W (Proc.devRef (τ := τ) .tc main_arg12) = x12
    ∧ after (w5 (F := F)) W (Proc.devRef (τ := τ) .tc main_v21) = val_main_v21 (F := F) x1 x2
    ∧ after (w5 (F := F)) W (Proc.devRef (τ := τ) .tc main_v22) = val_main_v22 (F := F) x2
    ∧ after (w5 (F := F)) W (Proc.devRef (τ := τ) .tc main_v70) = val_main_v70 (F := F) x0 x1 x2 x3 x4 x5 x9 x10
    ∧ after (w5 (F := F)) W (Proc.devRef (τ := τ) .tc main_v76) = val_main_v76 (F := F) x1 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; exact h_v21),
   (by after_results_simp; exact h_v22),
   (by after_results_simp; rw [h_v62, h_v64, a10, a5]; rfl),
   (by after_results_simp; rw [a1]; rfl)⟩

/-- Operations 97 to 112: from contents that hold the earlier stages, the contents after them hold the stages they
    compute, and the arguments are kept. -/
theorem step_6 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v21 : W (Proc.devRef (τ := τ) .tc main_v21) = val_main_v21 (F := F) x1 x2)
    (h_v22 : W (Proc.devRef (τ := τ) .tc main_v22) = val_main_v22 (F := F) x2)
    (h_v70 : W (Proc.devRef (τ := τ) .tc main_v70) = val_main_v70 (F := F) x0 x1 x2 x3 x4 x5 x9 x10)
    (h_v76 : W (Proc.devRef (τ := τ) .tc main_v76) = val_main_v76 (F := F) x1) :
    after (w6 (F := F)) W (Proc.devRef (τ := τ) .tc main_arg0) = x0
    ∧ after (w6 (F := F)) W (Proc.devRef (τ := τ) .tc main_arg1) = x1
    ∧ after (w6 (F := F)) W (Proc.devRef (τ := τ) .tc main_arg2) = x2
    ∧ after (w6 (F := F)) W (Proc.devRef (τ := τ) .tc main_arg3) = x3
    ∧ after (w6 (F := F)) W (Proc.devRef (τ := τ) .tc main_arg4) = x4
    ∧ after (w6 (F := F)) W (Proc.devRef (τ := τ) .tc main_arg5) = x5
    ∧ after (w6 (F := F)) W (Proc.devRef (τ := τ) .tc main_arg6) = x6
    ∧ after (w6 (F := F)) W (Proc.devRef (τ := τ) .tc main_arg7) = x7
    ∧ after (w6 (F := F)) W (Proc.devRef (τ := τ) .tc main_arg8) = x8
    ∧ after (w6 (F := F)) W (Proc.devRef (τ := τ) .tc main_arg9) = x9
    ∧ after (w6 (F := F)) W (Proc.devRef (τ := τ) .tc main_arg10) = x10
    ∧ after (w6 (F := F)) W (Proc.devRef (τ := τ) .tc main_arg11) = x11
    ∧ after (w6 (F := F)) W (Proc.devRef (τ := τ) .tc main_arg12) = x12
    ∧ after (w6 (F := F)) W (Proc.devRef (τ := τ) .tc main_v21) = val_main_v21 (F := F) x1 x2
    ∧ after (w6 (F := F)) W (Proc.devRef (τ := τ) .tc main_v22) = val_main_v22 (F := F) x2
    ∧ after (w6 (F := F)) W (Proc.devRef (τ := τ) .tc main_v90) = val_main_v90 (F := F) x0 x1 x2 x3 x4 x5 x6 x9 x10
    ∧ after (w6 (F := F)) W (Proc.devRef (τ := τ) .tc main_cst_16) = val_main_cst_16 (F := F) :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; exact h_v21),
   (by after_results_simp; exact h_v22),
   (by after_results_simp; rw [a2, h_v70, h_v76, h_v21, h_v22, a6]; rfl),
   (by after_results_simp; rfl)⟩

/-- Operations 113 to 128: from contents that hold the earlier stages, the contents after them hold the stages they
    compute, and the arguments are kept. -/
theorem step_7 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v21 : W (Proc.devRef (τ := τ) .tc main_v21) = val_main_v21 (F := F) x1 x2)
    (h_v22 : W (Proc.devRef (τ := τ) .tc main_v22) = val_main_v22 (F := F) x2)
    (h_v90 : W (Proc.devRef (τ := τ) .tc main_v90) = val_main_v90 (F := F) x0 x1 x2 x3 x4 x5 x6 x9 x10)
    (h_cst_16 : W (Proc.devRef (τ := τ) .tc main_cst_16) = val_main_cst_16 (F := F)) :
    after (w7 (F := F)) W (Proc.devRef (τ := τ) .tc main_arg0) = x0
    ∧ after (w7 (F := F)) W (Proc.devRef (τ := τ) .tc main_arg1) = x1
    ∧ after (w7 (F := F)) W (Proc.devRef (τ := τ) .tc main_arg2) = x2
    ∧ after (w7 (F := F)) W (Proc.devRef (τ := τ) .tc main_arg3) = x3
    ∧ after (w7 (F := F)) W (Proc.devRef (τ := τ) .tc main_arg4) = x4
    ∧ after (w7 (F := F)) W (Proc.devRef (τ := τ) .tc main_arg5) = x5
    ∧ after (w7 (F := F)) W (Proc.devRef (τ := τ) .tc main_arg6) = x6
    ∧ after (w7 (F := F)) W (Proc.devRef (τ := τ) .tc main_arg7) = x7
    ∧ after (w7 (F := F)) W (Proc.devRef (τ := τ) .tc main_arg8) = x8
    ∧ after (w7 (F := F)) W (Proc.devRef (τ := τ) .tc main_arg9) = x9
    ∧ after (w7 (F := F)) W (Proc.devRef (τ := τ) .tc main_arg10) = x10
    ∧ after (w7 (F := F)) W (Proc.devRef (τ := τ) .tc main_arg11) = x11
    ∧ after (w7 (F := F)) W (Proc.devRef (τ := τ) .tc main_arg12) = x12
    ∧ after (w7 (F := F)) W (Proc.devRef (τ := τ) .tc main_v21) = val_main_v21 (F := F) x1 x2
    ∧ after (w7 (F := F)) W (Proc.devRef (τ := τ) .tc main_v22) = val_main_v22 (F := F) x2
    ∧ after (w7 (F := F)) W (Proc.devRef (τ := τ) .tc main_v100) = val_main_v100 (F := F) x0 x1 x2 x3 x4 x5 x6 x9 x10
    ∧ after (w7 (F := F)) W (Proc.devRef (τ := τ) .tc main_v103) = val_main_v103 (F := F) x0 x1 x2 x3 x4 x5 x6 x9 x10 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; exact h_v21),
   (by after_results_simp; exact h_v22),
   (by after_results_simp; rw [h_v90, h_cst_16]; rfl),
   (by after_results_simp; rw [h_v90, h_cst_16]; rfl)⟩

/-- Operations 129 to 144: from contents that hold the earlier stages, the contents after them hold the stages they
    compute, and the arguments are kept. -/
theorem step_8 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v21 : W (Proc.devRef (τ := τ) .tc main_v21) = val_main_v21 (F := F) x1 x2)
    (h_v22 : W (Proc.devRef (τ := τ) .tc main_v22) = val_main_v22 (F := F) x2)
    (h_v100 : W (Proc.devRef (τ := τ) .tc main_v100) = val_main_v100 (F := F) x0 x1 x2 x3 x4 x5 x6 x9 x10)
    (h_v103 : W (Proc.devRef (τ := τ) .tc main_v103) = val_main_v103 (F := F) x0 x1 x2 x3 x4 x5 x6 x9 x10) :
    after (w8 (F := F)) W (Proc.devRef (τ := τ) .tc main_arg0) = x0
    ∧ after (w8 (F := F)) W (Proc.devRef (τ := τ) .tc main_arg1) = x1
    ∧ after (w8 (F := F)) W (Proc.devRef (τ := τ) .tc main_arg2) = x2
    ∧ after (w8 (F := F)) W (Proc.devRef (τ := τ) .tc main_arg3) = x3
    ∧ after (w8 (F := F)) W (Proc.devRef (τ := τ) .tc main_arg4) = x4
    ∧ after (w8 (F := F)) W (Proc.devRef (τ := τ) .tc main_arg5) = x5
    ∧ after (w8 (F := F)) W (Proc.devRef (τ := τ) .tc main_arg6) = x6
    ∧ after (w8 (F := F)) W (Proc.devRef (τ := τ) .tc main_arg7) = x7
    ∧ after (w8 (F := F)) W (Proc.devRef (τ := τ) .tc main_arg8) = x8
    ∧ after (w8 (F := F)) W (Proc.devRef (τ := τ) .tc main_arg9) = x9
    ∧ after (w8 (F := F)) W (Proc.devRef (τ := τ) .tc main_arg10) = x10
    ∧ after (w8 (F := F)) W (Proc.devRef (τ := τ) .tc main_arg11) = x11
    ∧ after (w8 (F := F)) W (Proc.devRef (τ := τ) .tc main_arg12) = x12
    ∧ after (w8 (F := F)) W (Proc.devRef (τ := τ) .tc main_v21) = val_main_v21 (F := F) x1 x2
    ∧ after (w8 (F := F)) W (Proc.devRef (τ := τ) .tc main_v22) = val_main_v22 (F := F) x2
    ∧ after (w8 (F := F)) W (Proc.devRef (τ := τ) .tc main_v116) = val_main_v116 (F := F) x0 x1 x2 x3 x4 x5 x6 x9 x10 x11 x12 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; exact h_v21),
   (by after_results_simp; exact h_v22),
   (by after_results_simp; rw [h_v103, h_v100, a11, a12]; rfl)⟩

/-- Operations 145 to 160: from contents that hold the earlier stages, the contents after them hold the stages they
    compute, and the arguments are kept. -/
theorem step_9 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v21 : W (Proc.devRef (τ := τ) .tc main_v21) = val_main_v21 (F := F) x1 x2)
    (h_v22 : W (Proc.devRef (τ := τ) .tc main_v22) = val_main_v22 (F := F) x2)
    (h_v116 : W (Proc.devRef (τ := τ) .tc main_v116) = val_main_v116 (F := F) x0 x1 x2 x3 x4 x5 x6 x9 x10 x11 x12) :
    after (w9 (F := F)) W (Proc.devRef (τ := τ) .tc main_arg0) = x0
    ∧ after (w9 (F := F)) W (Proc.devRef (τ := τ) .tc main_arg1) = x1
    ∧ after (w9 (F := F)) W (Proc.devRef (τ := τ) .tc main_arg2) = x2
    ∧ after (w9 (F := F)) W (Proc.devRef (τ := τ) .tc main_arg3) = x3
    ∧ after (w9 (F := F)) W (Proc.devRef (τ := τ) .tc main_arg4) = x4
    ∧ after (w9 (F := F)) W (Proc.devRef (τ := τ) .tc main_arg5) = x5
    ∧ after (w9 (F := F)) W (Proc.devRef (τ := τ) .tc main_arg6) = x6
    ∧ after (w9 (F := F)) W (Proc.devRef (τ := τ) .tc main_arg7) = x7
    ∧ after (w9 (F := F)) W (Proc.devRef (τ := τ) .tc main_arg8) = x8
    ∧ after (w9 (F := F)) W (Proc.devRef (τ := τ) .tc main_arg9) = x9
    ∧ after (w9 (F := F)) W (Proc.devRef (τ := τ) .tc main_arg10) = x10
    ∧ after (w9 (F := F)) W (Proc.devRef (τ := τ) .tc main_arg11) = x11
    ∧ after (w9 (F := F)) W (Proc.devRef (τ := τ) .tc main_arg12) = x12
    ∧ after (w9 (F := F)) W (Proc.devRef (τ := τ) .tc main_v22) = val_main_v22 (F := F) x2
    ∧ after (w9 (F := F)) W (Proc.devRef (τ := τ) .tc main_v117) = val_main_v117 (F := F) x0 x1 x2 x3 x4 x5 x6 x7 x9 x10 x11 x12
    ∧ after (w9 (F := F)) W (Proc.devRef (τ := τ) .tc main_v127) = val_main_v127 (F := F) x0 x1 x2 x3 x4 x5 x6 x7 x9 x10 x11 x12
    ∧ after (w9 (F := F)) W (Proc.devRef (τ := τ) .tc main_v128) = val_main_v128 (F := F)
    ∧ after (w9 (F := F)) W (Proc.devRef (τ := τ) .tc main_v129) = val_main_v129 (F := F) x2 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; exact h_v22),
   (by after_results_simp; rw [h_v116, a7]; rfl),
   (by after_results_simp; rw [h_v116, a7, a1, h_v21]; rfl),
   (by after_results_simp; rfl),
   (by after_results_simp; rw [a2]; rfl)⟩

/-- Operations 161 to 167: from contents that hold the earlier stages, the contents after them hold the stages they
    compute, and the arguments are kept. -/
theorem step_10 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v22 : W (Proc.devRef (τ := τ) .tc main_v22) = val_main_v22 (F := F) x2)
    (h_v117 : W (Proc.devRef (τ := τ) .tc main_v117) = val_main_v117 (F := F) x0 x1 x2 x3 x4 x5 x6 x7 x9 x10 x11 x12)
    (h_v127 : W (Proc.devRef (τ := τ) .tc main_v127) = val_main_v127 (F := F) x0 x1 x2 x3 x4 x5 x6 x7 x9 x10 x11 x12)
    (h_v128 : W (Proc.devRef (τ := τ) .tc main_v128) = val_main_v128 (F := F))
    (h_v129 : W (Proc.devRef (τ := τ) .tc main_v129) = val_main_v129 (F := F) x2) :
    after (w10 (F := F)) W (Proc.devRef (τ := τ) .tc main_arg0) = x0
    ∧ after (w10 (F := F)) W (Proc.devRef (τ := τ) .tc main_arg1) = x1
    ∧ after (w10 (F := F)) W (Proc.devRef (τ := τ) .tc main_arg2) = x2
    ∧ after (w10 (F := F)) W (Proc.devRef (τ := τ) .tc main_arg3) = x3
    ∧ after (w10 (F := F)) W (Proc.devRef (τ := τ) .tc main_arg4) = x4
    ∧ after (w10 (F := F)) W (Proc.devRef (τ := τ) .tc main_arg5) = x5
    ∧ after (w10 (F := F)) W (Proc.devRef (τ := τ) .tc main_arg6) = x6
    ∧ after (w10 (F := F)) W (Proc.devRef (τ := τ) .tc main_arg7) = x7
    ∧ after (w10 (F := F)) W (Proc.devRef (τ := τ) .tc main_arg8) = x8
    ∧ after (w10 (F := F)) W (Proc.devRef (τ := τ) .tc main_arg9) = x9
    ∧ after (w10 (F := F)) W (Proc.devRef (τ := τ) .tc main_arg10) = x10
    ∧ after (w10 (F := F)) W (Proc.devRef (τ := τ) .tc main_arg11) = x11
    ∧ after (w10 (F := F)) W (Proc.devRef (τ := τ) .tc main_arg12) = x12
    ∧ after (w10 (F := F)) W (Proc.devRef (τ := τ) .tc main_v134) = val_main_v134 (F := F) x0 x1 x2 x3 x4 x5 x6 x7 x9 x10 x11 x12
    ∧ after (w10 (F := F)) W (Proc.devRef (τ := τ) .tc main_v136) = val_main_v136 (F := F) x8 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   (by after_results_simp; rw [h_v128, h_v129, h_v127, h_v117, h_v22]; rfl),
   (by after_results_simp; rw [a8]; rfl)⟩

/-! Stripping the transports along a typed reference's type equation: at a literal reference both are the identity. -/

theorem ofBuf_main_v137 (p : (main_v137 : Ref sig .tc).ty = (⟨S100000x40, .f32⟩ : BufTy)) (q : (main_v137 : Ref sig .tc).space ≠ .host)
    (s : (main_v137 : Ref sig .tc).isScoped = false) (v : (main_v137 : Ref sig .tc).ty.Contents (Elt F)) :
    (TRef.of (T := ⟨S100000x40, .f32⟩) main_v137 p q s).ofBuf v = v := rfl
theorem toBuf_main_v137 (p : (main_v137 : Ref sig .tc).ty = (⟨S100000x40, .f32⟩ : BufTy)) (q : (main_v137 : Ref sig .tc).space ≠ .host)
    (s : (main_v137 : Ref sig .tc).isScoped = false) (v : (⟨S100000x40, .f32⟩ : BufTy).Contents (Elt F)) :
    (TRef.of (T := ⟨S100000x40, .f32⟩) main_v137 p q s).toBuf v = v := rfl
theorem ofBuf_main_call2_cst (p : (main_call2_cst : Ref sig .tc).ty = (⟨S_, .f32⟩ : BufTy)) (q : (main_call2_cst : Ref sig .tc).space ≠ .host)
    (s : (main_call2_cst : Ref sig .tc).isScoped = false) (v : (main_call2_cst : Ref sig .tc).ty.Contents (Elt F)) :
    (TRef.of (T := ⟨S_, .f32⟩) main_call2_cst p q s).ofBuf v = v := rfl
theorem toBuf_main_call2_cst (p : (main_call2_cst : Ref sig .tc).ty = (⟨S_, .f32⟩ : BufTy)) (q : (main_call2_cst : Ref sig .tc).space ≠ .host)
    (s : (main_call2_cst : Ref sig .tc).isScoped = false) (v : (⟨S_, .f32⟩ : BufTy).Contents (Elt F)) :
    (TRef.of (T := ⟨S_, .f32⟩) main_call2_cst p q s).toBuf v = v := rfl
theorem ofBuf_main_call2_v0 (p : (main_call2_v0 : Ref sig .tc).ty = (⟨S100000, .f32⟩ : BufTy)) (q : (main_call2_v0 : Ref sig .tc).space ≠ .host)
    (s : (main_call2_v0 : Ref sig .tc).isScoped = false) (v : (main_call2_v0 : Ref sig .tc).ty.Contents (Elt F)) :
    (TRef.of (T := ⟨S100000, .f32⟩) main_call2_v0 p q s).ofBuf v = v := rfl
theorem toBuf_main_call2_v0 (p : (main_call2_v0 : Ref sig .tc).ty = (⟨S100000, .f32⟩ : BufTy)) (q : (main_call2_v0 : Ref sig .tc).space ≠ .host)
    (s : (main_call2_v0 : Ref sig .tc).isScoped = false) (v : (⟨S100000, .f32⟩ : BufTy).Contents (Elt F)) :
    (TRef.of (T := ⟨S100000, .f32⟩) main_call2_v0 p q s).toBuf v = v := rfl
theorem ofBuf_main_call2_cst_0 (p : (main_call2_cst_0 : Ref sig .tc).ty = (⟨S_, .f32⟩ : BufTy)) (q : (main_call2_cst_0 : Ref sig .tc).space ≠ .host)
    (s : (main_call2_cst_0 : Ref sig .tc).isScoped = false) (v : (main_call2_cst_0 : Ref sig .tc).ty.Contents (Elt F)) :
    (TRef.of (T := ⟨S_, .f32⟩) main_call2_cst_0 p q s).ofBuf v = v := rfl
theorem toBuf_main_call2_cst_0 (p : (main_call2_cst_0 : Ref sig .tc).ty = (⟨S_, .f32⟩ : BufTy)) (q : (main_call2_cst_0 : Ref sig .tc).space ≠ .host)
    (s : (main_call2_cst_0 : Ref sig .tc).isScoped = false) (v : (⟨S_, .f32⟩ : BufTy).Contents (Elt F)) :
    (TRef.of (T := ⟨S_, .f32⟩) main_call2_cst_0 p q s).toBuf v = v := rfl
theorem ofBuf_main_call2_v1 (p : (main_call2_v1 : Ref sig .tc).ty = (⟨S100000, .f32⟩ : BufTy)) (q : (main_call2_v1 : Ref sig .tc).space ≠ .host)
    (s : (main_call2_v1 : Ref sig .tc).isScoped = false) (v : (main_call2_v1 : Ref sig .tc).ty.Contents (Elt F)) :
    (TRef.of (T := ⟨S100000, .f32⟩) main_call2_v1 p q s).ofBuf v = v := rfl
theorem toBuf_main_call2_v1 (p : (main_call2_v1 : Ref sig .tc).ty = (⟨S100000, .f32⟩ : BufTy)) (q : (main_call2_v1 : Ref sig .tc).space ≠ .host)
    (s : (main_call2_v1 : Ref sig .tc).isScoped = false) (v : (⟨S100000, .f32⟩ : BufTy).Contents (Elt F)) :
    (TRef.of (T := ⟨S100000, .f32⟩) main_call2_v1 p q s).toBuf v = v := rfl
theorem ofBuf_main_call2_v2 (p : (main_call2_v2 : Ref sig .tc).ty = (⟨S100000, .f32⟩ : BufTy)) (q : (main_call2_v2 : Ref sig .tc).space ≠ .host)
    (s : (main_call2_v2 : Ref sig .tc).isScoped = false) (v : (main_call2_v2 : Ref sig .tc).ty.Contents (Elt F)) :
    (TRef.of (T := ⟨S100000, .f32⟩) main_call2_v2 p q s).ofBuf v = v := rfl
theorem toBuf_main_call2_v2 (p : (main_call2_v2 : Ref sig .tc).ty = (⟨S100000, .f32⟩ : BufTy)) (q : (main_call2_v2 : Ref sig .tc).space ≠ .host)
    (s : (main_call2_v2 : Ref sig .tc).isScoped = false) (v : (⟨S100000, .f32⟩ : BufTy).Contents (Elt F)) :
    (TRef.of (T := ⟨S100000, .f32⟩) main_call2_v2 p q s).toBuf v = v := rfl
theorem ofBuf_main_call2_v3 (p : (main_call2_v3 : Ref sig .tc).ty = (⟨S100000x1, .f32⟩ : BufTy)) (q : (main_call2_v3 : Ref sig .tc).space ≠ .host)
    (s : (main_call2_v3 : Ref sig .tc).isScoped = false) (v : (main_call2_v3 : Ref sig .tc).ty.Contents (Elt F)) :
    (TRef.of (T := ⟨S100000x1, .f32⟩) main_call2_v3 p q s).ofBuf v = v := rfl
theorem toBuf_main_call2_v3 (p : (main_call2_v3 : Ref sig .tc).ty = (⟨S100000x1, .f32⟩ : BufTy)) (q : (main_call2_v3 : Ref sig .tc).space ≠ .host)
    (s : (main_call2_v3 : Ref sig .tc).isScoped = false) (v : (⟨S100000x1, .f32⟩ : BufTy).Contents (Elt F)) :
    (TRef.of (T := ⟨S100000x1, .f32⟩) main_call2_v3 p q s).toBuf v = v := rfl
theorem ofBuf_main_call2_v4 (p : (main_call2_v4 : Ref sig .tc).ty = (⟨S100000x40, .f32⟩ : BufTy)) (q : (main_call2_v4 : Ref sig .tc).space ≠ .host)
    (s : (main_call2_v4 : Ref sig .tc).isScoped = false) (v : (main_call2_v4 : Ref sig .tc).ty.Contents (Elt F)) :
    (TRef.of (T := ⟨S100000x40, .f32⟩) main_call2_v4 p q s).ofBuf v = v := rfl
theorem toBuf_main_call2_v4 (p : (main_call2_v4 : Ref sig .tc).ty = (⟨S100000x40, .f32⟩ : BufTy)) (q : (main_call2_v4 : Ref sig .tc).space ≠ .host)
    (s : (main_call2_v4 : Ref sig .tc).isScoped = false) (v : (⟨S100000x40, .f32⟩ : BufTy).Contents (Elt F)) :
    (TRef.of (T := ⟨S100000x40, .f32⟩) main_call2_v4 p q s).toBuf v = v := rfl
theorem ofBuf_main_call2_v5 (p : (main_call2_v5 : Ref sig .tc).ty = (⟨S100000x40, .f32⟩ : BufTy)) (q : (main_call2_v5 : Ref sig .tc).space ≠ .host)
    (s : (main_call2_v5 : Ref sig .tc).isScoped = false) (v : (main_call2_v5 : Ref sig .tc).ty.Contents (Elt F)) :
    (TRef.of (T := ⟨S100000x40, .f32⟩) main_call2_v5 p q s).ofBuf v = v := rfl
theorem toBuf_main_call2_v5 (p : (main_call2_v5 : Ref sig .tc).ty = (⟨S100000x40, .f32⟩ : BufTy)) (q : (main_call2_v5 : Ref sig .tc).space ≠ .host)
    (s : (main_call2_v5 : Ref sig .tc).isScoped = false) (v : (⟨S100000x40, .f32⟩ : BufTy).Contents (Elt F)) :
    (TRef.of (T := ⟨S100000x40, .f32⟩) main_call2_v5 p q s).toBuf v = v := rfl
theorem ofBuf_main_call2_v6 (p : (main_call2_v6 : Ref sig .tc).ty = (⟨S100000x40, .f32⟩ : BufTy)) (q : (main_call2_v6 : Ref sig .tc).space ≠ .host)
    (s : (main_call2_v6 : Ref sig .tc).isScoped = false) (v : (main_call2_v6 : Ref sig .tc).ty.Contents (Elt F)) :
    (TRef.of (T := ⟨S100000x40, .f32⟩) main_call2_v6 p q s).ofBuf v = v := rfl
theorem toBuf_main_call2_v6 (p : (main_call2_v6 : Ref sig .tc).ty = (⟨S100000x40, .f32⟩ : BufTy)) (q : (main_call2_v6 : Ref sig .tc).space ≠ .host)
    (s : (main_call2_v6 : Ref sig .tc).isScoped = false) (v : (⟨S100000x40, .f32⟩ : BufTy).Contents (Elt F)) :
    (TRef.of (T := ⟨S100000x40, .f32⟩) main_call2_v6 p q s).toBuf v = v := rfl
theorem ofBuf_main_call2_cst_1 (p : (main_call2_cst_1 : Ref sig .tc).ty = (⟨S_, .f32⟩ : BufTy)) (q : (main_call2_cst_1 : Ref sig .tc).space ≠ .host)
    (s : (main_call2_cst_1 : Ref sig .tc).isScoped = false) (v : (main_call2_cst_1 : Ref sig .tc).ty.Contents (Elt F)) :
    (TRef.of (T := ⟨S_, .f32⟩) main_call2_cst_1 p q s).ofBuf v = v := rfl
theorem toBuf_main_call2_cst_1 (p : (main_call2_cst_1 : Ref sig .tc).ty = (⟨S_, .f32⟩ : BufTy)) (q : (main_call2_cst_1 : Ref sig .tc).space ≠ .host)
    (s : (main_call2_cst_1 : Ref sig .tc).isScoped = false) (v : (⟨S_, .f32⟩ : BufTy).Contents (Elt F)) :
    (TRef.of (T := ⟨S_, .f32⟩) main_call2_cst_1 p q s).toBuf v = v := rfl
theorem ofBuf_main_call2_v7 (p : (main_call2_v7 : Ref sig .tc).ty = (⟨S100000, .f32⟩ : BufTy)) (q : (main_call2_v7 : Ref sig .tc).space ≠ .host)
    (s : (main_call2_v7 : Ref sig .tc).isScoped = false) (v : (main_call2_v7 : Ref sig .tc).ty.Contents (Elt F)) :
    (TRef.of (T := ⟨S100000, .f32⟩) main_call2_v7 p q s).ofBuf v = v := rfl
theorem toBuf_main_call2_v7 (p : (main_call2_v7 : Ref sig .tc).ty = (⟨S100000, .f32⟩ : BufTy)) (q : (main_call2_v7 : Ref sig .tc).space ≠ .host)
    (s : (main_call2_v7 : Ref sig .tc).isScoped = false) (v : (⟨S100000, .f32⟩ : BufTy).Contents (Elt F)) :
    (TRef.of (T := ⟨S100000, .f32⟩) main_call2_v7 p q s).toBuf v = v := rfl
theorem ofBuf_main_call2_v8 (p : (main_call2_v8 : Ref sig .tc).ty = (⟨S100000x1, .f32⟩ : BufTy)) (q : (main_call2_v8 : Ref sig .tc).space ≠ .host)
    (s : (main_call2_v8 : Ref sig .tc).isScoped = false) (v : (main_call2_v8 : Ref sig .tc).ty.Contents (Elt F)) :
    (TRef.of (T := ⟨S100000x1, .f32⟩) main_call2_v8 p q s).ofBuf v = v := rfl
theorem toBuf_main_call2_v8 (p : (main_call2_v8 : Ref sig .tc).ty = (⟨S100000x1, .f32⟩ : BufTy)) (q : (main_call2_v8 : Ref sig .tc).space ≠ .host)
    (s : (main_call2_v8 : Ref sig .tc).isScoped = false) (v : (⟨S100000x1, .f32⟩ : BufTy).Contents (Elt F)) :
    (TRef.of (T := ⟨S100000x1, .f32⟩) main_call2_v8 p q s).toBuf v = v := rfl
theorem ofBuf_main_call2_v9 (p : (main_call2_v9 : Ref sig .tc).ty = (⟨S100000x1, .f32⟩ : BufTy)) (q : (main_call2_v9 : Ref sig .tc).space ≠ .host)
    (s : (main_call2_v9 : Ref sig .tc).isScoped = false) (v : (main_call2_v9 : Ref sig .tc).ty.Contents (Elt F)) :
    (TRef.of (T := ⟨S100000x1, .f32⟩) main_call2_v9 p q s).ofBuf v = v := rfl
theorem toBuf_main_call2_v9 (p : (main_call2_v9 : Ref sig .tc).ty = (⟨S100000x1, .f32⟩ : BufTy)) (q : (main_call2_v9 : Ref sig .tc).space ≠ .host)
    (s : (main_call2_v9 : Ref sig .tc).isScoped = false) (v : (⟨S100000x1, .f32⟩ : BufTy).Contents (Elt F)) :
    (TRef.of (T := ⟨S100000x1, .f32⟩) main_call2_v9 p q s).toBuf v = v := rfl
theorem ofBuf_main_call2_v10 (p : (main_call2_v10 : Ref sig .tc).ty = (⟨S100000x40, .f32⟩ : BufTy)) (q : (main_call2_v10 : Ref sig .tc).space ≠ .host)
    (s : (main_call2_v10 : Ref sig .tc).isScoped = false) (v : (main_call2_v10 : Ref sig .tc).ty.Contents (Elt F)) :
    (TRef.of (T := ⟨S100000x40, .f32⟩) main_call2_v10 p q s).ofBuf v = v := rfl
theorem toBuf_main_call2_v10 (p : (main_call2_v10 : Ref sig .tc).ty = (⟨S100000x40, .f32⟩ : BufTy)) (q : (main_call2_v10 : Ref sig .tc).space ≠ .host)
    (s : (main_call2_v10 : Ref sig .tc).isScoped = false) (v : (⟨S100000x40, .f32⟩ : BufTy).Contents (Elt F)) :
    (TRef.of (T := ⟨S100000x40, .f32⟩) main_call2_v10 p q s).toBuf v = v := rfl
theorem ofBuf_main_v138 (p : (main_v138 : Ref sig .tc).ty = (⟨S100000x40, .f32⟩ : BufTy)) (q : (main_v138 : Ref sig .tc).space ≠ .host)
    (s : (main_v138 : Ref sig .tc).isScoped = false) (v : (main_v138 : Ref sig .tc).ty.Contents (Elt F)) :
    (TRef.of (T := ⟨S100000x40, .f32⟩) main_v138 p q s).ofBuf v = v := rfl
theorem toBuf_main_v138 (p : (main_v138 : Ref sig .tc).ty = (⟨S100000x40, .f32⟩ : BufTy)) (q : (main_v138 : Ref sig .tc).space ≠ .host)
    (s : (main_v138 : Ref sig .tc).isScoped = false) (v : (⟨S100000x40, .f32⟩ : BufTy).Contents (Elt F)) :
    (TRef.of (T := ⟨S100000x40, .f32⟩) main_v138 p q s).toBuf v = v := rfl

attribute [local irreducible] Host.reduce in
set_option maxRecDepth 8192 in
/-- Operations 168 to 183, the result buffer: after them it holds the last stage. The transports of the typed
    references are stripped first, then the stages of these operations are unfolded and both sides are one term. -/
theorem step_11_last (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v134 : W (Proc.devRef (τ := τ) .tc main_v134) = val_main_v134 (F := F) x0 x1 x2 x3 x4 x5 x6 x7 x9 x10 x11 x12)
    (h_v136 : W (Proc.devRef (τ := τ) .tc main_v136) = val_main_v136 (F := F) x8) :
    after (w11 (F := F)) W (Proc.devRef (τ := τ) .tc main_v138) = val_main_v138 (F := F) x0 x1 x2 x3 x4 x5 x6 x7 x8 x9 x10 x11 x12 := by
  after_results_simp
  rw [h_v134, h_v136]
  simp only [ofBuf_main_v138, toBuf_main_v138, ofBuf_main_call2_v10, toBuf_main_call2_v10, ofBuf_main_call2_v9, toBuf_main_call2_v9, ofBuf_main_call2_v8, toBuf_main_call2_v8, ofBuf_main_call2_v7, toBuf_main_call2_v7, ofBuf_main_call2_cst_1, toBuf_main_call2_cst_1, ofBuf_main_call2_v6, toBuf_main_call2_v6, ofBuf_main_call2_v5, toBuf_main_call2_v5]
  simp only [ofBuf_main_call2_v4, toBuf_main_call2_v4, ofBuf_main_call2_v3, toBuf_main_call2_v3, ofBuf_main_call2_v2, toBuf_main_call2_v2, ofBuf_main_call2_v1, toBuf_main_call2_v1, ofBuf_main_call2_cst_0, toBuf_main_call2_cst_0]
  simp only [ofBuf_main_call2_cst, toBuf_main_call2_cst, ofBuf_main_v137, toBuf_main_v137]
  simp only [ofBuf_main_call2_v0, toBuf_main_call2_v0]
  unfold val_main_v138 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst val_main_v137
  with_reducible rfl

/-- Operations 168 to 183: from contents that hold the earlier stages, the contents after them hold the stages they
    compute, and the arguments are kept. -/
theorem step_11 (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F))
    (a0 : W (Proc.devRef (τ := τ) .tc main_arg0) = x0)
    (a1 : W (Proc.devRef (τ := τ) .tc main_arg1) = x1)
    (a2 : W (Proc.devRef (τ := τ) .tc main_arg2) = x2)
    (a3 : W (Proc.devRef (τ := τ) .tc main_arg3) = x3)
    (a4 : W (Proc.devRef (τ := τ) .tc main_arg4) = x4)
    (a5 : W (Proc.devRef (τ := τ) .tc main_arg5) = x5)
    (a6 : W (Proc.devRef (τ := τ) .tc main_arg6) = x6)
    (a7 : W (Proc.devRef (τ := τ) .tc main_arg7) = x7)
    (a8 : W (Proc.devRef (τ := τ) .tc main_arg8) = x8)
    (a9 : W (Proc.devRef (τ := τ) .tc main_arg9) = x9)
    (a10 : W (Proc.devRef (τ := τ) .tc main_arg10) = x10)
    (a11 : W (Proc.devRef (τ := τ) .tc main_arg11) = x11)
    (a12 : W (Proc.devRef (τ := τ) .tc main_arg12) = x12)
    (h_v134 : W (Proc.devRef (τ := τ) .tc main_v134) = val_main_v134 (F := F) x0 x1 x2 x3 x4 x5 x6 x7 x9 x10 x11 x12)
    (h_v136 : W (Proc.devRef (τ := τ) .tc main_v136) = val_main_v136 (F := F) x8) :
    after (w11 (F := F)) W (Proc.devRef (τ := τ) .tc main_arg0) = x0
    ∧ after (w11 (F := F)) W (Proc.devRef (τ := τ) .tc main_arg1) = x1
    ∧ after (w11 (F := F)) W (Proc.devRef (τ := τ) .tc main_arg2) = x2
    ∧ after (w11 (F := F)) W (Proc.devRef (τ := τ) .tc main_arg3) = x3
    ∧ after (w11 (F := F)) W (Proc.devRef (τ := τ) .tc main_arg4) = x4
    ∧ after (w11 (F := F)) W (Proc.devRef (τ := τ) .tc main_arg5) = x5
    ∧ after (w11 (F := F)) W (Proc.devRef (τ := τ) .tc main_arg6) = x6
    ∧ after (w11 (F := F)) W (Proc.devRef (τ := τ) .tc main_arg7) = x7
    ∧ after (w11 (F := F)) W (Proc.devRef (τ := τ) .tc main_arg8) = x8
    ∧ after (w11 (F := F)) W (Proc.devRef (τ := τ) .tc main_arg9) = x9
    ∧ after (w11 (F := F)) W (Proc.devRef (τ := τ) .tc main_arg10) = x10
    ∧ after (w11 (F := F)) W (Proc.devRef (τ := τ) .tc main_arg11) = x11
    ∧ after (w11 (F := F)) W (Proc.devRef (τ := τ) .tc main_arg12) = x12
    ∧ after (w11 (F := F)) W (Proc.devRef (τ := τ) .tc main_v138) = val_main_v138 (F := F) x0 x1 x2 x3 x4 x5 x6 x7 x8 x9 x10 x11 x12 :=
  ⟨(by after_results_simp; exact a0),
   (by after_results_simp; exact a1),
   (by after_results_simp; exact a2),
   (by after_results_simp; exact a3),
   (by after_results_simp; exact a4),
   (by after_results_simp; exact a5),
   (by after_results_simp; exact a6),
   (by after_results_simp; exact a7),
   (by after_results_simp; exact a8),
   (by after_results_simp; exact a9),
   (by after_results_simp; exact a10),
   (by after_results_simp; exact a11),
   (by after_results_simp; exact a12),
   step_11_last W x0 x1 x2 x3 x4 x5 x6 x7 x8 x9 x10 x11 x12 a0 a1 a2 a3 a4 a5 a6 a7 a8 a9 a10 a11 a12 h_v134 h_v136⟩

/-- The contents after all of @main's operations, from any contents `V`: the arguments are unchanged and the result
    buffer holds `val_main_v138` of the arguments' contents in `V` — the twelve windows, chained. -/
theorem after_ops (V : Valuation τ sig (Elt F)) :
    after (ops (F := F)) V (Proc.devRef (τ := τ) .tc main_arg0) = V (Proc.devRef (τ := τ) .tc main_arg0)
    ∧ after (ops (F := F)) V (Proc.devRef (τ := τ) .tc main_arg1) = V (Proc.devRef (τ := τ) .tc main_arg1)
    ∧ after (ops (F := F)) V (Proc.devRef (τ := τ) .tc main_arg2) = V (Proc.devRef (τ := τ) .tc main_arg2)
    ∧ after (ops (F := F)) V (Proc.devRef (τ := τ) .tc main_arg3) = V (Proc.devRef (τ := τ) .tc main_arg3)
    ∧ after (ops (F := F)) V (Proc.devRef (τ := τ) .tc main_arg4) = V (Proc.devRef (τ := τ) .tc main_arg4)
    ∧ after (ops (F := F)) V (Proc.devRef (τ := τ) .tc main_arg5) = V (Proc.devRef (τ := τ) .tc main_arg5)
    ∧ after (ops (F := F)) V (Proc.devRef (τ := τ) .tc main_arg6) = V (Proc.devRef (τ := τ) .tc main_arg6)
    ∧ after (ops (F := F)) V (Proc.devRef (τ := τ) .tc main_arg7) = V (Proc.devRef (τ := τ) .tc main_arg7)
    ∧ after (ops (F := F)) V (Proc.devRef (τ := τ) .tc main_arg8) = V (Proc.devRef (τ := τ) .tc main_arg8)
    ∧ after (ops (F := F)) V (Proc.devRef (τ := τ) .tc main_arg9) = V (Proc.devRef (τ := τ) .tc main_arg9)
    ∧ after (ops (F := F)) V (Proc.devRef (τ := τ) .tc main_arg10) = V (Proc.devRef (τ := τ) .tc main_arg10)
    ∧ after (ops (F := F)) V (Proc.devRef (τ := τ) .tc main_arg11) = V (Proc.devRef (τ := τ) .tc main_arg11)
    ∧ after (ops (F := F)) V (Proc.devRef (τ := τ) .tc main_arg12) = V (Proc.devRef (τ := τ) .tc main_arg12)
    ∧ after (ops (F := F)) V (Proc.devRef (τ := τ) .tc main_v138) = val_main_v138 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) := by
  rw [ops_split]
  simp only [after_append]
  obtain ⟨a0, a1, a2, a3, a4, a5, a6, a7, a8, a9, a10, a11, a12, h_v6, h_v8, h_v10⟩ := step_0 (F := F) V _ _ _ _ _ _ _ _ _ _ _ _ _ rfl rfl rfl rfl rfl rfl rfl rfl rfl rfl rfl rfl rfl
  obtain ⟨a0, a1, a2, a3, a4, a5, a6, a7, a8, a9, a10, a11, a12, h_v21, h_v22, h_v23, h_c_5⟩ := step_1 (F := F) _ _ _ _ _ _ _ _ _ _ _ _ _ _ a0 a1 a2 a3 a4 a5 a6 a7 a8 a9 a10 a11 a12 h_v6 h_v8 h_v10
  obtain ⟨a0, a1, a2, a3, a4, a5, a6, a7, a8, a9, a10, a11, a12, h_v21, h_v22, h_v23, h_v36, h_v37⟩ := step_2 (F := F) _ _ _ _ _ _ _ _ _ _ _ _ _ _ a0 a1 a2 a3 a4 a5 a6 a7 a8 a9 a10 a11 a12 h_v21 h_v22 h_v23 h_c_5
  obtain ⟨a0, a1, a2, a3, a4, a5, a6, a7, a8, a9, a10, a11, a12, h_v21, h_v22, h_v43, h_v46, h_v50, h_cst_10⟩ := step_3 (F := F) _ _ _ _ _ _ _ _ _ _ _ _ _ _ a0 a1 a2 a3 a4 a5 a6 a7 a8 a9 a10 a11 a12 h_v21 h_v22 h_v23 h_v36 h_v37
  obtain ⟨a0, a1, a2, a3, a4, a5, a6, a7, a8, a9, a10, a11, a12, h_v21, h_v22, h_v62, h_v64⟩ := step_4 (F := F) _ _ _ _ _ _ _ _ _ _ _ _ _ _ a0 a1 a2 a3 a4 a5 a6 a7 a8 a9 a10 a11 a12 h_v21 h_v22 h_v43 h_v46 h_v50 h_cst_10
  obtain ⟨a0, a1, a2, a3, a4, a5, a6, a7, a8, a9, a10, a11, a12, h_v21, h_v22, h_v70, h_v76⟩ := step_5 (F := F) _ _ _ _ _ _ _ _ _ _ _ _ _ _ a0 a1 a2 a3 a4 a5 a6 a7 a8 a9 a10 a11 a12 h_v21 h_v22 h_v62 h_v64
  obtain ⟨a0, a1, a2, a3, a4, a5, a6, a7, a8, a9, a10, a11, a12, h_v21, h_v22, h_v90, h_cst_16⟩ := step_6 (F := F) _ _ _ _ _ _ _ _ _ _ _ _ _ _ a0 a1 a2 a3 a4 a5 a6 a7 a8 a9 a10 a11 a12 h_v21 h_v22 h_v70 h_v76
  obtain ⟨a0, a1, a2, a3, a4, a5, a6, a7, a8, a9, a10, a11, a12, h_v21, h_v22, h_v100, h_v103⟩ := step_7 (F := F) _ _ _ _ _ _ _ _ _ _ _ _ _ _ a0 a1 a2 a3 a4 a5 a6 a7 a8 a9 a10 a11 a12 h_v21 h_v22 h_v90 h_cst_16
  obtain ⟨a0, a1, a2, a3, a4, a5, a6, a7, a8, a9, a10, a11, a12, h_v21, h_v22, h_v116⟩ := step_8 (F := F) _ _ _ _ _ _ _ _ _ _ _ _ _ _ a0 a1 a2 a3 a4 a5 a6 a7 a8 a9 a10 a11 a12 h_v21 h_v22 h_v100 h_v103
  obtain ⟨a0, a1, a2, a3, a4, a5, a6, a7, a8, a9, a10, a11, a12, h_v22, h_v117, h_v127, h_v128, h_v129⟩ := step_9 (F := F) _ _ _ _ _ _ _ _ _ _ _ _ _ _ a0 a1 a2 a3 a4 a5 a6 a7 a8 a9 a10 a11 a12 h_v21 h_v22 h_v116
  obtain ⟨a0, a1, a2, a3, a4, a5, a6, a7, a8, a9, a10, a11, a12, h_v134, h_v136⟩ := step_10 (F := F) _ _ _ _ _ _ _ _ _ _ _ _ _ _ a0 a1 a2 a3 a4 a5 a6 a7 a8 a9 a10 a11 a12 h_v22 h_v117 h_v127 h_v128 h_v129
  obtain ⟨a0, a1, a2, a3, a4, a5, a6, a7, a8, a9, a10, a11, a12, h_v138⟩ := step_11 (F := F) _ _ _ _ _ _ _ _ _ _ _ _ _ _ a0 a1 a2 a3 a4 a5 a6 a7 a8 a9 a10 a11 a12 h_v134 h_v136
  exact ⟨a0, a1, a2, a3, a4, a5, a6, a7, a8, a9, a10, a11, a12, h_v138⟩

/-- On every device, for any float values, from any memory with zero counters: every weakly fair execution of
    @main terminates with the result buffer at the stage `val_main_v138` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨a0, a1, a2, a3, a4, a5, a6, a7, a8, a9, a10, a11, a12, hres⟩ := after_ops (F := F) (launchContents m c)
      exact ⟨(h c main_v138).trans hres, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12⟩)
    (run_seq scopedRefs_eq scopedSems_eq defs main (fun _ => ops) main_eq (fun _ => ops_sub) m ρ)

end Ref

end
-- ==== Proof.GcnAlgebra.lean ====
import proofs.«139699_j335007449371_2_alg».proof.Proof.GcnSpec
import Idealize.ShloMosaic.PureOps.Ideal.Laws

/-!
  The one law that joins the two spellings of a convolution: on the extended reals, multiplication by a
  nonnegative FINITE number distributes over a finite sum, whatever the summands (it fails for a negative or an
  infinite factor, where `∞ - ∞` conventions differ on the two sides). The inverse square root of a degree is such a
  number: the degree is `1 + ` a count, a real number at least one.
-/

open scoped BigOperators
open Idealize.ShloMosaic

namespace Gcn

/-- A nonnegative finite factor distributes over an initial value plus a finite sum. -/
theorem sum_mul_of_nonneg {ι : Type*} (s : Finset ι) (f : ι → EReal) (a0 x : EReal) (hx : 0 ≤ x) (hx' : x ≠ ⊤) :
    (a0 + ∑ e ∈ s, f e) * x = a0 * x + ∑ e ∈ s, f e * x := by
  classical
  induction s using Finset.induction_on generalizing a0 with
  | empty => simp
  | insert e s he ih =>
    rw [Finset.sum_insert he, Finset.sum_insert he, ← add_assoc, ih,
      EReal.right_distrib_of_nonneg_of_ne_top hx hx', add_assoc]

/-- The two spellings of a convolution agree when `d` is nonnegative and finite and every edge of `S r` ends at `r`. -/
theorem convOut_eq_convIn {J : Nat} (d : Fin NN → EReal) (srow drow : Fin NE → Fin NN) (S : Fin NN → Finset (Fin NE))
    (h : Fin NN → Fin J → EReal) (b : Fin J → EReal) (hd : ∀ r, 0 ≤ d r ∧ d r ≠ ⊤)
    (hS : ∀ r, ∀ e ∈ S r, drow e = r) (r : Fin NN) (c : Fin J) :
    convOut d srow S h b r c = convIn d srow drow S h b r c := by
  unfold convOut convIn
  rw [sum_mul_of_nonneg _ _ _ _ (hd r).1 (hd r).2]
  have hz : zero * d r = zero := by
    show Ideal.ofBits .f32 0x00000000#32 * d r = Ideal.ofBits .f32 0x00000000#32
    rw [Ideal.ofBits_zero_f32, zero_mul]
  rw [hz]
  congr 3
  refine Finset.sum_congr rfl fun e he => ?_
  rw [hS r e he, mul_assoc]

/-- The same for whole feature arrays. -/
theorem convOut_eq_convIn' {J : Nat} (d : Fin NN → EReal) (srow drow : Fin NE → Fin NN) (S : Fin NN → Finset (Fin NE))
    (h : Fin NN → Fin J → EReal) (b : Fin J → EReal) (hd : ∀ r, 0 ≤ d r ∧ d r ≠ ⊤)
    (hS : ∀ r, ∀ e ∈ S r, drow e = r) :
    convOut d srow S h b = convIn d srow drow S h b :=
  funext fun r => funext fun c => convOut_eq_convIn d srow drow S h b hd hS r c

/-- The whole network: taking each destination factor out of its edge sum changes nothing. -/
theorem netOut_eq_netIn (d : Fin NN → EReal) (srow drow : Fin NE → Fin NN) (S : Fin NN → Finset (Fin NE))
    (x : Fin NN → Fin 128 → EReal) (W0 : Fin 128 → Fin 128 → EReal) (b0 : Fin 128 → EReal)
    (W1 : Fin 128 → Fin 128 → EReal) (b1 : Fin 128 → EReal) (W2 : Fin 128 → Fin 40 → EReal) (b2 : Fin 40 → EReal)
    (g0 be0 g1 be1 : Fin 128 → EReal) (hd : ∀ r, 0 ≤ d r ∧ d r ≠ ⊤) (hS : ∀ r, ∀ e ∈ S r, drow e = r) :
    netOut d srow S x W0 b0 W1 b1 W2 b2 g0 be0 g1 be1 = netIn d srow drow S x W0 b0 W1 b1 W2 b2 g0 be0 g1 be1 := by
  unfold netOut netIn
  rw [convOut_eq_convIn' d srow drow S _ b0 hd hS, convOut_eq_convIn' d srow drow S _ b1 hd hS,
    convOut_eq_convIn' d srow drow S _ b2 hd hS]

/-- A count of ones is a nonnegative real number. -/
theorem sum_one_real {ι : Type*} (s : Finset ι) : ∃ y : ℝ, 0 ≤ y ∧ ∑ _e ∈ s, ((1 : ℝ) : EReal) = (y : EReal) := by
  classical
  induction s using Finset.induction_on with
  | empty => exact ⟨0, le_refl _, by simp⟩
  | insert e s he ih =>
    obtain ⟨y, hy, hs⟩ := ih
    exact ⟨1 + y, by positivity, by rw [Finset.sum_insert he, hs, EReal.coe_add]⟩

/-- The f32 word of one reads as the real number one. -/
theorem one_eq : one = ((1 : ℝ) : EReal) := by
  show Ideal.ofBits .f32 0x3F800000#32 = _
  simp [Ideal.ofBits, Ideal.ieee]
  first
  | (rw [← EReal.coe_mul]; norm_num; done)
  | (norm_cast; norm_num; done)

/-- The inverse square root of a degree is a nonnegative finite number. -/
theorem dis_nonneg_ne_top (dst : Fin NE → BitVec 32) (r : Fin NN) : 0 ≤ dis dst r ∧ dis dst r ≠ ⊤ := by
  unfold dis
  obtain ⟨y, hy, hs⟩ := sum_one_real (lands dst r)
  have hz : zero = ((0 : ℝ) : EReal) := by
    show Ideal.ofBits .f32 0x00000000#32 = _
    rw [Ideal.ofBits_zero_f32]; rfl
  rw [one_eq, hs, hz, ← EReal.coe_add, ← EReal.coe_add, Ideal.rsqrt_coe]
  have hpos : (0 : ℝ) < 1 + (0 + y) := by linarith
  rw [if_neg (not_lt.mpr hpos.le), if_neg hpos.ne']
  refine ⟨?_, EReal.coe_ne_top _⟩
  exact_mod_cast inv_nonneg.mpr (Real.sqrt_nonneg _)

/-- Every edge that lands at `r` has, after the index wrap and the clamp, the row `r`: its destination word read
    signed is `r ≥ 0`, so the wrap leaves it alone and the clamp into `[0, NN - 1]` does too. The wrap's part is taken
    as a hypothesis on the wrap function. -/
theorem drow_of_lands (wr : BitVec 32 → BitVec 32) (hwr : ∀ v : BitVec 32, 0 ≤ v.toInt → wr v = v)
    (dst : Fin NE → BitVec 32) (r : Fin NN) (e : Fin NE) (he : e ∈ lands dst r) : rowOf (wr (dst e)) = r := by
  have h : (dst e).toInt = (r.val : Int) := (Finset.mem_filter.mp he).2
  have h0 : 0 ≤ (dst e).toInt := by rw [h]; exact Int.natCast_nonneg _
  rw [hwr _ h0]
  refine Fin.ext ?_
  show min (dst e).toInt.toNat (NN - 1) = r.val
  rw [h, Int.toNat_natCast]
  have := r.isLt
  exact Nat.min_eq_left (by omega)

end Gcn
-- ==== Proof.KIndex.lean ====
import proofs.«139699_j335007449371_2_alg».proof.Proof.KStage
import proofs.«139699_j335007449371_2_alg».proof.Proof.KHostOps
import proofs.«139699_j335007449371_2_alg».proof.Proof.KHostStats
import proofs.«139699_j335007449371_2_alg».proof.Proof.GcnAlgebra

/-!
  The kernel program's result, read at an index, is the network with each destination factor taken out of its edge sum.

  Stage by stage: the degree factors are `Gcn.dis`; a product region's array is `Gcn.mm`; the aggregate at `(r, c)` is zero plus
  the sum over the edges landing at `r` of the scaled features at the edge's (wrapped, clamped) source row; the combination is
  then `Gcn.convOut`; the statistics rows are `Gcn.mean` and the reciprocal deviation, so the rectified features are `Gcn.act`;
  the last region's rows are the log-softmax.
-/

set_option maxRecDepth 16384

open scoped BigOperators

noncomputable section

namespace Cert.KernelIdeal.KIndex

open Cert.KernelIdeal Cert.KernelIdeal.Gen Cert.KernelIdeal.KTerms Cert.KernelIdeal.KStage Cert.KernelIdeal.KHostOps Cert.KernelIdeal.KHostStats
open Idealize.ShloMosaic Idealize.ShloMosaic.TcCoe Idealize.ShloMosaic.ValueIdx Idealize.SL.Sem

variable (m : (ℓ : Loc nD τ sig) → Buf (Elt Ideal) ℓ) (c : Dev nD)

/-! ## The arguments by coordinates -/
abbrev dstW : Fin Gcn.NE → BitVec 32 := fun e => aDST m c (ix1 e)
abbrev srow : Fin Gcn.NE → Fin Gcn.NN := fun e => Gcn.rowOf (Gcn.wrapIdx (aSRC m c (ix1 e)))
abbrev dK : Fin Gcn.NN → EReal := Gcn.dis (dstW m c)
abbrev SK : Fin Gcn.NN → Finset (Fin Gcn.NE) := Gcn.lands (dstW m c)
abbrev xK : Fin Gcn.NN → Fin 128 → EReal := fun r k => aX m c (ix2 r k)
abbrev w0K : Fin 128 → Fin 128 → EReal := fun k j => aW0 m c (ix2 k j)
abbrev w1K : Fin 128 → Fin 128 → EReal := fun k j => aW1 m c (ix2 k j)
abbrev w2K : Fin 128 → Fin 40 → EReal := fun k j => aW2 m c (ix2 k j)
abbrev b0K : Fin 128 → EReal := fun j => aB0 m c (ix1 j)
abbrev b1K : Fin 128 → EReal := fun j => aB1 m c (ix1 j)
abbrev b2K : Fin 40 → EReal := fun j => aB2 m c (ix1 j)
abbrev g0K : Fin 128 → EReal := fun j => aG0 m c (ix1 j)
abbrev be0K : Fin 128 → EReal := fun j => aBE0 m c (ix1 j)
abbrev g1K : Fin 128 → EReal := fun j => aG1 m c (ix1 j)
abbrev be1K : Fin 128 → EReal := fun j => aBE1 m c (ix1 j)

/-! ## The degree factors -/
theorem dis_apply (r : Fin 100000) : dis m c (ix1 r) = dK m c r := by
  exact KHostStats.disTerm_apply (aDST m c) r

theorem dcol_apply (r : Fin 100000) : dcol m c (ix2 r 0) = dK m c r := by
  unfold dcol colTerm
  rw [col_apply, dis_apply]

/-! ## The aggregate at an index -/
theorem agg128_apply (hs : FA S100000x128) (r : Fin 100000) (k : Fin 128) :
    aggTerm128 hs (aSRC m c) (aDST m c) (ix2 r k) = Gcn.zero + ∑ e ∈ SK m c r, hs (ix2 (srow m c e) k) := by
  unfold aggTerm128
  rw [scatter128_apply]
  refine congrArg (fun y => Gcn.zero + y) ?_
  refine Finset.sum_congr rfl fun e _ => ?_
  rw [gather128_apply]
  rfl

theorem agg40_apply (hs : FA S100000x40) (r : Fin 100000) (k : Fin 40) :
    aggTerm40 hs (aSRC m c) (aDST m c) (ix2 r k) = Gcn.zero + ∑ e ∈ SK m c r, hs (ix2 (srow m c e) k) := by
  unfold aggTerm40
  rw [scatter40_apply]
  refine congrArg (fun y => Gcn.zero + y) ?_
  refine Finset.sum_congr rfl fun e _ => ?_
  rw [gather40_apply]
  rfl

/-! ## The first convolution -/
theorem h0_apply (r : Fin 100000) (k : Fin 128) : h0 m c (ix2 r k) = Gcn.mm (xK m c) (w0K m c) r k := rfl

theorem hs0_apply (r : Fin 100000) (k : Fin 128) : hs0 m c (ix2 r k) = Gcn.mm (xK m c) (w0K m c) r k * dK m c r := by
  show KReg0.prod (aX m c) (aW0 m c) (ix2 r k) * dcol m c (ix2 r 0) = _
  rw [dcol_apply]
  rfl

theorem pre0_apply (r : Fin 100000) (k : Fin 128) :
    pre0 m c (ix2 r k) = Gcn.convOut (dK m c) (srow m c) (SK m c) (Gcn.mm (xK m c) (w0K m c)) (b0K m c) r k := by
  show (agg0 m c (ix2 r k) * dcol m c (ix2 r 0) + h0 m c (ix2 r k) * (dcol m c (ix2 r 0) * dcol m c (ix2 r 0)))
      + rowTerm128 (aB0 m c) (ix2 0 k) = _
  unfold agg0
  rw [agg128_apply, dcol_apply]
  simp only [hs0_apply]
  unfold rowTerm128
  rw [row128_apply]
  rfl

/-! ## The rectified, normalised features -/
theorem act128_apply (PA : FA S100000x128) (G BE : FA S128) (r : Fin 100000) (k : Fin 128) :
    KReg2.actArr PA (rowTerm128 (meanTerm PA)) (rowTerm128 (istdTerm PA)) (rowTerm128 G) (rowTerm128 BE) r k
      = Gcn.act (fun r k => PA (ix2 r k)) (fun j => G (ix1 j)) (fun j => BE (ix1 j)) r k := by
  unfold KReg2.actArr rowTerm128
  rw [row128_apply, row128_apply, row128_apply, row128_apply, meanTerm_apply, istdTerm_apply]
  rfl

theorem act128_apply' (PA : FA S100000x128) (G BE : FA S128) (r : Fin 100000) (k : Fin 128) :
    KReg4.actArr PA (rowTerm128 (meanTerm PA)) (rowTerm128 (istdTerm PA)) (rowTerm128 G) (rowTerm128 BE) r k
      = Gcn.act (fun r k => PA (ix2 r k)) (fun j => G (ix1 j)) (fun j => BE (ix1 j)) r k := by
  unfold KReg4.actArr rowTerm128
  rw [row128_apply, row128_apply, row128_apply, row128_apply, meanTerm_apply, istdTerm_apply]
  rfl

/-- The first combination as a function of coordinates. -/
abbrev p0K : Fin Gcn.NN → Fin 128 → EReal :=
  Gcn.convOut (dK m c) (srow m c) (SK m c) (Gcn.mm (xK m c) (w0K m c)) (b0K m c)

theorem pre0_fun : (fun r k => pre0 m c (ix2 r k)) = p0K m c := funext fun r => funext fun k => pre0_apply m c r k

/-! ## The second convolution -/
theorem h1_apply (r : Fin 100000) (k : Fin 128) :
    h1 m c (ix2 r k) = Gcn.mm (Gcn.act (p0K m c) (g0K m c) (be0K m c)) (w1K m c) r k := by
  show ∑ j : Fin 128, KReg2.actArr (pre0 m c) _ _ _ _ r j * aW1 m c (ix2 j k) = _
  simp only [act128_apply, pre0_fun]
  rfl

theorem hs1_apply (r : Fin 100000) (k : Fin 128) :
    hs1 m c (ix2 r k) = Gcn.mm (Gcn.act (p0K m c) (g0K m c) (be0K m c)) (w1K m c) r k * dK m c r := by
  show h1 m c (ix2 r k) * dcol m c (ix2 r 0) = _
  rw [h1_apply, dcol_apply]

abbrev p1K : Fin Gcn.NN → Fin 128 → EReal :=
  Gcn.convOut (dK m c) (srow m c) (SK m c) (Gcn.mm (Gcn.act (p0K m c) (g0K m c) (be0K m c)) (w1K m c)) (b1K m c)

theorem pre1_apply (r : Fin 100000) (k : Fin 128) : pre1 m c (ix2 r k) = p1K m c r k := by
  show (agg1 m c (ix2 r k) * dcol m c (ix2 r 0) + h1 m c (ix2 r k) * (dcol m c (ix2 r 0) * dcol m c (ix2 r 0)))
      + rowTerm128 (aB1 m c) (ix2 0 k) = _
  unfold agg1
  rw [agg128_apply, dcol_apply, h1_apply]
  simp only [hs1_apply]
  unfold rowTerm128
  rw [row128_apply]
  rfl

theorem pre1_fun : (fun r k => pre1 m c (ix2 r k)) = p1K m c := funext fun r => funext fun k => pre1_apply m c r k

/-! ## The third convolution and the log-softmax -/
theorem h2_apply (r : Fin 100000) (k : Fin 40) :
    h2 m c (ix2 r k) = Gcn.mm (Gcn.act (p1K m c) (g1K m c) (be1K m c)) (w2K m c) r k := by
  show ∑ j : Fin 128, KReg4.actArr (pre1 m c) _ _ _ _ r j * aW2 m c (ix2 j k) = _
  simp only [act128_apply', pre1_fun]
  rfl

theorem hs2_apply (r : Fin 100000) (k : Fin 40) :
    hs2 m c (ix2 r k) = Gcn.mm (Gcn.act (p1K m c) (g1K m c) (be1K m c)) (w2K m c) r k * dK m c r := by
  show h2 m c (ix2 r k) * dcol m c (ix2 r 0) = _
  rw [h2_apply, dcol_apply]

abbrev p2K : Fin Gcn.NN → Fin 40 → EReal :=
  Gcn.convOut (dK m c) (srow m c) (SK m c) (Gcn.mm (Gcn.act (p1K m c) (g1K m c) (be1K m c)) (w2K m c)) (b2K m c)

theorem row2_apply (r : Fin 100000) (k : Fin 40) :
    KReg5.combRow (h2 m c) (agg2 m c) (dcol m c) (rowTerm40 (aB2 m c)) r k = p2K m c r k := by
  unfold KReg5.combRow agg2
  rw [agg40_apply, dcol_apply, h2_apply]
  simp only [hs2_apply]
  unfold rowTerm40
  rw [row40_apply]
  rfl

/-- THE KERNEL PROGRAM'S RESULT at node `r`, class `q`. -/
theorem out_apply (r : Fin 100000) (q : Fin 40) :
    out m c (ix2 r q) = Gcn.netOut (dK m c) (srow m c) (SK m c) (xK m c) (w0K m c) (b0K m c) (w1K m c) (b1K m c) (w2K m c) (b2K m c)
      (g0K m c) (be0K m c) (g1K m c) (be1K m c) r q := by
  show KReg5.combLsmRC (h2 m c) (agg2 m c) (dcol m c) (rowTerm40 (aB2 m c)) r q = _
  unfold KReg5.combLsmRC
  simp only [row2_apply]
  show _ = Gcn.lsm (p2K m c) r q
  unfold Gcn.lsm Gcn.rowMax
  have hz : ∀ y : EReal, Gcn.zero + y = y := fun y => by
    show Ideal.ofBits .f32 0x00000000#32 + y = y
    rw [Ideal.ofBits_zero_f32, zero_add]
  rw [hz]

end Cert.KernelIdeal.KIndex

end
-- ==== Proof.RefRead.lean ====
import proofs.«139699_j335007449371_2_alg».proof.Proof.RefStages

/-!
  The reference program's stages read at an index. `val_<buffer>_apply` reads a stage at an index `i` from its
  operands at an index, for each operation whose result element depends on one element of each operand; a layout
  operation reads its operand at `idx_<buffer> i`, computed from the literal shapes. At the ideal values a
  `dot_general`'s element is the sum over `k` of the left operand at `lidx_<buffer> i k` times the right at
  `ridx_<buffer> i k`, and a float sum's is the initial value plus the sum over `k` of the operand at
  `idx_<buffer> i k`. The gathers, the scatters and the row maximum have no such lemma here: which element they
  read depends on an operand's values, or the element is a fold over an axis.
-/

noncomputable section

namespace Ref

open Cert.ReferenceIdeal Cert.ReferenceIdeal.Gen Idealize.ShloMosaic Idealize.ShloMosaic.TcCoe Idealize.SL.Sem Idealize.ShloMosaic.StableHlo

variable {F : FTy → Type} [FloatOps F]

-- %cst = stablehlo.constant dense<1.000000e+00> : tensor<f32>
theorem val_main_cst_apply (i : S_.Idx) :
    val_main_cst (F := F) i = FloatOps.ofBits .f32 0x3F800000#32 := rfl

-- %0 = stablehlo.broadcast_in_dim %cst, dims = [] : (tensor<f32>) -> tensor<1600000xf32>
abbrev idx_main_v0 (i : S1600000.Idx) : S_.Idx := fun a => a.elim0
theorem val_main_v0_apply (i : S1600000.Idx) :
    val_main_v0 (F := F) i = val_main_cst (F := F) (idx_main_v0 i) := by
  unfold val_main_v0
  generalize val_main_cst (F := F) = y
  exact broadcastInDim_apply _ bcast_S_S1600000 y i (idx_main_v0 i) (fun a => a.elim0)

-- %cst_0 = stablehlo.constant dense<0.000000e+00> : tensor<f32>
theorem val_main_cst_0_apply (i : S_.Idx) :
    val_main_cst_0 (F := F) i = FloatOps.ofBits .f32 0x00000000#32 := rfl

-- %1 = stablehlo.broadcast_in_dim %cst_0, dims = [] : (tensor<f32>) -> tensor<100000xf32>
abbrev idx_main_v1 (i : S100000.Idx) : S_.Idx := fun a => a.elim0
theorem val_main_v1_apply (i : S100000.Idx) :
    val_main_v1 (F := F) i = val_main_cst_0 (F := F) (idx_main_v1 i) := by
  unfold val_main_v1
  generalize val_main_cst_0 (F := F) = y
  exact broadcastInDim_apply _ bcast_S_S100000 y i (idx_main_v1 i) (fun a => a.elim0)

-- %2 = stablehlo.broadcast_in_dim %arg2, dims = [0] : (tensor<1600000xi32>) -> tensor<1600000x1xi32>
abbrev idx_main_v2 (i : S1600000x1.Idx) : S1600000.Idx := fun a => match a with
  | ⟨0, _⟩ => ⟨(i 0).val, (i 0).isLt⟩
theorem val_main_v2_apply (x2 : (⟨S1600000, .i32⟩ : BufTy).Contents (Elt F)) (i : S1600000x1.Idx) :
    val_main_v2 (F := F) x2 i = x2 (idx_main_v2 i) := by
  unfold val_main_v2
  exact broadcastInDim_apply _ bcast_S1600000_S1600000x1_0 x2 i (idx_main_v2 i) (fun a => match a with
    | ⟨0, _⟩ => by show (i 0).val = if (1600000 : Nat) = 1 then 0 else (i 0).val; rw [if_neg (by decide)])

-- %3 = "stablehlo.scatter"(%1, %2, %0) <{indices_are_sorted = false, scatter_dimension_numbers = #stablehlo.scatter<inserted_window_dims = [0], scatter_dims_to_operand_dims = [0], index_vector_dim = 1>, unique_indices = false}> ( {

-- %cst_1 = stablehlo.constant dense<1.000000e+00> : tensor<f32>
theorem val_main_cst_1_apply (i : S_.Idx) :
    val_main_cst_1 (F := F) i = FloatOps.ofBits .f32 0x3F800000#32 := rfl

-- %4 = stablehlo.broadcast_in_dim %cst_1, dims = [] : (tensor<f32>) -> tensor<100000xf32>
abbrev idx_main_v4 (i : S100000.Idx) : S_.Idx := fun a => a.elim0
theorem val_main_v4_apply (i : S100000.Idx) :
    val_main_v4 (F := F) i = val_main_cst_1 (F := F) (idx_main_v4 i) := by
  unfold val_main_v4
  generalize val_main_cst_1 (F := F) = y
  exact broadcastInDim_apply _ bcast_S_S100000 y i (idx_main_v4 i) (fun a => a.elim0)

-- %5 = stablehlo.add %4, %3 : tensor<100000xf32>
theorem val_main_v5_apply (x2 : (⟨S1600000, .i32⟩ : BufTy).Contents (Elt F)) (i : S100000.Idx) :
    val_main_v5 (F := F) x2 i = FloatOps.addf (val_main_v4 (F := F) i) (val_main_v3 (F := F) x2 i) := rfl

-- %6 = stablehlo.rsqrt %5 : tensor<100000xf32>
theorem val_main_v6_apply (x2 : (⟨S1600000, .i32⟩ : BufTy).Contents (Elt F)) (i : S100000.Idx) :
    val_main_v6 (F := F) x2 i = FloatOps.hostUnary .rsqrt (val_main_v5 (F := F) x2 i) := rfl

-- %c = stablehlo.constant dense<0> : tensor<i32>
theorem val_main_c_apply (i : S_.Idx) :
    val_main_c (F := F) i = 0#32 := rfl

-- %7 = stablehlo.broadcast_in_dim %c, dims = [] : (tensor<i32>) -> tensor<1600000xi32>
abbrev idx_main_v7 (i : S1600000.Idx) : S_.Idx := fun a => a.elim0
theorem val_main_v7_apply (i : S1600000.Idx) :
    val_main_v7 (F := F) i = val_main_c (F := F) (idx_main_v7 i) := by
  unfold val_main_v7
  generalize val_main_c (F := F) = y
  exact broadcastInDim_apply _ bcast_S_S1600000 y i (idx_main_v7 i) (fun a => a.elim0)

-- %8 = stablehlo.compare LT, %arg1, %7, SIGNED : (tensor<1600000xi32>, tensor<1600000xi32>) -> tensor<1600000xi1>
theorem val_main_v8_apply (x1 : (⟨S1600000, .i32⟩ : BufTy).Contents (Elt F)) (i : S1600000.Idx) :
    val_main_v8 (F := F) x1 i = IntOp.cmpi .slt (x1 i) (val_main_v7 (F := F) i) := rfl

-- %c_2 = stablehlo.constant dense<100000> : tensor<i32>
theorem val_main_c_2_apply (i : S_.Idx) :
    val_main_c_2 (F := F) i = 100000#32 := rfl

-- %9 = stablehlo.broadcast_in_dim %c_2, dims = [] : (tensor<i32>) -> tensor<1600000xi32>
abbrev idx_main_v9 (i : S1600000.Idx) : S_.Idx := fun a => a.elim0
theorem val_main_v9_apply (i : S1600000.Idx) :
    val_main_v9 (F := F) i = val_main_c_2 (F := F) (idx_main_v9 i) := by
  unfold val_main_v9
  generalize val_main_c_2 (F := F) = y
  exact broadcastInDim_apply _ bcast_S_S1600000 y i (idx_main_v9 i) (fun a => a.elim0)

-- %10 = stablehlo.add %arg1, %9 : tensor<1600000xi32>
theorem val_main_v10_apply (x1 : (⟨S1600000, .i32⟩ : BufTy).Contents (Elt F)) (i : S1600000.Idx) :
    val_main_v10 (F := F) x1 i = IntOp.addi (x1 i) (val_main_v9 (F := F) i) := rfl

-- %11 = stablehlo.select %8, %10, %arg1 : tensor<1600000xi1>, tensor<1600000xi32>
theorem val_main_v11_apply (x1 : (⟨S1600000, .i32⟩ : BufTy).Contents (Elt F)) (i : S1600000.Idx) :
    val_main_v11 (F := F) x1 i = Scalar.select (val_main_v8 (F := F) x1 i) (val_main_v10 (F := F) x1 i) (x1 i) := rfl

-- %12 = stablehlo.broadcast_in_dim %11, dims = [0] : (tensor<1600000xi32>) -> tensor<1600000x1xi32>
abbrev idx_main_v12 (i : S1600000x1.Idx) : S1600000.Idx := fun a => match a with
  | ⟨0, _⟩ => ⟨(i 0).val, (i 0).isLt⟩
theorem val_main_v12_apply (x1 : (⟨S1600000, .i32⟩ : BufTy).Contents (Elt F)) (i : S1600000x1.Idx) :
    val_main_v12 (F := F) x1 i = val_main_v11 (F := F) x1 (idx_main_v12 i) := by
  unfold val_main_v12
  generalize val_main_v11 (F := F) x1 = y
  exact broadcastInDim_apply _ bcast_S1600000_S1600000x1_0 y i (idx_main_v12 i) (fun a => match a with
    | ⟨0, _⟩ => by show (i 0).val = if (1600000 : Nat) = 1 then 0 else (i 0).val; rw [if_neg (by decide)])

-- %13 = "stablehlo.gather"(%6, %12) <{dimension_numbers = #stablehlo.gather<collapsed_slice_dims = [0], start_index_map = [0], index_vector_dim = 1>, indices_are_sorted = false, slice_sizes = array<i64: 1>}> : (tensor<100000xf32>, tensor<1600000x1xi32>) -> tensor<1600000xf32>

-- %c_3 = stablehlo.constant dense<0> : tensor<i32>
theorem val_main_c_3_apply (i : S_.Idx) :
    val_main_c_3 (F := F) i = 0#32 := rfl

-- %14 = stablehlo.broadcast_in_dim %c_3, dims = [] : (tensor<i32>) -> tensor<1600000xi32>
abbrev idx_main_v14 (i : S1600000.Idx) : S_.Idx := fun a => a.elim0
theorem val_main_v14_apply (i : S1600000.Idx) :
    val_main_v14 (F := F) i = val_main_c_3 (F := F) (idx_main_v14 i) := by
  unfold val_main_v14
  generalize val_main_c_3 (F := F) = y
  exact broadcastInDim_apply _ bcast_S_S1600000 y i (idx_main_v14 i) (fun a => a.elim0)

-- %15 = stablehlo.compare LT, %arg2, %14, SIGNED : (tensor<1600000xi32>, tensor<1600000xi32>) -> tensor<1600000xi1>
theorem val_main_v15_apply (x2 : (⟨S1600000, .i32⟩ : BufTy).Contents (Elt F)) (i : S1600000.Idx) :
    val_main_v15 (F := F) x2 i = IntOp.cmpi .slt (x2 i) (val_main_v14 (F := F) i) := rfl

-- %c_4 = stablehlo.constant dense<100000> : tensor<i32>
theorem val_main_c_4_apply (i : S_.Idx) :
    val_main_c_4 (F := F) i = 100000#32 := rfl

-- %16 = stablehlo.broadcast_in_dim %c_4, dims = [] : (tensor<i32>) -> tensor<1600000xi32>
abbrev idx_main_v16 (i : S1600000.Idx) : S_.Idx := fun a => a.elim0
theorem val_main_v16_apply (i : S1600000.Idx) :
    val_main_v16 (F := F) i = val_main_c_4 (F := F) (idx_main_v16 i) := by
  unfold val_main_v16
  generalize val_main_c_4 (F := F) = y
  exact broadcastInDim_apply _ bcast_S_S1600000 y i (idx_main_v16 i) (fun a => a.elim0)

-- %17 = stablehlo.add %arg2, %16 : tensor<1600000xi32>
theorem val_main_v17_apply (x2 : (⟨S1600000, .i32⟩ : BufTy).Contents (Elt F)) (i : S1600000.Idx) :
    val_main_v17 (F := F) x2 i = IntOp.addi (x2 i) (val_main_v16 (F := F) i) := rfl

-- %18 = stablehlo.select %15, %17, %arg2 : tensor<1600000xi1>, tensor<1600000xi32>
theorem val_main_v18_apply (x2 : (⟨S1600000, .i32⟩ : BufTy).Contents (Elt F)) (i : S1600000.Idx) :
    val_main_v18 (F := F) x2 i = Scalar.select (val_main_v15 (F := F) x2 i) (val_main_v17 (F := F) x2 i) (x2 i) := rfl

-- %19 = stablehlo.broadcast_in_dim %18, dims = [0] : (tensor<1600000xi32>) -> tensor<1600000x1xi32>
abbrev idx_main_v19 (i : S1600000x1.Idx) : S1600000.Idx := fun a => match a with
  | ⟨0, _⟩ => ⟨(i 0).val, (i 0).isLt⟩
theorem val_main_v19_apply (x2 : (⟨S1600000, .i32⟩ : BufTy).Contents (Elt F)) (i : S1600000x1.Idx) :
    val_main_v19 (F := F) x2 i = val_main_v18 (F := F) x2 (idx_main_v19 i) := by
  unfold val_main_v19
  generalize val_main_v18 (F := F) x2 = y
  exact broadcastInDim_apply _ bcast_S1600000_S1600000x1_0 y i (idx_main_v19 i) (fun a => match a with
    | ⟨0, _⟩ => by show (i 0).val = if (1600000 : Nat) = 1 then 0 else (i 0).val; rw [if_neg (by decide)])

-- %20 = "stablehlo.gather"(%6, %19) <{dimension_numbers = #stablehlo.gather<collapsed_slice_dims = [0], start_index_map = [0], index_vector_dim = 1>, indices_are_sorted = false, slice_sizes = array<i64: 1>}> : (tensor<100000xf32>, tensor<1600000x1xi32>) -> tensor<1600000xf32>

-- %21 = stablehlo.multiply %13, %20 : tensor<1600000xf32>
theorem val_main_v21_apply (x1 x2 : (⟨S1600000, .i32⟩ : BufTy).Contents (Elt F)) (i : S1600000.Idx) :
    val_main_v21 (F := F) x1 x2 i = FloatOps.mulf (val_main_v13 (F := F) x1 x2 i) (val_main_v20 (F := F) x2 i) := rfl

-- %22 = stablehlo.multiply %6, %6 : tensor<100000xf32>
theorem val_main_v22_apply (x2 : (⟨S1600000, .i32⟩ : BufTy).Contents (Elt F)) (i : S100000.Idx) :
    val_main_v22 (F := F) x2 i = FloatOps.mulf (val_main_v6 (F := F) x2 i) (val_main_v6 (F := F) x2 i) := rfl

-- %23 = stablehlo.dot_general %arg0, %arg3, contracting_dims = [1] x [0], precision = [DEFAULT, DEFAULT] : (tensor<100000x128xf32>, tensor<128x128xf32>) -> tensor<100000x128xf32>
theorem lhs_main_v23_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v23_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v23_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v23_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v23 (i : S100000x128.Idx) (k : Fin 128) : S100000x128.Idx := fun a => match a with
  | ⟨0, _⟩ => ⟨(i 0).val, (i 0).isLt⟩
  | ⟨1, _⟩ => ⟨k.val, k.isLt⟩
abbrev ridx_main_v23 (i : S100000x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v23_apply (x0 : (⟨S100000x128, .f32⟩ : BufTy).Contents (Elt Ideal)) (x3 : (⟨S128x128, .f32⟩ : BufTy).Contents (Elt Ideal)) (i : S100000x128.Idx) :
    val_main_v23 (F := Ideal) x0 x3 i = ∑ k : Fin 128, x0 (lidx_main_v23 i k) * x3 (ridx_main_v23 i k) := by
  unfold val_main_v23
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v23 i k := funext fun a => Fin.ext (by
    match a with
    | ⟨0, _⟩ => exact lhs_main_v23_0 _ _
    | ⟨1, _⟩ => exact (lhs_main_v23_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v23 i k := funext fun a => Fin.ext (by
    match a with
    | ⟨0, _⟩ => exact (rhs_main_v23_0 _ _).trans hk
    | ⟨1, _⟩ => exact rhs_main_v23_1 _ _)
  rw [el, er]

-- %c_5 = stablehlo.constant dense<0> : tensor<i32>
theorem val_main_c_5_apply (i : S_.Idx) :
    val_main_c_5 (F := F) i = 0#32 := rfl

-- %24 = stablehlo.broadcast_in_dim %c_5, dims = [] : (tensor<i32>) -> tensor<1600000xi32>
abbrev idx_main_v24 (i : S1600000.Idx) : S_.Idx := fun a => a.elim0
theorem val_main_v24_apply (i : S1600000.Idx) :
    val_main_v24 (F := F) i = val_main_c_5 (F := F) (idx_main_v24 i) := by
  unfold val_main_v24
  generalize val_main_c_5 (F := F) = y
  exact broadcastInDim_apply _ bcast_S_S1600000 y i (idx_main_v24 i) (fun a => a.elim0)

-- %25 = stablehlo.compare LT, %arg1, %24, SIGNED : (tensor<1600000xi32>, tensor<1600000xi32>) -> tensor<1600000xi1>
theorem val_main_v25_apply (x1 : (⟨S1600000, .i32⟩ : BufTy).Contents (Elt F)) (i : S1600000.Idx) :
    val_main_v25 (F := F) x1 i = IntOp.cmpi .slt (x1 i) (val_main_v24 (F := F) i) := rfl

-- %c_6 = stablehlo.constant dense<100000> : tensor<i32>
theorem val_main_c_6_apply (i : S_.Idx) :
    val_main_c_6 (F := F) i = 100000#32 := rfl

-- %26 = stablehlo.broadcast_in_dim %c_6, dims = [] : (tensor<i32>) -> tensor<1600000xi32>
abbrev idx_main_v26 (i : S1600000.Idx) : S_.Idx := fun a => a.elim0
theorem val_main_v26_apply (i : S1600000.Idx) :
    val_main_v26 (F := F) i = val_main_c_6 (F := F) (idx_main_v26 i) := by
  unfold val_main_v26
  generalize val_main_c_6 (F := F) = y
  exact broadcastInDim_apply _ bcast_S_S1600000 y i (idx_main_v26 i) (fun a => a.elim0)

-- %27 = stablehlo.add %arg1, %26 : tensor<1600000xi32>
theorem val_main_v27_apply (x1 : (⟨S1600000, .i32⟩ : BufTy).Contents (Elt F)) (i : S1600000.Idx) :
    val_main_v27 (F := F) x1 i = IntOp.addi (x1 i) (val_main_v26 (F := F) i) := rfl

-- %28 = stablehlo.select %25, %27, %arg1 : tensor<1600000xi1>, tensor<1600000xi32>
theorem val_main_v28_apply (x1 : (⟨S1600000, .i32⟩ : BufTy).Contents (Elt F)) (i : S1600000.Idx) :
    val_main_v28 (F := F) x1 i = Scalar.select (val_main_v25 (F := F) x1 i) (val_main_v27 (F := F) x1 i) (x1 i) := rfl

-- %29 = stablehlo.broadcast_in_dim %28, dims = [0] : (tensor<1600000xi32>) -> tensor<1600000x1xi32>
abbrev idx_main_v29 (i : S1600000x1.Idx) : S1600000.Idx := fun a => match a with
  | ⟨0, _⟩ => ⟨(i 0).val, (i 0).isLt⟩
theorem val_main_v29_apply (x1 : (⟨S1600000, .i32⟩ : BufTy).Contents (Elt F)) (i : S1600000x1.Idx) :
    val_main_v29 (F := F) x1 i = val_main_v28 (F := F) x1 (idx_main_v29 i) := by
  unfold val_main_v29
  generalize val_main_v28 (F := F) x1 = y
  exact broadcastInDim_apply _ bcast_S1600000_S1600000x1_0 y i (idx_main_v29 i) (fun a => match a with
    | ⟨0, _⟩ => by show (i 0).val = if (1600000 : Nat) = 1 then 0 else (i 0).val; rw [if_neg (by decide)])

-- %30 = "stablehlo.gather"(%23, %29) <{dimension_numbers = #stablehlo.gather<offset_dims = [1], collapsed_slice_dims = [0], start_index_map = [0], index_vector_dim = 1>, indices_are_sorted = false, slice_sizes = array<i64: 1, 128>}> : (tensor<100000x128xf32>, tensor<1600000x1xi32>) -> tensor<1600000x128xf32>

-- %31 = stablehlo.broadcast_in_dim %21, dims = [0] : (tensor<1600000xf32>) -> tensor<1600000x1xf32>
abbrev idx_main_v31 (i : S1600000x1.Idx) : S1600000.Idx := fun a => match a with
  | ⟨0, _⟩ => ⟨(i 0).val, (i 0).isLt⟩
theorem val_main_v31_apply (x1 x2 : (⟨S1600000, .i32⟩ : BufTy).Contents (Elt F)) (i : S1600000x1.Idx) :
    val_main_v31 (F := F) x1 x2 i = val_main_v21 (F := F) x1 x2 (idx_main_v31 i) := by
  unfold val_main_v31
  generalize val_main_v21 (F := F) x1 x2 = y
  exact broadcastInDim_apply _ bcast_S1600000_S1600000x1_0 y i (idx_main_v31 i) (fun a => match a with
    | ⟨0, _⟩ => by show (i 0).val = if (1600000 : Nat) = 1 then 0 else (i 0).val; rw [if_neg (by decide)])

-- %32 = stablehlo.broadcast_in_dim %31, dims = [0, 1] : (tensor<1600000x1xf32>) -> tensor<1600000x128xf32>
abbrev idx_main_v32 (i : S1600000x128.Idx) : S1600000x1.Idx := fun a => match a with
  | ⟨0, _⟩ => ⟨(i 0).val, (i 0).isLt⟩
  | ⟨1, _⟩ => ⟨0, Nat.one_pos⟩
theorem val_main_v32_apply (x1 x2 : (⟨S1600000, .i32⟩ : BufTy).Contents (Elt F)) (i : S1600000x128.Idx) :
    val_main_v32 (F := F) x1 x2 i = val_main_v31 (F := F) x1 x2 (idx_main_v32 i) := by
  unfold val_main_v32
  generalize val_main_v31 (F := F) x1 x2 = y
  exact broadcastInDim_apply _ bcast_S1600000x1_S1600000x128_0_1 y i (idx_main_v32 i) (fun a => match a with
    | ⟨0, _⟩ => by show (i 0).val = if (1600000 : Nat) = 1 then 0 else (i 0).val; rw [if_neg (by decide)]
    | ⟨1, _⟩ => by show 0 = if (1 : Nat) = 1 then 0 else (i 1).val; rw [if_pos rfl])

-- %33 = stablehlo.multiply %30, %32 : tensor<1600000x128xf32>
theorem val_main_v33_apply (x0 : (⟨S100000x128, .f32⟩ : BufTy).Contents (Elt F)) (x1 x2 : (⟨S1600000, .i32⟩ : BufTy).Contents (Elt F)) (x3 : (⟨S128x128, .f32⟩ : BufTy).Contents (Elt F)) (i : S1600000x128.Idx) :
    val_main_v33 (F := F) x0 x1 x2 x3 i = FloatOps.mulf (val_main_v30 (F := F) x0 x1 x3 i) (val_main_v32 (F := F) x1 x2 i) := rfl

-- %cst_7 = stablehlo.constant dense<0.000000e+00> : tensor<f32>
theorem val_main_cst_7_apply (i : S_.Idx) :
    val_main_cst_7 (F := F) i = FloatOps.ofBits .f32 0x00000000#32 := rfl

-- %34 = stablehlo.broadcast_in_dim %cst_7, dims = [] : (tensor<f32>) -> tensor<100000x128xf32>
abbrev idx_main_v34 (i : S100000x128.Idx) : S_.Idx := fun a => a.elim0
theorem val_main_v34_apply (i : S100000x128.Idx) :
    val_main_v34 (F := F) i = val_main_cst_7 (F := F) (idx_main_v34 i) := by
  unfold val_main_v34
  generalize val_main_cst_7 (F := F) = y
  exact broadcastInDim_apply _ bcast_S_S100000x128 y i (idx_main_v34 i) (fun a => a.elim0)

-- %35 = stablehlo.broadcast_in_dim %arg2, dims = [0] : (tensor<1600000xi32>) -> tensor<1600000x1xi32>
abbrev idx_main_v35 (i : S1600000x1.Idx) : S1600000.Idx := fun a => match a with
  | ⟨0, _⟩ => ⟨(i 0).val, (i 0).isLt⟩
theorem val_main_v35_apply (x2 : (⟨S1600000, .i32⟩ : BufTy).Contents (Elt F)) (i : S1600000x1.Idx) :
    val_main_v35 (F := F) x2 i = x2 (idx_main_v35 i) := by
  unfold val_main_v35
  exact broadcastInDim_apply _ bcast_S1600000_S1600000x1_0 x2 i (idx_main_v35 i) (fun a => match a with
    | ⟨0, _⟩ => by show (i 0).val = if (1600000 : Nat) = 1 then 0 else (i 0).val; rw [if_neg (by decide)])

-- %36 = "stablehlo.scatter"(%34, %35, %33) <{indices_are_sorted = false, scatter_dimension_numbers = #stablehlo.scatter<update_window_dims = [1], inserted_window_dims = [0], scatter_dims_to_operand_dims = [0], index_vector_dim = 1>, unique_indices = false}> ( {

-- %37 = stablehlo.broadcast_in_dim %22, dims = [0] : (tensor<100000xf32>) -> tensor<100000x1xf32>
abbrev idx_main_v37 (i : S100000x1.Idx) : S100000.Idx := fun a => match a with
  | ⟨0, _⟩ => ⟨(i 0).val, (i 0).isLt⟩
theorem val_main_v37_apply (x2 : (⟨S1600000, .i32⟩ : BufTy).Contents (Elt F)) (i : S100000x1.Idx) :
    val_main_v37 (F := F) x2 i = val_main_v22 (F := F) x2 (idx_main_v37 i) := by
  unfold val_main_v37
  generalize val_main_v22 (F := F) x2 = y
  exact broadcastInDim_apply _ bcast_S100000_S100000x1_0 y i (idx_main_v37 i) (fun a => match a with
    | ⟨0, _⟩ => by show (i 0).val = if (100000 : Nat) = 1 then 0 else (i 0).val; rw [if_neg (by decide)])

-- %38 = stablehlo.broadcast_in_dim %37, dims = [0, 1] : (tensor<100000x1xf32>) -> tensor<100000x128xf32>
abbrev idx_main_v38 (i : S100000x128.Idx) : S100000x1.Idx := fun a => match a with
  | ⟨0, _⟩ => ⟨(i 0).val, (i 0).isLt⟩
  | ⟨1, _⟩ => ⟨0, Nat.one_pos⟩
theorem val_main_v38_apply (x2 : (⟨S1600000, .i32⟩ : BufTy).Contents (Elt F)) (i : S100000x128.Idx) :
    val_main_v38 (F := F) x2 i = val_main_v37 (F := F) x2 (idx_main_v38 i) := by
  unfold val_main_v38
  generalize val_main_v37 (F := F) x2 = y
  exact broadcastInDim_apply _ bcast_S100000x1_S100000x128_0_1 y i (idx_main_v38 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

-- %39 = stablehlo.multiply %23, %38 : tensor<100000x128xf32>
theorem val_main_v39_apply (x0 : (⟨S100000x128, .f32⟩ : BufTy).Contents (Elt F)) (x2 : (⟨S1600000, .i32⟩ : BufTy).Contents (Elt F)) (x3 : (⟨S128x128, .f32⟩ : BufTy).Contents (Elt F)) (i : S100000x128.Idx) :
    val_main_v39 (F := F) x0 x2 x3 i = FloatOps.mulf (val_main_v23 (F := F) x0 x3 i) (val_main_v38 (F := F) x2 i) := rfl

-- %40 = stablehlo.add %36, %39 : tensor<100000x128xf32>
theorem val_main_v40_apply (x0 : (⟨S100000x128, .f32⟩ : BufTy).Contents (Elt F)) (x1 x2 : (⟨S1600000, .i32⟩ : BufTy).Contents (Elt F)) (x3 : (⟨S128x128, .f32⟩ : BufTy).Contents (Elt F)) (i : S100000x128.Idx) :
    val_main_v40 (F := F) x0 x1 x2 x3 i = FloatOps.addf (val_main_v36 (F := F) x0 x1 x2 x3 i) (val_main_v39 (F := F) x0 x2 x3 i) := rfl

-- %41 = stablehlo.broadcast_in_dim %arg4, dims = [1] : (tensor<128xf32>) -> tensor<1x128xf32>
abbrev idx_main_v41 (i : S1x128.Idx) : S128.Idx := fun a => match a with
  | ⟨0, _⟩ => ⟨(i 1).val, (i 1).isLt⟩
theorem val_main_v41_apply (x4 : (⟨S128, .f32⟩ : BufTy).Contents (Elt F)) (i : S1x128.Idx) :
    val_main_v41 (F := F) x4 i = x4 (idx_main_v41 i) := by
  unfold val_main_v41
  exact broadcastInDim_apply _ bcast_S128_S1x128_1 x4 i (idx_main_v41 i) (fun a => match a with
    | ⟨0, _⟩ => by show (i 1).val = if (128 : Nat) = 1 then 0 else (i 1).val; rw [if_neg (by decide)])

-- %42 = stablehlo.broadcast_in_dim %41, dims = [0, 1] : (tensor<1x128xf32>) -> tensor<100000x128xf32>
abbrev idx_main_v42 (i : S100000x128.Idx) : S1x128.Idx := fun a => match a with
  | ⟨0, _⟩ => ⟨0, Nat.one_pos⟩
  | ⟨1, _⟩ => ⟨(i 1).val, (i 1).isLt⟩
theorem val_main_v42_apply (x4 : (⟨S128, .f32⟩ : BufTy).Contents (Elt F)) (i : S100000x128.Idx) :
    val_main_v42 (F := F) x4 i = val_main_v41 (F := F) x4 (idx_main_v42 i) := by
  unfold val_main_v42
  generalize val_main_v41 (F := F) x4 = y
  exact broadcastInDim_apply _ bcast_S1x128_S100000x128_0_1 y i (idx_main_v42 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %43 = stablehlo.add %40, %42 : tensor<100000x128xf32>
theorem val_main_v43_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S100000x128.Idx) :
    val_main_v43 (F := F) x0 x1 x2 x3 x4 i = FloatOps.addf (val_main_v40 (F := F) x0 x1 x2 x3 i) (val_main_v42 (F := F) x4 i) := rfl

-- %cst_8 = stablehlo.constant dense<0.000000e+00> : tensor<f32>
theorem val_main_cst_8_apply (i : S_.Idx) :
    val_main_cst_8 (F := F) i = FloatOps.ofBits .f32 0x00000000#32 := rfl

-- %44 = stablehlo.reduce(%43 init: %cst_8) applies stablehlo.add across dimensions = [0] : (tensor<100000x128xf32>, tensor<f32>) -> tensor<128xf32> {
abbrev idx_main_v44 (i : S128.Idx) (k : Fin 100000) : S100000x128.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_v44_apply (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (i : S128.Idx) :
    val_main_v44 (F := Ideal) x0 x1 x2 x3 x4 i = (val_main_cst_8 (F := Ideal)) (Shape.Idx.first h_S_) + ∑ k : Fin 100000, (val_main_v43 (F := Ideal) x0 x1 x2 x3 x4) (idx_main_v44 i k) := by
  unfold val_main_v44
  generalize val_main_v43 (F := Ideal) x0 x1 x2 x3 x4 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

-- %cst_9 = stablehlo.constant dense<1.000000e+05> : tensor<f32>
theorem val_main_cst_9_apply (i : S_.Idx) :
    val_main_cst_9 (F := F) i = FloatOps.ofBits .f32 0x47C35000#32 := rfl

-- %45 = stablehlo.broadcast_in_dim %cst_9, dims = [] : (tensor<f32>) -> tensor<128xf32>
abbrev idx_main_v45 (i : S128.Idx) : S_.Idx := fun a => a.elim0
theorem val_main_v45_apply (i : S128.Idx) :
    val_main_v45 (F := F) i = val_main_cst_9 (F := F) (idx_main_v45 i) := by
  unfold val_main_v45
  generalize val_main_cst_9 (F := F) = y
  exact broadcastInDim_apply _ bcast_S_S128 y i (idx_main_v45 i) (fun a => a.elim0)

-- %46 = stablehlo.divide %44, %45 : tensor<128xf32>
theorem val_main_v46_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S128.Idx) :
    val_main_v46 (F := F) x0 x1 x2 x3 x4 i = FloatOps.hostDivf (val_main_v44 (F := F) x0 x1 x2 x3 x4 i) (val_main_v45 (F := F) i) := rfl

-- %47 = stablehlo.broadcast_in_dim %46, dims = [1] : (tensor<128xf32>) -> tensor<1x128xf32>
abbrev idx_main_v47 (i : S1x128.Idx) : S128.Idx := fun a => match a with
  | ⟨0, _⟩ => ⟨(i 1).val, (i 1).isLt⟩
theorem val_main_v47_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S1x128.Idx) :
    val_main_v47 (F := F) x0 x1 x2 x3 x4 i = val_main_v46 (F := F) x0 x1 x2 x3 x4 (idx_main_v47 i) := by
  unfold val_main_v47
  generalize val_main_v46 (F := F) x0 x1 x2 x3 x4 = y
  exact broadcastInDim_apply _ bcast_S128_S1x128_1 y i (idx_main_v47 i) (fun a => match a with
    | ⟨0, _⟩ => by show (i 1).val = if (128 : Nat) = 1 then 0 else (i 1).val; rw [if_neg (by decide)])

-- %48 = stablehlo.broadcast_in_dim %47, dims = [0, 1] : (tensor<1x128xf32>) -> tensor<100000x128xf32>
abbrev idx_main_v48 (i : S100000x128.Idx) : S1x128.Idx := fun a => match a with
  | ⟨0, _⟩ => ⟨0, Nat.one_pos⟩
  | ⟨1, _⟩ => ⟨(i 1).val, (i 1).isLt⟩
theorem val_main_v48_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S100000x128.Idx) :
    val_main_v48 (F := F) x0 x1 x2 x3 x4 i = val_main_v47 (F := F) x0 x1 x2 x3 x4 (idx_main_v48 i) := by
  unfold val_main_v48
  generalize val_main_v47 (F := F) x0 x1 x2 x3 x4 = y
  exact broadcastInDim_apply _ bcast_S1x128_S100000x128_0_1 y i (idx_main_v48 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %49 = stablehlo.subtract %43, %48 : tensor<100000x128xf32>
theorem val_main_v49_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S100000x128.Idx) :
    val_main_v49 (F := F) x0 x1 x2 x3 x4 i = FloatOps.subf (val_main_v43 (F := F) x0 x1 x2 x3 x4 i) (val_main_v48 (F := F) x0 x1 x2 x3 x4 i) := rfl

-- %50 = chlo.square %49 : tensor<100000x128xf32> -> tensor<100000x128xf32>
theorem val_main_v50_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S100000x128.Idx) :
    val_main_v50 (F := F) x0 x1 x2 x3 x4 i = FloatOps.mulf (val_main_v49 (F := F) x0 x1 x2 x3 x4 i) (val_main_v49 (F := F) x0 x1 x2 x3 x4 i) := rfl

-- %cst_10 = stablehlo.constant dense<0.000000e+00> : tensor<f32>
theorem val_main_cst_10_apply (i : S_.Idx) :
    val_main_cst_10 (F := F) i = FloatOps.ofBits .f32 0x00000000#32 := rfl

-- %51 = stablehlo.reduce(%50 init: %cst_10) applies stablehlo.add across dimensions = [0] : (tensor<100000x128xf32>, tensor<f32>) -> tensor<128xf32> {
abbrev idx_main_v51 (i : S128.Idx) (k : Fin 100000) : S100000x128.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_v51_apply (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (i : S128.Idx) :
    val_main_v51 (F := Ideal) x0 x1 x2 x3 x4 i = (val_main_cst_10 (F := Ideal)) (Shape.Idx.first h_S_) + ∑ k : Fin 100000, (val_main_v50 (F := Ideal) x0 x1 x2 x3 x4) (idx_main_v51 i k) := by
  unfold val_main_v51
  generalize val_main_v50 (F := Ideal) x0 x1 x2 x3 x4 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

-- %cst_11 = stablehlo.constant dense<1.000000e+05> : tensor<f32>
theorem val_main_cst_11_apply (i : S_.Idx) :
    val_main_cst_11 (F := F) i = FloatOps.ofBits .f32 0x47C35000#32 := rfl

-- %52 = stablehlo.broadcast_in_dim %cst_11, dims = [] : (tensor<f32>) -> tensor<128xf32>
abbrev idx_main_v52 (i : S128.Idx) : S_.Idx := fun a => a.elim0
theorem val_main_v52_apply (i : S128.Idx) :
    val_main_v52 (F := F) i = val_main_cst_11 (F := F) (idx_main_v52 i) := by
  unfold val_main_v52
  generalize val_main_cst_11 (F := F) = y
  exact broadcastInDim_apply _ bcast_S_S128 y i (idx_main_v52 i) (fun a => a.elim0)

-- %53 = stablehlo.divide %51, %52 : tensor<128xf32>
theorem val_main_v53_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S128.Idx) :
    val_main_v53 (F := F) x0 x1 x2 x3 x4 i = FloatOps.hostDivf (val_main_v51 (F := F) x0 x1 x2 x3 x4 i) (val_main_v52 (F := F) i) := rfl

-- %54 = stablehlo.broadcast_in_dim %46, dims = [1] : (tensor<128xf32>) -> tensor<1x128xf32>
abbrev idx_main_v54 (i : S1x128.Idx) : S128.Idx := fun a => match a with
  | ⟨0, _⟩ => ⟨(i 1).val, (i 1).isLt⟩
theorem val_main_v54_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S1x128.Idx) :
    val_main_v54 (F := F) x0 x1 x2 x3 x4 i = val_main_v46 (F := F) x0 x1 x2 x3 x4 (idx_main_v54 i) := by
  unfold val_main_v54
  generalize val_main_v46 (F := F) x0 x1 x2 x3 x4 = y
  exact broadcastInDim_apply _ bcast_S128_S1x128_1 y i (idx_main_v54 i) (fun a => match a with
    | ⟨0, _⟩ => by show (i 1).val = if (128 : Nat) = 1 then 0 else (i 1).val; rw [if_neg (by decide)])

-- %55 = stablehlo.broadcast_in_dim %54, dims = [0, 1] : (tensor<1x128xf32>) -> tensor<100000x128xf32>
abbrev idx_main_v55 (i : S100000x128.Idx) : S1x128.Idx := fun a => match a with
  | ⟨0, _⟩ => ⟨0, Nat.one_pos⟩
  | ⟨1, _⟩ => ⟨(i 1).val, (i 1).isLt⟩
theorem val_main_v55_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S100000x128.Idx) :
    val_main_v55 (F := F) x0 x1 x2 x3 x4 i = val_main_v54 (F := F) x0 x1 x2 x3 x4 (idx_main_v55 i) := by
  unfold val_main_v55
  generalize val_main_v54 (F := F) x0 x1 x2 x3 x4 = y
  exact broadcastInDim_apply _ bcast_S1x128_S100000x128_0_1 y i (idx_main_v55 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %56 = stablehlo.subtract %43, %55 : tensor<100000x128xf32>
theorem val_main_v56_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S100000x128.Idx) :
    val_main_v56 (F := F) x0 x1 x2 x3 x4 i = FloatOps.subf (val_main_v43 (F := F) x0 x1 x2 x3 x4 i) (val_main_v55 (F := F) x0 x1 x2 x3 x4 i) := rfl

-- %cst_12 = stablehlo.constant dense<9.99999974E-6> : tensor<f32>
theorem val_main_cst_12_apply (i : S_.Idx) :
    val_main_cst_12 (F := F) i = FloatOps.ofBits .f32 0x3727C5AC#32 := rfl

-- %57 = stablehlo.broadcast_in_dim %cst_12, dims = [] : (tensor<f32>) -> tensor<128xf32>
abbrev idx_main_v57 (i : S128.Idx) : S_.Idx := fun a => a.elim0
theorem val_main_v57_apply (i : S128.Idx) :
    val_main_v57 (F := F) i = val_main_cst_12 (F := F) (idx_main_v57 i) := by
  unfold val_main_v57
  generalize val_main_cst_12 (F := F) = y
  exact broadcastInDim_apply _ bcast_S_S128 y i (idx_main_v57 i) (fun a => a.elim0)

-- %58 = stablehlo.add %53, %57 : tensor<128xf32>
theorem val_main_v58_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S128.Idx) :
    val_main_v58 (F := F) x0 x1 x2 x3 x4 i = FloatOps.addf (val_main_v53 (F := F) x0 x1 x2 x3 x4 i) (val_main_v57 (F := F) i) := rfl

-- %59 = stablehlo.rsqrt %58 : tensor<128xf32>
theorem val_main_v59_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S128.Idx) :
    val_main_v59 (F := F) x0 x1 x2 x3 x4 i = FloatOps.hostUnary .rsqrt (val_main_v58 (F := F) x0 x1 x2 x3 x4 i) := rfl

-- %60 = stablehlo.broadcast_in_dim %59, dims = [1] : (tensor<128xf32>) -> tensor<1x128xf32>
abbrev idx_main_v60 (i : S1x128.Idx) : S128.Idx := fun a => match a with
  | ⟨0, _⟩ => ⟨(i 1).val, (i 1).isLt⟩
theorem val_main_v60_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S1x128.Idx) :
    val_main_v60 (F := F) x0 x1 x2 x3 x4 i = val_main_v59 (F := F) x0 x1 x2 x3 x4 (idx_main_v60 i) := by
  unfold val_main_v60
  generalize val_main_v59 (F := F) x0 x1 x2 x3 x4 = y
  exact broadcastInDim_apply _ bcast_S128_S1x128_1 y i (idx_main_v60 i) (fun a => match a with
    | ⟨0, _⟩ => by show (i 1).val = if (128 : Nat) = 1 then 0 else (i 1).val; rw [if_neg (by decide)])

-- %61 = stablehlo.broadcast_in_dim %60, dims = [0, 1] : (tensor<1x128xf32>) -> tensor<100000x128xf32>
abbrev idx_main_v61 (i : S100000x128.Idx) : S1x128.Idx := fun a => match a with
  | ⟨0, _⟩ => ⟨0, Nat.one_pos⟩
  | ⟨1, _⟩ => ⟨(i 1).val, (i 1).isLt⟩
theorem val_main_v61_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S100000x128.Idx) :
    val_main_v61 (F := F) x0 x1 x2 x3 x4 i = val_main_v60 (F := F) x0 x1 x2 x3 x4 (idx_main_v61 i) := by
  unfold val_main_v61
  generalize val_main_v60 (F := F) x0 x1 x2 x3 x4 = y
  exact broadcastInDim_apply _ bcast_S1x128_S100000x128_0_1 y i (idx_main_v61 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %62 = stablehlo.multiply %56, %61 : tensor<100000x128xf32>
theorem val_main_v62_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (i : S100000x128.Idx) :
    val_main_v62 (F := F) x0 x1 x2 x3 x4 i = FloatOps.mulf (val_main_v56 (F := F) x0 x1 x2 x3 x4 i) (val_main_v61 (F := F) x0 x1 x2 x3 x4 i) := rfl

-- %63 = stablehlo.broadcast_in_dim %arg9, dims = [1] : (tensor<128xf32>) -> tensor<1x128xf32>
abbrev idx_main_v63 (i : S1x128.Idx) : S128.Idx := fun a => match a with
  | ⟨0, _⟩ => ⟨(i 1).val, (i 1).isLt⟩
theorem val_main_v63_apply (x9 : (⟨S128, .f32⟩ : BufTy).Contents (Elt F)) (i : S1x128.Idx) :
    val_main_v63 (F := F) x9 i = x9 (idx_main_v63 i) := by
  unfold val_main_v63
  exact broadcastInDim_apply _ bcast_S128_S1x128_1 x9 i (idx_main_v63 i) (fun a => match a with
    | ⟨0, _⟩ => by show (i 1).val = if (128 : Nat) = 1 then 0 else (i 1).val; rw [if_neg (by decide)])

-- %64 = stablehlo.broadcast_in_dim %63, dims = [0, 1] : (tensor<1x128xf32>) -> tensor<100000x128xf32>
abbrev idx_main_v64 (i : S100000x128.Idx) : S1x128.Idx := fun a => match a with
  | ⟨0, _⟩ => ⟨0, Nat.one_pos⟩
  | ⟨1, _⟩ => ⟨(i 1).val, (i 1).isLt⟩
theorem val_main_v64_apply (x9 : (⟨S128, .f32⟩ : BufTy).Contents (Elt F)) (i : S100000x128.Idx) :
    val_main_v64 (F := F) x9 i = val_main_v63 (F := F) x9 (idx_main_v64 i) := by
  unfold val_main_v64
  generalize val_main_v63 (F := F) x9 = y
  exact broadcastInDim_apply _ bcast_S1x128_S100000x128_0_1 y i (idx_main_v64 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %65 = stablehlo.multiply %62, %64 : tensor<100000x128xf32>
theorem val_main_v65_apply (x0 : (⟨S100000x128, .f32⟩ : BufTy).Contents (Elt F)) (x1 x2 : (⟨S1600000, .i32⟩ : BufTy).Contents (Elt F)) (x3 : (⟨S128x128, .f32⟩ : BufTy).Contents (Elt F)) (x4 x9 : (⟨S128, .f32⟩ : BufTy).Contents (Elt F)) (i : S100000x128.Idx) :
    val_main_v65 (F := F) x0 x1 x2 x3 x4 x9 i = FloatOps.mulf (val_main_v62 (F := F) x0 x1 x2 x3 x4 i) (val_main_v64 (F := F) x9 i) := rfl

-- %66 = stablehlo.broadcast_in_dim %arg10, dims = [1] : (tensor<128xf32>) -> tensor<1x128xf32>
abbrev idx_main_v66 (i : S1x128.Idx) : S128.Idx := fun a => match a with
  | ⟨0, _⟩ => ⟨(i 1).val, (i 1).isLt⟩
theorem val_main_v66_apply (x10 : (⟨S128, .f32⟩ : BufTy).Contents (Elt F)) (i : S1x128.Idx) :
    val_main_v66 (F := F) x10 i = x10 (idx_main_v66 i) := by
  unfold val_main_v66
  exact broadcastInDim_apply _ bcast_S128_S1x128_1 x10 i (idx_main_v66 i) (fun a => match a with
    | ⟨0, _⟩ => by show (i 1).val = if (128 : Nat) = 1 then 0 else (i 1).val; rw [if_neg (by decide)])

-- %67 = stablehlo.broadcast_in_dim %66, dims = [0, 1] : (tensor<1x128xf32>) -> tensor<100000x128xf32>
abbrev idx_main_v67 (i : S100000x128.Idx) : S1x128.Idx := fun a => match a with
  | ⟨0, _⟩ => ⟨0, Nat.one_pos⟩
  | ⟨1, _⟩ => ⟨(i 1).val, (i 1).isLt⟩
theorem val_main_v67_apply (x10 : (⟨S128, .f32⟩ : BufTy).Contents (Elt F)) (i : S100000x128.Idx) :
    val_main_v67 (F := F) x10 i = val_main_v66 (F := F) x10 (idx_main_v67 i) := by
  unfold val_main_v67
  generalize val_main_v66 (F := F) x10 = y
  exact broadcastInDim_apply _ bcast_S1x128_S100000x128_0_1 y i (idx_main_v67 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %68 = stablehlo.add %65, %67 : tensor<100000x128xf32>
theorem val_main_v68_apply (x0 : (⟨S100000x128, .f32⟩ : BufTy).Contents (Elt F)) (x1 x2 : (⟨S1600000, .i32⟩ : BufTy).Contents (Elt F)) (x3 : (⟨S128x128, .f32⟩ : BufTy).Contents (Elt F)) (x4 x9 x10 : (⟨S128, .f32⟩ : BufTy).Contents (Elt F)) (i : S100000x128.Idx) :
    val_main_v68 (F := F) x0 x1 x2 x3 x4 x9 x10 i = FloatOps.addf (val_main_v65 (F := F) x0 x1 x2 x3 x4 x9 i) (val_main_v67 (F := F) x10 i) := rfl

-- @relu's %cst = stablehlo.constant dense<0.000000e+00> : tensor<f32>, in %69 = func.call @relu(…) (record main_call0)
theorem val_main_call0_cst_apply (i : S_.Idx) :
    val_main_call0_cst (F := F) i = FloatOps.ofBits .f32 0x00000000#32 := rfl

-- @relu's %0 = stablehlo.broadcast_in_dim %cst, dims = [] : (tensor<f32>) -> tensor<100000x128xf32>, in %69 = func.call @relu(…) (record main_call0)
abbrev idx_main_call0_v0 (i : S100000x128.Idx) : S_.Idx := fun a => a.elim0
theorem val_main_call0_v0_apply (i : S100000x128.Idx) :
    val_main_call0_v0 (F := F) i = val_main_call0_cst (F := F) (idx_main_call0_v0 i) := by
  unfold val_main_call0_v0
  generalize val_main_call0_cst (F := F) = y
  exact broadcastInDim_apply _ bcast_S_S100000x128 y i (idx_main_call0_v0 i) (fun a => a.elim0)

-- %69 = func.call @relu(…) (record main_call0) result 0: @relu's %1 = stablehlo.maximum %arg0, %0 : tensor<100000x128xf32>
theorem val_main_v69_apply (x0 : (⟨S100000x128, .f32⟩ : BufTy).Contents (Elt F)) (x1 x2 : (⟨S1600000, .i32⟩ : BufTy).Contents (Elt F)) (x3 : (⟨S128x128, .f32⟩ : BufTy).Contents (Elt F)) (x4 x9 x10 : (⟨S128, .f32⟩ : BufTy).Contents (Elt F)) (i : S100000x128.Idx) :
    val_main_v69 (F := F) x0 x1 x2 x3 x4 x9 x10 i = FloatOps.maximumf (val_main_v68 (F := F) x0 x1 x2 x3 x4 x9 x10 i) (val_main_call0_v0 (F := F) i) := rfl

-- %70 = stablehlo.dot_general %69, %arg5, contracting_dims = [1] x [0], precision = [DEFAULT, DEFAULT] : (tensor<100000x128xf32>, tensor<128x128xf32>) -> tensor<100000x128xf32>
theorem lhs_main_v70_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v70_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v70_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v70_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v70 (i : S100000x128.Idx) (k : Fin 128) : S100000x128.Idx := fun a => match a with
  | ⟨0, _⟩ => ⟨(i 0).val, (i 0).isLt⟩
  | ⟨1, _⟩ => ⟨k.val, k.isLt⟩
abbrev ridx_main_v70 (i : S100000x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v70_apply (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x9 x10 : (⟨S128, .f32⟩ : BufTy).Contents (Elt Ideal)) (i : S100000x128.Idx) :
    val_main_v70 (F := Ideal) x0 x1 x2 x3 x4 x5 x9 x10 i = ∑ k : Fin 128, (val_main_v69 (F := Ideal) x0 x1 x2 x3 x4 x9 x10) (lidx_main_v70 i k) * x5 (ridx_main_v70 i k) := by
  unfold val_main_v70
  generalize val_main_v69 (F := Ideal) x0 x1 x2 x3 x4 x9 x10 = y0
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v70 i k := funext fun a => Fin.ext (by
    match a with
    | ⟨0, _⟩ => exact lhs_main_v70_0 _ _
    | ⟨1, _⟩ => exact (lhs_main_v70_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v70 i k := funext fun a => Fin.ext (by
    match a with
    | ⟨0, _⟩ => exact (rhs_main_v70_0 _ _).trans hk
    | ⟨1, _⟩ => exact rhs_main_v70_1 _ _)
  rw [el, er]

-- %c_13 = stablehlo.constant dense<0> : tensor<i32>
theorem val_main_c_13_apply (i : S_.Idx) :
    val_main_c_13 (F := F) i = 0#32 := rfl

-- %71 = stablehlo.broadcast_in_dim %c_13, dims = [] : (tensor<i32>) -> tensor<1600000xi32>
abbrev idx_main_v71 (i : S1600000.Idx) : S_.Idx := fun a => a.elim0
theorem val_main_v71_apply (i : S1600000.Idx) :
    val_main_v71 (F := F) i = val_main_c_13 (F := F) (idx_main_v71 i) := by
  unfold val_main_v71
  generalize val_main_c_13 (F := F) = y
  exact broadcastInDim_apply _ bcast_S_S1600000 y i (idx_main_v71 i) (fun a => a.elim0)

-- %72 = stablehlo.compare LT, %arg1, %71, SIGNED : (tensor<1600000xi32>, tensor<1600000xi32>) -> tensor<1600000xi1>
theorem val_main_v72_apply (x1 : (⟨S1600000, .i32⟩ : BufTy).Contents (Elt F)) (i : S1600000.Idx) :
    val_main_v72 (F := F) x1 i = IntOp.cmpi .slt (x1 i) (val_main_v71 (F := F) i) := rfl

-- %c_14 = stablehlo.constant dense<100000> : tensor<i32>
theorem val_main_c_14_apply (i : S_.Idx) :
    val_main_c_14 (F := F) i = 100000#32 := rfl

-- %73 = stablehlo.broadcast_in_dim %c_14, dims = [] : (tensor<i32>) -> tensor<1600000xi32>
abbrev idx_main_v73 (i : S1600000.Idx) : S_.Idx := fun a => a.elim0
theorem val_main_v73_apply (i : S1600000.Idx) :
    val_main_v73 (F := F) i = val_main_c_14 (F := F) (idx_main_v73 i) := by
  unfold val_main_v73
  generalize val_main_c_14 (F := F) = y
  exact broadcastInDim_apply _ bcast_S_S1600000 y i (idx_main_v73 i) (fun a => a.elim0)

-- %74 = stablehlo.add %arg1, %73 : tensor<1600000xi32>
theorem val_main_v74_apply (x1 : (⟨S1600000, .i32⟩ : BufTy).Contents (Elt F)) (i : S1600000.Idx) :
    val_main_v74 (F := F) x1 i = IntOp.addi (x1 i) (val_main_v73 (F := F) i) := rfl

-- %75 = stablehlo.select %72, %74, %arg1 : tensor<1600000xi1>, tensor<1600000xi32>
theorem val_main_v75_apply (x1 : (⟨S1600000, .i32⟩ : BufTy).Contents (Elt F)) (i : S1600000.Idx) :
    val_main_v75 (F := F) x1 i = Scalar.select (val_main_v72 (F := F) x1 i) (val_main_v74 (F := F) x1 i) (x1 i) := rfl

-- %76 = stablehlo.broadcast_in_dim %75, dims = [0] : (tensor<1600000xi32>) -> tensor<1600000x1xi32>
abbrev idx_main_v76 (i : S1600000x1.Idx) : S1600000.Idx := fun a => match a with
  | ⟨0, _⟩ => ⟨(i 0).val, (i 0).isLt⟩
theorem val_main_v76_apply (x1 : (⟨S1600000, .i32⟩ : BufTy).Contents (Elt F)) (i : S1600000x1.Idx) :
    val_main_v76 (F := F) x1 i = val_main_v75 (F := F) x1 (idx_main_v76 i) := by
  unfold val_main_v76
  generalize val_main_v75 (F := F) x1 = y
  exact broadcastInDim_apply _ bcast_S1600000_S1600000x1_0 y i (idx_main_v76 i) (fun a => match a with
    | ⟨0, _⟩ => by show (i 0).val = if (1600000 : Nat) = 1 then 0 else (i 0).val; rw [if_neg (by decide)])

-- %77 = "stablehlo.gather"(%70, %76) <{dimension_numbers = #stablehlo.gather<offset_dims = [1], collapsed_slice_dims = [0], start_index_map = [0], index_vector_dim = 1>, indices_are_sorted = false, slice_sizes = array<i64: 1, 128>}> : (tensor<100000x128xf32>, tensor<1600000x1xi32>) -> tensor<1600000x128xf32>

-- %78 = stablehlo.broadcast_in_dim %21, dims = [0] : (tensor<1600000xf32>) -> tensor<1600000x1xf32>
abbrev idx_main_v78 (i : S1600000x1.Idx) : S1600000.Idx := fun a => match a with
  | ⟨0, _⟩ => ⟨(i 0).val, (i 0).isLt⟩
theorem val_main_v78_apply (x1 x2 : (⟨S1600000, .i32⟩ : BufTy).Contents (Elt F)) (i : S1600000x1.Idx) :
    val_main_v78 (F := F) x1 x2 i = val_main_v21 (F := F) x1 x2 (idx_main_v78 i) := by
  unfold val_main_v78
  generalize val_main_v21 (F := F) x1 x2 = y
  exact broadcastInDim_apply _ bcast_S1600000_S1600000x1_0 y i (idx_main_v78 i) (fun a => match a with
    | ⟨0, _⟩ => by show (i 0).val = if (1600000 : Nat) = 1 then 0 else (i 0).val; rw [if_neg (by decide)])

-- %79 = stablehlo.broadcast_in_dim %78, dims = [0, 1] : (tensor<1600000x1xf32>) -> tensor<1600000x128xf32>
abbrev idx_main_v79 (i : S1600000x128.Idx) : S1600000x1.Idx := fun a => match a with
  | ⟨0, _⟩ => ⟨(i 0).val, (i 0).isLt⟩
  | ⟨1, _⟩ => ⟨0, Nat.one_pos⟩
theorem val_main_v79_apply (x1 x2 : (⟨S1600000, .i32⟩ : BufTy).Contents (Elt F)) (i : S1600000x128.Idx) :
    val_main_v79 (F := F) x1 x2 i = val_main_v78 (F := F) x1 x2 (idx_main_v79 i) := by
  unfold val_main_v79
  generalize val_main_v78 (F := F) x1 x2 = y
  exact broadcastInDim_apply _ bcast_S1600000x1_S1600000x128_0_1 y i (idx_main_v79 i) (fun a => match a with
    | ⟨0, _⟩ => by show (i 0).val = if (1600000 : Nat) = 1 then 0 else (i 0).val; rw [if_neg (by decide)]
    | ⟨1, _⟩ => by show 0 = if (1 : Nat) = 1 then 0 else (i 1).val; rw [if_pos rfl])

-- %80 = stablehlo.multiply %77, %79 : tensor<1600000x128xf32>
theorem val_main_v80_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) (i : S1600000x128.Idx) :
    val_main_v80 (F := F) x0 x1 x2 x3 x4 x5 x9 x10 i = FloatOps.mulf (val_main_v77 (F := F) x0 x1 x2 x3 x4 x5 x9 x10 i) (val_main_v79 (F := F) x1 x2 i) := rfl

-- %cst_15 = stablehlo.constant dense<0.000000e+00> : tensor<f32>
theorem val_main_cst_15_apply (i : S_.Idx) :
    val_main_cst_15 (F := F) i = FloatOps.ofBits .f32 0x00000000#32 := rfl

-- %81 = stablehlo.broadcast_in_dim %cst_15, dims = [] : (tensor<f32>) -> tensor<100000x128xf32>
abbrev idx_main_v81 (i : S100000x128.Idx) : S_.Idx := fun a => a.elim0
theorem val_main_v81_apply (i : S100000x128.Idx) :
    val_main_v81 (F := F) i = val_main_cst_15 (F := F) (idx_main_v81 i) := by
  unfold val_main_v81
  generalize val_main_cst_15 (F := F) = y
  exact broadcastInDim_apply _ bcast_S_S100000x128 y i (idx_main_v81 i) (fun a => a.elim0)

-- %82 = stablehlo.broadcast_in_dim %arg2, dims = [0] : (tensor<1600000xi32>) -> tensor<1600000x1xi32>
abbrev idx_main_v82 (i : S1600000x1.Idx) : S1600000.Idx := fun a => match a with
  | ⟨0, _⟩ => ⟨(i 0).val, (i 0).isLt⟩
theorem val_main_v82_apply (x2 : (⟨S1600000, .i32⟩ : BufTy).Contents (Elt F)) (i : S1600000x1.Idx) :
    val_main_v82 (F := F) x2 i = x2 (idx_main_v82 i) := by
  unfold val_main_v82
  exact broadcastInDim_apply _ bcast_S1600000_S1600000x1_0 x2 i (idx_main_v82 i) (fun a => match a with
    | ⟨0, _⟩ => by show (i 0).val = if (1600000 : Nat) = 1 then 0 else (i 0).val; rw [if_neg (by decide)])

-- %83 = "stablehlo.scatter"(%81, %82, %80) <{indices_are_sorted = false, scatter_dimension_numbers = #stablehlo.scatter<update_window_dims = [1], inserted_window_dims = [0], scatter_dims_to_operand_dims = [0], index_vector_dim = 1>, unique_indices = false}> ( {

-- %84 = stablehlo.broadcast_in_dim %22, dims = [0] : (tensor<100000xf32>) -> tensor<100000x1xf32>
abbrev idx_main_v84 (i : S100000x1.Idx) : S100000.Idx := fun a => match a with
  | ⟨0, _⟩ => ⟨(i 0).val, (i 0).isLt⟩
theorem val_main_v84_apply (x2 : (⟨S1600000, .i32⟩ : BufTy).Contents (Elt F)) (i : S100000x1.Idx) :
    val_main_v84 (F := F) x2 i = val_main_v22 (F := F) x2 (idx_main_v84 i) := by
  unfold val_main_v84
  generalize val_main_v22 (F := F) x2 = y
  exact broadcastInDim_apply _ bcast_S100000_S100000x1_0 y i (idx_main_v84 i) (fun a => match a with
    | ⟨0, _⟩ => by show (i 0).val = if (100000 : Nat) = 1 then 0 else (i 0).val; rw [if_neg (by decide)])

-- %85 = stablehlo.broadcast_in_dim %84, dims = [0, 1] : (tensor<100000x1xf32>) -> tensor<100000x128xf32>
abbrev idx_main_v85 (i : S100000x128.Idx) : S100000x1.Idx := fun a => match a with
  | ⟨0, _⟩ => ⟨(i 0).val, (i 0).isLt⟩
  | ⟨1, _⟩ => ⟨0, Nat.one_pos⟩
theorem val_main_v85_apply (x2 : (⟨S1600000, .i32⟩ : BufTy).Contents (Elt F)) (i : S100000x128.Idx) :
    val_main_v85 (F := F) x2 i = val_main_v84 (F := F) x2 (idx_main_v85 i) := by
  unfold val_main_v85
  generalize val_main_v84 (F := F) x2 = y
  exact broadcastInDim_apply _ bcast_S100000x1_S100000x128_0_1 y i (idx_main_v85 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

-- %86 = stablehlo.multiply %70, %85 : tensor<100000x128xf32>
theorem val_main_v86_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) (i : S100000x128.Idx) :
    val_main_v86 (F := F) x0 x1 x2 x3 x4 x5 x9 x10 i = FloatOps.mulf (val_main_v70 (F := F) x0 x1 x2 x3 x4 x5 x9 x10 i) (val_main_v85 (F := F) x2 i) := rfl

-- %87 = stablehlo.add %83, %86 : tensor<100000x128xf32>
theorem val_main_v87_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x9 x10 : (⟨S128, .f32⟩ : BufTy).Contents (Elt F)) (i : S100000x128.Idx) :
    val_main_v87 (F := F) x0 x1 x2 x3 x4 x5 x9 x10 i = FloatOps.addf (val_main_v83 (F := F) x0 x1 x2 x3 x4 x5 x9 x10 i) (val_main_v86 (F := F) x0 x1 x2 x3 x4 x5 x9 x10 i) := rfl

-- %88 = stablehlo.broadcast_in_dim %arg6, dims = [1] : (tensor<128xf32>) -> tensor<1x128xf32>
abbrev idx_main_v88 (i : S1x128.Idx) : S128.Idx := fun a => match a with
  | ⟨0, _⟩ => ⟨(i 1).val, (i 1).isLt⟩
theorem val_main_v88_apply (x6 : (⟨S128, .f32⟩ : BufTy).Contents (Elt F)) (i : S1x128.Idx) :
    val_main_v88 (F := F) x6 i = x6 (idx_main_v88 i) := by
  unfold val_main_v88
  exact broadcastInDim_apply _ bcast_S128_S1x128_1 x6 i (idx_main_v88 i) (fun a => match a with
    | ⟨0, _⟩ => by show (i 1).val = if (128 : Nat) = 1 then 0 else (i 1).val; rw [if_neg (by decide)])

-- %89 = stablehlo.broadcast_in_dim %88, dims = [0, 1] : (tensor<1x128xf32>) -> tensor<100000x128xf32>
abbrev idx_main_v89 (i : S100000x128.Idx) : S1x128.Idx := fun a => match a with
  | ⟨0, _⟩ => ⟨0, Nat.one_pos⟩
  | ⟨1, _⟩ => ⟨(i 1).val, (i 1).isLt⟩
theorem val_main_v89_apply (x6 : (⟨S128, .f32⟩ : BufTy).Contents (Elt F)) (i : S100000x128.Idx) :
    val_main_v89 (F := F) x6 i = val_main_v88 (F := F) x6 (idx_main_v89 i) := by
  unfold val_main_v89
  generalize val_main_v88 (F := F) x6 = y
  exact broadcastInDim_apply _ bcast_S1x128_S100000x128_0_1 y i (idx_main_v89 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %90 = stablehlo.add %87, %89 : tensor<100000x128xf32>
theorem val_main_v90_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S100000x128.Idx) :
    val_main_v90 (F := F) x0 x1 x2 x3 x4 x5 x6 x9 x10 i = FloatOps.addf (val_main_v87 (F := F) x0 x1 x2 x3 x4 x5 x9 x10 i) (val_main_v89 (F := F) x6 i) := rfl

-- %cst_16 = stablehlo.constant dense<0.000000e+00> : tensor<f32>
theorem val_main_cst_16_apply (i : S_.Idx) :
    val_main_cst_16 (F := F) i = FloatOps.ofBits .f32 0x00000000#32 := rfl

-- %91 = stablehlo.reduce(%90 init: %cst_16) applies stablehlo.add across dimensions = [0] : (tensor<100000x128xf32>, tensor<f32>) -> tensor<128xf32> {
abbrev idx_main_v91 (i : S128.Idx) (k : Fin 100000) : S100000x128.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_v91_apply (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x9 x10 : (⟨S128, .f32⟩ : BufTy).Contents (Elt Ideal)) (i : S128.Idx) :
    val_main_v91 (F := Ideal) x0 x1 x2 x3 x4 x5 x6 x9 x10 i = (val_main_cst_16 (F := Ideal)) (Shape.Idx.first h_S_) + ∑ k : Fin 100000, (val_main_v90 (F := Ideal) x0 x1 x2 x3 x4 x5 x6 x9 x10) (idx_main_v91 i k) := by
  unfold val_main_v91
  generalize val_main_v90 (F := Ideal) x0 x1 x2 x3 x4 x5 x6 x9 x10 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

-- %cst_17 = stablehlo.constant dense<1.000000e+05> : tensor<f32>
theorem val_main_cst_17_apply (i : S_.Idx) :
    val_main_cst_17 (F := F) i = FloatOps.ofBits .f32 0x47C35000#32 := rfl

-- %92 = stablehlo.broadcast_in_dim %cst_17, dims = [] : (tensor<f32>) -> tensor<128xf32>
abbrev idx_main_v92 (i : S128.Idx) : S_.Idx := fun a => a.elim0
theorem val_main_v92_apply (i : S128.Idx) :
    val_main_v92 (F := F) i = val_main_cst_17 (F := F) (idx_main_v92 i) := by
  unfold val_main_v92
  generalize val_main_cst_17 (F := F) = y
  exact broadcastInDim_apply _ bcast_S_S128 y i (idx_main_v92 i) (fun a => a.elim0)

-- %93 = stablehlo.divide %91, %92 : tensor<128xf32>
theorem val_main_v93_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S128.Idx) :
    val_main_v93 (F := F) x0 x1 x2 x3 x4 x5 x6 x9 x10 i = FloatOps.hostDivf (val_main_v91 (F := F) x0 x1 x2 x3 x4 x5 x6 x9 x10 i) (val_main_v92 (F := F) i) := rfl

-- %94 = stablehlo.broadcast_in_dim %93, dims = [1] : (tensor<128xf32>) -> tensor<1x128xf32>
abbrev idx_main_v94 (i : S1x128.Idx) : S128.Idx := fun a => match a with
  | ⟨0, _⟩ => ⟨(i 1).val, (i 1).isLt⟩
theorem val_main_v94_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S1x128.Idx) :
    val_main_v94 (F := F) x0 x1 x2 x3 x4 x5 x6 x9 x10 i = val_main_v93 (F := F) x0 x1 x2 x3 x4 x5 x6 x9 x10 (idx_main_v94 i) := by
  unfold val_main_v94
  generalize val_main_v93 (F := F) x0 x1 x2 x3 x4 x5 x6 x9 x10 = y
  exact broadcastInDim_apply _ bcast_S128_S1x128_1 y i (idx_main_v94 i) (fun a => match a with
    | ⟨0, _⟩ => by show (i 1).val = if (128 : Nat) = 1 then 0 else (i 1).val; rw [if_neg (by decide)])

-- %95 = stablehlo.broadcast_in_dim %94, dims = [0, 1] : (tensor<1x128xf32>) -> tensor<100000x128xf32>
abbrev idx_main_v95 (i : S100000x128.Idx) : S1x128.Idx := fun a => match a with
  | ⟨0, _⟩ => ⟨0, Nat.one_pos⟩
  | ⟨1, _⟩ => ⟨(i 1).val, (i 1).isLt⟩
theorem val_main_v95_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S100000x128.Idx) :
    val_main_v95 (F := F) x0 x1 x2 x3 x4 x5 x6 x9 x10 i = val_main_v94 (F := F) x0 x1 x2 x3 x4 x5 x6 x9 x10 (idx_main_v95 i) := by
  unfold val_main_v95
  generalize val_main_v94 (F := F) x0 x1 x2 x3 x4 x5 x6 x9 x10 = y
  exact broadcastInDim_apply _ bcast_S1x128_S100000x128_0_1 y i (idx_main_v95 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %96 = stablehlo.subtract %90, %95 : tensor<100000x128xf32>
theorem val_main_v96_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S100000x128.Idx) :
    val_main_v96 (F := F) x0 x1 x2 x3 x4 x5 x6 x9 x10 i = FloatOps.subf (val_main_v90 (F := F) x0 x1 x2 x3 x4 x5 x6 x9 x10 i) (val_main_v95 (F := F) x0 x1 x2 x3 x4 x5 x6 x9 x10 i) := rfl

-- %97 = chlo.square %96 : tensor<100000x128xf32> -> tensor<100000x128xf32>
theorem val_main_v97_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S100000x128.Idx) :
    val_main_v97 (F := F) x0 x1 x2 x3 x4 x5 x6 x9 x10 i = FloatOps.mulf (val_main_v96 (F := F) x0 x1 x2 x3 x4 x5 x6 x9 x10 i) (val_main_v96 (F := F) x0 x1 x2 x3 x4 x5 x6 x9 x10 i) := rfl

-- %cst_18 = stablehlo.constant dense<0.000000e+00> : tensor<f32>
theorem val_main_cst_18_apply (i : S_.Idx) :
    val_main_cst_18 (F := F) i = FloatOps.ofBits .f32 0x00000000#32 := rfl

-- %98 = stablehlo.reduce(%97 init: %cst_18) applies stablehlo.add across dimensions = [0] : (tensor<100000x128xf32>, tensor<f32>) -> tensor<128xf32> {
abbrev idx_main_v98 (i : S128.Idx) (k : Fin 100000) : S100000x128.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_v98_apply (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x9 x10 : (⟨S128, .f32⟩ : BufTy).Contents (Elt Ideal)) (i : S128.Idx) :
    val_main_v98 (F := Ideal) x0 x1 x2 x3 x4 x5 x6 x9 x10 i = (val_main_cst_18 (F := Ideal)) (Shape.Idx.first h_S_) + ∑ k : Fin 100000, (val_main_v97 (F := Ideal) x0 x1 x2 x3 x4 x5 x6 x9 x10) (idx_main_v98 i k) := by
  unfold val_main_v98
  generalize val_main_v97 (F := Ideal) x0 x1 x2 x3 x4 x5 x6 x9 x10 = y0
  simp only [Host.reduceAdd, Ideal.hostReduceAdd_def]
  rw [Ideal.hostReduceAdd_single reducesTo_S100000x128_S128_d0 (by decide)]
  refine congrArg (_ + ·) (Finset.sum_congr rfl fun k _ => ?_)
  exact congrArg y0 (funext fun a => Fin.ext (by match a with | ⟨0, _⟩ => rfl | ⟨1, _⟩ => rfl))

-- %cst_19 = stablehlo.constant dense<1.000000e+05> : tensor<f32>
theorem val_main_cst_19_apply (i : S_.Idx) :
    val_main_cst_19 (F := F) i = FloatOps.ofBits .f32 0x47C35000#32 := rfl

-- %99 = stablehlo.broadcast_in_dim %cst_19, dims = [] : (tensor<f32>) -> tensor<128xf32>
abbrev idx_main_v99 (i : S128.Idx) : S_.Idx := fun a => a.elim0
theorem val_main_v99_apply (i : S128.Idx) :
    val_main_v99 (F := F) i = val_main_cst_19 (F := F) (idx_main_v99 i) := by
  unfold val_main_v99
  generalize val_main_cst_19 (F := F) = y
  exact broadcastInDim_apply _ bcast_S_S128 y i (idx_main_v99 i) (fun a => a.elim0)

-- %100 = stablehlo.divide %98, %99 : tensor<128xf32>
theorem val_main_v100_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S128.Idx) :
    val_main_v100 (F := F) x0 x1 x2 x3 x4 x5 x6 x9 x10 i = FloatOps.hostDivf (val_main_v98 (F := F) x0 x1 x2 x3 x4 x5 x6 x9 x10 i) (val_main_v99 (F := F) i) := rfl

-- %101 = stablehlo.broadcast_in_dim %93, dims = [1] : (tensor<128xf32>) -> tensor<1x128xf32>
abbrev idx_main_v101 (i : S1x128.Idx) : S128.Idx := fun a => match a with
  | ⟨0, _⟩ => ⟨(i 1).val, (i 1).isLt⟩
theorem val_main_v101_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S1x128.Idx) :
    val_main_v101 (F := F) x0 x1 x2 x3 x4 x5 x6 x9 x10 i = val_main_v93 (F := F) x0 x1 x2 x3 x4 x5 x6 x9 x10 (idx_main_v101 i) := by
  unfold val_main_v101
  generalize val_main_v93 (F := F) x0 x1 x2 x3 x4 x5 x6 x9 x10 = y
  exact broadcastInDim_apply _ bcast_S128_S1x128_1 y i (idx_main_v101 i) (fun a => match a with
    | ⟨0, _⟩ => by show (i 1).val = if (128 : Nat) = 1 then 0 else (i 1).val; rw [if_neg (by decide)])

-- %102 = stablehlo.broadcast_in_dim %101, dims = [0, 1] : (tensor<1x128xf32>) -> tensor<100000x128xf32>
abbrev idx_main_v102 (i : S100000x128.Idx) : S1x128.Idx := fun a => match a with
  | ⟨0, _⟩ => ⟨0, Nat.one_pos⟩
  | ⟨1, _⟩ => ⟨(i 1).val, (i 1).isLt⟩
theorem val_main_v102_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S100000x128.Idx) :
    val_main_v102 (F := F) x0 x1 x2 x3 x4 x5 x6 x9 x10 i = val_main_v101 (F := F) x0 x1 x2 x3 x4 x5 x6 x9 x10 (idx_main_v102 i) := by
  unfold val_main_v102
  generalize val_main_v101 (F := F) x0 x1 x2 x3 x4 x5 x6 x9 x10 = y
  exact broadcastInDim_apply _ bcast_S1x128_S100000x128_0_1 y i (idx_main_v102 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %103 = stablehlo.subtract %90, %102 : tensor<100000x128xf32>
theorem val_main_v103_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S100000x128.Idx) :
    val_main_v103 (F := F) x0 x1 x2 x3 x4 x5 x6 x9 x10 i = FloatOps.subf (val_main_v90 (F := F) x0 x1 x2 x3 x4 x5 x6 x9 x10 i) (val_main_v102 (F := F) x0 x1 x2 x3 x4 x5 x6 x9 x10 i) := rfl

-- %cst_20 = stablehlo.constant dense<9.99999974E-6> : tensor<f32>
theorem val_main_cst_20_apply (i : S_.Idx) :
    val_main_cst_20 (F := F) i = FloatOps.ofBits .f32 0x3727C5AC#32 := rfl

-- %104 = stablehlo.broadcast_in_dim %cst_20, dims = [] : (tensor<f32>) -> tensor<128xf32>
abbrev idx_main_v104 (i : S128.Idx) : S_.Idx := fun a => a.elim0
theorem val_main_v104_apply (i : S128.Idx) :
    val_main_v104 (F := F) i = val_main_cst_20 (F := F) (idx_main_v104 i) := by
  unfold val_main_v104
  generalize val_main_cst_20 (F := F) = y
  exact broadcastInDim_apply _ bcast_S_S128 y i (idx_main_v104 i) (fun a => a.elim0)

-- %105 = stablehlo.add %100, %104 : tensor<128xf32>
theorem val_main_v105_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S128.Idx) :
    val_main_v105 (F := F) x0 x1 x2 x3 x4 x5 x6 x9 x10 i = FloatOps.addf (val_main_v100 (F := F) x0 x1 x2 x3 x4 x5 x6 x9 x10 i) (val_main_v104 (F := F) i) := rfl

-- %106 = stablehlo.rsqrt %105 : tensor<128xf32>
theorem val_main_v106_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S128.Idx) :
    val_main_v106 (F := F) x0 x1 x2 x3 x4 x5 x6 x9 x10 i = FloatOps.hostUnary .rsqrt (val_main_v105 (F := F) x0 x1 x2 x3 x4 x5 x6 x9 x10 i) := rfl

-- %107 = stablehlo.broadcast_in_dim %106, dims = [1] : (tensor<128xf32>) -> tensor<1x128xf32>
abbrev idx_main_v107 (i : S1x128.Idx) : S128.Idx := fun a => match a with
  | ⟨0, _⟩ => ⟨(i 1).val, (i 1).isLt⟩
theorem val_main_v107_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S1x128.Idx) :
    val_main_v107 (F := F) x0 x1 x2 x3 x4 x5 x6 x9 x10 i = val_main_v106 (F := F) x0 x1 x2 x3 x4 x5 x6 x9 x10 (idx_main_v107 i) := by
  unfold val_main_v107
  generalize val_main_v106 (F := F) x0 x1 x2 x3 x4 x5 x6 x9 x10 = y
  exact broadcastInDim_apply _ bcast_S128_S1x128_1 y i (idx_main_v107 i) (fun a => match a with
    | ⟨0, _⟩ => by show (i 1).val = if (128 : Nat) = 1 then 0 else (i 1).val; rw [if_neg (by decide)])

-- %108 = stablehlo.broadcast_in_dim %107, dims = [0, 1] : (tensor<1x128xf32>) -> tensor<100000x128xf32>
abbrev idx_main_v108 (i : S100000x128.Idx) : S1x128.Idx := fun a => match a with
  | ⟨0, _⟩ => ⟨0, Nat.one_pos⟩
  | ⟨1, _⟩ => ⟨(i 1).val, (i 1).isLt⟩
theorem val_main_v108_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S100000x128.Idx) :
    val_main_v108 (F := F) x0 x1 x2 x3 x4 x5 x6 x9 x10 i = val_main_v107 (F := F) x0 x1 x2 x3 x4 x5 x6 x9 x10 (idx_main_v108 i) := by
  unfold val_main_v108
  generalize val_main_v107 (F := F) x0 x1 x2 x3 x4 x5 x6 x9 x10 = y
  exact broadcastInDim_apply _ bcast_S1x128_S100000x128_0_1 y i (idx_main_v108 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %109 = stablehlo.multiply %103, %108 : tensor<100000x128xf32>
theorem val_main_v109_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 : (⟨S128, .f32⟩ : BufTy).Contents (Elt F)) (i : S100000x128.Idx) :
    val_main_v109 (F := F) x0 x1 x2 x3 x4 x5 x6 x9 x10 i = FloatOps.mulf (val_main_v103 (F := F) x0 x1 x2 x3 x4 x5 x6 x9 x10 i) (val_main_v108 (F := F) x0 x1 x2 x3 x4 x5 x6 x9 x10 i) := rfl

-- %110 = stablehlo.broadcast_in_dim %arg11, dims = [1] : (tensor<128xf32>) -> tensor<1x128xf32>
abbrev idx_main_v110 (i : S1x128.Idx) : S128.Idx := fun a => match a with
  | ⟨0, _⟩ => ⟨(i 1).val, (i 1).isLt⟩
theorem val_main_v110_apply (x11 : (⟨S128, .f32⟩ : BufTy).Contents (Elt F)) (i : S1x128.Idx) :
    val_main_v110 (F := F) x11 i = x11 (idx_main_v110 i) := by
  unfold val_main_v110
  exact broadcastInDim_apply _ bcast_S128_S1x128_1 x11 i (idx_main_v110 i) (fun a => match a with
    | ⟨0, _⟩ => by show (i 1).val = if (128 : Nat) = 1 then 0 else (i 1).val; rw [if_neg (by decide)])

-- %111 = stablehlo.broadcast_in_dim %110, dims = [0, 1] : (tensor<1x128xf32>) -> tensor<100000x128xf32>
abbrev idx_main_v111 (i : S100000x128.Idx) : S1x128.Idx := fun a => match a with
  | ⟨0, _⟩ => ⟨0, Nat.one_pos⟩
  | ⟨1, _⟩ => ⟨(i 1).val, (i 1).isLt⟩
theorem val_main_v111_apply (x11 : (⟨S128, .f32⟩ : BufTy).Contents (Elt F)) (i : S100000x128.Idx) :
    val_main_v111 (F := F) x11 i = val_main_v110 (F := F) x11 (idx_main_v111 i) := by
  unfold val_main_v111
  generalize val_main_v110 (F := F) x11 = y
  exact broadcastInDim_apply _ bcast_S1x128_S100000x128_0_1 y i (idx_main_v111 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %112 = stablehlo.multiply %109, %111 : tensor<100000x128xf32>
theorem val_main_v112_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 x11 : (⟨S128, .f32⟩ : BufTy).Contents (Elt F)) (i : S100000x128.Idx) :
    val_main_v112 (F := F) x0 x1 x2 x3 x4 x5 x6 x9 x10 x11 i = FloatOps.mulf (val_main_v109 (F := F) x0 x1 x2 x3 x4 x5 x6 x9 x10 i) (val_main_v111 (F := F) x11 i) := rfl

-- %113 = stablehlo.broadcast_in_dim %arg12, dims = [1] : (tensor<128xf32>) -> tensor<1x128xf32>
abbrev idx_main_v113 (i : S1x128.Idx) : S128.Idx := fun a => match a with
  | ⟨0, _⟩ => ⟨(i 1).val, (i 1).isLt⟩
theorem val_main_v113_apply (x12 : (⟨S128, .f32⟩ : BufTy).Contents (Elt F)) (i : S1x128.Idx) :
    val_main_v113 (F := F) x12 i = x12 (idx_main_v113 i) := by
  unfold val_main_v113
  exact broadcastInDim_apply _ bcast_S128_S1x128_1 x12 i (idx_main_v113 i) (fun a => match a with
    | ⟨0, _⟩ => by show (i 1).val = if (128 : Nat) = 1 then 0 else (i 1).val; rw [if_neg (by decide)])

-- %114 = stablehlo.broadcast_in_dim %113, dims = [0, 1] : (tensor<1x128xf32>) -> tensor<100000x128xf32>
abbrev idx_main_v114 (i : S100000x128.Idx) : S1x128.Idx := fun a => match a with
  | ⟨0, _⟩ => ⟨0, Nat.one_pos⟩
  | ⟨1, _⟩ => ⟨(i 1).val, (i 1).isLt⟩
theorem val_main_v114_apply (x12 : (⟨S128, .f32⟩ : BufTy).Contents (Elt F)) (i : S100000x128.Idx) :
    val_main_v114 (F := F) x12 i = val_main_v113 (F := F) x12 (idx_main_v114 i) := by
  unfold val_main_v114
  generalize val_main_v113 (F := F) x12 = y
  exact broadcastInDim_apply _ bcast_S1x128_S100000x128_0_1 y i (idx_main_v114 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %115 = stablehlo.add %112, %114 : tensor<100000x128xf32>
theorem val_main_v115_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 x11 x12 : (⟨S128, .f32⟩ : BufTy).Contents (Elt F)) (i : S100000x128.Idx) :
    val_main_v115 (F := F) x0 x1 x2 x3 x4 x5 x6 x9 x10 x11 x12 i = FloatOps.addf (val_main_v112 (F := F) x0 x1 x2 x3 x4 x5 x6 x9 x10 x11 i) (val_main_v114 (F := F) x12 i) := rfl

-- @relu's %cst = stablehlo.constant dense<0.000000e+00> : tensor<f32>, in %116 = func.call @relu(…) (record main_call1)
theorem val_main_call1_cst_apply (i : S_.Idx) :
    val_main_call1_cst (F := F) i = FloatOps.ofBits .f32 0x00000000#32 := rfl

-- @relu's %0 = stablehlo.broadcast_in_dim %cst, dims = [] : (tensor<f32>) -> tensor<100000x128xf32>, in %116 = func.call @relu(…) (record main_call1)
abbrev idx_main_call1_v0 (i : S100000x128.Idx) : S_.Idx := fun a => a.elim0
theorem val_main_call1_v0_apply (i : S100000x128.Idx) :
    val_main_call1_v0 (F := F) i = val_main_call1_cst (F := F) (idx_main_call1_v0 i) := by
  unfold val_main_call1_v0
  generalize val_main_call1_cst (F := F) = y
  exact broadcastInDim_apply _ bcast_S_S100000x128 y i (idx_main_call1_v0 i) (fun a => a.elim0)

-- %116 = func.call @relu(…) (record main_call1) result 0: @relu's %1 = stablehlo.maximum %arg0, %0 : tensor<100000x128xf32>
theorem val_main_v116_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x9 x10 x11 x12 : (⟨S128, .f32⟩ : BufTy).Contents (Elt F)) (i : S100000x128.Idx) :
    val_main_v116 (F := F) x0 x1 x2 x3 x4 x5 x6 x9 x10 x11 x12 i = FloatOps.maximumf (val_main_v115 (F := F) x0 x1 x2 x3 x4 x5 x6 x9 x10 x11 x12 i) (val_main_call1_v0 (F := F) i) := rfl

-- %117 = stablehlo.dot_general %116, %arg7, contracting_dims = [1] x [0], precision = [DEFAULT, DEFAULT] : (tensor<100000x128xf32>, tensor<128x40xf32>) -> tensor<100000x40xf32>
theorem lhs_main_v117_0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem lhs_main_v117_1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q
theorem rhs_main_v117_0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q
theorem rhs_main_v117_1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl
abbrev lidx_main_v117 (i : S100000x40.Idx) (k : Fin 128) : S100000x128.Idx := fun a => match a with
  | ⟨0, _⟩ => ⟨(i 0).val, (i 0).isLt⟩
  | ⟨1, _⟩ => ⟨k.val, k.isLt⟩
abbrev ridx_main_v117 (i : S100000x40.Idx) (k : Fin 128) : S128x40.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v117_apply (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x9 x10 x11 x12 : (⟨S128, .f32⟩ : BufTy).Contents (Elt Ideal)) (i : S100000x40.Idx) :
    val_main_v117 (F := Ideal) x0 x1 x2 x3 x4 x5 x6 x7 x9 x10 x11 x12 i = ∑ k : Fin 128, (val_main_v116 (F := Ideal) x0 x1 x2 x3 x4 x5 x6 x9 x10 x11 x12) (lidx_main_v117 i k) * x7 (ridx_main_v117 i k) := by
  unfold val_main_v117
  generalize val_main_v116 (F := Ideal) x0 x1 x2 x3 x4 x5 x6 x9 x10 x11 x12 = y0
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx i ((ValueIdx.contrEquiv1 dot_S100000x128_S128x40_S100000x40_1_0_0_1_n_n 128 rfl rfl).symm k) = lidx_main_v117 i k := funext fun a => Fin.ext (by
    match a with
    | ⟨0, _⟩ => exact lhs_main_v117_0 _ _
    | ⟨1, _⟩ => exact (lhs_main_v117_1 _ _).trans hk)
  have er : dot_S100000x128_S128x40_S100000x40_1_0_0_1_n_n.rhsIdx i ((ValueIdx.contrEquiv1 dot_S100000x128_S128x40_S100000x40_1_0_0_1_n_n 128 rfl rfl).symm k) = ridx_main_v117 i k := funext fun a => Fin.ext (by
    match a with
    | ⟨0, _⟩ => exact (rhs_main_v117_0 _ _).trans hk
    | ⟨1, _⟩ => exact rhs_main_v117_1 _ _)
  rw [el, er]

-- %c_21 = stablehlo.constant dense<0> : tensor<i32>
theorem val_main_c_21_apply (i : S_.Idx) :
    val_main_c_21 (F := F) i = 0#32 := rfl

-- %118 = stablehlo.broadcast_in_dim %c_21, dims = [] : (tensor<i32>) -> tensor<1600000xi32>
abbrev idx_main_v118 (i : S1600000.Idx) : S_.Idx := fun a => a.elim0
theorem val_main_v118_apply (i : S1600000.Idx) :
    val_main_v118 (F := F) i = val_main_c_21 (F := F) (idx_main_v118 i) := by
  unfold val_main_v118
  generalize val_main_c_21 (F := F) = y
  exact broadcastInDim_apply _ bcast_S_S1600000 y i (idx_main_v118 i) (fun a => a.elim0)

-- %119 = stablehlo.compare LT, %arg1, %118, SIGNED : (tensor<1600000xi32>, tensor<1600000xi32>) -> tensor<1600000xi1>
theorem val_main_v119_apply (x1 : (⟨S1600000, .i32⟩ : BufTy).Contents (Elt F)) (i : S1600000.Idx) :
    val_main_v119 (F := F) x1 i = IntOp.cmpi .slt (x1 i) (val_main_v118 (F := F) i) := rfl

-- %c_22 = stablehlo.constant dense<100000> : tensor<i32>
theorem val_main_c_22_apply (i : S_.Idx) :
    val_main_c_22 (F := F) i = 100000#32 := rfl

-- %120 = stablehlo.broadcast_in_dim %c_22, dims = [] : (tensor<i32>) -> tensor<1600000xi32>
abbrev idx_main_v120 (i : S1600000.Idx) : S_.Idx := fun a => a.elim0
theorem val_main_v120_apply (i : S1600000.Idx) :
    val_main_v120 (F := F) i = val_main_c_22 (F := F) (idx_main_v120 i) := by
  unfold val_main_v120
  generalize val_main_c_22 (F := F) = y
  exact broadcastInDim_apply _ bcast_S_S1600000 y i (idx_main_v120 i) (fun a => a.elim0)

-- %121 = stablehlo.add %arg1, %120 : tensor<1600000xi32>
theorem val_main_v121_apply (x1 : (⟨S1600000, .i32⟩ : BufTy).Contents (Elt F)) (i : S1600000.Idx) :
    val_main_v121 (F := F) x1 i = IntOp.addi (x1 i) (val_main_v120 (F := F) i) := rfl

-- %122 = stablehlo.select %119, %121, %arg1 : tensor<1600000xi1>, tensor<1600000xi32>
theorem val_main_v122_apply (x1 : (⟨S1600000, .i32⟩ : BufTy).Contents (Elt F)) (i : S1600000.Idx) :
    val_main_v122 (F := F) x1 i = Scalar.select (val_main_v119 (F := F) x1 i) (val_main_v121 (F := F) x1 i) (x1 i) := rfl

-- %123 = stablehlo.broadcast_in_dim %122, dims = [0] : (tensor<1600000xi32>) -> tensor<1600000x1xi32>
abbrev idx_main_v123 (i : S1600000x1.Idx) : S1600000.Idx := fun a => match a with
  | ⟨0, _⟩ => ⟨(i 0).val, (i 0).isLt⟩
theorem val_main_v123_apply (x1 : (⟨S1600000, .i32⟩ : BufTy).Contents (Elt F)) (i : S1600000x1.Idx) :
    val_main_v123 (F := F) x1 i = val_main_v122 (F := F) x1 (idx_main_v123 i) := by
  unfold val_main_v123
  generalize val_main_v122 (F := F) x1 = y
  exact broadcastInDim_apply _ bcast_S1600000_S1600000x1_0 y i (idx_main_v123 i) (fun a => match a with
    | ⟨0, _⟩ => by show (i 0).val = if (1600000 : Nat) = 1 then 0 else (i 0).val; rw [if_neg (by decide)])

-- %124 = "stablehlo.gather"(%117, %123) <{dimension_numbers = #stablehlo.gather<offset_dims = [1], collapsed_slice_dims = [0], start_index_map = [0], index_vector_dim = 1>, indices_are_sorted = false, slice_sizes = array<i64: 1, 40>}> : (tensor<100000x40xf32>, tensor<1600000x1xi32>) -> tensor<1600000x40xf32>

-- %125 = stablehlo.broadcast_in_dim %21, dims = [0] : (tensor<1600000xf32>) -> tensor<1600000x1xf32>
abbrev idx_main_v125 (i : S1600000x1.Idx) : S1600000.Idx := fun a => match a with
  | ⟨0, _⟩ => ⟨(i 0).val, (i 0).isLt⟩
theorem val_main_v125_apply (x1 x2 : (⟨S1600000, .i32⟩ : BufTy).Contents (Elt F)) (i : S1600000x1.Idx) :
    val_main_v125 (F := F) x1 x2 i = val_main_v21 (F := F) x1 x2 (idx_main_v125 i) := by
  unfold val_main_v125
  generalize val_main_v21 (F := F) x1 x2 = y
  exact broadcastInDim_apply _ bcast_S1600000_S1600000x1_0 y i (idx_main_v125 i) (fun a => match a with
    | ⟨0, _⟩ => by show (i 0).val = if (1600000 : Nat) = 1 then 0 else (i 0).val; rw [if_neg (by decide)])

-- %126 = stablehlo.broadcast_in_dim %125, dims = [0, 1] : (tensor<1600000x1xf32>) -> tensor<1600000x40xf32>
abbrev idx_main_v126 (i : S1600000x40.Idx) : S1600000x1.Idx := fun a => match a with
  | ⟨0, _⟩ => ⟨(i 0).val, (i 0).isLt⟩
  | ⟨1, _⟩ => ⟨0, Nat.one_pos⟩
theorem val_main_v126_apply (x1 x2 : (⟨S1600000, .i32⟩ : BufTy).Contents (Elt F)) (i : S1600000x40.Idx) :
    val_main_v126 (F := F) x1 x2 i = val_main_v125 (F := F) x1 x2 (idx_main_v126 i) := by
  unfold val_main_v126
  generalize val_main_v125 (F := F) x1 x2 = y
  exact broadcastInDim_apply _ bcast_S1600000x1_S1600000x40_0_1 y i (idx_main_v126 i) (fun a => match a with
    | ⟨0, _⟩ => by show (i 0).val = if (1600000 : Nat) = 1 then 0 else (i 0).val; rw [if_neg (by decide)]
    | ⟨1, _⟩ => by show 0 = if (1 : Nat) = 1 then 0 else (i 1).val; rw [if_pos rfl])

-- %127 = stablehlo.multiply %124, %126 : tensor<1600000x40xf32>
theorem val_main_v127_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) (i : S1600000x40.Idx) :
    val_main_v127 (F := F) x0 x1 x2 x3 x4 x5 x6 x7 x9 x10 x11 x12 i = FloatOps.mulf (val_main_v124 (F := F) x0 x1 x2 x3 x4 x5 x6 x7 x9 x10 x11 x12 i) (val_main_v126 (F := F) x1 x2 i) := rfl

-- %cst_23 = stablehlo.constant dense<0.000000e+00> : tensor<f32>
theorem val_main_cst_23_apply (i : S_.Idx) :
    val_main_cst_23 (F := F) i = FloatOps.ofBits .f32 0x00000000#32 := rfl

-- %128 = stablehlo.broadcast_in_dim %cst_23, dims = [] : (tensor<f32>) -> tensor<100000x40xf32>
abbrev idx_main_v128 (i : S100000x40.Idx) : S_.Idx := fun a => a.elim0
theorem val_main_v128_apply (i : S100000x40.Idx) :
    val_main_v128 (F := F) i = val_main_cst_23 (F := F) (idx_main_v128 i) := by
  unfold val_main_v128
  generalize val_main_cst_23 (F := F) = y
  exact broadcastInDim_apply _ bcast_S_S100000x40 y i (idx_main_v128 i) (fun a => a.elim0)

-- %129 = stablehlo.broadcast_in_dim %arg2, dims = [0] : (tensor<1600000xi32>) -> tensor<1600000x1xi32>
abbrev idx_main_v129 (i : S1600000x1.Idx) : S1600000.Idx := fun a => match a with
  | ⟨0, _⟩ => ⟨(i 0).val, (i 0).isLt⟩
theorem val_main_v129_apply (x2 : (⟨S1600000, .i32⟩ : BufTy).Contents (Elt F)) (i : S1600000x1.Idx) :
    val_main_v129 (F := F) x2 i = x2 (idx_main_v129 i) := by
  unfold val_main_v129
  exact broadcastInDim_apply _ bcast_S1600000_S1600000x1_0 x2 i (idx_main_v129 i) (fun a => match a with
    | ⟨0, _⟩ => by show (i 0).val = if (1600000 : Nat) = 1 then 0 else (i 0).val; rw [if_neg (by decide)])

-- %130 = "stablehlo.scatter"(%128, %129, %127) <{indices_are_sorted = false, scatter_dimension_numbers = #stablehlo.scatter<update_window_dims = [1], inserted_window_dims = [0], scatter_dims_to_operand_dims = [0], index_vector_dim = 1>, unique_indices = false}> ( {

-- %131 = stablehlo.broadcast_in_dim %22, dims = [0] : (tensor<100000xf32>) -> tensor<100000x1xf32>
abbrev idx_main_v131 (i : S100000x1.Idx) : S100000.Idx := fun a => match a with
  | ⟨0, _⟩ => ⟨(i 0).val, (i 0).isLt⟩
theorem val_main_v131_apply (x2 : (⟨S1600000, .i32⟩ : BufTy).Contents (Elt F)) (i : S100000x1.Idx) :
    val_main_v131 (F := F) x2 i = val_main_v22 (F := F) x2 (idx_main_v131 i) := by
  unfold val_main_v131
  generalize val_main_v22 (F := F) x2 = y
  exact broadcastInDim_apply _ bcast_S100000_S100000x1_0 y i (idx_main_v131 i) (fun a => match a with
    | ⟨0, _⟩ => by show (i 0).val = if (100000 : Nat) = 1 then 0 else (i 0).val; rw [if_neg (by decide)])

-- %132 = stablehlo.broadcast_in_dim %131, dims = [0, 1] : (tensor<100000x1xf32>) -> tensor<100000x40xf32>
abbrev idx_main_v132 (i : S100000x40.Idx) : S100000x1.Idx := fun a => match a with
  | ⟨0, _⟩ => ⟨(i 0).val, (i 0).isLt⟩
  | ⟨1, _⟩ => ⟨0, Nat.one_pos⟩
theorem val_main_v132_apply (x2 : (⟨S1600000, .i32⟩ : BufTy).Contents (Elt F)) (i : S100000x40.Idx) :
    val_main_v132 (F := F) x2 i = val_main_v131 (F := F) x2 (idx_main_v132 i) := by
  unfold val_main_v132
  generalize val_main_v131 (F := F) x2 = y
  exact broadcastInDim_apply _ bcast_S100000x1_S100000x40_0_1 y i (idx_main_v132 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

-- %133 = stablehlo.multiply %117, %132 : tensor<100000x40xf32>
theorem val_main_v133_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) (i : S100000x40.Idx) :
    val_main_v133 (F := F) x0 x1 x2 x3 x4 x5 x6 x7 x9 x10 x11 x12 i = FloatOps.mulf (val_main_v117 (F := F) x0 x1 x2 x3 x4 x5 x6 x7 x9 x10 x11 x12 i) (val_main_v132 (F := F) x2 i) := rfl

-- %134 = stablehlo.add %130, %133 : tensor<100000x40xf32>
theorem val_main_v134_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x9 x10 x11 x12 : (⟨S128, .f32⟩ : BufTy).Contents (Elt F)) (i : S100000x40.Idx) :
    val_main_v134 (F := F) x0 x1 x2 x3 x4 x5 x6 x7 x9 x10 x11 x12 i = FloatOps.addf (val_main_v130 (F := F) x0 x1 x2 x3 x4 x5 x6 x7 x9 x10 x11 x12 i) (val_main_v133 (F := F) x0 x1 x2 x3 x4 x5 x6 x7 x9 x10 x11 x12 i) := rfl

-- %135 = stablehlo.broadcast_in_dim %arg8, dims = [1] : (tensor<40xf32>) -> tensor<1x40xf32>
abbrev idx_main_v135 (i : S1x40.Idx) : S40.Idx := fun a => match a with
  | ⟨0, _⟩ => ⟨(i 1).val, (i 1).isLt⟩
theorem val_main_v135_apply (x8 : (⟨S40, .f32⟩ : BufTy).Contents (Elt F)) (i : S1x40.Idx) :
    val_main_v135 (F := F) x8 i = x8 (idx_main_v135 i) := by
  unfold val_main_v135
  exact broadcastInDim_apply _ bcast_S40_S1x40_1 x8 i (idx_main_v135 i) (fun a => match a with
    | ⟨0, _⟩ => by show (i 1).val = if (40 : Nat) = 1 then 0 else (i 1).val; rw [if_neg (by decide)])

-- %136 = stablehlo.broadcast_in_dim %135, dims = [0, 1] : (tensor<1x40xf32>) -> tensor<100000x40xf32>
abbrev idx_main_v136 (i : S100000x40.Idx) : S1x40.Idx := fun a => match a with
  | ⟨0, _⟩ => ⟨0, Nat.one_pos⟩
  | ⟨1, _⟩ => ⟨(i 1).val, (i 1).isLt⟩
theorem val_main_v136_apply (x8 : (⟨S40, .f32⟩ : BufTy).Contents (Elt F)) (i : S100000x40.Idx) :
    val_main_v136 (F := F) x8 i = val_main_v135 (F := F) x8 (idx_main_v136 i) := by
  unfold val_main_v136
  generalize val_main_v135 (F := F) x8 = y
  exact broadcastInDim_apply _ bcast_S1x40_S100000x40_0_1 y i (idx_main_v136 i) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])

-- %137 = stablehlo.add %134, %136 : tensor<100000x40xf32>
theorem val_main_v137_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x40.Idx) :
    val_main_v137 (F := F) x0 x1 x2 x3 x4 x5 x6 x7 x8 x9 x10 x11 x12 i = FloatOps.addf (val_main_v134 (F := F) x0 x1 x2 x3 x4 x5 x6 x7 x9 x10 x11 x12 i) (val_main_v136 (F := F) x8 i) := rfl

-- @log_softmax's %cst = stablehlo.constant dense<0xFF800000> : tensor<f32>, in %138 = func.call @log_softmax(…) (record main_call2)
theorem val_main_call2_cst_apply (i : S_.Idx) :
    val_main_call2_cst (F := F) i = FloatOps.ofBits .f32 0xFF800000#32 := rfl

-- @log_softmax's %0 = stablehlo.reduce(%arg0 init: %cst) applies stablehlo.maximum across dimensions = [1] : (tensor<100000x40xf32>, tensor<f32>) -> tensor<100000xf32> {, in %138 = func.call @log_softmax(…) (record main_call2)

-- @log_softmax's %cst_0 = stablehlo.constant dense<0xFF800000> : tensor<f32>, in %138 = func.call @log_softmax(…) (record main_call2)
theorem val_main_call2_cst_0_apply (i : S_.Idx) :
    val_main_call2_cst_0 (F := F) i = FloatOps.ofBits .f32 0xFF800000#32 := rfl

-- @log_softmax's %1 = stablehlo.broadcast_in_dim %cst_0, dims = [] : (tensor<f32>) -> tensor<100000xf32>, in %138 = func.call @log_softmax(…) (record main_call2)
abbrev idx_main_call2_v1 (i : S100000.Idx) : S_.Idx := fun a => a.elim0
theorem val_main_call2_v1_apply (i : S100000.Idx) :
    val_main_call2_v1 (F := F) i = val_main_call2_cst_0 (F := F) (idx_main_call2_v1 i) := by
  unfold val_main_call2_v1
  generalize val_main_call2_cst_0 (F := F) = y
  exact broadcastInDim_apply _ bcast_S_S100000 y i (idx_main_call2_v1 i) (fun a => a.elim0)

-- @log_softmax's %2 = stablehlo.maximum %1, %0 : tensor<100000xf32>, in %138 = func.call @log_softmax(…) (record main_call2)
theorem val_main_call2_v2_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000.Idx) :
    val_main_call2_v2 (F := F) x0 x1 x2 x3 x4 x5 x6 x7 x8 x9 x10 x11 x12 i = FloatOps.maximumf (val_main_call2_v1 (F := F) i) (val_main_call2_v0 (F := F) x0 x1 x2 x3 x4 x5 x6 x7 x8 x9 x10 x11 x12 i) := rfl

-- @log_softmax's %3 = stablehlo.broadcast_in_dim %2, dims = [0] : (tensor<100000xf32>) -> tensor<100000x1xf32>, in %138 = func.call @log_softmax(…) (record main_call2)
abbrev idx_main_call2_v3 (i : S100000x1.Idx) : S100000.Idx := fun a => match a with
  | ⟨0, _⟩ => ⟨(i 0).val, (i 0).isLt⟩
theorem val_main_call2_v3_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x1.Idx) :
    val_main_call2_v3 (F := F) x0 x1 x2 x3 x4 x5 x6 x7 x8 x9 x10 x11 x12 i = val_main_call2_v2 (F := F) x0 x1 x2 x3 x4 x5 x6 x7 x8 x9 x10 x11 x12 (idx_main_call2_v3 i) := by
  unfold val_main_call2_v3
  generalize val_main_call2_v2 (F := F) x0 x1 x2 x3 x4 x5 x6 x7 x8 x9 x10 x11 x12 = y
  exact broadcastInDim_apply _ bcast_S100000_S100000x1_0 y i (idx_main_call2_v3 i) (fun a => match a with
    | ⟨0, _⟩ => by show (i 0).val = if (100000 : Nat) = 1 then 0 else (i 0).val; rw [if_neg (by decide)])

-- @log_softmax's %4 = stablehlo.broadcast_in_dim %3, dims = [0, 1] : (tensor<100000x1xf32>) -> tensor<100000x40xf32>, in %138 = func.call @log_softmax(…) (record main_call2)
abbrev idx_main_call2_v4 (i : S100000x40.Idx) : S100000x1.Idx := fun a => match a with
  | ⟨0, _⟩ => ⟨(i 0).val, (i 0).isLt⟩
  | ⟨1, _⟩ => ⟨0, Nat.one_pos⟩
theorem val_main_call2_v4_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x40.Idx) :
    val_main_call2_v4 (F := F) x0 x1 x2 x3 x4 x5 x6 x7 x8 x9 x10 x11 x12 i = val_main_call2_v3 (F := F) x0 x1 x2 x3 x4 x5 x6 x7 x8 x9 x10 x11 x12 (idx_main_call2_v4 i) := by
  unfold val_main_call2_v4
  generalize val_main_call2_v3 (F := F) x0 x1 x2 x3 x4 x5 x6 x7 x8 x9 x10 x11 x12 = y
  exact broadcastInDim_apply _ bcast_S100000x1_S100000x40_0_1 y i (idx_main_call2_v4 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

-- @log_softmax's %5 = stablehlo.subtract %arg0, %4 : tensor<100000x40xf32>, in %138 = func.call @log_softmax(…) (record main_call2)
theorem val_main_call2_v5_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x40.Idx) :
    val_main_call2_v5 (F := F) x0 x1 x2 x3 x4 x5 x6 x7 x8 x9 x10 x11 x12 i = FloatOps.subf (val_main_v137 (F := F) x0 x1 x2 x3 x4 x5 x6 x7 x8 x9 x10 x11 x12 i) (val_main_call2_v4 (F := F) x0 x1 x2 x3 x4 x5 x6 x7 x8 x9 x10 x11 x12 i) := rfl

-- @log_softmax's %6 = stablehlo.exponential %5 : tensor<100000x40xf32>, in %138 = func.call @log_softmax(…) (record main_call2)
theorem val_main_call2_v6_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x40.Idx) :
    val_main_call2_v6 (F := F) x0 x1 x2 x3 x4 x5 x6 x7 x8 x9 x10 x11 x12 i = FloatOps.hostUnary .exp (val_main_call2_v5 (F := F) x0 x1 x2 x3 x4 x5 x6 x7 x8 x9 x10 x11 x12 i) := rfl

-- @log_softmax's %cst_1 = stablehlo.constant dense<0.000000e+00> : tensor<f32>, in %138 = func.call @log_softmax(…) (record main_call2)
theorem val_main_call2_cst_1_apply (i : S_.Idx) :
    val_main_call2_cst_1 (F := F) i = FloatOps.ofBits .f32 0x00000000#32 := rfl

-- @log_softmax's %7 = stablehlo.reduce(%6 init: %cst_1) applies stablehlo.add across dimensions = [1] : (tensor<100000x40xf32>, tensor<f32>) -> tensor<100000xf32> {, in %138 = func.call @log_softmax(…) (record main_call2)
abbrev idx_main_call2_v7 (i : S100000.Idx) (k : Fin 40) : S100000x40.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_call2_v7_apply (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x8 : (⟨S40, .f32⟩ : BufTy).Contents (Elt Ideal)) (x9 x10 x11 x12 : (⟨S128, .f32⟩ : BufTy).Contents (Elt Ideal)) (i : S100000.Idx) :
    val_main_call2_v7 (F := Ideal) x0 x1 x2 x3 x4 x5 x6 x7 x8 x9 x10 x11 x12 i = (val_main_call2_cst_1 (F := Ideal)) (Shape.Idx.first h_S_) + ∑ k : Fin 40, (val_main_call2_v6 (F := Ideal) x0 x1 x2 x3 x4 x5 x6 x7 x8 x9 x10 x11 x12) (idx_main_call2_v7 i k) := by
  unfold val_main_call2_v7
  generalize val_main_call2_v6 (F := Ideal) x0 x1 x2 x3 x4 x5 x6 x7 x8 x9 x10 x11 x12 = y0
  simp only [Host.reduceAdd, Ideal.hostReduceAdd_def]
  rw [Ideal.hostReduceAdd_single reducesTo_S100000x40_S100000_d1 (by decide)]
  refine congrArg (_ + ·) (Finset.sum_congr rfl fun k _ => ?_)
  exact congrArg y0 (funext fun a => Fin.ext (by match a with | ⟨0, _⟩ => rfl | ⟨1, _⟩ => rfl))

-- @log_softmax's %8 = stablehlo.broadcast_in_dim %7, dims = [0] : (tensor<100000xf32>) -> tensor<100000x1xf32>, in %138 = func.call @log_softmax(…) (record main_call2)
abbrev idx_main_call2_v8 (i : S100000x1.Idx) : S100000.Idx := fun a => match a with
  | ⟨0, _⟩ => ⟨(i 0).val, (i 0).isLt⟩
theorem val_main_call2_v8_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x1.Idx) :
    val_main_call2_v8 (F := F) x0 x1 x2 x3 x4 x5 x6 x7 x8 x9 x10 x11 x12 i = val_main_call2_v7 (F := F) x0 x1 x2 x3 x4 x5 x6 x7 x8 x9 x10 x11 x12 (idx_main_call2_v8 i) := by
  unfold val_main_call2_v8
  generalize val_main_call2_v7 (F := F) x0 x1 x2 x3 x4 x5 x6 x7 x8 x9 x10 x11 x12 = y
  exact broadcastInDim_apply _ bcast_S100000_S100000x1_0 y i (idx_main_call2_v8 i) (fun a => match a with
    | ⟨0, _⟩ => by show (i 0).val = if (100000 : Nat) = 1 then 0 else (i 0).val; rw [if_neg (by decide)])

-- @log_softmax's %9 = stablehlo.log %8 : tensor<100000x1xf32>, in %138 = func.call @log_softmax(…) (record main_call2)
theorem val_main_call2_v9_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x1.Idx) :
    val_main_call2_v9 (F := F) x0 x1 x2 x3 x4 x5 x6 x7 x8 x9 x10 x11 x12 i = FloatOps.hostUnary .log (val_main_call2_v8 (F := F) x0 x1 x2 x3 x4 x5 x6 x7 x8 x9 x10 x11 x12 i) := rfl

-- @log_softmax's %10 = stablehlo.broadcast_in_dim %9, dims = [0, 1] : (tensor<100000x1xf32>) -> tensor<100000x40xf32>, in %138 = func.call @log_softmax(…) (record main_call2)
abbrev idx_main_call2_v10 (i : S100000x40.Idx) : S100000x1.Idx := fun a => match a with
  | ⟨0, _⟩ => ⟨(i 0).val, (i 0).isLt⟩
  | ⟨1, _⟩ => ⟨0, Nat.one_pos⟩
theorem val_main_call2_v10_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x40.Idx) :
    val_main_call2_v10 (F := F) x0 x1 x2 x3 x4 x5 x6 x7 x8 x9 x10 x11 x12 i = val_main_call2_v9 (F := F) x0 x1 x2 x3 x4 x5 x6 x7 x8 x9 x10 x11 x12 (idx_main_call2_v10 i) := by
  unfold val_main_call2_v10
  generalize val_main_call2_v9 (F := F) x0 x1 x2 x3 x4 x5 x6 x7 x8 x9 x10 x11 x12 = y
  exact broadcastInDim_apply _ bcast_S100000x1_S100000x40_0_1 y i (idx_main_call2_v10 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

-- %138 = func.call @log_softmax(…) (record main_call2) result 0: @log_softmax's %11 = stablehlo.subtract %5, %10 : tensor<100000x40xf32>
theorem val_main_v138_apply (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x40, .f32⟩ : BufTy).Contents (Elt F)) (x8 : (⟨S40, .f32⟩ : BufTy).Contents (Elt F)) (x9 x10 x11 x12 : (⟨S128, .f32⟩ : BufTy).Contents (Elt F)) (i : S100000x40.Idx) :
    val_main_v138 (F := F) x0 x1 x2 x3 x4 x5 x6 x7 x8 x9 x10 x11 x12 i = FloatOps.subf (val_main_call2_v5 (F := F) x0 x1 x2 x3 x4 x5 x6 x7 x8 x9 x10 x11 x12 i) (val_main_call2_v10 (F := F) x0 x1 x2 x3 x4 x5 x6 x7 x8 x9 x10 x11 x12 i) := rfl

end Ref

end
-- ==== Proof.RefMm.lean ====
import proofs.«139699_j335007449371_2_alg».proof.Proof.RefRead
import proofs.«139699_j335007449371_2_alg».proof.Proof.GcnSpec

/-!
  The three matrix products of the reference program, read at row `r` and column `c`: each is `Gcn.mm` of its
  left operand's entries and the weight matrix's entries.
-/

open scoped BigOperators
open Cert.ReferenceIdeal Cert.ReferenceIdeal.Gen Idealize.ShloMosaic Idealize.ShloMosaic.ValueIdx Idealize.ShloMosaic.StableHlo

noncomputable section

namespace Ref

/-- The matrix product `v23` at `(r, c)`. -/
theorem mm_v23 (x0 : (⟨S100000x128, .f32⟩ : BufTy).Contents (Elt Ideal)) (x3 : (⟨S128x128, .f32⟩ : BufTy).Contents (Elt Ideal)) (r : Fin 100000) (c : Fin 128) :
    val_main_v23 (F := Ideal) x0 x3 (ix2 r c) = Gcn.mm (fun r k => x0 (ix2 r k)) (fun k j => x3 (ix2 k j)) r c := by
  rw [val_main_v23_apply]
  unfold Gcn.mm
  refine Finset.sum_congr rfl fun k _ => ?_
  have el : lidx_main_v23 (ix2 r c) k = ix2 r k := by
    funext a
    match a with
    | ⟨0, _⟩ => rfl
    | ⟨1, _⟩ => rfl
  have er : ridx_main_v23 (ix2 r c) k = ix2 k c := by
    funext a
    match a with
    | ⟨0, _⟩ => rfl
    | ⟨1, _⟩ => rfl
  rw [el, er]

/-- The matrix product `v70` at `(r, c)`. -/
theorem mm_v70 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x9 x10 : (⟨S128, .f32⟩ : BufTy).Contents (Elt Ideal)) (r : Fin 100000) (c : Fin 128) :
    val_main_v70 (F := Ideal) x0 x1 x2 x3 x4 x5 x9 x10 (ix2 r c) = Gcn.mm (fun r k => (val_main_v69 (F := Ideal) x0 x1 x2 x3 x4 x9 x10) (ix2 r k)) (fun k j => x5 (ix2 k j)) r c := by
  rw [val_main_v70_apply]
  unfold Gcn.mm
  refine Finset.sum_congr rfl fun k _ => ?_
  have el : lidx_main_v70 (ix2 r c) k = ix2 r k := by
    funext a
    match a with
    | ⟨0, _⟩ => rfl
    | ⟨1, _⟩ => rfl
  have er : ridx_main_v70 (ix2 r c) k = ix2 k c := by
    funext a
    match a with
    | ⟨0, _⟩ => rfl
    | ⟨1, _⟩ => rfl
  rw [el, er]

/-- The matrix product `v117` at `(r, c)`. -/
theorem mm_v117 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x9 x10 x11 x12 : (⟨S128, .f32⟩ : BufTy).Contents (Elt Ideal)) (r : Fin 100000) (c : Fin 40) :
    val_main_v117 (F := Ideal) x0 x1 x2 x3 x4 x5 x6 x7 x9 x10 x11 x12 (ix2 r c) = Gcn.mm (fun r k => (val_main_v116 (F := Ideal) x0 x1 x2 x3 x4 x5 x6 x9 x10 x11 x12) (ix2 r k)) (fun k j => x7 (ix2 k j)) r c := by
  rw [val_main_v117_apply]
  unfold Gcn.mm
  refine Finset.sum_congr rfl fun k _ => ?_
  have el : lidx_main_v117 (ix2 r c) k = ix2 r k := by
    funext a
    match a with
    | ⟨0, _⟩ => rfl
    | ⟨1, _⟩ => rfl
  have er : ridx_main_v117 (ix2 r c) k = ix2 k c := by
    funext a
    match a with
    | ⟨0, _⟩ => rfl
    | ⟨1, _⟩ => rfl
  rw [el, er]

end Ref

end
-- ==== Proof.RefAct.lean ====
import proofs.«139699_j335007449371_2_alg».proof.Proof.RefRead
import proofs.«139699_j335007449371_2_alg».proof.Proof.GcnSpec

/-!
  The two normalise-and-rectify stages of the reference program. Each feature's mean and biased variance over the
  nodes are the program's two column sums divided by the node count; the stage at `(r, k)` is `Gcn.act` of the
  array it is applied to.
-/

open scoped BigOperators
open Cert.ReferenceIdeal Cert.ReferenceIdeal.Gen Idealize.ShloMosaic Idealize.ShloMosaic.ValueIdx Idealize.ShloMosaic.StableHlo

noncomputable section

namespace Ref

/-- Feature `k`'s mean over the nodes, layer 0. -/
theorem mean_0 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (k : Fin 128) :
    val_main_v46 (F := Ideal) x0 x1 x2 x3 x4 (ix1 k) = Gcn.mean (fun r k => val_main_v43 (F := Ideal) x0 x1 x2 x3 x4 (ix2 r k)) k := by
  have e : ∀ r : Fin 100000, idx_main_v44 (ix1 k) r = ix2 r k := by
    intro r
    funext a
    match a with
    | ⟨0, _⟩ => rfl
    | ⟨1, _⟩ => rfl
  have hs : (∑ r : Fin 100000, (val_main_v43 (F := Ideal) x0 x1 x2 x3 x4) (idx_main_v44 (ix1 k) r))
      = ∑ r : Fin 100000, (val_main_v43 (F := Ideal) x0 x1 x2 x3 x4) (ix2 r k) :=
    Finset.sum_congr rfl fun r _ => by rw [e r]
  rw [val_main_v46_apply, val_main_v44_apply, val_main_v45_apply, val_main_cst_9_apply, val_main_cst_8_apply, hs]
  all_goals rfl

/-- Feature `k`'s biased variance over the nodes, layer 0. -/
theorem var_0 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (k : Fin 128) :
    val_main_v53 (F := Ideal) x0 x1 x2 x3 x4 (ix1 k) = Gcn.var (fun r k => val_main_v43 (F := Ideal) x0 x1 x2 x3 x4 (ix2 r k)) k := by
  have e : ∀ r : Fin 100000, idx_main_v51 (ix1 k) r = ix2 r k := by
    intro r
    funext a
    match a with
    | ⟨0, _⟩ => rfl
    | ⟨1, _⟩ => rfl
  have e2 : ∀ r : Fin 100000, idx_main_v47 (idx_main_v48 (ix2 r k)) = ix1 k := by
    intro r
    funext a
    match a with
    | ⟨0, _⟩ => rfl
  have hq : ∀ r : Fin 100000, val_main_v50 (F := Ideal) x0 x1 x2 x3 x4 (ix2 r k)
      = (val_main_v43 (F := Ideal) x0 x1 x2 x3 x4 (ix2 r k) - Gcn.mean (fun r k => val_main_v43 (F := Ideal) x0 x1 x2 x3 x4 (ix2 r k)) k) * (val_main_v43 (F := Ideal) x0 x1 x2 x3 x4 (ix2 r k) - Gcn.mean (fun r k => val_main_v43 (F := Ideal) x0 x1 x2 x3 x4 (ix2 r k)) k) := by
    intro r
    rw [val_main_v50_apply, val_main_v49_apply, val_main_v48_apply, val_main_v47_apply, e2 r, mean_0]
    all_goals rfl
  have hs : (∑ r : Fin 100000, (val_main_v50 (F := Ideal) x0 x1 x2 x3 x4) (idx_main_v51 (ix1 k) r))
      = ∑ r : Fin 100000, (val_main_v43 (F := Ideal) x0 x1 x2 x3 x4 (ix2 r k) - Gcn.mean (fun r k => val_main_v43 (F := Ideal) x0 x1 x2 x3 x4 (ix2 r k)) k) * (val_main_v43 (F := Ideal) x0 x1 x2 x3 x4 (ix2 r k) - Gcn.mean (fun r k => val_main_v43 (F := Ideal) x0 x1 x2 x3 x4 (ix2 r k)) k) :=
    Finset.sum_congr rfl fun r _ => by rw [e r, hq r]
  rw [val_main_v53_apply, val_main_v51_apply, val_main_v52_apply, val_main_cst_11_apply, val_main_cst_10_apply, hs]
  all_goals rfl

/-- Normalise, scale, shift, rectify: layer 0's activation at `(r, k)`. -/
theorem act_0 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x9 x10 : (⟨S128, .f32⟩ : BufTy).Contents (Elt Ideal)) (r : Fin 100000) (k : Fin 128) :
    val_main_v69 (F := Ideal) x0 x1 x2 x3 x4 x9 x10 (ix2 r k)
      = Gcn.act (fun r k => val_main_v43 (F := Ideal) x0 x1 x2 x3 x4 (ix2 r k)) (fun j => x9 (ix1 j)) (fun j => x10 (ix1 j)) r k := by
  have e1 : idx_main_v54 (idx_main_v55 (ix2 r k)) = ix1 k := by
    funext a
    match a with
    | ⟨0, _⟩ => rfl
  have e2 : idx_main_v60 (idx_main_v61 (ix2 r k)) = ix1 k := by
    funext a
    match a with
    | ⟨0, _⟩ => rfl
  have e3 : idx_main_v63 (idx_main_v64 (ix2 r k)) = ix1 k := by
    funext a
    match a with
    | ⟨0, _⟩ => rfl
  have e4 : idx_main_v66 (idx_main_v67 (ix2 r k)) = ix1 k := by
    funext a
    match a with
    | ⟨0, _⟩ => rfl
  rw [val_main_v69_apply, val_main_v68_apply, val_main_v65_apply, val_main_v62_apply, val_main_v56_apply, val_main_v55_apply, val_main_v54_apply, e1, mean_0,
    val_main_v61_apply, val_main_v60_apply, e2, val_main_v59_apply, val_main_v58_apply, var_0, val_main_v57_apply, val_main_cst_12_apply,
    val_main_v64_apply, val_main_v63_apply, e3, val_main_v67_apply, val_main_v66_apply, e4, val_main_call0_v0_apply, val_main_call0_cst_apply]
  all_goals rfl

/-- Feature `k`'s mean over the nodes, layer 1. -/
theorem mean_1 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x9 x10 : (⟨S128, .f32⟩ : BufTy).Contents (Elt Ideal)) (k : Fin 128) :
    val_main_v93 (F := Ideal) x0 x1 x2 x3 x4 x5 x6 x9 x10 (ix1 k) = Gcn.mean (fun r k => val_main_v90 (F := Ideal) x0 x1 x2 x3 x4 x5 x6 x9 x10 (ix2 r k)) k := by
  have e : ∀ r : Fin 100000, idx_main_v91 (ix1 k) r = ix2 r k := by
    intro r
    funext a
    match a with
    | ⟨0, _⟩ => rfl
    | ⟨1, _⟩ => rfl
  have hs : (∑ r : Fin 100000, (val_main_v90 (F := Ideal) x0 x1 x2 x3 x4 x5 x6 x9 x10) (idx_main_v91 (ix1 k) r))
      = ∑ r : Fin 100000, (val_main_v90 (F := Ideal) x0 x1 x2 x3 x4 x5 x6 x9 x10) (ix2 r k) :=
    Finset.sum_congr rfl fun r _ => by rw [e r]
  rw [val_main_v93_apply, val_main_v91_apply, val_main_v92_apply, val_main_cst_17_apply, val_main_cst_16_apply, hs]
  all_goals rfl

/-- Feature `k`'s biased variance over the nodes, layer 1. -/
theorem var_1 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x9 x10 : (⟨S128, .f32⟩ : BufTy).Contents (Elt Ideal)) (k : Fin 128) :
    val_main_v100 (F := Ideal) x0 x1 x2 x3 x4 x5 x6 x9 x10 (ix1 k) = Gcn.var (fun r k => val_main_v90 (F := Ideal) x0 x1 x2 x3 x4 x5 x6 x9 x10 (ix2 r k)) k := by
  have e : ∀ r : Fin 100000, idx_main_v98 (ix1 k) r = ix2 r k := by
    intro r
    funext a
    match a with
    | ⟨0, _⟩ => rfl
    | ⟨1, _⟩ => rfl
  have e2 : ∀ r : Fin 100000, idx_main_v94 (idx_main_v95 (ix2 r k)) = ix1 k := by
    intro r
    funext a
    match a with
    | ⟨0, _⟩ => rfl
  have hq : ∀ r : Fin 100000, val_main_v97 (F := Ideal) x0 x1 x2 x3 x4 x5 x6 x9 x10 (ix2 r k)
      = (val_main_v90 (F := Ideal) x0 x1 x2 x3 x4 x5 x6 x9 x10 (ix2 r k) - Gcn.mean (fun r k => val_main_v90 (F := Ideal) x0 x1 x2 x3 x4 x5 x6 x9 x10 (ix2 r k)) k) * (val_main_v90 (F := Ideal) x0 x1 x2 x3 x4 x5 x6 x9 x10 (ix2 r k) - Gcn.mean (fun r k => val_main_v90 (F := Ideal) x0 x1 x2 x3 x4 x5 x6 x9 x10 (ix2 r k)) k) := by
    intro r
    rw [val_main_v97_apply, val_main_v96_apply, val_main_v95_apply, val_main_v94_apply, e2 r, mean_1]
    all_goals rfl
  have hs : (∑ r : Fin 100000, (val_main_v97 (F := Ideal) x0 x1 x2 x3 x4 x5 x6 x9 x10) (idx_main_v98 (ix1 k) r))
      = ∑ r : Fin 100000, (val_main_v90 (F := Ideal) x0 x1 x2 x3 x4 x5 x6 x9 x10 (ix2 r k) - Gcn.mean (fun r k => val_main_v90 (F := Ideal) x0 x1 x2 x3 x4 x5 x6 x9 x10 (ix2 r k)) k) * (val_main_v90 (F := Ideal) x0 x1 x2 x3 x4 x5 x6 x9 x10 (ix2 r k) - Gcn.mean (fun r k => val_main_v90 (F := Ideal) x0 x1 x2 x3 x4 x5 x6 x9 x10 (ix2 r k)) k) :=
    Finset.sum_congr rfl fun r _ => by rw [e r, hq r]
  rw [val_main_v100_apply, val_main_v98_apply, val_main_v99_apply, val_main_cst_19_apply, val_main_cst_18_apply, hs]
  all_goals rfl

/-- Normalise, scale, shift, rectify: layer 1's activation at `(r, k)`. -/
theorem act_1 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x9 x10 x11 x12 : (⟨S128, .f32⟩ : BufTy).Contents (Elt Ideal)) (r : Fin 100000) (k : Fin 128) :
    val_main_v116 (F := Ideal) x0 x1 x2 x3 x4 x5 x6 x9 x10 x11 x12 (ix2 r k)
      = Gcn.act (fun r k => val_main_v90 (F := Ideal) x0 x1 x2 x3 x4 x5 x6 x9 x10 (ix2 r k)) (fun j => x11 (ix1 j)) (fun j => x12 (ix1 j)) r k := by
  have e1 : idx_main_v101 (idx_main_v102 (ix2 r k)) = ix1 k := by
    funext a
    match a with
    | ⟨0, _⟩ => rfl
  have e2 : idx_main_v107 (idx_main_v108 (ix2 r k)) = ix1 k := by
    funext a
    match a with
    | ⟨0, _⟩ => rfl
  have e3 : idx_main_v110 (idx_main_v111 (ix2 r k)) = ix1 k := by
    funext a
    match a with
    | ⟨0, _⟩ => rfl
  have e4 : idx_main_v113 (idx_main_v114 (ix2 r k)) = ix1 k := by
    funext a
    match a with
    | ⟨0, _⟩ => rfl
  rw [val_main_v116_apply, val_main_v115_apply, val_main_v112_apply, val_main_v109_apply, val_main_v103_apply, val_main_v102_apply, val_main_v101_apply, e1, mean_1,
    val_main_v108_apply, val_main_v107_apply, e2, val_main_v106_apply, val_main_v105_apply, var_1, val_main_v104_apply, val_main_cst_20_apply,
    val_main_v111_apply, val_main_v110_apply, e3, val_main_v114_apply, val_main_v113_apply, e4, val_main_call1_v0_apply, val_main_call1_cst_apply]
  all_goals rfl

end Ref

end
-- ==== Proof.RefGather.lean ====
import proofs.«139699_j335007449371_2_alg».proof.Proof.LibGatherRows
import proofs.«139699_j335007449371_2_alg».proof.Proof.GcnSpec

/-!
  The two row gathers of the reference program with the row number named: when the index word of edge `e` is `w`,
  the gather reads its operand at the row `Gcn.rowOf w` (the word read signed and clamped into the node range).
-/

open Idealize.ShloMosaic Idealize.ShloMosaic.ValueIdx

namespace Ref

/-- A gather of single entries of a vector over the nodes. -/
theorem gather1_row {α : Type} {E : Nat} (d : GatherDims ⟨1, ![100000]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![100000]⟩ : Shape).Idx → α) (idx : IVec ⟨2, ![E, 1]⟩ 32) (e : Fin E) (w : BitVec 32)
    (hw : idx (ix2 e 0) = w) :
    Host.gather d x idx (ix1 e) = x (ix1 (Gcn.rowOf w)) := by
  subst hw
  exact GatherRows.gather_rows1 d (by decide) hod hcd hob hsm hiv hss x idx e

/-- A gather of whole rows of a matrix over the nodes. -/
theorem gather2_row {α : Type} {E J : Nat} (d : GatherDims ⟨2, ![100000, J]⟩ ⟨2, ![E, 1]⟩ ⟨2, ![E, J]⟩)
    (hod : d.offsetDims = [1]) (hcd : d.collapsedSliceDims = [0]) (hob : d.operandBatchingDims = [])
    (hsm : d.startIndexMap = [0]) (hiv : d.indexVectorDim = 1) (hss : d.sliceSizes = ![1, J])
    (x : (⟨2, ![100000, J]⟩ : Shape).Idx → α) (idx : IVec ⟨2, ![E, 1]⟩ 32) (e : Fin E) (c : Fin J) (w : BitVec 32)
    (hw : idx (ix2 e 0) = w) :
    Host.gather d x idx (ix2 e c) = x (ix2 (Gcn.rowOf w) c) := by
  subst hw
  exact GatherRows.gather_rows2 d (by decide) hod hcd hob hsm hiv hss x idx e c

end Ref
-- ==== Proof.RefWrap.lean ====
import proofs.«139699_j335007449371_2_alg».proof.Proof.RefRead
import proofs.«139699_j335007449371_2_alg».proof.Proof.GcnSpec

/-!
  The index words before a row gather: a negative word counts from the end. Each select-compare-add chain of the
  reference program, read at an edge, is `Gcn.wrapIdx` of the word it starts from.
-/

open scoped BigOperators
open Cert.ReferenceIdeal Cert.ReferenceIdeal.Gen Idealize.ShloMosaic Idealize.ShloMosaic.ValueIdx Idealize.ShloMosaic.StableHlo

noncomputable section

namespace Ref

/-- The wrapped index word `v11` at edge `e`. -/
theorem wrap_v11 (x1 : (⟨S1600000, .i32⟩ : BufTy).Contents (Elt Ideal)) (e : Fin 1600000) :
    val_main_v11 (F := Ideal) x1 (ix1 e) = Gcn.wrapIdx (x1 (ix1 e)) := by
  rw [val_main_v11_apply, val_main_v8_apply, val_main_v10_apply, val_main_v7_apply, val_main_v9_apply, val_main_c_apply, val_main_c_2_apply]
  rfl

/-- The wrapped index word `v18` at edge `e`. -/
theorem wrap_v18 (x2 : (⟨S1600000, .i32⟩ : BufTy).Contents (Elt Ideal)) (e : Fin 1600000) :
    val_main_v18 (F := Ideal) x2 (ix1 e) = Gcn.wrapIdx (x2 (ix1 e)) := by
  rw [val_main_v18_apply, val_main_v15_apply, val_main_v17_apply, val_main_v14_apply, val_main_v16_apply, val_main_c_3_apply, val_main_c_4_apply]
  rfl

/-- The wrapped index word `v28` at edge `e`. -/
theorem wrap_v28 (x1 : (⟨S1600000, .i32⟩ : BufTy).Contents (Elt Ideal)) (e : Fin 1600000) :
    val_main_v28 (F := Ideal) x1 (ix1 e) = Gcn.wrapIdx (x1 (ix1 e)) := by
  rw [val_main_v28_apply, val_main_v25_apply, val_main_v27_apply, val_main_v24_apply, val_main_v26_apply, val_main_c_5_apply, val_main_c_6_apply]
  rfl

/-- The wrapped index word `v75` at edge `e`. -/
theorem wrap_v75 (x1 : (⟨S1600000, .i32⟩ : BufTy).Contents (Elt Ideal)) (e : Fin 1600000) :
    val_main_v75 (F := Ideal) x1 (ix1 e) = Gcn.wrapIdx (x1 (ix1 e)) := by
  rw [val_main_v75_apply, val_main_v72_apply, val_main_v74_apply, val_main_v71_apply, val_main_v73_apply, val_main_c_13_apply, val_main_c_14_apply]
  rfl

/-- The wrapped index word `v122` at edge `e`. -/
theorem wrap_v122 (x1 : (⟨S1600000, .i32⟩ : BufTy).Contents (Elt Ideal)) (e : Fin 1600000) :
    val_main_v122 (F := Ideal) x1 (ix1 e) = Gcn.wrapIdx (x1 (ix1 e)) := by
  rw [val_main_v122_apply, val_main_v119_apply, val_main_v121_apply, val_main_v118_apply, val_main_v120_apply, val_main_c_21_apply, val_main_c_22_apply]
  rfl

end Ref

end
-- ==== Proof.RefDis.lean ====
import proofs.«139699_j335007449371_2_alg».proof.Proof.RefRead
import proofs.«139699_j335007449371_2_alg».proof.Proof.GcnSpec
import proofs.«139699_j335007449371_2_alg».proof.Proof.LibScatter1

/-!
  The degree vector of the reference program. The accumulating scatter of a one per edge onto a zero vector counts,
  at node `r`, the edges whose destination word read signed is `r`; one more for the self loop and the reciprocal
  square root give `Gcn.dis`.
-/

open scoped BigOperators
open Cert.ReferenceIdeal Cert.ReferenceIdeal.Gen Idealize.ShloMosaic Idealize.ShloMosaic.ValueIdx Idealize.ShloMosaic.StableHlo

noncomputable section

namespace Ref

/-- At the ideal values the host's accumulating scatter is the sum form of the scatter. -/
theorem hostScatterAdd_eq {s si su : Shape} {w : Nat} (d : ScatterDims s si su) (x : FVec Ideal s .f32)
    (idx : IVec si w) (u : FVec Ideal su .f32) :
    Host.scatterAdd (F := Ideal) (φ := .f32) d x idx u = Ideal.hostScatterAdd d x idx u := rfl

/-- The degree count is the scatter of the ones onto the zeros at the destination words. -/
theorem v3_def (x2 : (⟨S1600000, .i32⟩ : BufTy).Contents (Elt Ideal)) :
    val_main_v3 (F := Ideal) x2 = Host.scatterAdd (F := Ideal) (φ := .f32) scatter_S100000_S1600000x1_S1600000_n_0_0_1
      (val_main_v1 (F := Ideal)) (val_main_v2 (F := Ideal) x2) (val_main_v0 (F := Ideal)) := rfl

/-- The scatter onto a vector over the nodes at `n`, any operand and any column of index words. -/
theorem scatter1_rows (x : (⟨S100000, .f32⟩ : BufTy).Contents (Elt Ideal))
    (idx : (⟨S1600000x1, .i32⟩ : BufTy).Contents (Elt Ideal))
    (u : (⟨S1600000, .f32⟩ : BufTy).Contents (Elt Ideal)) (n : Fin 100000) :
    Ideal.hostScatterAdd scatter_S100000_S1600000x1_S1600000_n_0_0_1 x idx u (ix1 n)
      = x (ix1 n) + ∑ e ∈ Finset.univ.filter (fun e : Fin 1600000 => (idx (ix2 e 0)).toInt = (n.val : Int)), u (ix1 e) :=
  Scatter1.hostScatterAdd_rows1 scatter_S100000_S1600000x1_S1600000_n_0_0_1 rfl rfl rfl rfl x idx u n

/-- `deg r ^ (-1/2)` as the reference program computes it. -/
theorem dis_eq (x2 : (⟨S1600000, .i32⟩ : BufTy).Contents (Elt Ideal)) (r : Fin 100000) :
    val_main_v6 (F := Ideal) x2 (ix1 r) = Gcn.dis (fun e => x2 (ix1 e)) r := by
  have hidx : ∀ e : Fin 1600000, val_main_v2 (F := Ideal) x2 (ix2 e 0) = x2 (ix1 e) := by
    intro e
    rw [val_main_v2_apply]
    refine congrArg x2 ?_
    funext a
    match a with
    | ⟨0, _⟩ => rfl
  have hS : (Finset.univ.filter fun e : Fin 1600000 => ((val_main_v2 (F := Ideal) x2) (ix2 e 0)).toInt = (r.val : Int))
      = Gcn.lands (fun e => x2 (ix1 e)) r := by
    unfold Gcn.lands
    exact Finset.filter_congr fun e _ => by rw [hidx e]
  have hu : ∀ e : Fin 1600000, val_main_v0 (F := Ideal) (ix1 e) = Gcn.one := by
    intro e
    rw [val_main_v0_apply, val_main_cst_apply, Ideal.ofBits_def]
  rw [val_main_v6_apply, val_main_v5_apply, v3_def, hostScatterAdd_eq, scatter1_rows, hS, val_main_v4_apply,
    val_main_cst_1_apply, val_main_v1_apply, val_main_cst_0_apply]
  simp only [Ideal.hostUnary_rsqrt_def, Ideal.addf_def, Ideal.ofBits_def]
  unfold Gcn.dis
  refine congrArg Ideal.rsqrt (congrArg (_ + ·) (congrArg (_ + ·) (Finset.sum_congr rfl fun e _ => ?_)))
  exact hu e

end Ref

end
-- ==== Proof.RefNorm.lean ====
import proofs.«139699_j335007449371_2_alg».proof.Proof.RefRead
import proofs.«139699_j335007449371_2_alg».proof.Proof.GcnSpec
import proofs.«139699_j335007449371_2_alg».proof.Proof.RefGather
import proofs.«139699_j335007449371_2_alg».proof.Proof.RefWrap
import proofs.«139699_j335007449371_2_alg».proof.Proof.RefDis

/-!
  The two normalisation factors of the reference program: per edge, the product of `Gcn.dis` at the source row and
  at the destination row; per node, `Gcn.dis` squared.
-/

open scoped BigOperators
open Cert.ReferenceIdeal Cert.ReferenceIdeal.Gen Idealize.ShloMosaic Idealize.ShloMosaic.ValueIdx Idealize.ShloMosaic.StableHlo

noncomputable section

namespace Ref

/-- The edge factor `dis (src e) * dis (dst e)`. -/
theorem norm_eq (x1 x2 : (⟨S1600000, .i32⟩ : BufTy).Contents (Elt Ideal)) (e : Fin 1600000) :
    val_main_v21 (F := Ideal) x1 x2 (ix1 e)
      = (Gcn.dis (fun e => x2 (ix1 e))) (Gcn.rowOf (Gcn.wrapIdx (x1 (ix1 e)))) * (Gcn.dis (fun e => x2 (ix1 e))) (Gcn.rowOf (Gcn.wrapIdx (x2 (ix1 e)))) := by
  have i12 : idx_main_v12 (ix2 e 0) = ix1 e := by
    funext a
    match a with
    | ⟨0, _⟩ => rfl
  have i19 : idx_main_v19 (ix2 e 0) = ix1 e := by
    funext a
    match a with
    | ⟨0, _⟩ => rfl
  have w12 : val_main_v12 (F := Ideal) x1 (ix2 e 0) = Gcn.wrapIdx (x1 (ix1 e)) := by
    rw [val_main_v12_apply, i12, wrap_v11]
  have w19 : val_main_v19 (F := Ideal) x2 (ix2 e 0) = Gcn.wrapIdx (x2 (ix1 e)) := by
    rw [val_main_v19_apply, i19, wrap_v18]
  have d13 : val_main_v13 (F := Ideal) x1 x2
      = Host.gather gather_S100000_S1600000x1_S1600000_n_0_n_n_0_1_1 (val_main_v6 (F := Ideal) x2) (val_main_v12 (F := Ideal) x1) := rfl
  have d20 : val_main_v20 (F := Ideal) x2
      = Host.gather gather_S100000_S1600000x1_S1600000_n_0_n_n_0_1_1 (val_main_v6 (F := Ideal) x2) (val_main_v19 (F := Ideal) x2) := rfl
  have h13 : Host.gather gather_S100000_S1600000x1_S1600000_n_0_n_n_0_1_1 (val_main_v6 (F := Ideal) x2) (val_main_v12 (F := Ideal) x1) (ix1 e)
      = val_main_v6 (F := Ideal) x2 (ix1 (Gcn.rowOf (Gcn.wrapIdx (x1 (ix1 e))))) :=
    gather1_row gather_S100000_S1600000x1_S1600000_n_0_n_n_0_1_1 rfl rfl rfl rfl rfl rfl (val_main_v6 (F := Ideal) x2) (val_main_v12 (F := Ideal) x1) e _ w12
  have h20 : Host.gather gather_S100000_S1600000x1_S1600000_n_0_n_n_0_1_1 (val_main_v6 (F := Ideal) x2) (val_main_v19 (F := Ideal) x2) (ix1 e)
      = val_main_v6 (F := Ideal) x2 (ix1 (Gcn.rowOf (Gcn.wrapIdx (x2 (ix1 e))))) :=
    gather1_row gather_S100000_S1600000x1_S1600000_n_0_n_n_0_1_1 rfl rfl rfl rfl rfl rfl (val_main_v6 (F := Ideal) x2) (val_main_v19 (F := Ideal) x2) e _ w19
  rw [val_main_v21_apply, d13, d20, h13, h20, dis_eq, dis_eq, Ideal.mulf_def]

/-- The node factor `dis r * dis r`. -/
theorem self_eq (x2 : (⟨S1600000, .i32⟩ : BufTy).Contents (Elt Ideal)) (r : Fin 100000) :
    val_main_v22 (F := Ideal) x2 (ix1 r) = (Gcn.dis (fun e => x2 (ix1 e))) r * (Gcn.dis (fun e => x2 (ix1 e))) r := by
  rw [val_main_v22_apply, dis_eq, Ideal.mulf_def]

end Ref

end
-- ==== Proof.RefConv0.lean ====
import proofs.«139699_j335007449371_2_alg».proof.Proof.RefRead
import proofs.«139699_j335007449371_2_alg».proof.Proof.GcnSpec
import proofs.«139699_j335007449371_2_alg».proof.Proof.LibScatterRows
import proofs.«139699_j335007449371_2_alg».proof.Proof.RefGather
import proofs.«139699_j335007449371_2_alg».proof.Proof.RefWrap
import proofs.«139699_j335007449371_2_alg».proof.Proof.RefNorm

/-!
  Convolution 0 of the reference program is `Gcn.convIn` of the matrix product it is applied to, with the degree
  factor `Gcn.dis` of the destination words, the source and destination rows read off the wrapped and clamped
  index words, and the edges landing at a node those whose destination word read signed is the node.
-/

open scoped BigOperators
open Cert.ReferenceIdeal Cert.ReferenceIdeal.Gen Idealize.ShloMosaic Idealize.ShloMosaic.ValueIdx Idealize.ShloMosaic.StableHlo

noncomputable section

namespace Ref

/-- Convolution 0 of the reference program at `(r, c)`: the accumulating row scatter is the sum over the edges landing
    at `r`, each gathered source row scaled by the edge factor; then the node's own row scaled by the node factor,
    and the bias. -/
theorem conv_0 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (r : Fin 100000) (c : Fin 128) :
    val_main_v43 (F := Ideal) x0 x1 x2 x3 x4 (ix2 r c)
      = Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e)))
          (fun r c => val_main_v23 (F := Ideal) x0 x3 (ix2 r c)) (fun j => x4 (ix1 j)) r c := by
  have hidx : ∀ e : Fin 1600000, val_main_v35 (F := Ideal) x2 (ix2 e 0) = x2 (ix1 e) := by
    intro e
    rw [val_main_v35_apply]
    refine congrArg x2 ?_
    funext a
    match a with
    | ⟨0, _⟩ => rfl
  have hS : (Finset.univ.filter fun e : Fin 1600000 => ((val_main_v35 (F := Ideal) x2) (ix2 e 0)).toInt = (r.val : Int))
      = Gcn.lands (fun e => x2 (ix1 e)) r := by
    unfold Gcn.lands
    exact Finset.filter_congr fun e _ => by rw [hidx e]
  have hu : ∀ e : Fin 1600000, val_main_v33 (F := Ideal) x0 x1 x2 x3 (ix2 e c)
      = val_main_v23 (F := Ideal) x0 x3 (ix2 (Gcn.rowOf (Gcn.wrapIdx (x1 (ix1 e)))) c) * ((Gcn.dis (fun e => x2 (ix1 e))) (Gcn.rowOf (Gcn.wrapIdx (x1 (ix1 e)))) * (Gcn.dis (fun e => x2 (ix1 e))) (Gcn.rowOf (Gcn.wrapIdx (x2 (ix1 e))))) := by
    intro e
    have i29 : idx_main_v29 (ix2 e 0) = ix1 e := by
      funext a
      match a with
      | ⟨0, _⟩ => rfl
    have w29 : val_main_v29 (F := Ideal) x1 (ix2 e 0) = Gcn.wrapIdx (x1 (ix1 e)) := by
      rw [val_main_v29_apply, i29, wrap_v28]
    have dg : val_main_v30 (F := Ideal) x0 x1 x3 = Host.gather gather_S100000x128_S1600000x1_S1600000x128_1_0_n_n_0_1_1128 (val_main_v23 (F := Ideal) x0 x3) (val_main_v29 (F := Ideal) x1) := rfl
    have hg : Host.gather gather_S100000x128_S1600000x1_S1600000x128_1_0_n_n_0_1_1128 (val_main_v23 (F := Ideal) x0 x3) (val_main_v29 (F := Ideal) x1) (ix2 e c) = val_main_v23 (F := Ideal) x0 x3 (ix2 (Gcn.rowOf (Gcn.wrapIdx (x1 (ix1 e)))) c) :=
      gather2_row gather_S100000x128_S1600000x1_S1600000x128_1_0_n_n_0_1_1128 rfl rfl rfl rfl rfl rfl (val_main_v23 (F := Ideal) x0 x3) (val_main_v29 (F := Ideal) x1) e c _ w29
    have i32 : idx_main_v31 (idx_main_v32 (ix2 e c)) = ix1 e := by
      funext a
      match a with
      | ⟨0, _⟩ => rfl
    rw [val_main_v33_apply, dg, hg, val_main_v32_apply, val_main_v31_apply, i32, norm_eq, Ideal.mulf_def]
  have h36 : val_main_v36 (F := Ideal) x0 x1 x2 x3 (ix2 r c)
      = Gcn.zero + ∑ e ∈ Gcn.lands (fun e => x2 (ix1 e)) r, val_main_v23 (F := Ideal) x0 x3 (ix2 (Gcn.rowOf (Gcn.wrapIdx (x1 (ix1 e)))) c) * ((Gcn.dis (fun e => x2 (ix1 e))) (Gcn.rowOf (Gcn.wrapIdx (x1 (ix1 e)))) * (Gcn.dis (fun e => x2 (ix1 e))) (Gcn.rowOf (Gcn.wrapIdx (x2 (ix1 e))))) := by
    have hdef : val_main_v36 (F := Ideal) x0 x1 x2 x3
        = Host.scatterAdd (F := Ideal) (φ := .f32) scatter_S100000x128_S1600000x1_S1600000x128_1_0_0_1 (val_main_v34 (F := Ideal)) (val_main_v35 (F := Ideal) x2)
            (val_main_v33 (F := Ideal) x0 x1 x2 x3) := rfl
    rw [hdef, hostScatterAdd_eq, ScatterRows.hostScatterAdd_rows2 scatter_S100000x128_S1600000x1_S1600000x128_1_0_0_1 rfl rfl rfl rfl, hS, val_main_v34_apply, val_main_cst_7_apply,
      Finset.sum_congr rfl (fun e _ => hu e), Ideal.ofBits_def]
  have i38 : idx_main_v37 (idx_main_v38 (ix2 r c)) = ix1 r := by
    funext a
    match a with
    | ⟨0, _⟩ => rfl
  have i42 : idx_main_v41 (idx_main_v42 (ix2 r c)) = ix1 c := by
    funext a
    match a with
    | ⟨0, _⟩ => rfl
  rw [val_main_v43_apply, val_main_v40_apply, h36, val_main_v39_apply, val_main_v38_apply, val_main_v37_apply, i38, self_eq, val_main_v42_apply, val_main_v41_apply, i42]
  simp only [Gcn.convIn, Ideal.addf_def, Ideal.mulf_def]

end Ref

end
-- ==== Proof.RefConv1.lean ====
import proofs.«139699_j335007449371_2_alg».proof.Proof.RefRead
import proofs.«139699_j335007449371_2_alg».proof.Proof.GcnSpec
import proofs.«139699_j335007449371_2_alg».proof.Proof.LibScatterRows
import proofs.«139699_j335007449371_2_alg».proof.Proof.RefGather
import proofs.«139699_j335007449371_2_alg».proof.Proof.RefWrap
import proofs.«139699_j335007449371_2_alg».proof.Proof.RefNorm

/-!
  Convolution 1 of the reference program is `Gcn.convIn` of the matrix product it is applied to, with the degree
  factor `Gcn.dis` of the destination words, the source and destination rows read off the wrapped and clamped
  index words, and the edges landing at a node those whose destination word read signed is the node.
-/

open scoped BigOperators
open Cert.ReferenceIdeal Cert.ReferenceIdeal.Gen Idealize.ShloMosaic Idealize.ShloMosaic.ValueIdx Idealize.ShloMosaic.StableHlo

noncomputable section

namespace Ref

/-- Convolution 1 of the reference program at `(r, c)`: the accumulating row scatter is the sum over the edges landing
    at `r`, each gathered source row scaled by the edge factor; then the node's own row scaled by the node factor,
    and the bias. -/
theorem conv_1 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x9 x10 : (⟨S128, .f32⟩ : BufTy).Contents (Elt Ideal)) (r : Fin 100000) (c : Fin 128) :
    val_main_v90 (F := Ideal) x0 x1 x2 x3 x4 x5 x6 x9 x10 (ix2 r c)
      = Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e)))
          (fun r c => val_main_v70 (F := Ideal) x0 x1 x2 x3 x4 x5 x9 x10 (ix2 r c)) (fun j => x6 (ix1 j)) r c := by
  have hidx : ∀ e : Fin 1600000, val_main_v82 (F := Ideal) x2 (ix2 e 0) = x2 (ix1 e) := by
    intro e
    rw [val_main_v82_apply]
    refine congrArg x2 ?_
    funext a
    match a with
    | ⟨0, _⟩ => rfl
  have hS : (Finset.univ.filter fun e : Fin 1600000 => ((val_main_v82 (F := Ideal) x2) (ix2 e 0)).toInt = (r.val : Int))
      = Gcn.lands (fun e => x2 (ix1 e)) r := by
    unfold Gcn.lands
    exact Finset.filter_congr fun e _ => by rw [hidx e]
  have hu : ∀ e : Fin 1600000, val_main_v80 (F := Ideal) x0 x1 x2 x3 x4 x5 x9 x10 (ix2 e c)
      = val_main_v70 (F := Ideal) x0 x1 x2 x3 x4 x5 x9 x10 (ix2 (Gcn.rowOf (Gcn.wrapIdx (x1 (ix1 e)))) c) * ((Gcn.dis (fun e => x2 (ix1 e))) (Gcn.rowOf (Gcn.wrapIdx (x1 (ix1 e)))) * (Gcn.dis (fun e => x2 (ix1 e))) (Gcn.rowOf (Gcn.wrapIdx (x2 (ix1 e))))) := by
    intro e
    have i29 : idx_main_v76 (ix2 e 0) = ix1 e := by
      funext a
      match a with
      | ⟨0, _⟩ => rfl
    have w29 : val_main_v76 (F := Ideal) x1 (ix2 e 0) = Gcn.wrapIdx (x1 (ix1 e)) := by
      rw [val_main_v76_apply, i29, wrap_v75]
    have dg : val_main_v77 (F := Ideal) x0 x1 x2 x3 x4 x5 x9 x10 = Host.gather gather_S100000x128_S1600000x1_S1600000x128_1_0_n_n_0_1_1128 (val_main_v70 (F := Ideal) x0 x1 x2 x3 x4 x5 x9 x10) (val_main_v76 (F := Ideal) x1) := rfl
    have hg : Host.gather gather_S100000x128_S1600000x1_S1600000x128_1_0_n_n_0_1_1128 (val_main_v70 (F := Ideal) x0 x1 x2 x3 x4 x5 x9 x10) (val_main_v76 (F := Ideal) x1) (ix2 e c) = val_main_v70 (F := Ideal) x0 x1 x2 x3 x4 x5 x9 x10 (ix2 (Gcn.rowOf (Gcn.wrapIdx (x1 (ix1 e)))) c) :=
      gather2_row gather_S100000x128_S1600000x1_S1600000x128_1_0_n_n_0_1_1128 rfl rfl rfl rfl rfl rfl (val_main_v70 (F := Ideal) x0 x1 x2 x3 x4 x5 x9 x10) (val_main_v76 (F := Ideal) x1) e c _ w29
    have i32 : idx_main_v78 (idx_main_v79 (ix2 e c)) = ix1 e := by
      funext a
      match a with
      | ⟨0, _⟩ => rfl
    rw [val_main_v80_apply, dg, hg, val_main_v79_apply, val_main_v78_apply, i32, norm_eq, Ideal.mulf_def]
  have h36 : val_main_v83 (F := Ideal) x0 x1 x2 x3 x4 x5 x9 x10 (ix2 r c)
      = Gcn.zero + ∑ e ∈ Gcn.lands (fun e => x2 (ix1 e)) r, val_main_v70 (F := Ideal) x0 x1 x2 x3 x4 x5 x9 x10 (ix2 (Gcn.rowOf (Gcn.wrapIdx (x1 (ix1 e)))) c) * ((Gcn.dis (fun e => x2 (ix1 e))) (Gcn.rowOf (Gcn.wrapIdx (x1 (ix1 e)))) * (Gcn.dis (fun e => x2 (ix1 e))) (Gcn.rowOf (Gcn.wrapIdx (x2 (ix1 e))))) := by
    have hdef : val_main_v83 (F := Ideal) x0 x1 x2 x3 x4 x5 x9 x10
        = Host.scatterAdd (F := Ideal) (φ := .f32) scatter_S100000x128_S1600000x1_S1600000x128_1_0_0_1 (val_main_v81 (F := Ideal)) (val_main_v82 (F := Ideal) x2)
            (val_main_v80 (F := Ideal) x0 x1 x2 x3 x4 x5 x9 x10) := rfl
    rw [hdef, hostScatterAdd_eq, ScatterRows.hostScatterAdd_rows2 scatter_S100000x128_S1600000x1_S1600000x128_1_0_0_1 rfl rfl rfl rfl, hS, val_main_v81_apply, val_main_cst_15_apply,
      Finset.sum_congr rfl (fun e _ => hu e), Ideal.ofBits_def]
  have i38 : idx_main_v84 (idx_main_v85 (ix2 r c)) = ix1 r := by
    funext a
    match a with
    | ⟨0, _⟩ => rfl
  have i42 : idx_main_v88 (idx_main_v89 (ix2 r c)) = ix1 c := by
    funext a
    match a with
    | ⟨0, _⟩ => rfl
  rw [val_main_v90_apply, val_main_v87_apply, h36, val_main_v86_apply, val_main_v85_apply, val_main_v84_apply, i38, self_eq, val_main_v89_apply, val_main_v88_apply, i42]
  simp only [Gcn.convIn, Ideal.addf_def, Ideal.mulf_def]

end Ref

end
-- ==== Proof.RefConv2.lean ====
import proofs.«139699_j335007449371_2_alg».proof.Proof.RefRead
import proofs.«139699_j335007449371_2_alg».proof.Proof.GcnSpec
import proofs.«139699_j335007449371_2_alg».proof.Proof.LibScatterRows
import proofs.«139699_j335007449371_2_alg».proof.Proof.RefGather
import proofs.«139699_j335007449371_2_alg».proof.Proof.RefWrap
import proofs.«139699_j335007449371_2_alg».proof.Proof.RefNorm

/-!
  Convolution 2 of the reference program is `Gcn.convIn` of the matrix product it is applied to, with the degree
  factor `Gcn.dis` of the destination words, the source and destination rows read off the wrapped and clamped
  index words, and the edges landing at a node those whose destination word read signed is the node.
-/

open scoped BigOperators
open Cert.ReferenceIdeal Cert.ReferenceIdeal.Gen Idealize.ShloMosaic Idealize.ShloMosaic.ValueIdx Idealize.ShloMosaic.StableHlo

noncomputable section

namespace Ref

/-- Convolution 2 of the reference program at `(r, c)`: the accumulating row scatter is the sum over the edges landing
    at `r`, each gathered source row scaled by the edge factor; then the node's own row scaled by the node factor,
    and the bias. -/
theorem conv_2 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x8 : (⟨S40, .f32⟩ : BufTy).Contents (Elt Ideal)) (x9 x10 x11 x12 : (⟨S128, .f32⟩ : BufTy).Contents (Elt Ideal)) (r : Fin 100000) (c : Fin 40) :
    val_main_v137 (F := Ideal) x0 x1 x2 x3 x4 x5 x6 x7 x8 x9 x10 x11 x12 (ix2 r c)
      = Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e)))
          (fun r c => val_main_v117 (F := Ideal) x0 x1 x2 x3 x4 x5 x6 x7 x9 x10 x11 x12 (ix2 r c)) (fun j => x8 (ix1 j)) r c := by
  have hidx : ∀ e : Fin 1600000, val_main_v129 (F := Ideal) x2 (ix2 e 0) = x2 (ix1 e) := by
    intro e
    rw [val_main_v129_apply]
    refine congrArg x2 ?_
    funext a
    match a with
    | ⟨0, _⟩ => rfl
  have hS : (Finset.univ.filter fun e : Fin 1600000 => ((val_main_v129 (F := Ideal) x2) (ix2 e 0)).toInt = (r.val : Int))
      = Gcn.lands (fun e => x2 (ix1 e)) r := by
    unfold Gcn.lands
    exact Finset.filter_congr fun e _ => by rw [hidx e]
  have hu : ∀ e : Fin 1600000, val_main_v127 (F := Ideal) x0 x1 x2 x3 x4 x5 x6 x7 x9 x10 x11 x12 (ix2 e c)
      = val_main_v117 (F := Ideal) x0 x1 x2 x3 x4 x5 x6 x7 x9 x10 x11 x12 (ix2 (Gcn.rowOf (Gcn.wrapIdx (x1 (ix1 e)))) c) * ((Gcn.dis (fun e => x2 (ix1 e))) (Gcn.rowOf (Gcn.wrapIdx (x1 (ix1 e)))) * (Gcn.dis (fun e => x2 (ix1 e))) (Gcn.rowOf (Gcn.wrapIdx (x2 (ix1 e))))) := by
    intro e
    have i29 : idx_main_v123 (ix2 e 0) = ix1 e := by
      funext a
      match a with
      | ⟨0, _⟩ => rfl
    have w29 : val_main_v123 (F := Ideal) x1 (ix2 e 0) = Gcn.wrapIdx (x1 (ix1 e)) := by
      rw [val_main_v123_apply, i29, wrap_v122]
    have dg : val_main_v124 (F := Ideal) x0 x1 x2 x3 x4 x5 x6 x7 x9 x10 x11 x12 = Host.gather gather_S100000x40_S1600000x1_S1600000x40_1_0_n_n_0_1_140 (val_main_v117 (F := Ideal) x0 x1 x2 x3 x4 x5 x6 x7 x9 x10 x11 x12) (val_main_v123 (F := Ideal) x1) := rfl
    have hg : Host.gather gather_S100000x40_S1600000x1_S1600000x40_1_0_n_n_0_1_140 (val_main_v117 (F := Ideal) x0 x1 x2 x3 x4 x5 x6 x7 x9 x10 x11 x12) (val_main_v123 (F := Ideal) x1) (ix2 e c) = val_main_v117 (F := Ideal) x0 x1 x2 x3 x4 x5 x6 x7 x9 x10 x11 x12 (ix2 (Gcn.rowOf (Gcn.wrapIdx (x1 (ix1 e)))) c) :=
      gather2_row gather_S100000x40_S1600000x1_S1600000x40_1_0_n_n_0_1_140 rfl rfl rfl rfl rfl rfl (val_main_v117 (F := Ideal) x0 x1 x2 x3 x4 x5 x6 x7 x9 x10 x11 x12) (val_main_v123 (F := Ideal) x1) e c _ w29
    have i32 : idx_main_v125 (idx_main_v126 (ix2 e c)) = ix1 e := by
      funext a
      match a with
      | ⟨0, _⟩ => rfl
    rw [val_main_v127_apply, dg, hg, val_main_v126_apply, val_main_v125_apply, i32, norm_eq, Ideal.mulf_def]
  have h36 : val_main_v130 (F := Ideal) x0 x1 x2 x3 x4 x5 x6 x7 x9 x10 x11 x12 (ix2 r c)
      = Gcn.zero + ∑ e ∈ Gcn.lands (fun e => x2 (ix1 e)) r, val_main_v117 (F := Ideal) x0 x1 x2 x3 x4 x5 x6 x7 x9 x10 x11 x12 (ix2 (Gcn.rowOf (Gcn.wrapIdx (x1 (ix1 e)))) c) * ((Gcn.dis (fun e => x2 (ix1 e))) (Gcn.rowOf (Gcn.wrapIdx (x1 (ix1 e)))) * (Gcn.dis (fun e => x2 (ix1 e))) (Gcn.rowOf (Gcn.wrapIdx (x2 (ix1 e))))) := by
    have hdef : val_main_v130 (F := Ideal) x0 x1 x2 x3 x4 x5 x6 x7 x9 x10 x11 x12
        = Host.scatterAdd (F := Ideal) (φ := .f32) scatter_S100000x40_S1600000x1_S1600000x40_1_0_0_1 (val_main_v128 (F := Ideal)) (val_main_v129 (F := Ideal) x2)
            (val_main_v127 (F := Ideal) x0 x1 x2 x3 x4 x5 x6 x7 x9 x10 x11 x12) := rfl
    rw [hdef, hostScatterAdd_eq, ScatterRows.hostScatterAdd_rows2 scatter_S100000x40_S1600000x1_S1600000x40_1_0_0_1 rfl rfl rfl rfl, hS, val_main_v128_apply, val_main_cst_23_apply,
      Finset.sum_congr rfl (fun e _ => hu e), Ideal.ofBits_def]
  have i38 : idx_main_v131 (idx_main_v132 (ix2 r c)) = ix1 r := by
    funext a
    match a with
    | ⟨0, _⟩ => rfl
  have i42 : idx_main_v135 (idx_main_v136 (ix2 r c)) = ix1 c := by
    funext a
    match a with
    | ⟨0, _⟩ => rfl
  rw [val_main_v137_apply, val_main_v134_apply, h36, val_main_v133_apply, val_main_v132_apply, val_main_v131_apply, i38, self_eq, val_main_v136_apply, val_main_v135_apply, i42]
  simp only [Gcn.convIn, Ideal.addf_def, Ideal.mulf_def]

end Ref

end
-- ==== Proof.LibRowMax.lean ====
import Idealize.ShloMosaic.Lib.ValueIdx
import Idealize.ShloMosaic.PureOps.Ideal.Laws

/-!
  A ROW MAXIMUM AS A FOLD.

  The host's reduction with a maximum body over the LAST axis of a rank-2 array `x : [N, J]` is, at the ideal
  values and at row `r`, the fold of `max` from the initial value over the row's entries `x (r, c')`, `c' < J`.
  The maximum is commutative and associative, so the order in which the host visits the row does not matter.
  The f32 word `0xFF800000` reads as `-∞`, the least extended real, so a fold of `max` from it is the maximum of
  the entries alone; the f32 word `0x00000000` reads as `0`.
-/

open Idealize.ShloMosaic Idealize.ShloMosaic.ValueIdx

namespace RowMax

variable {N J : Nat}

/-- Dropping the last axis of `[N, J]` leaves `[N]`, a shape with an axis: the host's shape fact gives the
    vector reduction's. -/
theorem reduces_of_reducesTo (h' : (⟨2, ![N, J]⟩ : Shape).ReducesTo [1] (⟨1, ![N]⟩ : Shape)) :
    (⟨2, ![N, J]⟩ : Shape).Reduces [1] (⟨1, ![N]⟩ : Shape) :=
  ⟨h'.1, Nat.one_pos, h'.2⟩

/-- Row `r` with column `k` put back is `(r, k)`. -/
theorem lift_ix2 (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- THE ROW MAXIMUM AT A ROW: the fold of `max` from the initial value's element over the row's entries. -/
theorem hostReduce_maximumf_rows {φ : FTy} {u : Shape} (x : FVec Ideal ⟨2, ![N, J]⟩ φ) (init : u.Idx → Ideal φ)
    (h' : (⟨2, ![N, J]⟩ : Shape).ReducesTo [1] (⟨1, ![N]⟩ : Shape)) (hu : 0 < u.numel) (r : Fin N) :
    Host.reduce FloatOps.maximumf x init h' hu (ix1 r)
      = (Finset.univ : Finset (Fin J)).fold max (init (Shape.Idx.first hu)) (fun c' => x (ix2 r c')) := by
  have h := reduces_of_reducesTo h'
  rw [Host.reduce_eq_fold_single FloatOps.maximumf x init h' h hu]
  have hf : (x ∘ h.lift (ix1 r)) = fun c' : Fin J => x (ix2 r c') :=
    funext fun k => congrArg x (lift_ix2 h r k)
  exact congrArg (fun f => Finset.fold max (init (Shape.Idx.first hu)) f (Finset.univ : Finset (Fin J))) hf

/-- The same from a constant initial value `v`. -/
theorem hostReduce_maximumf_rows_const {φ : FTy} {u : Shape} (x : FVec Ideal ⟨2, ![N, J]⟩ φ) (v : Ideal φ)
    (h' : (⟨2, ![N, J]⟩ : Shape).ReducesTo [1] (⟨1, ![N]⟩ : Shape)) (hu : 0 < u.numel) (r : Fin N) :
    Host.reduce FloatOps.maximumf x (fun _ : u.Idx => v) h' hu (ix1 r)
      = (Finset.univ : Finset (Fin J)).fold max v (fun c' => x (ix2 r c')) :=
  hostReduce_maximumf_rows x (fun _ : u.Idx => v) h' hu r

/-- The same from a constant array holding the word `b`: the fold starts from what `b` reads as. -/
theorem hostReduce_maximumf_rows_constant {φ : FTy} {u : Shape} (x : FVec Ideal ⟨2, ![N, J]⟩ φ) (b : BitVec φ.bits)
    (h' : (⟨2, ![N, J]⟩ : Shape).ReducesTo [1] (⟨1, ![N]⟩ : Shape)) (hu : 0 < u.numel) (r : Fin N) :
    Host.reduce FloatOps.maximumf x (constant (F := Ideal) u φ b) h' hu (ix1 r)
      = (Finset.univ : Finset (Fin J)).fold max (Ideal.ofBits φ b) (fun c' => x (ix2 r c')) :=
  hostReduce_maximumf_rows x (constant (F := Ideal) u φ b) h' hu r

/-! ## Two f32 words -/

/-- The f32 word `0xFF800000` is `-∞`, the least extended real. -/
theorem ofBits_ninf_f32 : Ideal.ofBits .f32 0xFF800000#32 = ⊥ := by
  simp [Ideal.ofBits, Ideal.ieee]

/-- So the maximum of it with anything is that thing. -/
theorem max_ninf_left (y : EReal) : max (Ideal.ofBits .f32 0xFF800000#32) y = y := by
  rw [ofBits_ninf_f32]; exact max_bot_left y

theorem max_ninf_right (y : EReal) : max y (Ideal.ofBits .f32 0xFF800000#32) = y := by
  rw [ofBits_ninf_f32]; exact max_bot_right y

/-- The f32 word `0x00000000` is `0`. -/
theorem ofBits_zero_f32 : Ideal.ofBits .f32 0x00000000#32 = 0 := Ideal.ofBits_zero_f32

end RowMax
-- ==== Proof.RefTail.lean ====
import proofs.«139699_j335007449371_2_alg».proof.Proof.RefRead
import proofs.«139699_j335007449371_2_alg».proof.Proof.GcnSpec
import proofs.«139699_j335007449371_2_alg».proof.Proof.LibRowMax

/-!
  The row-wise log-softmax that ends the reference program. The row maximum is the host's maximum-reduction folded
  from `-∞` (the program takes the maximum with `-∞` once more, which changes nothing); the result at `(r, c)` is
  `Gcn.lsm` of the array it is applied to.
-/

open scoped BigOperators
open Cert.ReferenceIdeal Cert.ReferenceIdeal.Gen Idealize.ShloMosaic Idealize.ShloMosaic.ValueIdx Idealize.ShloMosaic.StableHlo

noncomputable section

namespace Ref

/-- The row maximum of the last convolution's output. -/
theorem rowmax_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x8 : (⟨S40, .f32⟩ : BufTy).Contents (Elt Ideal)) (x9 x10 x11 x12 : (⟨S128, .f32⟩ : BufTy).Contents (Elt Ideal)) (r : Fin 100000) :
    val_main_call2_v2 (F := Ideal) x0 x1 x2 x3 x4 x5 x6 x7 x8 x9 x10 x11 x12 (ix1 r) = Gcn.rowMax (fun r c => val_main_v137 (F := Ideal) x0 x1 x2 x3 x4 x5 x6 x7 x8 x9 x10 x11 x12 (ix2 r c)) r := by
  have h0 : val_main_call2_v0 (F := Ideal) x0 x1 x2 x3 x4 x5 x6 x7 x8 x9 x10 x11 x12 (ix1 r)
      = (Finset.univ : Finset (Fin 40)).fold max (Ideal.ofBits .f32 0xFF800000#32) (fun c' => val_main_v137 (F := Ideal) x0 x1 x2 x3 x4 x5 x6 x7 x8 x9 x10 x11 x12 (ix2 r c')) := by
    unfold val_main_call2_v0 val_main_call2_cst
    rw [RowMax.hostReduce_maximumf_rows_constant]
  unfold Gcn.rowMax
  rw [val_main_call2_v2_apply, val_main_call2_v1_apply, val_main_call2_cst_0_apply, h0, Ideal.maximumf_def, Ideal.ofBits_def,
    RowMax.max_ninf_left]

/-- The log-softmax at `(r, c)`. -/
theorem lsm_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x8 : (⟨S40, .f32⟩ : BufTy).Contents (Elt Ideal)) (x9 x10 x11 x12 : (⟨S128, .f32⟩ : BufTy).Contents (Elt Ideal)) (r : Fin 100000) (c : Fin 40) :
    val_main_v138 (F := Ideal) x0 x1 x2 x3 x4 x5 x6 x7 x8 x9 x10 x11 x12 (ix2 r c) = Gcn.lsm (fun r c => val_main_v137 (F := Ideal) x0 x1 x2 x3 x4 x5 x6 x7 x8 x9 x10 x11 x12 (ix2 r c)) r c := by
  have hsub : ∀ c' : Fin 40, val_main_call2_v5 (F := Ideal) x0 x1 x2 x3 x4 x5 x6 x7 x8 x9 x10 x11 x12 (ix2 r c')
      = val_main_v137 (F := Ideal) x0 x1 x2 x3 x4 x5 x6 x7 x8 x9 x10 x11 x12 (ix2 r c') - Gcn.rowMax (fun r c => val_main_v137 (F := Ideal) x0 x1 x2 x3 x4 x5 x6 x7 x8 x9 x10 x11 x12 (ix2 r c)) r := by
    intro c'
    have e4 : idx_main_call2_v3 (idx_main_call2_v4 (ix2 r c')) = ix1 r := by
      funext a
      match a with
      | ⟨0, _⟩ => rfl
    rw [val_main_call2_v5_apply, val_main_call2_v4_apply, val_main_call2_v3_apply, e4, rowmax_eq, Ideal.subf_def]
  have e7 : ∀ c' : Fin 40, idx_main_call2_v7 (ix1 r) c' = ix2 r c' := by
    intro c'
    funext a
    match a with
    | ⟨0, _⟩ => rfl
    | ⟨1, _⟩ => rfl
  have hexp : (∑ k : Fin 40, (val_main_call2_v6 (F := Ideal) x0 x1 x2 x3 x4 x5 x6 x7 x8 x9 x10 x11 x12) (idx_main_call2_v7 (ix1 r) k))
      = ∑ c' : Fin 40, Ideal.exp (val_main_v137 (F := Ideal) x0 x1 x2 x3 x4 x5 x6 x7 x8 x9 x10 x11 x12 (ix2 r c') - Gcn.rowMax (fun r c => val_main_v137 (F := Ideal) x0 x1 x2 x3 x4 x5 x6 x7 x8 x9 x10 x11 x12 (ix2 r c)) r) :=
    Finset.sum_congr rfl fun k _ => by
      rw [e7 k, val_main_call2_v6_apply, hsub k, Ideal.hostUnary_exp_def]
  have e10 : idx_main_call2_v8 (idx_main_call2_v10 (ix2 r c)) = ix1 r := by
    funext a
    match a with
    | ⟨0, _⟩ => rfl
  rw [val_main_v138_apply, hsub c, val_main_call2_v10_apply, val_main_call2_v9_apply, val_main_call2_v8_apply, e10, val_main_call2_v7_apply,
    val_main_call2_cst_1_apply, hexp]
  simp only [Gcn.lsm, Ideal.subf_def, Ideal.hostUnary_log_def, Ideal.ofBits_def]

end Ref

end
-- ==== Proof.RefResult.lean ====
import proofs.«139699_j335007449371_2_alg».proof.Proof.RefRead
import proofs.«139699_j335007449371_2_alg».proof.Proof.GcnSpec
import proofs.«139699_j335007449371_2_alg».proof.Proof.RefMm
import proofs.«139699_j335007449371_2_alg».proof.Proof.RefAct
import proofs.«139699_j335007449371_2_alg».proof.Proof.RefConv0
import proofs.«139699_j335007449371_2_alg».proof.Proof.RefConv1
import proofs.«139699_j335007449371_2_alg».proof.Proof.RefConv2
import proofs.«139699_j335007449371_2_alg».proof.Proof.RefTail

/-!
  THE REFERENCE PROGRAM IS THE NETWORK. The last stage of the reference program, read at node `r` and class `c`, is
  `Gcn.netIn` of the program's arguments: the stages compose in program order, each one the specification's function
  of the stage before it.
-/

open scoped BigOperators
open Cert.ReferenceIdeal Cert.ReferenceIdeal.Gen Idealize.ShloMosaic Idealize.ShloMosaic.ValueIdx Idealize.ShloMosaic.StableHlo

noncomputable section

namespace Ref

/-- The reference program's result at `(r, c)`. -/
theorem result_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x8 : (⟨S40, .f32⟩ : BufTy).Contents (Elt Ideal)) (x9 x10 x11 x12 : (⟨S128, .f32⟩ : BufTy).Contents (Elt Ideal)) (r : Fin 100000) (c : Fin 40) :
    val_main_v138 (F := Ideal) x0 x1 x2 x3 x4 x5 x6 x7 x8 x9 x10 x11 x12 (ix2 r c)
      = Gcn.netIn (Gcn.dis fun e => x2 (ix1 e)) (fun e => Gcn.rowOf (Gcn.wrapIdx (x1 (ix1 e))))
          (fun e => Gcn.rowOf (Gcn.wrapIdx (x2 (ix1 e)))) (Gcn.lands fun e => x2 (ix1 e))
          (fun r k => x0 (ix2 r k)) (fun k j => x3 (ix2 k j)) (fun j => x4 (ix1 j)) (fun k j => x5 (ix2 k j))
          (fun j => x6 (ix1 j)) (fun k j => x7 (ix2 k j)) (fun j => x8 (ix1 j))
          (fun j => x9 (ix1 j)) (fun j => x10 (ix1 j)) (fun j => x11 (ix1 j)) (fun j => x12 (ix1 j)) r c := by
  have h23 : (fun r c => val_main_v23 (F := Ideal) x0 x3 (ix2 r c))
      = (Gcn.mm (fun r k => x0 (ix2 r k)) (fun k j => x3 (ix2 k j))) :=
    by
    funext r c
    rw [mm_v23]
  have h43 : (fun r c => val_main_v43 (F := Ideal) x0 x1 x2 x3 x4 (ix2 r c))
      = (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (fun r k => x0 (ix2 r k)) (fun k j => x3 (ix2 k j))) (fun j => x4 (ix1 j))) :=
    by
    funext r c
    rw [conv_0, h23]
  have h69 : (fun r k => val_main_v69 (F := Ideal) x0 x1 x2 x3 x4 x9 x10 (ix2 r k))
      = (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (fun r k => x0 (ix2 r k)) (fun k j => x3 (ix2 k j))) (fun j => x4 (ix1 j))) (fun j => x9 (ix1 j)) (fun j => x10 (ix1 j))) :=
    by
    funext r k
    rw [act_0, h43]
  have h70 : (fun r c => val_main_v70 (F := Ideal) x0 x1 x2 x3 x4 x5 x9 x10 (ix2 r c))
      = (Gcn.mm (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (fun r k => x0 (ix2 r k)) (fun k j => x3 (ix2 k j))) (fun j => x4 (ix1 j))) (fun j => x9 (ix1 j)) (fun j => x10 (ix1 j))) (fun k j => x5 (ix2 k j))) :=
    by
    funext r c
    rw [mm_v70, h69]
  have h90 : (fun r c => val_main_v90 (F := Ideal) x0 x1 x2 x3 x4 x5 x6 x9 x10 (ix2 r c))
      = (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (fun r k => x0 (ix2 r k)) (fun k j => x3 (ix2 k j))) (fun j => x4 (ix1 j))) (fun j => x9 (ix1 j)) (fun j => x10 (ix1 j))) (fun k j => x5 (ix2 k j))) (fun j => x6 (ix1 j))) :=
    by
    funext r c
    rw [conv_1, h70]
  have h116 : (fun r k => val_main_v116 (F := Ideal) x0 x1 x2 x3 x4 x5 x6 x9 x10 x11 x12 (ix2 r k))
      = (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (fun r k => x0 (ix2 r k)) (fun k j => x3 (ix2 k j))) (fun j => x4 (ix1 j))) (fun j => x9 (ix1 j)) (fun j => x10 (ix1 j))) (fun k j => x5 (ix2 k j))) (fun j => x6 (ix1 j))) (fun j => x11 (ix1 j)) (fun j => x12 (ix1 j))) :=
    by
    funext r k
    rw [act_1, h90]
  have h117 : (fun r c => val_main_v117 (F := Ideal) x0 x1 x2 x3 x4 x5 x6 x7 x9 x10 x11 x12 (ix2 r c))
      = (Gcn.mm (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (fun r k => x0 (ix2 r k)) (fun k j => x3 (ix2 k j))) (fun j => x4 (ix1 j))) (fun j => x9 (ix1 j)) (fun j => x10 (ix1 j))) (fun k j => x5 (ix2 k j))) (fun j => x6 (ix1 j))) (fun j => x11 (ix1 j)) (fun j => x12 (ix1 j))) (fun k j => x7 (ix2 k j))) :=
    by
    funext r c
    rw [mm_v117, h116]
  have h137 : (fun r c => val_main_v137 (F := Ideal) x0 x1 x2 x3 x4 x5 x6 x7 x8 x9 x10 x11 x12 (ix2 r c))
      = (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (Gcn.act (Gcn.convIn (Gcn.dis (fun e => x2 (ix1 e))) (fun e => Gcn.rowOf (Gcn.wrapIdx (x1 (ix1 e)))) (fun e => Gcn.rowOf (Gcn.wrapIdx (x2 (ix1 e)))) (Gcn.lands (fun e => x2 (ix1 e))) (Gcn.mm (fun r k => x0 (ix2 r k)) (fun k j => x3 (ix2 k j))) (fun j => x4 (ix1 j))) (fun j => x9 (ix1 j)) (fun j => x10 (ix1 j))) (fun k j => x5 (ix2 k j))) (fun j => x6 (ix1 j))) (fun j => x11 (ix1 j)) (fun j => x12 (ix1 j))) (fun k j => x7 (ix2 k j))) (fun j => x8 (ix1 j))) :=
    by
    funext r c
    rw [conv_2, h117]
  unfold Gcn.netIn
  rw [lsm_eq, h137]

end Ref

end
-- ==== Proof.LibWrapIdx.lean ====
import Idealize.ShloMosaic.Lib.ValueIdx

/-!
  A NONNEGATIVE INDEX WORD IS NOT WRAPPED.

  Before a row gather both programs replace an index word `v` by `v + 100000` when `v`, read signed, is
  negative (a negative index counts from the end), and keep it otherwise. For a word whose signed reading is
  nonnegative the comparison `v < 0` is false, so the selection returns `v` itself.
-/

open Idealize.ShloMosaic

namespace WrapIdx

/-- The signed comparison `v < 0` of a word whose signed reading is nonnegative is the false bit. -/
theorem cmpi_slt_zero_of_nonneg (v : BitVec 32) (h : 0 ≤ v.toInt) : IntOp.cmpi .slt v 0#32 = 0#1 := by
  have hs : v.slt 0#32 = false := by
    unfold BitVec.slt
    exact decide_eq_false (by simpa using h)
  show BitVec.ofBool (v.slt 0#32) = 0#1
  rw [hs]
  rfl

/-- The signed comparison `v < 0` of a word whose signed reading is negative is the true bit. -/
theorem cmpi_slt_zero_of_neg (v : BitVec 32) (h : v.toInt < 0) : IntOp.cmpi .slt v 0#32 = 1#1 := by
  have hs : v.slt 0#32 = true := by
    unfold BitVec.slt
    exact decide_eq_true (by simpa using h)
  show BitVec.ofBool (v.slt 0#32) = 1#1
  rw [hs]
  rfl

/-- A word whose signed reading is nonnegative is kept: the selection between `v + m` and `v` on `v < 0`
    returns `v`. -/
theorem select_wrap_of_nonneg (v m : BitVec 32) (h : 0 ≤ v.toInt) :
    Scalar.select (IntOp.cmpi .slt v 0#32) (IntOp.addi v m) v = v := by
  rw [cmpi_slt_zero_of_nonneg v h]
  exact ValueIdx.select_zero _ _

/-- The same for the constant `100000` both programs add. -/
theorem wrapIdx_of_nonneg (v : BitVec 32) (h : 0 ≤ v.toInt) :
    Scalar.select (IntOp.cmpi .slt v 0#32) (IntOp.addi v 100000#32) v = v :=
  select_wrap_of_nonneg v 100000#32 h

/-- A word whose signed reading is negative is replaced by `v + m`. -/
theorem select_wrap_of_neg (v m : BitVec 32) (h : v.toInt < 0) :
    Scalar.select (IntOp.cmpi .slt v 0#32) (IntOp.addi v m) v = v + m := by
  rw [cmpi_slt_zero_of_neg v h]
  exact ValueIdx.select_one _ _

end WrapIdx
-- ==== Proof.Bridge.lean ====
import proofs.«139699_j335007449371_2_alg».proof.Proof.KIndex
import proofs.«139699_j335007449371_2_alg».proof.Proof.RefResult
import proofs.«139699_j335007449371_2_alg».proof.Proof.GcnAlgebra
import proofs.«139699_j335007449371_2_alg».proof.Proof.LibWrapIdx

/-!
  The two programs compute one function of the arguments.

  At every node `r` and class `q` the reference's result is the network with each destination factor `dis (dst e)` inside
  its edge sum, and the kernel program's is the network with that factor taken out of the sum as `dis r`. Every edge of
  the sum at `r` has destination `r` (its destination word, read signed, is `r`; the index wrap and the clamp leave a word in
  `[0, N)` alone), and `dis r` is a nonnegative finite number, over which multiplication distributes on the extended reals:
  the two networks agree.
-/

set_option maxRecDepth 16384

noncomputable section

namespace Cert.Proof.Bridge

open Cert.KernelIdeal Cert.KernelIdeal.KStage Cert.KernelIdeal.KIndex
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (c : Dev Cert.KernelIdeal.nD)

/-- The destination rows of the kernel program's arguments, after the wrap and the clamp. -/
abbrev drow : Fin Gcn.NE → Fin Gcn.NN := fun e => Gcn.rowOf (Gcn.wrapIdx (aDST m c (ix1 e)))

/-- At the kernel program's arguments the two networks agree. -/
theorem net_eq :
    Gcn.netIn (dK m c) (srow m c) (drow m c) (SK m c) (xK m c) (w0K m c) (b0K m c) (w1K m c) (b1K m c) (w2K m c) (b2K m c)
      (g0K m c) (be0K m c) (g1K m c) (be1K m c)
    = Gcn.netOut (dK m c) (srow m c) (SK m c) (xK m c) (w0K m c) (b0K m c) (w1K m c) (b1K m c) (w2K m c) (b2K m c)
      (g0K m c) (be0K m c) (g1K m c) (be1K m c) :=
  (Gcn.netOut_eq_netIn (dK m c) (srow m c) (drow m c) (SK m c) (xK m c) (w0K m c) (b0K m c) (w1K m c) (b1K m c) (w2K m c) (b2K m c)
    (g0K m c) (be0K m c) (g1K m c) (be1K m c)
    (fun r => Gcn.dis_nonneg_ne_top (dstW m c) r)
    (fun r e he => Gcn.drow_of_lands Gcn.wrapIdx (fun v h => WrapIdx.wrapIdx_of_nonneg v h) (dstW m c) r e he)).symm

/-- The reference's staged result at node `r`, class `q`, at the kernel program's argument arrays. -/
theorem ref_apply (r : Fin 100000) (q : Fin 40) :
    Ref.val_main_v138 (F := Ideal) (aX m c) (aSRC m c) (aDST m c) (aW0 m c) (aB0 m c) (aW1 m c) (aB1 m c) (aW2 m c) (aB2 m c)
      (aG0 m c) (aBE0 m c) (aG1 m c) (aBE1 m c) (ix2 r q)
    = Gcn.netIn (dK m c) (srow m c) (drow m c) (SK m c) (xK m c) (w0K m c) (b0K m c) (w1K m c) (b1K m c) (w2K m c) (b2K m c)
      (g0K m c) (be0K m c) (g1K m c) (be1K m c) r q :=
  Ref.result_eq (aX m c) (aSRC m c) (aDST m c) (aW0 m c) (aB0 m c) (aW1 m c) (aB1 m c) (aW2 m c) (aB2 m c)
    (aG0 m c) (aBE0 m c) (aG1 m c) (aBE1 m c) r q

/-- The reference's staged result term, at the kernel program's argument arrays, is the kernel program's result array. -/
theorem ref_eq_kernel :
    Ref.val_main_v138 (F := Ideal) (aX m c) (aSRC m c) (aDST m c) (aW0 m c) (aB0 m c) (aW1 m c) (aB1 m c) (aW2 m c) (aB2 m c)
      (aG0 m c) (aBE0 m c) (aG1 m c) (aBE1 m c) = out m c := by
  funext i
  obtain ⟨r, q, rfl⟩ : ∃ (r : Fin 100000) (q : Fin 40), i = ix2 r q := ⟨i 0, i 1, eq_ix2 i⟩
  exact (ref_apply m c r q).trans ((congrFun (congrFun (net_eq m c) r) q).trans (out_apply m c r q).symm)

end Cert.Proof.Bridge

end
-- ==== Proof.lean ====
/-
  A three-layer graph convolution network on 100000 nodes and 1600000 directed edges: a kernel program of six kernel
  regions among host stretches (the matrix products, the combinations, the normalise–rectify prologues and the final
  log-softmax in kernels; the degree count, the edge gathers and scatters and the feature statistics on the host) against
  a reference written with host operations alone.

  The frames of the two kernel programs are the generated ones; the reference's is its run with the result dropped. The
  idealization rewrote nothing, so `preserves` is trivial. For `algebraic`: the kernel program's run names its result
  buffer as a term of the arguments (`KRun`, `KStage`), read at an index it is the network with every destination factor
  taken out of its edge sum (`KIndex`); the reference's run ends at its staged term (`RefRun`), which read at an index is
  the network with the factor inside the sum (`RefResult`); the two agree because the factor is a nonnegative finite
  number and every edge of the sum at a node ends at that node (`Bridge`, `GcnAlgebra`).
-/
import proofs.«139699_j335007449371_2_alg».proof.Defs
import proofs.«139699_j335007449371_2_alg».proof.Proof.Gen.Kernel
import proofs.«139699_j335007449371_2_alg».proof.Proof.Gen.Kernel.Skeleton
import proofs.«139699_j335007449371_2_alg».proof.Proof.Gen.Kernel.Launch
import proofs.«139699_j335007449371_2_alg».proof.Proof.Gen.Kernel.Points
import proofs.«139699_j335007449371_2_alg».proof.Proof.Gen.Kernel.Frame
import proofs.«139699_j335007449371_2_alg».proof.Proof.Gen.KernelIdeal
import proofs.«139699_j335007449371_2_alg».proof.Proof.Gen.KernelIdeal.Skeleton
import proofs.«139699_j335007449371_2_alg».proof.Proof.Gen.KernelIdeal.Launch
import proofs.«139699_j335007449371_2_alg».proof.Proof.Gen.KernelIdeal.Points
import proofs.«139699_j335007449371_2_alg».proof.Proof.Gen.KernelIdeal.Frame
import proofs.«139699_j335007449371_2_alg».proof.Proof.Gen.ReferenceIdeal
import proofs.«139699_j335007449371_2_alg».proof.Proof.Gen.Pre_finite_inputs
import proofs.«139699_j335007449371_2_alg».proof.Proof.KRun
import proofs.«139699_j335007449371_2_alg».proof.Proof.KStage
import proofs.«139699_j335007449371_2_alg».proof.Proof.RefRun
import proofs.«139699_j335007449371_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Ref.run m ρ)

/-- From memories agreeing on the arguments both programs end at one array: the kernel program's result term. -/
theorem algebraic : Cert.algebraic_KernelIdeal_ReferenceIdeal := by
  intro m ρ m' ρ' _ hagree
  refine ⟨fun c => Cert.KernelIdeal.KStage.out m c, ?_, ?_⟩
  · exact (θ_run Cert.KernelIdeal.defs _ _).mono
      (fun r h c => ⟨(h c).1.trans (Cert.KernelIdeal.KStage.T12_v85 m ρ c), (h c).2⟩) (Cert.KernelIdeal.KRun.run m ρ)
  · refine (θ_run Cert.ReferenceIdeal.defs _ _).mono (fun r h c => ⟨(h c).1.trans ?_, (h c).2⟩) (Ref.run m' ρ')
    obtain ⟨a0, a1, a2, a3, a4, a5, a6, a7, a8, a9, a10, a11, a12⟩ := hagree c
    rw [a0, a1, a2, a3, a4, a5, a6, a7, a8, a9, a10, a11, a12]
    exact Cert.Proof.Bridge.ref_eq_kernel m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
